-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x262144 : Shape := ⟨2, ![32, 262144]⟩
abbrev S4096x4096 : Shape := ⟨2, ![4096, 4096]⟩
abbrev S384x128 : Shape := ⟨2, ![384, 128]⟩
abbrev S128 : Shape := ⟨1, ![128]⟩
abbrev S384x64 : Shape := ⟨2, ![384, 64]⟩
abbrev S64 : Shape := ⟨1, ![64]⟩
abbrev S_ : Shape := ⟨0, ![]⟩

class Facts : Prop where
  bcast_S_S32x262144 : S_.BroadcastsInDim S32x262144 (![] : Fin 0 → Fin S32x262144.rank)
  reducesTo_S32x262144_S_d0_1 : S32x262144.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S384x64 .f32) (main_arg6 : FVec F S64 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x64 .f32 := Host.absf main_arg5
  let main_cst_8 : FVec F S_ .f32 := constant S_ .f32 0x7F800000#32
  let main_v25 : FVec F S384x64 .f32 := broadcastInDim S384x64 ![] bcast_S_S384x64 main_cst_8
  let main_v26 : IVec S384x64 1 := cmpf .olt main_v24 main_v25
  let main_c_9 : IVec S_ 1 := constantI S_ 1 1#1
  let main_v27 : IVec S_ 1 := (fun x v => Host.reduce IntOp.andi x v reducesTo_S384x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S32x262144 .f32) (main_arg1 : FVec F S32x262144 .f32) (main_arg2 : FVec F S4096x4096 .f32) (main_arg3 : FVec F S384x128 .f32) (main_arg4 : FVec F S128 .f32) (main_arg5 : FVec F S384x64 .f32) (main_arg6 : FVec F S64 .f32) : IVec S_ 1 :=
  let main_v0 : FVec F S32x262144 .f32 := Host.absf main_arg0
  let main_cst : FVec F S_ .f32 := constant S_ .f32 0x7F800000#32
  let main_v1 : FVec F S32x262144 .f32 := broadcastInDim S32x262144 ![] bcast_S_S32x262144 main_cst
  let main_v2 : IVec S32x262144 1 := cmpf .olt main_v0 main_v1
  let main_c : IVec S_ 1 := constantI S_ 1 1#1
  let main_v3 : IVec S_ 1 := (fun x v => Host.reduce IntOp.andi x v reducesTo_S32x262144_S_d0_1 h_S_) main_v2 main_c
  let main_v4 : FVec F S32x262144 .f32 := Host.absf main_arg1
  let main_cst_0 : FVec F S_ .f32 := constant S_ .f32 0x7F800000#32
  let main_v5 : FVec F S32x262144 .f32 := broadcastInDim S32x262144 ![] bcast_S_S32x262144 main_cst_0
  let main_v6 : IVec S32x262144 1 := cmpf .olt main_v4 main_v5
  let main_c_1 : IVec S_ 1 := constantI S_ 1 1#1
  let main_v7 : IVec S_ 1 := (fun x v => Host.reduce IntOp.andi x v reducesTo_S32x262144_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_v13 main_v16
-- ==== Kernel.lean ====
abbrev S32x262144 : Shape := ⟨2, ![32, 262144]⟩
abbrev S4096x4096 : Shape := ⟨2, ![4096, 4096]⟩
abbrev S384x128 : Shape := ⟨2, ![384, 128]⟩
abbrev S128 : Shape := ⟨1, ![128]⟩
abbrev S384x64 : Shape := ⟨2, ![384, 64]⟩
abbrev S64 : Shape := ⟨1, ![64]⟩
abbrev S32x4096x64 : Shape := ⟨3, ![32, 4096, 64]⟩
abbrev S128x3x128 : Shape := ⟨3, ![128, 3, 128]⟩
abbrev S128x1x128 : Shape := ⟨3, ![128, 1, 128]⟩
abbrev S128x128 : Shape := ⟨2, ![128, 128]⟩
abbrev S128x3x64 : Shape := ⟨3, ![128, 3, 64]⟩
abbrev S128x1x64 : Shape := ⟨3, ![128, 1, 64]⟩
abbrev S128x64 : Shape := ⟨2, ![128, 64]⟩
abbrev S1x128 : Shape := ⟨2, ![1, 128]⟩
abbrev S1x64 : Shape := ⟨2, ![1, 64]⟩
abbrev S32x4096x128 : Shape := ⟨3, ![32, 4096, 128]⟩
abbrev S4096x128x32 : Shape := ⟨3, ![4096, 128, 32]⟩
abbrev S1024x2048 : Shape := ⟨2, ![1024, 2048]⟩
abbrev S2048x1024 : Shape := ⟨2, ![2048, 1024]⟩
abbrev S1024x1024 : Shape := ⟨2, ![1024, 1024]⟩
abbrev S256x4096 : Shape := ⟨2, ![256, 4096]⟩
abbrev S32x256x128 : Shape := ⟨3, ![32, 256, 128]⟩
abbrev S256x128x32 : Shape := ⟨3, ![256, 128, 32]⟩
abbrev S256x32x128 : Shape := ⟨3, ![256, 32, 128]⟩
abbrev S8192x128 : Shape := ⟨2, ![8192, 128]⟩
abbrev S1x1x128 : Shape := ⟨3, ![1, 1, 128]⟩
abbrev S32x512x128 : Shape := ⟨3, ![32, 512, 128]⟩
abbrev S32x512x64 : Shape := ⟨3, ![32, 512, 64]⟩
abbrev S32x256x64 : Shape := ⟨3, ![32, 256, 64]⟩
abbrev S8192x64 : Shape := ⟨2, ![8192, 64]⟩
abbrev S256x32x64 : Shape := ⟨3, ![256, 32, 64]⟩
abbrev S1x1x64 : Shape := ⟨3, ![1, 1, 64]⟩

abbrev nBuf : Space → Nat
  | .hbm => 46
  | .vmem => 76
  | .smem => 0
  | _ => 0

abbrev bufTy : (tb : Table) → Fin (tcTables nBuf tb) → BufTy
  | .hbm, ⟨0, _⟩ => ⟨S32x262144, .f32⟩
  | .hbm, ⟨1, _⟩ => ⟨S32x262144, .f32⟩
  | .hbm, ⟨2, _⟩ => ⟨S4096x4096, .f32⟩
  | .hbm, ⟨3, _⟩ => ⟨S384x128, .f32⟩
  | .hbm, ⟨4, _⟩ => ⟨S128, .f32⟩
  | .hbm, ⟨5, _⟩ => ⟨S384x64, .f32⟩
  | .hbm, ⟨6, _⟩ => ⟨S64, .f32⟩
  | .hbm, ⟨7, _⟩ => ⟨S32x4096x64, .f32⟩
  | .hbm, ⟨8, _⟩ => ⟨S32x4096x64, .f32⟩
  | .hbm, ⟨9, _⟩ => ⟨S4096x4096, .bf16⟩
  | .hbm, ⟨10, _⟩ => ⟨S128x3x128, .f32⟩
  | .hbm, ⟨11, _⟩ => ⟨S128x1x128, .f32⟩
  | .hbm, ⟨12, _⟩ => ⟨S128x128, .f32⟩
  | .hbm, ⟨13, _⟩ => ⟨S128x1x128, .f32⟩
  | .hbm, ⟨14, _⟩ => ⟨S128x128, .f32⟩
  | .hbm, ⟨15, _⟩ => ⟨S128x1x128, .f32⟩
  | .hbm, ⟨16, _⟩ => ⟨S128x128, .f32⟩
  | .hbm, ⟨17, _⟩ => ⟨S128x3x64, .f32⟩
  | .hbm, ⟨18, _⟩ => ⟨S128x1x64, .f32⟩
  | .hbm, ⟨19, _⟩ => ⟨S128x64, .f32⟩
  | .hbm, ⟨20, _⟩ => ⟨S128x1x64, .f32⟩
  | .hbm, ⟨21, _⟩ => ⟨S128x64, .f32⟩
  | .hbm, ⟨22, _⟩ => ⟨S128x1x64, .f32⟩
  | .hbm, ⟨23, _⟩ => ⟨S128x64, .f32⟩
  | .hbm, ⟨24, _⟩ => ⟨S1x128, .f32⟩
  | .hbm, ⟨25, _⟩ => ⟨S1x64, .f32⟩
  | .hbm, ⟨26, _⟩ => ⟨S32x4096x128, .f32⟩
  | .hbm, ⟨27, _⟩ => ⟨S4096x128x32, .f32⟩
  | .hbm, ⟨28, _⟩ => ⟨S4096x4096, .f32⟩
  | .hbm, ⟨29, _⟩ => ⟨S4096x4096, .bf16⟩
  | .hbm, ⟨30, _⟩ => ⟨S4096x4096, .f32⟩
  | .hbm, ⟨31, _⟩ => ⟨S4096x4096, .bf16⟩
  | .hbm, ⟨32, _⟩ => ⟨S4096x4096, .f32⟩
  | .hbm, ⟨33, _⟩ => ⟨S32x4096x128, .f32⟩
  | .hbm, ⟨34, _⟩ => ⟨S32x4096x64, .f32⟩
  | .hbm, ⟨35, _⟩ => ⟨S32x4096x64, .f32⟩
  | .hbm, ⟨36, _⟩ => ⟨S32x4096x128, .f32⟩
  | .hbm, ⟨37, _⟩ => ⟨S4096x128x32, .f32⟩
  | .hbm, ⟨38, _⟩ => ⟨S4096x4096, .f32⟩
  | .hbm, ⟨39, _⟩ => ⟨S4096x4096, .bf16⟩
  | .hbm, ⟨40, _⟩ => ⟨S4096x4096, .f32⟩
  | .hbm, ⟨41, _⟩ => ⟨S4096x4096, .bf16⟩
  | .hbm, ⟨42, _⟩ => ⟨S4096x4096, .f32⟩
  | .hbm, ⟨43, _⟩ => ⟨S32x4096x64, .f32⟩
  | .hbm, ⟨44, _⟩ => ⟨S32x4096x64, .f32⟩
  | .hbm, ⟨45, _⟩ => ⟨S32x262144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x2048, .bf16⟩
  | .local _ .vmem, ⟨10, _⟩ => ⟨S1024x2048, .bf16⟩
  | .local _ .vmem, ⟨11, _⟩ => ⟨S2048x1024, .bf16⟩
  | .local _ .vmem, ⟨12, _⟩ => ⟨S2048x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S256x4096, .f32⟩
  | .local _ .vmem, ⟨19, _⟩ => ⟨S256x4096, .f32⟩
  | .local _ .vmem, ⟨20, _⟩ => ⟨S256x4096, .f32⟩
  | .local _ .vmem, ⟨21, _⟩ => ⟨S256x4096, .f32⟩
  | .local _ .vmem, ⟨22, _⟩ => ⟨S256x4096, .f32⟩
  | .local _ .vmem, ⟨23, _⟩ => ⟨S256x4096, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S32x256x128, .f32⟩
  | .local _ .vmem, ⟨29, _⟩ => ⟨S32x256x128, .f32⟩
  | .local _ .vmem, ⟨30, _⟩ => ⟨S32x512x128, .f32⟩
  | .local _ .vmem, ⟨31, _⟩ => ⟨S32x512x128, .f32⟩
  | .local _ .vmem, ⟨32, _⟩ => ⟨S32x512x64, .f32⟩
  | .local _ .vmem, ⟨33, _⟩ => ⟨S32x512x64, .f32⟩
  | .local _ .vmem, ⟨34, _⟩ => ⟨S32x512x64, .f32⟩
  | .local _ .vmem, ⟨35, _⟩ => ⟨S32x512x64, .f32⟩
  | .local _ .vmem, ⟨36, _⟩ => ⟨S32x512x64, .f32⟩
  | .local _ .vmem, ⟨37, _⟩ => ⟨S32x512x64, .f32⟩
  | .local _ .vmem, ⟨38, _⟩ => ⟨S1024x2048, .bf16⟩
  | .local _ .vmem, ⟨39, _⟩ => ⟨S1024x2048, .bf16⟩
  | .local _ .vmem, ⟨40, _⟩ => ⟨S2048x1024, .bf16⟩
  | .local _ .vmem, ⟨41, _⟩ => ⟨S2048x1024, .bf16⟩
  | .local _ .vmem, ⟨42, _⟩ => ⟨S1024x1024, .f32⟩
  | .local _ .vmem, ⟨43, _⟩ => ⟨S1024x1024, .f32⟩
  | .local _ .vmem, ⟨44, _⟩ => ⟨S1024x1024, .bf16⟩
  | .local _ .vmem, ⟨45, _⟩ => ⟨S1024x1024, .bf16⟩
  | .local _ .vmem, ⟨46, _⟩ => ⟨S1024x1024, .f32⟩
  | .local _ .vmem, ⟨47, _⟩ => ⟨S1024x2048, .bf16⟩
  | .local _ .vmem, ⟨48, _⟩ => ⟨S1024x2048, .bf16⟩
  | .local _ .vmem, ⟨49, _⟩ => ⟨S2048x1024, .bf16⟩
  | .local _ .vmem, ⟨50, _⟩ => ⟨S2048x1024, .bf16⟩
  | .local _ .vmem, ⟨51, _⟩ => ⟨S1024x1024, .f32⟩
  | .local _ .vmem, ⟨52, _⟩ => ⟨S1024x1024, .f32⟩
  | .local _ .vmem, ⟨53, _⟩ => ⟨S1024x1024, .f32⟩
  | .local _ .vmem, ⟨54, _⟩ => ⟨S1024x1024, .f32⟩
  | .local _ .vmem, ⟨55, _⟩ => ⟨S1024x1024, .f32⟩
  | .local _ .vmem, ⟨56, _⟩ => ⟨S256x4096, .f32⟩
  | .local _ .vmem, ⟨57, _⟩ => ⟨S256x4096, .f32⟩
  | .local _ .vmem, ⟨58, _⟩ => ⟨S256x4096, .f32⟩
  | .local _ .vmem, ⟨59, _⟩ => ⟨S256x4096, .f32⟩
  | .local _ .vmem, ⟨60, _⟩ => ⟨S256x4096, .f32⟩
  | .local _ .vmem, ⟨61, _⟩ => ⟨S256x4096, .f32⟩
  | .local _ .vmem, ⟨62, _⟩ => ⟨S128x64, .f32⟩
  | .local _ .vmem, ⟨63, _⟩ => ⟨S128x64, .f32⟩
  | .local _ .vmem, ⟨64, _⟩ => ⟨S128x64, .f32⟩
  | .local _ .vmem, ⟨65, _⟩ => ⟨S1x64, .f32⟩
  | .local _ .vmem, ⟨66, _⟩ => ⟨S32x256x64, .f32⟩
  | .local _ .vmem, ⟨67, _⟩ => ⟨S32x256x64, .f32⟩
  | .local _ .vmem, ⟨68, _⟩ => ⟨S32x512x64, .f32⟩
  | .local _ .vmem, ⟨69, _⟩ => ⟨S32x512x64, .f32⟩
  | .local _ .vmem, ⟨70, _⟩ => ⟨S32x512x64, .f32⟩
  | .local _ .vmem, ⟨71, _⟩ => ⟨S32x512x64, .f32⟩
  | .local _ .vmem, ⟨72, _⟩ => ⟨S32x512x64, .f32⟩
  | .local _ .vmem, ⟨73, _⟩ => ⟨S32x512x64, .f32⟩
  | .local _ .vmem, ⟨74, _⟩ => ⟨S32x512x64, .f32⟩
  | .local _ .vmem, ⟨75, _⟩ => ⟨S32x512x64, .f32⟩
  | _, _ => ⟨S32x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_scratch0 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg3_1 : Ref sig .tc := ⟨.vmem, 54, rfl⟩
abbrev cc5_scratch0 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg6_0 : Ref sig .tc := ⟨.vmem, 65, rfl⟩
abbrev cc6_stg7_0 : Ref sig .tc := ⟨.vmem, 66, rfl⟩
abbrev cc6_stg7_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg2_1 : Ref sig .tc := ⟨.vmem, 73, rfl⟩
abbrev cc7_stg3_0 : Ref sig .tc := ⟨.vmem, 74, rfl⟩
abbrev cc7_stg3_1 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem3_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc6_sem3_0 : DmaSem sig := 58
abbrev cc6_sem4_0 : DmaSem sig := 59
abbrev cc6_sem5_0 : DmaSem sig := 60
abbrev cc6_sem6_0 : DmaSem sig := 61
abbrev cc6_sem7_0 : DmaSem sig := 62
abbrev cc6_sem7_1 : DmaSem sig := 63
abbrev cc7_sem0_0 : DmaSem sig := 64
abbrev cc7_sem0_1 : DmaSem sig := 65
abbrev cc7_sem1_0 : DmaSem sig := 66
abbrev cc7_sem1_1 : DmaSem sig := 67
abbrev cc7_sem2_0 : DmaSem sig := 68
abbrev cc7_sem2_1 : DmaSem sig := 69
abbrev cc7_sem3_0 : DmaSem sig := 70
abbrev cc7_sem3_1 : DmaSem sig := 71

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S32x256x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S32x512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S32x512x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S32x512x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S32x512x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨3, ![4, 4, 2], ![false, false, false]⟩

def k4_cond2 (i : grid4.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![4, 4, 2], ![false, false, false]⟩

def k5_cond2 (i : grid5.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage6_0 : Fin 2 → Memref sig .tc .vmem S256x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x4096 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S32x256x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage7_0 : Fin 2 → Memref sig .tc .vmem S32x512x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S32x512x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S32x512x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S32x512x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  shapeCasts_S32x262144_S32x4096x64 : S32x262144.ShapeCasts S32x4096x64
  bitsLt_bf16_f32 : FTy.bits .bf16 < FTy.bits .f32
  shapeCasts_S384x128_S128x3x128 : S384x128.ShapeCasts S128x3x128
  slices_S128x3x128_S128x1x128_0_0_0 : S128x3x128.Slices ![0, 0, 0] S128x1x128
  shapeCasts_S128x1x128_S128x128 : S128x1x128.ShapeCasts S128x128
  slices_S128x3x128_S128x1x128_0_1_0 : S128x3x128.Slices ![0, 1, 0] S128x1x128
  slices_S128x3x128_S128x1x128_0_2_0 : S128x3x128.Slices ![0, 2, 0] S128x1x128
  shapeCasts_S384x64_S128x3x64 : S384x64.ShapeCasts S128x3x64
  slices_S128x3x64_S128x1x64_0_0_0 : S128x3x64.Slices ![0, 0, 0] S128x1x64
  shapeCasts_S128x1x64_S128x64 : S128x1x64.ShapeCasts S128x64
  slices_S128x3x64_S128x1x64_0_1_0 : S128x3x64.Slices ![0, 1, 0] S128x1x64
  slices_S128x3x64_S128x1x64_0_2_0 : S128x3x64.Slices ![0, 2, 0] S128x1x64
  shapeCasts_S128_S1x128 : S128.ShapeCasts S1x128
  shapeCasts_S64_S1x64 : S64.ShapeCasts S1x64
  concatenates_S32x4096x64_S32x4096x64_S32x4096x128_d2 : Shape.Concatenates [S32x4096x64, S32x4096x64] S32x4096x128 2
  transposes_S32x4096x128_S4096x128x32_1_2_0 : S32x4096x128.Transposes [1, 2, 0] S4096x128x32
  shapeCasts_S4096x128x32_S4096x4096 : S4096x128x32.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S1024x1024_S1024x1024_0_0 : (Rect.unit (s := S1024x1024) ![0, 0] S1024x1024.size inb_S1024x1024_S1024x1024_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S256x4096_S256x128x32 : S256x4096.ShapeCasts S256x128x32
  transposes_S256x128x32_p0_2_1_S256x32x128 : S256x128x32.Transposes [0, 2, 1] S256x32x128
  shapeCasts_S256x32x128_S8192x128 : S256x32x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S8192x128_S256x32x128 : S8192x128.ShapeCasts S256x32x128
  transposes_S256x32x128_p1_0_2_S32x256x128 : S256x32x128.Transposes [1, 0, 2] S32x256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S32x256x128 : S1x1x128.Broadcasts S32x256x128
  inb_S32x256x128_S32x256x128_0_0_0 : ∀ a, (![0, 0, 0] : Fin 3 → Nat) a + S32x256x128.size a ≤ S32x256x128.size a
  h_S32x256x128 : 0 < S32x256x128.numel
  inb_S32x512x128_S32x512x128_0_0_0 : ∀ a, (![0, 0, 0] : Fin 3 → Nat) a + S32x512x128.size a ≤ S32x512x128.size a
  h_S32x512x128 : 0 < S32x512x128.numel
  shapeCasts_S32x512x128_S32x512x128 : S32x512x128.ShapeCasts S32x512x128
  inb_S32x512x64_S32x512x64_0_0_0 : ∀ a, (![0, 0, 0] : Fin 3 → Nat) a + S32x512x64.size a ≤ S32x512x64.size a
  h_S32x512x64 : 0 < S32x512x64.numel
  shapeCasts_S32x512x64_S32x512x64 : S32x512x64.ShapeCasts S32x512x64
  slices_S32x512x128_o0_0_0_S32x512x64 : S32x512x128.Slices ![0, 0, 0] S32x512x64
  slices_S32x512x128_o0_0_64_S32x512x64 : S32x512x128.Slices ![0, 0, 64] S32x512x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S8192x64_S256x32x64 : S8192x64.ShapeCasts S256x32x64
  transposes_S256x32x64_p1_0_2_S32x256x64 : S256x32x64.Transposes [1, 0, 2] S32x256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S32x256x64 : S1x1x64.Broadcasts S32x256x64
  inb_S32x256x64_S32x256x64_0_0_0 : ∀ a, (![0, 0, 0] : Fin 3 → Nat) a + S32x256x64.size a ≤ S32x256x64.size a
  h_S32x256x64 : 0 < S32x256x64.numel
  shapeCasts_S32x4096x64_S32x262144 : S32x4096x64.ShapeCasts S32x262144
  dot_S1024x2048_S2048x1024_S1024x1024_1_0_0_1_n_n_wf : DotDims.WF S1024x2048 S2048x1024 S1024x1024 [1] [0] [0] [1] [] []
  dot_S8192x128_S128x128_S8192x128_1_0_0_1_n_n_wf : DotDims.WF S8192x128 S128x128 S8192x128 [1] [0] [0] [1] [] []
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .bf16 = 32 ∨ (Rect.block (s := S4096x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x4096.size a
  hwx1_0 : ∀ i : grid1.Coords, EltTy.bits .bf16 = 32 ∨ (Rect.block (s := S4096x4096) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x4096.size a
  hwx1_1 : ∀ i : grid1.Coords, EltTy.bits .bf16 = 32 ∨ (Rect.block (s := S4096x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S4096x4096.size a
  hwx2_1 : ∀ i : grid2.Coords, EltTy.bits .f32 = 32 ∨ (Rect.block (s := S4096x4096) S256x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x4096.size a ≤ S4096x4096.size a
  hwx2_2 : ∀ i : grid2.Coords, EltTy.bits .f32 = 32 ∨ (Rect.block (s := S4096x4096) S256x4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S32x256x128.size a ≤ S32x4096x128.size a
  hwx2_7 : ∀ i : grid2.Coords, EltTy.bits .f32 = 32 ∨ (Rect.block (s := S32x4096x128) S32x256x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S32x512x128.size a ≤ S32x4096x128.size a
  hwx3_0 : ∀ i : grid3.Coords, EltTy.bits .f32 = 32 ∨ (Rect.block (s := S32x4096x128) S32x512x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S32x512x64.size a ≤ S32x4096x64.size a
  hwx3_1 : ∀ i : grid3.Coords, EltTy.bits .f32 = 32 ∨ (Rect.block (s := S32x4096x64) S32x512x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S32x512x64.size a ≤ S32x4096x64.size a
  hwx3_2 : ∀ i : grid3.Coords, EltTy.bits .f32 = 32 ∨ (Rect.block (s := S32x4096x64) S32x512x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S32x512x64.size a ≤ S32x4096x64.size a
  hwx3_3 : ∀ i : grid3.Coords, EltTy.bits .f32 = 32 ∨ (Rect.block (s := S32x4096x64) S32x512x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S4096x4096.size a
  hwx4_0 : ∀ i : grid4.Coords, EltTy.bits .bf16 = 32 ∨ (Rect.block (s := S4096x4096) S1024x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x1024.size a ≤ S4096x4096.size a
  hwx4_1 : ∀ i : grid4.Coords, EltTy.bits .bf16 = 32 ∨ (Rect.block (s := S4096x4096) S2048x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x4096.size a
  hwx4_2 : ∀ i : grid4.Coords, EltTy.bits .f32 = 32 ∨ (Rect.block (s := S4096x4096) S1024x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x4096.size a
  hwx4_3 : ∀ i : grid4.Coords, EltTy.bits .bf16 = 32 ∨ (Rect.block (s := S4096x4096) S1024x1024.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S4096x4096.size a
  hwx5_0 : ∀ i : grid5.Coords, EltTy.bits .bf16 = 32 ∨ (Rect.block (s := S4096x4096) S1024x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x1024.size a ≤ S4096x4096.size a
  hwx5_1 : ∀ i : grid5.Coords, EltTy.bits .bf16 = 32 ∨ (Rect.block (s := S4096x4096) S2048x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1024.size a ≤ S4096x4096.size a
  hwx5_2 : ∀ i : grid5.Coords, EltTy.bits .f32 = 32 ∨ (Rect.block (s := S4096x4096) S1024x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x1024.size a ≤ S4096x4096.size a
  hwx5_3 : ∀ i : grid5.Coords, EltTy.bits .f32 = 32 ∨ (Rect.block (s := S4096x4096) S1024x1024.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x4096.size a ≤ S4096x4096.size a
  hwx6_0 : ∀ i : grid6.Coords, EltTy.bits .f32 = 32 ∨ (Rect.block (s := S4096x4096) S256x4096.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S256x4096.size a ≤ S4096x4096.size a
  hwx6_1 : ∀ i : grid6.Coords, EltTy.bits .f32 = 32 ∨ (Rect.block (s := S4096x4096) S256x4096.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x4096.size a ≤ S4096x4096.size a
  hwx6_2 : ∀ i : grid6.Coords, EltTy.bits .f32 = 32 ∨ (Rect.block (s := S4096x4096) S256x4096.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x64.size a ≤ S128x64.size a
  hwx6_4 : ∀ i : grid6.Coords, EltTy.bits .f32 = 32 ∨ (Rect.block (s := S128x64) S128x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x64.size a ≤ S128x64.size a
  hwx6_5 : ∀ i : grid6.Coords, EltTy.bits .f32 = 32 ∨ (Rect.block (s := S128x64) S128x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S32x256x64.size a ≤ S32x4096x64.size a
  hwx6_7 : ∀ i : grid6.Coords, EltTy.bits .f32 = 32 ∨ (Rect.block (s := S32x4096x64) S32x256x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S32x512x64.size a ≤ S32x4096x64.size a
  hwx7_0 : ∀ i : grid7.Coords, EltTy.bits .f32 = 32 ∨ (Rect.block (s := S32x4096x64) S32x512x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S32x512x64.size a ≤ S32x4096x64.size a
  hwx7_1 : ∀ i : grid7.Coords, EltTy.bits .f32 = 32 ∨ (Rect.block (s := S32x4096x64) S32x512x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S32x512x64.size a ≤ S32x4096x64.size a
  hwx7_2 : ∀ i : grid7.Coords, EltTy.bits .f32 = 32 ∨ (Rect.block (s := S32x4096x64) S32x512x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S32x512x64.size a ≤ S32x4096x64.size a
  hwx7_3 : ∀ i : grid7.Coords, EltTy.bits .f32 = 32 ∨ (Rect.block (s := S32x4096x64) S32x512x64.size (cc7_transform_3 i) (hinb7_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_v2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23_1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_1) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v21) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23_0) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S256x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v25) S32x256x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v25) S32x512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S32x512x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26_0) S32x512x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v26_1) S32x512x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v2) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S2048x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v31_0) S1024x1024.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v31_1) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v2) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31_1) S2048x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v29) S1024x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v32) S1024x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v29) S256x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v31_0) S256x4096.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v32) S256x4096.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v12) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v14) S128x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v16) S128x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v18) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v33) S32x256x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v26_1) S32x512x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v1) S32x512x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v33) S32x512x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v34) S32x512x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S32x262144 : Shape := ⟨2, ![32, 262144]⟩
abbrev S4096x4096 : Shape := ⟨2, ![4096, 4096]⟩
abbrev S384x128 : Shape := ⟨2, ![384, 128]⟩
abbrev S128 : Shape := ⟨1, ![128]⟩
abbrev S384x64 : Shape := ⟨2, ![384, 64]⟩
abbrev S64 : Shape := ⟨1, ![64]⟩
abbrev S32x4096x64 : Shape := ⟨3, ![32, 4096, 64]⟩
abbrev S32x4096x128 : Shape := ⟨3, ![32, 4096, 128]⟩
abbrev S4096x128x32 : Shape := ⟨3, ![4096, 128, 32]⟩
abbrev S_ : Shape := ⟨0, ![]⟩
abbrev S1x4096x4096 : Shape := ⟨3, ![1, 4096, 4096]⟩
abbrev S3x4096x4096 : Shape := ⟨3, ![3, 4096, 4096]⟩
abbrev S3x4096x128x32 : Shape := ⟨4, ![3, 4096, 128, 32]⟩
abbrev S32x4096x128x3 : Shape := ⟨4, ![32, 4096, 128, 3]⟩
abbrev S131072x384 : Shape := ⟨2, ![131072, 384]⟩
abbrev S131072x128 : Shape := ⟨2, ![131072, 128]⟩
abbrev S1x128 : Shape := ⟨2, ![1, 128]⟩
abbrev S131072x64 : Shape := ⟨2, ![131072, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S32x262144, .f32⟩
  | .hbm, ⟨1, _⟩ => ⟨S32x262144, .f32⟩
  | .hbm, ⟨2, _⟩ => ⟨S4096x4096, .f32⟩
  | .hbm, ⟨3, _⟩ => ⟨S384x128, .f32⟩
  | .hbm, ⟨4, _⟩ => ⟨S128, .f32⟩
  | .hbm, ⟨5, _⟩ => ⟨S384x64, .f32⟩
  | .hbm, ⟨6, _⟩ => ⟨S64, .f32⟩
  | .hbm, ⟨7, _⟩ => ⟨S32x4096x64, .f32⟩
  | .hbm, ⟨8, _⟩ => ⟨S32x4096x64, .f32⟩
  | .hbm, ⟨9, _⟩ => ⟨S32x4096x128, .f32⟩
  | .hbm, ⟨10, _⟩ => ⟨S4096x128x32, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S1x4096x4096, .f32⟩
  | .hbm, ⟨19, _⟩ => ⟨S1x4096x4096, .f32⟩
  | .hbm, ⟨20, _⟩ => ⟨S1x4096x4096, .f32⟩
  | .hbm, ⟨21, _⟩ => ⟨S3x4096x4096, .f32⟩
  | .hbm, ⟨22, _⟩ => ⟨S3x4096x128x32, .f32⟩
  | .hbm, ⟨23, _⟩ => ⟨S32x4096x128x3, .f32⟩
  | .hbm, ⟨24, _⟩ => ⟨S131072x384, .f32⟩
  | .hbm, ⟨25, _⟩ => ⟨S131072x128, .f32⟩
  | .hbm, ⟨26, _⟩ => ⟨S1x128, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S_, .f32⟩
  | .hbm, ⟨32, _⟩ => ⟨S131072x128, .f32⟩
  | .hbm, ⟨33, _⟩ => ⟨S131072x128, .f32⟩
  | .hbm, ⟨34, _⟩ => ⟨S_, .f32⟩
  | .hbm, ⟨35, _⟩ => ⟨S131072x128, .f32⟩
  | .hbm, ⟨36, _⟩ => ⟨S131072x128, .f32⟩
  | .hbm, ⟨37, _⟩ => ⟨S32x4096x128, .f32⟩
  | .hbm, ⟨38, _⟩ => ⟨S32x4096x64, .f32⟩
  | .hbm, ⟨39, _⟩ => ⟨S32x4096x64, .f32⟩
  | .hbm, ⟨40, _⟩ => ⟨S32x4096x64, .f32⟩
  | .hbm, ⟨41, _⟩ => ⟨S32x4096x128, .f32⟩
  | .hbm, ⟨42, _⟩ => ⟨S4096x128x32, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S1x4096x4096, .f32⟩
  | .hbm, ⟨51, _⟩ => ⟨S1x4096x4096, .f32⟩
  | .hbm, ⟨52, _⟩ => ⟨S1x4096x4096, .f32⟩
  | .hbm, ⟨53, _⟩ => ⟨S3x4096x4096, .f32⟩
  | .hbm, ⟨54, _⟩ => ⟨S3x4096x128x32, .f32⟩
  | .hbm, ⟨55, _⟩ => ⟨S32x4096x128x3, .f32⟩
  | .hbm, ⟨56, _⟩ => ⟨S131072x384, .f32⟩
  | .hbm, ⟨57, _⟩ => ⟨S131072x64, .f32⟩
  | .hbm, ⟨58, _⟩ => ⟨S1x64, .f32⟩
  | .hbm, ⟨59, _⟩ => ⟨S131072x64, .f32⟩
  | .hbm, ⟨60, _⟩ => ⟨S131072x64, .f32⟩
  | .hbm, ⟨61, _⟩ => ⟨S131072x64, .f32⟩
  | .hbm, ⟨62, _⟩ => ⟨S32x4096x64, .f32⟩
  | .hbm, ⟨63, _⟩ => ⟨S32x4096x64, .f32⟩
  | .hbm, ⟨64, _⟩ => ⟨S_, .f32⟩
  | .hbm, ⟨65, _⟩ => ⟨S32x4096x64, .f32⟩
  | .hbm, ⟨66, _⟩ => ⟨S32x4096x64, .f32⟩
  | .hbm, ⟨67, _⟩ => ⟨S32x4096x64, .f32⟩
  | .hbm, ⟨68, _⟩ => ⟨S32x4096x64, .f32⟩
  | .hbm, ⟨69, _⟩ => ⟨S32x262144, .f32⟩
  | _, _ => ⟨S32x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_3 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]

class Facts₀ : Prop where
  shapeCasts_S32x262144_S32x4096x64 : S32x262144.ShapeCasts S32x4096x64
  concatenates_S32x4096x64_S32x4096x64_S32x4096x128_d2 : Shape.Concatenates [S32x4096x64, S32x4096x64] S32x4096x128 2
  transposes_S32x4096x128_S4096x128x32_1_2_0 : S32x4096x128.Transposes [1, 2, 0] S4096x128x32
  shapeCasts_S4096x128x32_S4096x4096 : S4096x128x32.ShapeCasts S4096x4096
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  concatenates_S1x4096x4096_S1x4096x4096_S1x4096x4096_S3x4096x4096_d0 : Shape.Concatenates [S1x4096x4096, S1x4096x4096, S1x4096x4096] S3x4096x4096 0
  shapeCasts_S3x4096x4096_S3x4096x128x32 : S3x4096x4096.ShapeCasts S3x4096x128x32
  transposes_S3x4096x128x32_S32x4096x128x3_3_1_2_0 : S3x4096x128x32.Transposes [3, 1, 2, 0] S32x4096x128x3
  shapeCasts_S32x4096x128x3_S131072x384 : S32x4096x128x3.ShapeCasts S131072x384
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  shapeCasts_S131072x128_S32x4096x128 : S131072x128.ShapeCasts S32x4096x128
  slices_S32x4096x128_S32x4096x64_0_0_0 : S32x4096x128.Slices ![0, 0, 0] S32x4096x64
  slices_S32x4096x128_S32x4096x64_0_0_64 : S32x4096x128.Slices ![0, 0, 64] S32x4096x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  shapeCasts_S131072x64_S32x4096x64 : S131072x64.ShapeCasts S32x4096x64
  bcast_S_S32x4096x64 : S_.BroadcastsInDim S32x4096x64 (![] : Fin 0 → Fin S32x4096x64.rank)
  shapeCasts_S32x4096x64_S32x262144 : S32x4096x64.ShapeCasts S32x262144
  dot_S4096x4096_S4096x4096_S4096x4096_1_0_0_1_n_n_wf : DotDims.WF S4096x4096 S4096x4096 S4096x4096 [1] [0] [0] [1] [] []
  dot_S131072x384_S384x128_S131072x128_1_0_0_1_n_n_wf : DotDims.WF S131072x384 S384x128 S131072x128 [1] [0] [0] [1] [] []
  dot_S131072x384_S384x64_S131072x64_1_0_0_1_n_n_wf : DotDims.WF S131072x384 S384x64 S131072x64 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S131072x384_S384x128_S131072x128_1_0_0_1_n_n : DotDims S131072x384 S384x128 S131072x128 where
  lhsContracting := [1]
  rhsContracting := [0]
  lhsNonContracting := [0]
  rhsNonContracting := [1]
  lhsBatch := []
  rhsBatch := []
  wf := dot_S131072x384_S384x128_S131072x128_1_0_0_1_n_n_wf
def dot_S131072x384_S384x64_S131072x64_1_0_0_1_n_n : DotDims S131072x384 S384x64 S131072x64 where
  lhsContracting := [1]
  rhsContracting := [0]
  lhsNonContracting := [0]
  rhsNonContracting := [1]
  lhsBatch := []
  rhsBatch := []
  wf := dot_S131072x384_S384x64_S131072x64_1_0_0_1_n_n_wf

class Facts : Prop extends Facts₀ where

variable [Facts]
-- ==== Proof.FrB.R0.lean ====
/-
  Region 0 of the kernel program: the first diffusion product  x1 = A * x0  as a 4 x 4 x 2 grid of
  [1024, 1024] output blocks, each accumulated in a scratch buffer over the two k-tiles of 2048.

  At a point with k = 0 the body clears the accumulator and adds the k-tile's product; at k = 1 it adds the second
  k-tile's product and stores the accumulator into both output blocks (once as it is, once after the change of
  format).  The accumulator is carried from the k = 0 point to the k = 1 point right after it, so the region's
  invariant names its contents after every point; the output windows are untouched at the k = 0 points.
  Everything here holds at any float instance.
-/
import proofs.«149401_j50302656971158_2_alg».proof.Proof.Gen.Kernel.Launch
import proofs.«149401_j50302656971158_2_alg».proof.Proof.Gen.Kernel.Skeleton
import proofs.«149401_j50302656971158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (clear the accumulator) is taken where k = 0: the even points. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second branch (store the outputs) is taken where k = 1: the odd points. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the even points nothing is stored into the outputs, and they are not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At the odd points both outputs are stored. -/
theorem liveAt0_2_B : ∀ t : Fin cfg0.N, ¬cond0_0 (grid0.coords t) → cond0_1 (grid0.coords t) → cfg0.idle 2 (grid0.coords t) = false := by decide +kernel
theorem liveAt0_3_B : ∀ t : Fin cfg0.N, ¬cond0_0 (grid0.coords t) → cond0_1 (grid0.coords t) → cfg0.idle 3 (grid0.coords t) = false := by decide +kernel

/-! ## The staging memrefs, the scratch, and the invariant's shape -/

abbrev VO0_2 : View sig .tc .vmem S1024x1024 .f32 := (Memref.whole cc0_stg2_0 : Memref sig .tc .vmem S1024x1024 .f32).view
abbrev VO0_3 : View sig .tc .vmem S1024x1024 .bf16 := (Memref.whole cc0_stg3_0 : Memref sig .tc .vmem S1024x1024 .bf16).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The scoped buffers the pipeline does not stage, other than the accumulator: never opened. -/
abbrev restBut0 (c : Dev nD) : sProp 𝕄 :=
  Pipeline.scopedRestBut (Ix := Unit) (Name := ℕ) (U := UR sig nD τ) (Lvl := ℕ) (Val := Elt F) spec0 c [cc0_scratch0]

/-- The class invariant with the accumulator split out of the scoped rest, owned at some contents. -/
theorem PhiA0_eq (c : Dev nD) :
    (Pipeline.ΦA spec0 c : sProp 𝕄)
      = iprop(iprop((∃ d, owns (c : Thread nD τ) scM0_0 fullShare d) ∗ restBut0 c) ∗ (∃ r, prngReg c r)) := by
  unfold Pipeline.ΦA; rw [scopedRest0_split]; simp only [scM0_0, owns_whole]; try rfl

/-! ## The body, run whole, in each of its two cases -/

set_option maxHeartbeats 4000000 in
/-- The even points: the accumulator is cleared and the first k-tile's product added.  The inputs come back as they
    were, the two outputs untouched (no piece), the accumulator with the pieces the run finds. -/
noncomputable def kernelRun0_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) :
    Σ' (L2 : List (View.Piece (Elt F) S1024x1024 .f32)) (L3 : List (View.Piece (Elt F) S1024x1024 .bf16)), { LS0 : List (View.Piece (Elt F) S1024x1024 .f32) //
      ∀ (xi2 : Vec F S1024x1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_dual_kernel i arg3 harg3 arg4 harg4 arg5 harg5 arg6 harg6 arg7 harg7) K } := by
  refine ⟨[], [], ?_, fun xi2 xi3 E K => ?run⟩
  case run =>
    simp only [cc0__matmul_dual_kernel_eq_skeleton]; unfold cc0__matmul_dual_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- The odd points: the second k-tile's product is added to what the point before left in the accumulator (`xs0`),
    and the accumulator stored into both outputs.  The pieces of the outputs and of the accumulator are what the run finds. -/
noncomputable def kernelRun0_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) :
    Σ' (L2 : List (View.Piece (Elt F) S1024x1024 .f32)) (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_dual_kernel i arg3 harg3 arg4 harg4 arg5 harg5 arg6 harg6 arg7 harg7) K } := by
  refine ⟨?_, ?_, ?_, fun E K => ?run⟩
  case run =>
    simp only [cc0__matmul_dual_kernel_eq_skeleton]; unfold cc0__matmul_dual_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

/-! ## What each case leaves in the outputs and in the accumulator -/

/-- At an even point nothing is stored into the outputs: placeholders nothing consults. -/
def out0_A_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) : Vec F S1024x1024 .f32 :=
  VO0_2.read (Elt F) (VO0_2.writes (Elt F) VO0_2.junk (kernelRun0_A c i arg3 harg3 arg4 harg4 arg5 harg5 arg6 harg6 arg7 harg7 hc0 hc1 x0 x1).1)
def out0_A_3 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) : Vec F S1024x1024 .bf16 :=
  VO0_3.read (Elt F) (VO0_3.writes (Elt F) VO0_3.junk (kernelRun0_A c i arg3 harg3 arg4 harg4 arg5 harg5 arg6 harg6 arg7 harg7 hc0 hc1 x0 x1).2.1)
/-- The accumulator's pieces at an even point tile it. -/
theorem scover0_A_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) (y : S1024x1024.Idx) :
    ∃ pc ∈ (kernelRun0_A c i arg3 harg3 arg4 harg4 arg5 harg5 arg6 harg6 arg7 harg7 hc0 hc1 x0 x1).2.2.1, y ∈ pc.1.set :=
  View.cover_of_tiledL (kernelRun0_A c i arg3 harg3 arg4 harg4 arg5 harg5 arg6 harg6 arg7 harg7 hc0 hc1 x0 x1).2.2.1 S1024x1024.size (by sl_kernel_rfl) y
def sout0_A_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) : Vec F S1024x1024 .f32 :=
  VS0_0.read (Elt F) (VS0_0.writes (Elt F) VS0_0.junk (kernelRun0_A c i arg3 harg3 arg4 harg4 arg5 harg5 arg6 harg6 arg7 harg7 hc0 hc1 x0 x1).2.2.1)

/-- At an odd point each output is stored whole, and the accumulator again. -/
theorem cover0_B_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) (y : S1024x1024.Idx) :
    ∃ pc ∈ (kernelRun0_B c i arg3 harg3 arg4 harg4 arg5 harg5 arg6 harg6 arg7 harg7 hc0 hc1 x0 x1 xs0).1, y ∈ pc.1.set :=
  View.cover_of_tiledL (kernelRun0_B c i arg3 harg3 arg4 harg4 arg5 harg5 arg6 harg6 arg7 harg7 hc0 hc1 x0 x1 xs0).1 S1024x1024.size (by sl_kernel_rfl) y
def out0_B_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) : Vec F S1024x1024 .f32 :=
  VO0_2.read (Elt F) (VO0_2.writes (Elt F) VO0_2.junk (kernelRun0_B c i arg3 harg3 arg4 harg4 arg5 harg5 arg6 harg6 arg7 harg7 hc0 hc1 x0 x1 xs0).1)
theorem cover0_B_3 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) (y : S1024x1024.Idx) :
    ∃ pc ∈ (kernelRun0_B c i arg3 harg3 arg4 harg4 arg5 harg5 arg6 harg6 arg7 harg7 hc0 hc1 x0 x1 xs0).2.1, y ∈ pc.1.set :=
  View.cover_of_tiledL (kernelRun0_B c i arg3 harg3 arg4 harg4 arg5 harg5 arg6 harg6 arg7 harg7 hc0 hc1 x0 x1 xs0).2.1 S1024x1024.size (by sl_kernel_rfl) y
def out0_B_3 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) : Vec F S1024x1024 .bf16 :=
  VO0_3.read (Elt F) (VO0_3.writes (Elt F) VO0_3.junk (kernelRun0_B c i arg3 harg3 arg4 harg4 arg5 harg5 arg6 harg6 arg7 harg7 hc0 hc1 x0 x1 xs0).2.1)
theorem scover0_B_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) (y : S1024x1024.Idx) :
    ∃ pc ∈ (kernelRun0_B c i arg3 harg3 arg4 harg4 arg5 harg5 arg6 harg6 arg7 harg7 hc0 hc1 x0 x1 xs0).2.2.1, y ∈ pc.1.set :=
  View.cover_of_tiledL (kernelRun0_B c i arg3 harg3 arg4 harg4 arg5 harg5 arg6 harg6 arg7 harg7 hc0 hc1 x0 x1 xs0).2.2.1 S1024x1024.size (by sl_kernel_rfl) y
def sout0_B_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 xs0).2.2.1)

/-! ## The region at its entry contents -/

-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION.  What the two outputs' buffers and the accumulator hold after the body at position `n`:
    at an even position the clearing case on the point's blocks, at an odd position the storing case on the point's
    blocks over what the position before left in the accumulator. -/
def outsAt0 (c : Dev nD) : (n : ℕ) → n < cfg0.N → Vec F S1024x1024 .f32 × Vec F S1024x1024 .bf16 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (iblk0 V c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (iblk0 V c 1 ⟨n + 1, hn⟩) (outsAt0 c n (Nat.lt_of_succ_lt hn)).2.2)

/-- `outsAt0` at an even point. -/
theorem outsAt0_A (c : Dev nD) (t : Fin cfg0.N) (h0 : t.val % 2 = 0) (h1 : ¬t.val % 2 = 1) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

/-- `outsAt0` at an odd point: over what the point before left in the accumulator. -/
theorem outsAt0_B (c : Dev nD) (t : Fin cfg0.N) (h0 : ¬t.val % 2 = 0) (h1 : t.val % 2 = 1) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: before the first point the class's; afterwards the accumulator at what the
    point before left in it, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restBut0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ restBut0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ restBut0 c) ∗ (∃ r, prngReg c r)) := by
  cases n with
  | zero => exact absurd rfl hz
  | succ n => rfl

/-- The proof data of the region on core `c`: the arrays as the region finds them; after the body at point `t` each
    input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point.  The inputs' buffers hold their blocks; the point's parity says which case it is in; the
    invariant hands the body the accumulator (at anything before the first point, else at what the point before left)
    and takes it back at this point's contents; an even point hands the outputs' buffers back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · have h1 : ¬t.val % 2 = 1 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hrb⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A_0 c _ _ _ _ _ _ _ _ _ _ _ _ _ _ _)
          iexact Hrb
        iexact Hg
      isplitl [Ho]; · iexact Ho
      isplitl [H0]; · iexact H0
      isplitl [H1]; · iexact H1
      isplitl [H2]; · iexists _; iexact H2
      iexists _; iexact H3
    · rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A_0 c _ _ _ _ _ _ _ _ _ _ _ _ _ _ _)
          iexact Hrb
        iexact Hg
      isplitl [Ho]; · iexact Ho
      isplitl [H0]; · iexact H0
      isplitl [H1]; · iexact H1
      isplitl [H2]; · iexists _; iexact H2
      iexists _; iexact H3
  · have h1 : t.val % 2 = 1 := by omega
    have hz : t.val ≠ 0 := by omega
    rw [show (dat0 V c).leavesExact 2 t = owns (c : Thread nD τ) (ms0_2 t) fullShare ((dat0 V c).after 2 t) from by
      unfold Dat.leavesExact; rw [liveAt0_2_B t (fun h => h0 ((hcond0_0 t).mp h)) ((hcond0_1 t).mpr h1)], after0_2]
    rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
    rw [outsAt0_B V c t h0 h1]
    unfold out0_B_2 out0_B_3 sout0_B_0; (try dsimp only)
    rw [PhiS0_castSucc V c t, PhiS0_pos V c _ _ hz]
    iintro ⟨⟨⟨HS0, Hrb⟩, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0_0 t).mp h)) ((hcond0_1 t).mpr h1) (iblk0 V c 0 t) (iblk0 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover0_B_0 c _ _ _ _ _ _ _ _ _ _ _ _ _ _ _ _)
        iexact Hrb
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrb⟩, Hg⟩
  isplitl [HS0 Hrb]
  · isplitl [HS0]
    · iexists _; iexact HS0
    iexact Hrb
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.Kernel.Fr

end
-- ==== Proof.FrB.R1.lean ====
/-
  Region 1, the frame half, at any float type.

  The region multiplies a 4096 x 4096 matrix A by a 4096 x 4096 matrix X in blocks and combines the product with a third
  matrix C: its grid is 4 x 4 x 2, point (i, j, k) reads block (i, k) of A (1024 x 2048), block (k, j) of X (2048 x 1024)
  and block (i, j) of C, and owns block (i, j) of the result.  An accumulator block is carried from the point k = 0 to the
  point k = 1 of the same (i, j):
    at k = 0 (the even positions of the grid's order) the accumulator is reset to zero and the first partial product is
      added to it; the result block is left untouched and is not written back;
    at k = 1 (the odd positions) the second partial product is added, and the result block is stored as
      2 * accumulator - C's block, then written back.
  This module states what each buffer holds after every point and proves that the body, run at any point from the state
  the point before left, reaches the state stated for it; the invariant carried between points is the accumulator at its
  stated contents beside the buffers the region never opens.
-/
import proofs.«149401_j50302656971158_2_alg».proof.Proof.Gen.Kernel.Launch
import proofs.«149401_j50302656971158_2_alg».proof.Proof.Gen.Kernel.Skeleton
import proofs.«149401_j50302656971158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (where it is not fetched
    its block index has not moved), for any proof data whose array is the entry contents and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, over the grid -/

/-- The first conditional (reset the accumulator) is taken where the third coordinate is 0. -/
abbrev cond1_0 (i : grid1.Coords) : Prop := (Scalar.cmpi .ne (Scalar.extui (Scalar.cmpi .eq (BitVec.ofNat 32 (i 2).val) 0#32)) 0#32) = 1#1
/-- That is: at the even positions. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional (store the result) is taken where the third coordinate is 1. -/
abbrev cond1_1 (i : grid1.Coords) : Prop := k1_cond2 i = 1#1
/-- That is: at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even positions the result window is idle, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- At the odd positions it is live. -/
theorem liveAt1_3_B : ∀ t : Fin cfg1.N, ¬cond1_0 (grid1.coords t) → cond1_1 (grid1.coords t) → cfg1.idle 3 (grid1.coords t) = false := by decide +kernel

/-! ## The memrefs the body is called with -/

/-- One buffer of the result window, through which its contents are stated (the choice does not matter). -/
abbrev VO1_3 : View sig .tc .vmem S1024x1024 .f32 := (Memref.whole cc1_stg3_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole buffer of the kernel's own, passed beside the windows, -/
abbrev scM1_0 : Memref sig .tc .vmem S1024x1024 .f32 := Memref.whole cc1_scratch0
/-- and the view through which its contents are stated. -/
abbrev VS1_0 : View sig .tc .vmem S1024x1024 .f32 := scM1_0.view

/-- The buffers the region never opens, on core `c`. -/
abbrev rest1 (c : Dev nD) : sProp 𝕄 :=
  Pipeline.scopedRestBut (Ix := Unit) (Name := ℕ) (U := UR sig nD τ) (Lvl := ℕ) (Val := Elt F) spec1 c [cc1_scratch0]

/-- What the region is handed: the accumulator at some contents, the buffers it never opens, the generator register. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA; rw [scopedRest1_split]; simp only [scM1_0, owns_whole]; try rfl

/-! ## The body's run, case by case -/

set_option maxHeartbeats 1000000 in
/-- CASE A (an even position).  From the inputs' buffers at their blocks, the result's buffer at any contents `xi3` and the
    accumulator at anything, the body runs to the inputs' and the result's buffers as they were and the accumulator with
    its two stores written: the zero block, then the first partial product added to it. -/
noncomputable def kernelRun1_A (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S2048x1024 .bf16) (x2 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_combine_kernel i arg3 harg3 arg4 harg4 arg5 harg5 arg6 harg6 arg7 harg7) K } := by
  refine ⟨[], ?_, fun xi3 E K => ?run⟩
  case run =>
    simp only [cc1__matmul_combine_kernel_eq_skeleton]; unfold cc1__matmul_combine_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- CASE B (an odd position).  From the inputs' buffers at their blocks, the result's buffer at anything and the accumulator
    at what the point before left (`xs0`), the body runs to the inputs' buffers as they were, the accumulator with its store
    written (the second partial product added) and the result's buffer with its store written. -/
noncomputable def kernelRun1_B (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S2048x1024 .bf16) (x2 : Vec F S1024x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_combine_kernel i arg3 harg3 arg4 harg4 arg5 harg5 arg6 harg6 arg7 harg7) K } := by
  refine ⟨?_, ?_, fun E K => ?run⟩
  case run =>
    simp only [cc1__matmul_combine_kernel_eq_skeleton]; unfold cc1__matmul_combine_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves -/

/-- Case A stores nothing into the result's buffer: a placeholder nothing consults. -/
def out1_A_3 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S2048x1024 .bf16) (x2 : Vec F S1024x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S2048x1024 .bf16) (x2 : Vec F S1024x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in the accumulator. -/
def sout1_A_0 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S2048x1024 .bf16) (x2 : Vec F S1024x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Case B's store into the result's buffer covers it. -/
theorem cover1_B_3 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S2048x1024 .bf16) (x2 : Vec F S1024x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y

/-- What case B leaves in the result's buffer. -/
def out1_B_3 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S2048x1024 .bf16) (x2 : Vec F S1024x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's store into the accumulator covers it. -/
theorem scover1_B_0 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S2048x1024 .bf16) (x2 : Vec F S1024x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in the accumulator. -/
def sout1_B_0 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S2048x1024 .bf16) (x2 : Vec F S1024x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-! ## What the result's buffer and the accumulator hold after each point -/

/-- After the body at position `n`: (the result's buffer, the accumulator).  An even position is case A, from the point's
    input blocks alone; an odd position is case B, over the accumulator the position before left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      if h1 : (n + 1) % 2 = 1 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 2 = 1 then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        False.elim (by omega)

/-- `outsAt1` at an even position: case A's contents. -/
theorem outsAt1_A (c : Dev nD) (t : Fin cfg1.N) (h0 : t.val % 2 = 0) (h1 : ¬t.val % 2 = 1) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at an odd position: case B's contents, over what the position before left. -/
theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the region is handed; afterwards the accumulator at what the position
    before left in it, the buffers the region never opens, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

/-- The proof data of region 1 on core `c`: the arrays as the region finds them; after the body at point `t` each input's
    buffer at its block and the result's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position's parity says which case it is; the invariant
    hands the body the accumulator (at anything where it is reset, at what the position before left where it is added to)
    and takes it back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have h1 : t.val % 2 = 1 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    have hz : t.val ≠ 0 := by omega
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the region was handed: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Fr

end
-- ==== Proof.FrB.R2.lean ====
import proofs.«149401_j50302656971158_2_alg».proof.Proof.Gen.Kernel.Launch
import proofs.«149401_j50302656971158_2_alg».proof.Proof.Gen.Kernel.Skeleton
import proofs.«149401_j50302656971158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the projection kernel `cc2_kernel`, frame half

Sixteen grid points. Windows 0, 1, 2 are row blocks of the three input matrices, windows 3, 4, 5 the three weight
matrices whole, window 6 the bias row whole, window 7 the output in blocks along its middle axis. The body loads the
seven inputs whole and stores one payload over the whole output block. Everything here is generic in the scalar
model `F`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not (a window not
    fetched at a point has the block index of the point before), for any proof data whose array is `V`'s and whose
    body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S256x4096 := Rect.unit (s := S256x4096) ![0, 0] S256x4096.size inb_S256x4096_S256x4096_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0
abbrev r2_7 : Rect S32x256x128 := Rect.unit (s := S32x256x128) ![0, 0, 0] S32x256x128.size inb_S32x256x128_S32x256x128_0_0_0

/-! ## What the body leaves in the output window's buffer -/

/-- Window 7's staging buffer after the body, from the input windows' blocks: its one store, of the payload at the
    seven loaded values. -/
def out2_7 (x0 : Vec F S256x4096 .f32) (x1 : Vec F S256x4096 .f32) (x2 : Vec F S256x4096 .f32) (x3 : Vec F S128x128 .f32) (x4 : Vec F S128x128 .f32) (x5 : Vec F S128x128 .f32) (x6 : Vec F S1x128 .f32) : Vec F S32x256x128 .f32 :=
  View.canon [⟨r2_7, k2_pay1 (View.ld x0 rX2) (View.ld x3 rW2) (View.ld x1 rX2) (View.ld x4 rW2) (View.ld x2 rX2) (View.ld x5 rW2) (View.ld x6 rB2)⟩]

/-- The store tiles the buffer, so it covers it. -/
theorem cover2_7 (p0 : Vec F S32x256x128 .f32) (y : S32x256x128.Idx) :
    ∃ pc ∈ ([⟨r2_7, p0⟩] : List (View.Piece (Elt F) S32x256x128 .f32)), y ∈ pc.1.set :=
  View.cover_of_tiled [⟨r2_7, p0⟩] S32x256x128.size (by rfl) y

/-! ## The body's triple -/

set_option maxHeartbeats 4000000 in
/-- The kernel body on whole staging memrefs, the inputs' at read contents `xW` and the output's at anything, runs to
    the continuation holding the inputs' as they were and the output's at `out2_7` of the inputs'. -/
theorem sound_kernel2 (c : Dev nD) (E : Set ℕ) (i : grid2.Coords) (arg0 : Memref sig .tc .vmem S256x4096 .f32) (harg0 : arg0.IsWhole) (arg1 : Memref sig .tc .vmem S256x4096 .f32) (harg1 : arg1.IsWhole) (arg2 : Memref sig .tc .vmem S256x4096 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S32x256x128 .f32) (harg7 : arg7.IsWhole)
    (x0 : Vec F S256x4096 .f32) (x1 : Vec F S256x4096 .f32) (x2 : Vec F S256x4096 .f32) (x3 : Vec F S128x128 .f32) (x4 : Vec F S128x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2_kernel i arg0 harg0 arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the region on core `c`: the arrays as the region finds them; after the body at point `t` each
    input's buffer at its block and the output's at `out2_7` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

/-! Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' memrefs hold their blocks, so `sound_kernel2` applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Entering and leaving the region: the invariant is the class's own -/

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.Kernel.Fr
-- ==== Proof.FrB.R3.lean ====
/-
  Region 3, the gate split, on one core: the frame half, for any float model.

  The region walks the 8 blocks of 512 nodes.  At a block it reads the 128 gate units of every batch entry and node
  of the block and the 64 state features beside them, and writes two blocks of 64 features: the lower 64 gate units
  times the state, and the upper 64 gate units as they are.  Nothing is carried from block to block, so what a block
  leaves in each output buffer is a function of the two input blocks alone.
-/
import proofs.«149401_j50302656971158_2_alg».proof.Proof.Gen.Kernel.Launch
import proofs.«149401_j50302656971158_2_alg».proof.Proof.Gen.Kernel.Skeleton
import proofs.«149401_j50302656971158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The gates' block is in its buffer at every point: the window is whole and never idle, and the body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The state's block is in its buffer at every point, for the same reasons. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev r3_g : Rect S32x512x128 := Rect.unit (s := S32x512x128) ![0, 0, 0] S32x512x128.size inb_S32x512x128_S32x512x128_0_0_0
abbrev r3_h : Rect S32x512x64 := Rect.unit (s := S32x512x64) ![0, 0, 0] S32x512x64.size inb_S32x512x64_S32x512x64_0_0_0

/-! ## What the body leaves in each output buffer -/

/-- The first output: the lower half of the gates times the state, one whole store. -/
def out3_2 (x0 : Vec F S32x512x128 .f32) (x1 : Vec F S32x512x64 .f32) : Vec F S32x512x64 .f32 :=
  View.canon [⟨r3_h, k3_pay3 (View.ld x0 r3_g) (View.ld x1 r3_h)⟩]

/-- The second output: the upper half of the gates, one whole store. -/
def out3_3 (x0 : Vec F S32x512x128 .f32) : Vec F S32x512x64 .f32 :=
  View.canon [⟨r3_h, k3_pay2 (View.ld x0 r3_g)⟩]

/-- One whole store covers the buffer. -/
theorem cover3_h (p0 : Vec F S32x512x64 .f32) (y : S32x512x64.Idx) :
    ∃ pc ∈ ([⟨r3_h, p0⟩] : List (View.Piece (Elt F) S32x512x64 .f32)), y ∈ pc.1.set :=
  View.cover_of_tiled [⟨r3_h, p0⟩] S32x512x64.size (by rfl) y

/-! ## The body's triple -/

set_option maxHeartbeats 1000000 in
/-- The body on whole buffers, the inputs' at read contents `x0`, `x1` and the outputs' at anything, leaves the inputs as
    they were and the outputs at `out3_2 x0 x1` and `out3_3 x0`. -/
theorem sound_kernel3 (c : Dev nD) (E : Set ℕ) (i : grid3.Coords)
    (arg1 : Memref sig .tc .vmem S32x512x128 .f32) (harg1 : arg1.IsWhole)
    (arg2 : Memref sig .tc .vmem S32x512x64 .f32) (harg2 : arg2.IsWhole)
    (arg3 : Memref sig .tc .vmem S32x512x64 .f32) (harg3 : arg3.IsWhole)
    (arg4 : Memref sig .tc .vmem S32x512x64 .f32) (harg4 : arg4.IsWhole)
    (x0 : Vec F S32x512x128 .f32) (x1 : Vec F S32x512x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out3_2 x0 x1) ∗ owns (c : Thread nD τ) arg4 fullShare (out3_3 x0)) -∗ K ⟨⟩))
      ⊢ wp frame (wpE (defs₀ (F := F)) Variants.none c none) E (cc3__split_mul_kernel i arg1 harg1 arg2 harg2 arg3 harg3 arg4 harg4) K := by
  simp only [cc3__split_mul_kernel_eq_skeleton]; unfold cc3__split_mul_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_h _)
  iexists _; isplitr
  swap; · iexact H3
  ipureintro
  exact View.read_writes_eq_canon _ _ _ (cover3_h _)

/-! ## The proof data -/

/-- The proof data of region 3 on core `c`: the arrays as the region finds them; after the body at point `t` each input's
    buffer at its block and each output's at its function of the input blocks; the invariant is the untouched rest. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) := by dsimp only [dat3]

/-- Each input's buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

set_option maxHeartbeats 1000000 in
/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- The invariant is the untouched rest at every point: it is what the region enters with and what it gives back. -/
theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.Kernel.Fr

end
-- ==== Proof.FrB.R4.lean ====
/-
  Region 4 of the kernel program: the first diffusion product  x1 = A * x0  of the candidate's diffusion, as a 4 x 4 x 2 grid of
  [1024, 1024] output blocks, each accumulated in a scratch buffer over the two k-tiles of 2048.

  At a point with k = 0 the body clears the accumulator and adds the k-tile's product; at k = 1 it adds the second
  k-tile's product and stores the accumulator into both output blocks (once as it is, once after the change of
  format).  The accumulator is carried from the k = 0 point to the k = 1 point right after it, so the region's
  invariant names its contents after every point; the output windows are untouched at the k = 0 points.
  Everything here holds at any float instance.
-/
import proofs.«149401_j50302656971158_2_alg».proof.Proof.Gen.Kernel.Launch
import proofs.«149401_j50302656971158_2_alg».proof.Proof.Gen.Kernel.Skeleton
import proofs.«149401_j50302656971158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (clear the accumulator) is taken where k = 0: the even points. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 2 = 0 :=
  (by decide +kernel : ∀ t : Fin grid4.N, cond4_0 (grid4.coords t) ↔ t.val % 2 = 0)

/-- The second branch (store the outputs) is taken where k = 1: the odd points. -/
abbrev cond4_1 (i : grid4.Coords) : Prop := k4_cond2 i = 1#1
theorem hcond4_1 : ∀ t : Fin cfg4.N, cond4_1 (grid4.coords t) ↔ t.val % 2 = 1 :=
  (by decide +kernel : ∀ t : Fin grid4.N, cond4_1 (grid4.coords t) ↔ t.val % 2 = 1)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- At the even points nothing is stored into the outputs, and they are not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
/-- At the odd points both outputs are stored. -/
theorem liveAt4_2_B : ∀ t : Fin cfg4.N, ¬cond4_0 (grid4.coords t) → cond4_1 (grid4.coords t) → cfg4.idle 2 (grid4.coords t) = false := by decide +kernel
theorem liveAt4_3_B : ∀ t : Fin cfg4.N, ¬cond4_0 (grid4.coords t) → cond4_1 (grid4.coords t) → cfg4.idle 3 (grid4.coords t) = false := by decide +kernel

/-! ## The staging memrefs, the scratch, and the invariant's shape -/

abbrev VO4_2 : View sig .tc .vmem S1024x1024 .f32 := (Memref.whole cc4_stg2_0 : Memref sig .tc .vmem S1024x1024 .f32).view
abbrev VO4_3 : View sig .tc .vmem S1024x1024 .bf16 := (Memref.whole cc4_stg3_0 : Memref sig .tc .vmem S1024x1024 .bf16).view
abbrev ms4_0 (t : Fin cfg4.N) : Memref sig .tc .vmem S1024x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x1024 .bf16 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4_0 : Memref sig .tc .vmem S1024x1024 .f32 := Memref.whole cc4_scratch0
abbrev VS4_0 : View sig .tc .vmem S1024x1024 .f32 := scM4_0.view

/-- The scoped buffers the pipeline does not stage, other than the accumulator: never opened. -/
abbrev restBut4 (c : Dev nD) : sProp 𝕄 :=
  Pipeline.scopedRestBut (Ix := Unit) (Name := ℕ) (U := UR sig nD τ) (Lvl := ℕ) (Val := Elt F) spec4 c [cc4_scratch0]

/-- The class invariant with the accumulator split out of the scoped rest, owned at some contents. -/
theorem PhiA4_eq (c : Dev nD) :
    (Pipeline.ΦA spec4 c : sProp 𝕄)
      = iprop(iprop((∃ d, owns (c : Thread nD τ) scM4_0 fullShare d) ∗ restBut4 c) ∗ (∃ r, prngReg c r)) := by
  unfold Pipeline.ΦA; rw [scopedRest4_split]; simp only [scM4_0, owns_whole]; try rfl

/-! ## The body, run whole, in each of its two cases -/

set_option maxHeartbeats 4000000 in
/-- The even points: the accumulator is cleared and the first k-tile's product added.  The inputs come back as they
    were, the two outputs untouched (no piece), the accumulator with the pieces the run finds. -/
noncomputable def kernelRun4_A (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond4_0 i) (hc1 : ¬cond4_1 i)
    (x0 : Vec F S1024x2048 .bf16) (x1 : Vec F S2048x1024 .bf16) :
    Σ' (L2 : List (View.Piece (Elt F) S1024x1024 .f32)) (L3 : List (View.Piece (Elt F) S1024x1024 .bf16)), { LS0 : List (View.Piece (Elt F) S1024x1024 .f32) //
      ∀ (xi2 : Vec F S1024x1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_dual_kernel i arg3 harg3 arg4 harg4 arg5 harg5 arg6 harg6 arg7 harg7) K } := by
  refine ⟨[], [], ?_, fun xi2 xi3 E K => ?run⟩
  case run =>
    simp only [cc4__matmul_dual_kernel_eq_skeleton]; unfold cc4__matmul_dual_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- The odd points: the second k-tile's product is added to what the point before left in the accumulator (`xs0`),
    and the accumulator stored into both outputs.  The pieces of the outputs and of the accumulator are what the run finds. -/
noncomputable def kernelRun4_B (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) :
    Σ' (L2 : List (View.Piece (Elt F) S1024x1024 .f32)) (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_dual_kernel i arg3 harg3 arg4 harg4 arg5 harg5 arg6 harg6 arg7 harg7) K } := by
  refine ⟨?_, ?_, ?_, fun E K => ?run⟩
  case run =>
    simp only [cc4__matmul_dual_kernel_eq_skeleton]; unfold cc4__matmul_dual_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

/-! ## What each case leaves in the outputs and in the accumulator -/

/-- At an even point nothing is stored into the outputs: placeholders nothing consults. -/
def out4_A_2 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond4_0 i) (hc1 : ¬cond4_1 i)
    (x0 : Vec F S1024x2048 .bf16) (x1 : Vec F S2048x1024 .bf16) : Vec F S1024x1024 .f32 :=
  VO4_2.read (Elt F) (VO4_2.writes (Elt F) VO4_2.junk (kernelRun4_A c i arg3 harg3 arg4 harg4 arg5 harg5 arg6 harg6 arg7 harg7 hc0 hc1 x0 x1).1)
def out4_A_3 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond4_0 i) (hc1 : ¬cond4_1 i)
    (x0 : Vec F S1024x2048 .bf16) (x1 : Vec F S2048x1024 .bf16) : Vec F S1024x1024 .bf16 :=
  VO4_3.read (Elt F) (VO4_3.writes (Elt F) VO4_3.junk (kernelRun4_A c i arg3 harg3 arg4 harg4 arg5 harg5 arg6 harg6 arg7 harg7 hc0 hc1 x0 x1).2.1)
/-- The accumulator's pieces at an even point tile it. -/
theorem scover4_A_0 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond4_0 i) (hc1 : ¬cond4_1 i)
    (x0 : Vec F S1024x2048 .bf16) (x1 : Vec F S2048x1024 .bf16) (y : S1024x1024.Idx) :
    ∃ pc ∈ (kernelRun4_A c i arg3 harg3 arg4 harg4 arg5 harg5 arg6 harg6 arg7 harg7 hc0 hc1 x0 x1).2.2.1, y ∈ pc.1.set :=
  View.cover_of_tiledL (kernelRun4_A c i arg3 harg3 arg4 harg4 arg5 harg5 arg6 harg6 arg7 harg7 hc0 hc1 x0 x1).2.2.1 S1024x1024.size (by sl_kernel_rfl) y
def sout4_A_0 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond4_0 i) (hc1 : ¬cond4_1 i)
    (x0 : Vec F S1024x2048 .bf16) (x1 : Vec F S2048x1024 .bf16) : Vec F S1024x1024 .f32 :=
  VS4_0.read (Elt F) (VS4_0.writes (Elt F) VS4_0.junk (kernelRun4_A c i arg3 harg3 arg4 harg4 arg5 harg5 arg6 harg6 arg7 harg7 hc0 hc1 x0 x1).2.2.1)

/-- At an odd point each output is stored whole, and the accumulator again. -/
theorem cover4_B_2 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) (y : S1024x1024.Idx) :
    ∃ pc ∈ (kernelRun4_B c i arg3 harg3 arg4 harg4 arg5 harg5 arg6 harg6 arg7 harg7 hc0 hc1 x0 x1 xs0).1, y ∈ pc.1.set :=
  View.cover_of_tiledL (kernelRun4_B c i arg3 harg3 arg4 harg4 arg5 harg5 arg6 harg6 arg7 harg7 hc0 hc1 x0 x1 xs0).1 S1024x1024.size (by sl_kernel_rfl) y
def out4_B_2 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) : Vec F S1024x1024 .f32 :=
  VO4_2.read (Elt F) (VO4_2.writes (Elt F) VO4_2.junk (kernelRun4_B c i arg3 harg3 arg4 harg4 arg5 harg5 arg6 harg6 arg7 harg7 hc0 hc1 x0 x1 xs0).1)
theorem cover4_B_3 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) (y : S1024x1024.Idx) :
    ∃ pc ∈ (kernelRun4_B c i arg3 harg3 arg4 harg4 arg5 harg5 arg6 harg6 arg7 harg7 hc0 hc1 x0 x1 xs0).2.1, y ∈ pc.1.set :=
  View.cover_of_tiledL (kernelRun4_B c i arg3 harg3 arg4 harg4 arg5 harg5 arg6 harg6 arg7 harg7 hc0 hc1 x0 x1 xs0).2.1 S1024x1024.size (by sl_kernel_rfl) y
def out4_B_3 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) : Vec F S1024x1024 .bf16 :=
  VO4_3.read (Elt F) (VO4_3.writes (Elt F) VO4_3.junk (kernelRun4_B c i arg3 harg3 arg4 harg4 arg5 harg5 arg6 harg6 arg7 harg7 hc0 hc1 x0 x1 xs0).2.1)
theorem scover4_B_0 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) (y : S1024x1024.Idx) :
    ∃ pc ∈ (kernelRun4_B c i arg3 harg3 arg4 harg4 arg5 harg5 arg6 harg6 arg7 harg7 hc0 hc1 x0 x1 xs0).2.2.1, y ∈ pc.1.set :=
  View.cover_of_tiledL (kernelRun4_B c i arg3 harg3 arg4 harg4 arg5 harg5 arg6 harg6 arg7 harg7 hc0 hc1 x0 x1 xs0).2.2.1 S1024x1024.size (by sl_kernel_rfl) y
def sout4_B_0 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) : Vec F S1024x1024 .f32 :=
  VS4_0.read (Elt F) (VS4_0.writes (Elt F) VS4_0.junk (kernelRun4_B c i arg3 harg3 arg4 harg4 arg5 harg5 arg6 harg6 arg7 harg7 hc0 hc1 x0 x1 xs0).2.2.1)

/-! ## The region at its entry contents -/

-- the buffers' contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- THE ACCUMULATION.  What the two outputs' buffers and the accumulator hold after the body at position `n`:
    at an even position the clearing case on the point's blocks, at an odd position the storing case on the point's
    blocks over what the position before left in the accumulator. -/
def outsAt4 (c : Dev nD) : (n : ℕ) → n < cfg4.N → Vec F S1024x1024 .f32 × Vec F S1024x1024 .bf16 × Vec F S1024x1024 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 2 = 0 then
      (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩), out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩))
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr (by (try dsimp only); omega)) (iblk4 V c 0 ⟨n + 1, hn⟩) (iblk4 V c 1 ⟨n + 1, hn⟩) (outsAt4 c n (Nat.lt_of_succ_lt hn)).2.2, out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr (by (try dsimp only); omega)) (iblk4 V c 0 ⟨n + 1, hn⟩) (iblk4 V c 1 ⟨n + 1, hn⟩) (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr (by (try dsimp only); omega)) (iblk4 V c 0 ⟨n + 1, hn⟩) (iblk4 V c 1 ⟨n + 1, hn⟩) (outsAt4 c n (Nat.lt_of_succ_lt hn)).2.2)

/-- `outsAt4` at an even point. -/
theorem outsAt4_A (c : Dev nD) (t : Fin cfg4.N) (h0 : t.val % 2 = 0) (h1 : ¬t.val % 2 = 1) :
    outsAt4 V c t.val t.isLt = (out4_A_2 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t), out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans rfl

/-- `outsAt4` at an odd point: over what the point before left in the accumulator. -/
theorem outsAt4_B (c : Dev nD) (t : Fin cfg4.N) (h0 : ¬t.val % 2 = 0) (h1 : t.val % 2 = 1) :
    outsAt4 V c t.val t.isLt = (out4_B_2 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2, out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: before the first point the class's; afterwards the accumulator at what the
    point before left in it, the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2.2) ∗ restBut4 c) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4_0 fullShare ((outsAt4 V c n hn).2.2) ∗ restBut4 c) ∗ (∃ r, prngReg c r)) := rfl
theorem PhiS4_pos (c : Dev nD) (n : ℕ) (h : n ≤ cfg4.N) (hz : n ≠ 0) :
    PhiS4 V c n h = iprop(iprop(owns (c : Thread nD τ) scM4_0 fullShare ((outsAt4 V c (n - 1) (by omega)).2.2) ∗ restBut4 c) ∗ (∃ r, prngReg c r)) := by
  cases n with
  | zero => exact absurd rfl hz
  | succ n => rfl

/-- The proof data of the region on core `c`: the arrays as the region finds them; after the body at point `t` each
    input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point.  The inputs' buffers hold their blocks; the point's parity says which case it is in; the
    invariant hands the body the accumulator (at anything before the first point, else at what the point before left)
    and takes it back at this point's contents; an even point hands the outputs' buffers back untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 2 = 0
  · have h1 : ¬t.val % 2 = 1 := by omega
    rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
    rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
    rw [outsAt4_A V c t h0 h1]
    unfold sout4_A_0; (try dsimp only)
    by_cases hz : t.val = 0
    · rw [PhiS4_castSucc V c t, PhiS4_zero V c _ _ hz, PhiA4_eq]
      iintro ⟨⟨⟨HS0, Hrb⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t)).2.2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_A_0 c _ _ _ _ _ _ _ _ _ _ _ _ _ _ _)
          iexact Hrb
        iexact Hg
      isplitl [Ho]; · iexact Ho
      isplitl [H0]; · iexact H0
      isplitl [H1]; · iexact H1
      isplitl [H2]; · iexists _; iexact H2
      iexists _; iexact H3
    · rw [PhiS4_castSucc V c t, PhiS4_pos V c _ _ hz]
      iintro ⟨⟨⟨HS0, Hrb⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t)).2.2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_A_0 c _ _ _ _ _ _ _ _ _ _ _ _ _ _ _)
          iexact Hrb
        iexact Hg
      isplitl [Ho]; · iexact Ho
      isplitl [H0]; · iexact H0
      isplitl [H1]; · iexact H1
      isplitl [H2]; · iexists _; iexact H2
      iexists _; iexact H3
  · have h1 : t.val % 2 = 1 := by omega
    have hz : t.val ≠ 0 := by omega
    rw [show (dat4 V c).leavesExact 2 t = owns (c : Thread nD τ) (ms4_2 t) fullShare ((dat4 V c).after 2 t) from by
      unfold Dat.leavesExact; rw [liveAt4_2_B t (fun h => h0 ((hcond4_0 t).mp h)) ((hcond4_1 t).mpr h1)], after4_2]
    rw [show (dat4 V c).leavesExact 3 t = owns (c : Thread nD τ) (ms4_3 t) fullShare ((dat4 V c).after 3 t) from by
      unfold Dat.leavesExact; rw [liveAt4_3_B t (fun h => h0 ((hcond4_0 t).mp h)) ((hcond4_1 t).mpr h1)], after4_3]
    rw [outsAt4_B V c t h0 h1]
    unfold out4_B_2 out4_B_3 sout4_B_0; (try dsimp only)
    rw [PhiS4_castSucc V c t, PhiS4_pos V c _ _ hz]
    iintro ⟨⟨⟨HS0, Hrb⟩, Hg⟩, Ho, ⟨%d0, H0⟩, ⟨%d1, H1⟩, ⟨%d2, H2⟩, ⟨%d3, H3⟩⟩
    iapply ((kernelRun4_B c (grid4.coords t) _ _ _ _ _ _ _ _ _ _ (fun h => h0 ((hcond4_0 t).mp h)) ((hcond4_1 t).mpr h1) (iblk4 V c 0 t) (iblk4 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover4_B_0 c _ _ _ _ _ _ _ _ _ _ _ _ _ _ _ _)
        iexact Hrb
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_B_2 c _ _ _ _ _ _ _ _ _ _ _ _ _ _ _ _)
    unfold owns; iexists _; isplitr
    swap; · iexact H3
    ipureintro; exact View.read_writes_of_cover _ _ _ _ _ (cover4_B_3 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hrb⟩, Hg⟩
  isplitl [HS0 Hrb]
  · isplitl [HS0]
    · iexists _; iexact HS0
    iexact Hrb
  iexact Hg

theorem hout4 (c : Dev nD) : (dat4 V c).Φ (Fin.last cfg4.N) ⊢ Pipeline.ΦA spec4 c :=
  Phi_out4 V c _ (by rw [Fin.val_last]; have : cfg4.N = 32 := N_4; omega)

end Cert.Kernel.Fr

end
-- ==== Proof.FrB.R5.lean ====
/-
  Region 5, the frame half, at any float type.

  The region multiplies a 4096 x 4096 matrix A by a 4096 x 4096 matrix X in blocks and combines the product with a third
  matrix C: its grid is 4 x 4 x 2, point (i, j, k) reads block (i, k) of A (1024 x 2048), block (k, j) of X (2048 x 1024)
  and block (i, j) of C, and owns block (i, j) of the result.  An accumulator block is carried from the point k = 0 to the
  point k = 1 of the same (i, j):
    at k = 0 (the even positions of the grid's order) the accumulator is reset to zero and the first partial product is
      added to it; the result block is left untouched and is not written back;
    at k = 1 (the odd positions) the second partial product is added, and the result block is stored as
      2 * accumulator - C's block, then written back.
  This module states what each buffer holds after every point and proves that the body, run at any point from the state
  the point before left, reaches the state stated for it; the invariant carried between points is the accumulator at its
  stated contents beside the buffers the region never opens.
-/
import proofs.«149401_j50302656971158_2_alg».proof.Proof.Gen.Kernel.Launch
import proofs.«149401_j50302656971158_2_alg».proof.Proof.Gen.Kernel.Skeleton
import proofs.«149401_j50302656971158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not (where it is not fetched
    its block index has not moved), for any proof data whose array is the entry contents and whose body leaves the
    block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's two branch conditions, over the grid -/

/-- The first conditional (reset the accumulator) is taken where the third coordinate is 0. -/
abbrev cond5_0 (i : grid5.Coords) : Prop := (Scalar.cmpi .ne (Scalar.extui (Scalar.cmpi .eq (BitVec.ofNat 32 (i 2).val) 0#32)) 0#32) = 1#1
/-- That is: at the even positions. -/
theorem hcond5_0 : ∀ t : Fin cfg5.N, cond5_0 (grid5.coords t) ↔ t.val % 2 = 0 :=
  (by decide +kernel : ∀ t : Fin grid5.N, cond5_0 (grid5.coords t) ↔ t.val % 2 = 0)

/-- The second conditional (store the result) is taken where the third coordinate is 1. -/
abbrev cond5_1 (i : grid5.Coords) : Prop := k5_cond2 i = 1#1
/-- That is: at the odd positions. -/
theorem hcond5_1 : ∀ t : Fin cfg5.N, cond5_1 (grid5.coords t) ↔ t.val % 2 = 1 :=
  (by decide +kernel : ∀ t : Fin grid5.N, cond5_1 (grid5.coords t) ↔ t.val % 2 = 1)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- At the even positions the result window is idle, -/
theorem idleAt5_3_A : ∀ t : Fin cfg5.N, cond5_0 (grid5.coords t) → ¬cond5_1 (grid5.coords t) → cfg5.idle 3 (grid5.coords t) = true := by decide +kernel
/-- and its block is not written back. -/
theorem noFlush5_3_A : ∀ t : Fin cfg5.N, cond5_0 (grid5.coords t) → ¬cond5_1 (grid5.coords t) → (cfg5.win 3).flush t = false := by decide +kernel
/-- At the odd positions it is live. -/
theorem liveAt5_3_B : ∀ t : Fin cfg5.N, ¬cond5_0 (grid5.coords t) → cond5_1 (grid5.coords t) → cfg5.idle 3 (grid5.coords t) = false := by decide +kernel

/-! ## The memrefs the body is called with -/

/-- One buffer of the result window, through which its contents are stated (the choice does not matter). -/
abbrev VO5_3 : View sig .tc .vmem S1024x1024 .f32 := (Memref.whole cc5_stg3_0 : Memref sig .tc .vmem S1024x1024 .f32).view
abbrev ms5_0 (t : Fin cfg5.N) : Memref sig .tc .vmem S1024x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x1024 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x1024 .f32 := win5_3.stage (cfg5.slots t 3)
abbrev hs5_3 (t : Fin cfg5.N) : (ms5_3 t).IsWhole := hstage5_3 ((cfg5.slots t 3).cast nbuf5_3)
/-- The accumulator: a whole buffer of the kernel's own, passed beside the windows, -/
abbrev scM5_0 : Memref sig .tc .vmem S1024x1024 .f32 := Memref.whole cc5_scratch0
/-- and the view through which its contents are stated. -/
abbrev VS5_0 : View sig .tc .vmem S1024x1024 .f32 := scM5_0.view

/-- The buffers the region never opens, on core `c`. -/
abbrev rest5 (c : Dev nD) : sProp 𝕄 :=
  Pipeline.scopedRestBut (Ix := Unit) (Name := ℕ) (U := UR sig nD τ) (Lvl := ℕ) (Val := Elt F) spec5 c [cc5_scratch0]

/-- What the region is handed: the accumulator at some contents, the buffers it never opens, the generator register. -/
theorem PhiA5_eq (c : Dev nD) :
    (Pipeline.ΦA spec5 c : sProp 𝕄)
      = iprop(iprop((∃ d, owns (c : Thread nD τ) scM5_0 fullShare d) ∗ rest5 c) ∗ (∃ r, prngReg c r)) := by
  unfold Pipeline.ΦA; rw [scopedRest5_split]; simp only [scM5_0, owns_whole]; try rfl

/-! ## The body's run, case by case -/

set_option maxHeartbeats 1000000 in
/-- CASE A (an even position).  From the inputs' buffers at their blocks, the result's buffer at any contents `xi3` and the
    accumulator at anything, the body runs to the inputs' and the result's buffers as they were and the accumulator with
    its two stores written: the zero block, then the first partial product added to it. -/
noncomputable def kernelRun5_A (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond5_0 i) (hc1 : ¬cond5_1 i)
    (x0 : Vec F S1024x2048 .bf16) (x1 : Vec F S2048x1024 .bf16) (x2 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_combine_kernel i arg3 harg3 arg4 harg4 arg5 harg5 arg6 harg6 arg7 harg7) K } := by
  refine ⟨[], ?_, fun xi3 E K => ?run⟩
  case run =>
    simp only [cc5__matmul_combine_kernel_eq_skeleton]; unfold cc5__matmul_combine_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- CASE B (an odd position).  From the inputs' buffers at their blocks, the result's buffer at anything and the accumulator
    at what the point before left (`xs0`), the body runs to the inputs' buffers as they were, the accumulator with its store
    written (the second partial product added) and the result's buffer with its store written. -/
noncomputable def kernelRun5_B (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x2048 .bf16) (x1 : Vec F S2048x1024 .bf16) (x2 : Vec F S1024x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_combine_kernel i arg3 harg3 arg4 harg4 arg5 harg5 arg6 harg6 arg7 harg7) K } := by
  refine ⟨?_, ?_, fun E K => ?run⟩
  case run =>
    simp only [cc5__matmul_combine_kernel_eq_skeleton]; unfold cc5__matmul_combine_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves -/

/-- Case A stores nothing into the result's buffer: a placeholder nothing consults. -/
def out5_A_3 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond5_0 i) (hc1 : ¬cond5_1 i)
    (x0 : Vec F S1024x2048 .bf16) (x1 : Vec F S2048x1024 .bf16) (x2 : Vec F S1024x1024 .f32) : Vec F S1024x1024 .f32 :=
  VO5_3.read (Elt F) (VO5_3.writes (Elt F) VO5_3.junk (kernelRun5_A c i arg3 harg3 arg4 harg4 arg5 harg5 arg6 harg6 arg7 harg7 hc0 hc1 x0 x1 x2).1)

/-- Case A's stores into the accumulator cover it. -/
theorem scover5_A_0 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond5_0 i) (hc1 : ¬cond5_1 i)
    (x0 : Vec F S1024x2048 .bf16) (x1 : Vec F S2048x1024 .bf16) (x2 : Vec F S1024x1024 .f32) (y : S1024x1024.Idx) :
    ∃ pc ∈ (kernelRun5_A c i arg3 harg3 arg4 harg4 arg5 harg5 arg6 harg6 arg7 harg7 hc0 hc1 x0 x1 x2).2.1, y ∈ pc.1.set :=
  View.cover_of_tiledL (kernelRun5_A c i arg3 harg3 arg4 harg4 arg5 harg5 arg6 harg6 arg7 harg7 hc0 hc1 x0 x1 x2).2.1 S1024x1024.size (by sl_kernel_rfl) y

/-- What case A leaves in the accumulator. -/
def sout5_A_0 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond5_0 i) (hc1 : ¬cond5_1 i)
    (x0 : Vec F S1024x2048 .bf16) (x1 : Vec F S2048x1024 .bf16) (x2 : Vec F S1024x1024 .f32) : Vec F S1024x1024 .f32 :=
  VS5_0.read (Elt F) (VS5_0.writes (Elt F) VS5_0.junk (kernelRun5_A c i arg3 harg3 arg4 harg4 arg5 harg5 arg6 harg6 arg7 harg7 hc0 hc1 x0 x1 x2).2.1)

/-- Case B's store into the result's buffer covers it. -/
theorem cover5_B_3 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x2048 .bf16) (x1 : Vec F S2048x1024 .bf16) (x2 : Vec F S1024x1024 .f32) (xs0 : Vec F S1024x1024 .f32) (y : S1024x1024.Idx) :
    ∃ pc ∈ (kernelRun5_B c i arg3 harg3 arg4 harg4 arg5 harg5 arg6 harg6 arg7 harg7 hc0 hc1 x0 x1 x2 xs0).1, y ∈ pc.1.set :=
  View.cover_of_tiledL (kernelRun5_B c i arg3 harg3 arg4 harg4 arg5 harg5 arg6 harg6 arg7 harg7 hc0 hc1 x0 x1 x2 xs0).1 S1024x1024.size (by sl_kernel_rfl) y

/-- What case B leaves in the result's buffer. -/
def out5_B_3 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x2048 .bf16) (x1 : Vec F S2048x1024 .bf16) (x2 : Vec F S1024x1024 .f32) (xs0 : Vec F S1024x1024 .f32) : Vec F S1024x1024 .f32 :=
  VO5_3.read (Elt F) (VO5_3.writes (Elt F) VO5_3.junk (kernelRun5_B c i arg3 harg3 arg4 harg4 arg5 harg5 arg6 harg6 arg7 harg7 hc0 hc1 x0 x1 x2 xs0).1)

/-- Case B's store into the accumulator covers it. -/
theorem scover5_B_0 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x2048 .bf16) (x1 : Vec F S2048x1024 .bf16) (x2 : Vec F S1024x1024 .f32) (xs0 : Vec F S1024x1024 .f32) (y : S1024x1024.Idx) :
    ∃ pc ∈ (kernelRun5_B c i arg3 harg3 arg4 harg4 arg5 harg5 arg6 harg6 arg7 harg7 hc0 hc1 x0 x1 x2 xs0).2.1, y ∈ pc.1.set :=
  View.cover_of_tiledL (kernelRun5_B c i arg3 harg3 arg4 harg4 arg5 harg5 arg6 harg6 arg7 harg7 hc0 hc1 x0 x1 x2 xs0).2.1 S1024x1024.size (by sl_kernel_rfl) y

/-- What case B leaves in the accumulator. -/
def sout5_B_0 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x2048 .bf16) (x1 : Vec F S2048x1024 .bf16) (x2 : Vec F S1024x1024 .f32) (xs0 : Vec F S1024x1024 .f32) : Vec F S1024x1024 .f32 :=
  VS5_0.read (Elt F) (VS5_0.writes (Elt F) VS5_0.junk (kernelRun5_B c i arg3 harg3 arg4 harg4 arg5 harg5 arg6 harg6 arg7 harg7 hc0 hc1 x0 x1 x2 xs0).2.1)

/-! ## What the result's buffer and the accumulator hold after each point -/

/-- After the body at position `n`: (the result's buffer, the accumulator).  An even position is case A, from the point's
    input blocks alone; an odd position is case B, over the accumulator the position before left. -/
def outsAt5 (c : Dev nD) : (n : ℕ) → n < cfg5.N → Vec F S1024x1024 .f32 × Vec F S1024x1024 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 2 = 0 then
      if h1 : (n + 1) % 2 = 1 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 2 = 1 then
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        False.elim (by omega)

/-- `outsAt5` at an even position: case A's contents. -/
theorem outsAt5_A (c : Dev nD) (t : Fin cfg5.N) (h0 : t.val % 2 = 0) (h1 : ¬t.val % 2 = 1) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

/-- `outsAt5` at an odd position: case B's contents, over what the position before left. -/
theorem outsAt5_B (c : Dev nD) (t : Fin cfg5.N) (h0 : ¬t.val % 2 = 0) (h1 : t.val % 2 = 1) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the region is handed; afterwards the accumulator at what the position
    before left in it, the buffers the region never opens, and the generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ rest5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ rest5 c) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ rest5 c) ∗ (∃ r, prngReg c r)) := by
  cases n with
  | zero => exact absurd rfl hz
  | succ n => rfl

/-! ## The proof data -/

/-- The proof data of region 5 on core `c`: the arrays as the region finds them; after the body at point `t` each input's
    buffer at its block and the result's at `outsAt5`'s first component; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

/-- Each input's current buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' buffers hold their blocks; the position's parity says which case it is; the invariant
    hands the body the accumulator (at anything where it is reset, at what the position before left where it is added to)
    and takes it back at this position's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 32 := lt_of_lt_of_eq t.isLt (show cfg5.N = 32 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  by_cases h0 : t.val % 2 = 0
  · have h1 : ¬t.val % 2 = 1 := by omega
    rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
    rw [outsAt5_A V c t h0 h1]
    unfold sout5_A_0; (try dsimp only)
    by_cases hz : t.val = 0
    · rw [PhiS5_castSucc V c t, PhiS5_zero V c _ _ hz, PhiA5_eq]
      iintro ⟨⟨⟨HS0, HR⟩, Hg⟩, Ho, ⟨%d0, H0⟩, ⟨%d1, H1⟩, ⟨%d2, H2⟩, ⟨%d3, H3⟩⟩
      iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩⟩
      iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have h1 : t.val % 2 = 1 := by omega
    rw [show (dat5 V c).leavesExact 3 t = owns (c : Thread nD τ) (ms5_3 t) fullShare ((dat5 V c).after 3 t) from by
      unfold Dat.leavesExact; rw [liveAt5_3_B t (fun h => h0 ((hcond5_0 t).mp h)) ((hcond5_1 t).mpr h1)], after5_3]
    rw [outsAt5_B V c t h0 h1]
    unfold out5_B_3 sout5_B_0; (try dsimp only)
    have hz : t.val ≠ 0 := by omega
    rw [PhiS5_castSucc V c t, PhiS5_pos V c _ _ hz]
    iintro ⟨⟨⟨HS0, HR⟩, Hg⟩, Ho, ⟨%d0, H0⟩, ⟨%d1, H1⟩, ⟨%d2, H2⟩, ⟨%d3, H3⟩⟩
    iapply ((kernelRun5_B c (grid5.coords t) _ _ _ _ _ _ _ _ _ _ (fun h => h0 ((hcond5_0 t).mp h)) ((hcond5_1 t).mpr h1) (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover5_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_B_3 c _ _ _ _ _ _ _ _ _ _ _ _ _ _ _ _ _)

/-- The body obligation, at every point. -/
theorem body_obligation5 (c : Dev nD) : BodyObligation (dat5 (F := F) V c) (defs₀ (F := F)) Variants.none () Set.univ := fun t => by
  rw [bigSep_W5, bigSep_W5]
  exact sound_body5 V c t

/-- What the region is handed is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point the invariant gives back what the region was handed: the accumulator's contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 32 := N_5; omega)

end Cert.Kernel.Fr

end
-- ==== Proof.FrB.R6.lean ====
import proofs.«149401_j50302656971158_2_alg».proof.Proof.Gen.Kernel.Launch
import proofs.«149401_j50302656971158_2_alg».proof.Proof.Gen.Kernel.Skeleton
import proofs.«149401_j50302656971158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the projection kernel `cc6_kernel`, frame half

Sixteen grid points. Windows 0, 1, 2 are row blocks of the three input matrices, windows 3, 4, 5 the three weight
matrices whole, window 6 the bias row whole, window 7 the output in blocks along its middle axis. The body loads the
seven inputs whole and stores one payload over the whole output block. Everything here is generic in the scalar
model `F`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, fetched there or not (a window not
    fetched at a point has the block index of the point before), for any proof data whose array is `V`'s and whose
    body leaves the block in place. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev rX6 : Rect S256x4096 := Rect.unit (s := S256x4096) ![0, 0] S256x4096.size inb_S256x4096_S256x4096_0_0
abbrev rW6 : Rect S128x64 := Rect.unit (s := S128x64) ![0, 0] S128x64.size inb_S128x64_S128x64_0_0
abbrev rB6 : Rect S1x64 := Rect.unit (s := S1x64) ![0, 0] S1x64.size inb_S1x64_S1x64_0_0
abbrev r6_7 : Rect S32x256x64 := Rect.unit (s := S32x256x64) ![0, 0, 0] S32x256x64.size inb_S32x256x64_S32x256x64_0_0_0

/-! ## What the body leaves in the output window's buffer -/

/-- Window 7's staging buffer after the body, from the input windows' blocks: its one store, of the payload at the
    seven loaded values. -/
def out6_7 (x0 : Vec F S256x4096 .f32) (x1 : Vec F S256x4096 .f32) (x2 : Vec F S256x4096 .f32) (x3 : Vec F S128x64 .f32) (x4 : Vec F S128x64 .f32) (x5 : Vec F S128x64 .f32) (x6 : Vec F S1x64 .f32) : Vec F S32x256x64 .f32 :=
  View.canon [⟨r6_7, k6_pay1 (View.ld x0 rX6) (View.ld x3 rW6) (View.ld x1 rX6) (View.ld x4 rW6) (View.ld x2 rX6) (View.ld x5 rW6) (View.ld x6 rB6)⟩]

/-- The store tiles the buffer, so it covers it. -/
theorem cover6_7 (p0 : Vec F S32x256x64 .f32) (y : S32x256x64.Idx) :
    ∃ pc ∈ ([⟨r6_7, p0⟩] : List (View.Piece (Elt F) S32x256x64 .f32)), y ∈ pc.1.set :=
  View.cover_of_tiled [⟨r6_7, p0⟩] S32x256x64.size (by rfl) y

/-! ## The body's triple -/

set_option maxHeartbeats 4000000 in
/-- The kernel body on whole staging memrefs, the inputs' at read contents `xW` and the output's at anything, runs to
    the continuation holding the inputs' as they were and the output's at `out6_7` of the inputs'. -/
theorem sound_kernel6 (c : Dev nD) (E : Set ℕ) (i : grid6.Coords) (arg0 : Memref sig .tc .vmem S256x4096 .f32) (harg0 : arg0.IsWhole) (arg1 : Memref sig .tc .vmem S256x4096 .f32) (harg1 : arg1.IsWhole) (arg2 : Memref sig .tc .vmem S256x4096 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S32x256x64 .f32) (harg7 : arg7.IsWhole)
    (x0 : Vec F S256x4096 .f32) (x1 : Vec F S256x4096 .f32) (x2 : Vec F S256x4096 .f32) (x3 : Vec F S128x64 .f32) (x4 : Vec F S128x64 .f32) (x5 : Vec F S128x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out6_7 x0 x1 x2 x3 x4 x5 x6)) -∗ K ⟨⟩))
      ⊢ wp frame (wpE (defs₀ (F := F)) Variants.none c none) E (cc6_kernel i arg0 harg0 arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of the region on core `c`: the arrays as the region finds them; after the body at point `t` each
    input's buffer at its block and the output's at `out6_7` of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-! What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t =
    out6_7 (iblk6 V c 0 t) (iblk6 V c 1 t) (iblk6 V c 2 t) (iblk6 V c 3 t) (iblk6 V c 4 t) (iblk6 V c 5 t) (iblk6 V c 6 t) := by dsimp only [dat6]

/-! Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

set_option maxHeartbeats 1000000 in
/-- The body at any point: the inputs' memrefs hold their blocks, so `sound_kernel6` applies; the invariant and the
    core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Entering and leaving the region: the invariant is the class's own -/

theorem hin6 (c : Dev nD) : Pipeline.ΦA spec6 c ⊢ (dat6 V c).Φ 0 := .rfl

theorem hout6 (c : Dev nD) : (dat6 V c).Φ (Fin.last cfg6.N) ⊢ Pipeline.ΦA spec6 c := .rfl

end Cert.Kernel.Fr
-- ==== Proof.FrB.R7.lean ====
/-
  Region 7, the blend of the old state and the candidate, on one core: the frame half, for any float model.

  The region walks the 8 blocks of 512 nodes.  At a block it reads, for every batch entry, node of the block and feature,
  the update gate u, the old state h and the candidate c, and writes  u * h + (1 - u) * c.  Nothing is carried from
  block to block, so what a block leaves in the output buffer is a function of the three input blocks alone.
-/
import proofs.«149401_j50302656971158_2_alg».proof.Proof.Gen.Kernel.Launch
import proofs.«149401_j50302656971158_2_alg».proof.Proof.Gen.Kernel.Skeleton
import proofs.«149401_j50302656971158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The update gate's block is in its buffer at every point: the window is whole and never idle, and the body leaves it in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The old state's block is in its buffer at every point: the window is whole and never idle, and the body leaves it in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The candidate's block is in its buffer at every point: the window is whole and never idle, and the body leaves it in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer is read and written whole -/

abbrev r7_h : Rect S32x512x64 := Rect.unit (s := S32x512x64) ![0, 0, 0] S32x512x64.size inb_S32x512x64_S32x512x64_0_0_0

/-! ## What the body leaves in the output buffer -/

/-- The output: the blend of the three input blocks, one whole store. -/
def out7_3 (x0 x1 x2 : Vec F S32x512x64 .f32) : Vec F S32x512x64 .f32 :=
  View.canon [⟨r7_h, k7_pay1 (View.ld x0 r7_h) (View.ld x1 r7_h) (View.ld x2 r7_h)⟩]

/-- One whole store covers the buffer. -/
theorem cover7_h (p0 : Vec F S32x512x64 .f32) (y : S32x512x64.Idx) :
    ∃ pc ∈ ([⟨r7_h, p0⟩] : List (View.Piece (Elt F) S32x512x64 .f32)), y ∈ pc.1.set :=
  View.cover_of_tiled [⟨r7_h, p0⟩] S32x512x64.size (by rfl) y

/-! ## The body's triple -/

set_option maxHeartbeats 1000000 in
/-- The body on whole buffers, the inputs' at read contents `x0`, `x1`, `x2` and the output's at anything, leaves the
    inputs as they were and the output at `out7_3 x0 x1 x2`. -/
theorem sound_kernel7 (c : Dev nD) (E : Set ℕ) (i : grid7.Coords)
    (arg1 : Memref sig .tc .vmem S32x512x64 .f32) (harg1 : arg1.IsWhole)
    (arg2 : Memref sig .tc .vmem S32x512x64 .f32) (harg2 : arg2.IsWhole)
    (arg3 : Memref sig .tc .vmem S32x512x64 .f32) (harg3 : arg3.IsWhole)
    (arg4 : Memref sig .tc .vmem S32x512x64 .f32) (harg4 : arg4.IsWhole)
    (x0 x1 x2 : Vec F S32x512x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__combine_kernel i arg1 harg1 arg2 harg2 arg3 harg3 arg4 harg4) K := by
  simp only [cc7__combine_kernel_eq_skeleton]; unfold cc7__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_h _)

/-! ## The proof data -/

/-- The proof data of region 7 on core `c`: the arrays as the region finds them; after the body at point `t` each input's
    buffer at its block and the output's at its function of the input blocks; the invariant is the untouched rest. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

set_option maxHeartbeats 1000000 in
/-- The body at any point: the inputs' buffers hold their blocks, so the body's triple applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

/-- The invariant is the untouched rest at every point: it is what the region enters with and what it gives back. -/
theorem hin7 (c : Dev nD) : Pipeline.ΦA spec7 c ⊢ (dat7 V c).Φ 0 := .rfl
theorem hout7 (c : Dev nD) : (dat7 V c).Φ (Fin.last cfg7.N) ⊢ Pipeline.ΦA spec7 c := .rfl

end Cert.Kernel.Fr

end
-- ==== Proof.FrB.RunCond.lean ====
/-
  The run of the kernel program with its result named.

  For any contents the regions leave (`outs`) and any proof data, given one segment record per region entered from
  the thread state before it and left at the one after it, every weakly fair execution of @main terminates, each
  argument array ends as launched, and the result buffer ends at the last valuation's contents: the launch's first
  thread state, the chaining of the segments and the read-back of the final memory against the last valuation.
-/
import proofs.«149401_j50302656971158_2_alg».proof.Proof.Gen.Kernel.Regions

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run with the result named, given the regions' records. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V4 m outs c) ∗ E 3 c) ⊢ R3.pre c)
    (hpost3 : ∀ c : Dev nD, R3.post c ⊢ iprop(StableHlo.held (c : Thread nD τ) (Pipeline.ucRefs τ sig) (V5 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V6 m outs c) ∗ E 4 c) ⊢ R4.pre c)
    (hpost4 : ∀ c : Dev nD, R4.post c ⊢ iprop(StableHlo.held (c : Thread nD τ) (Pipeline.ucRefs τ sig) (V7 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V7 m outs c) ∗ E 5 c) ⊢ R5.pre c)
    (hpost5 : ∀ c : Dev nD, R5.post c ⊢ iprop(StableHlo.held (c : Thread nD τ) (Pipeline.ucRefs τ sig) (V8 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V8 m outs c) ∗ E 6 c) ⊢ R6.pre c)
    (hpost6 : ∀ c : Dev nD, R6.post c ⊢ iprop(StableHlo.held (c : Thread nD τ) (Pipeline.ucRefs τ sig) (V9 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V9 m outs c) ∗ E 7 c) ⊢ R7.pre c)
    (hpost7 : ∀ c : Dev nD, R7.post c ⊢ iprop(StableHlo.held (c : Thread nD τ) (Pipeline.ucRefs τ sig) (V10 m outs c) ∗ E 8 c)) :
    θ_run defs (onTc (τ := τ) (main (F := F))) ⟨m, fun _ => 0, ρ⟩ (fun r => ∀ c : Dev nD,
      r.2.mem ((c.tc : Thread nD τ).loc main_v35) = Gen.V11 m outs c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          Prog.lift (.customCall (Pipeline.entry 6) ()),
          Prog.lift (.customCall (Pipeline.entry 7) ()),
          StableHlo.seq hostOps8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, hpre0 c, (hpost0 c).trans (hpre1 c), (hpost1 c).trans (hpre2 c), (hpost2 c).trans (hpre3 c), hpost3 c, hpre4 c, (hpost4 c).trans (hpre5 c), (hpost5 c).trans (hpre6 c), (hpost6 c).trans (hpre7 c), hpost7 c, sep_mono .rfl (hE8 c)⟩)
    (hinit := ?_) (QY := fun c s => s.mem ((c.tc : Thread nD τ).loc main_v35) = Gen.V11 m outs c main_v35 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v35) (Finset.mem_filter.mpr ⟨StableHlo.devRef_mem_tcRefs main_v35, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c),
        (h (Proc.devRef .tc main_arg5) (Finset.mem_filter.mpr ⟨StableHlo.devRef_mem_tcRefs main_arg5, by decide⟩)).trans (V11_main_arg5 m outs c),
        (h (Proc.devRef .tc main_arg6) (Finset.mem_filter.mpr ⟨StableHlo.devRef_mem_tcRefs main_arg6, by decide⟩)).trans (V11_main_arg6 m outs c)⟩
    · iexact HSI

end Cert.Kernel.Fr

end
-- ==== Proof.FrB.Assembly.lean ====
/-
  The kernel program as a whole: what every unscoped buffer holds between two items of @main, the eight regions as
  segments over those contents, and the frame.

  Between two items core c holds every unscoped buffer at a valuation: the launch memory, then the host operations
  of a stretch applied (StableHlo.after), then, after a region, the region's output arrays at what its write-backs
  leave (the proof data's arrAt at the last point) and every other buffer as it was.  A region is entered by splitting
  its windows' arrays out of the unscoped buffers and left by putting them back at those contents; the generator
  register goes into the region's invariant and comes back; no core owes another anything.
-/
import proofs.«149401_j50302656971158_2_alg».proof.Proof.FrB.R0
import proofs.«149401_j50302656971158_2_alg».proof.Proof.FrB.R1
import proofs.«149401_j50302656971158_2_alg».proof.Proof.FrB.R2
import proofs.«149401_j50302656971158_2_alg».proof.Proof.FrB.R3
import proofs.«149401_j50302656971158_2_alg».proof.Proof.FrB.R4
import proofs.«149401_j50302656971158_2_alg».proof.Proof.FrB.R5
import proofs.«149401_j50302656971158_2_alg».proof.Proof.FrB.R6
import proofs.«149401_j50302656971158_2_alg».proof.Proof.FrB.R7
import proofs.«149401_j50302656971158_2_alg».proof.Proof.Gen.Kernel.Regions
import proofs.«149401_j50302656971158_2_alg».proof.Proof.FrB.RunCond

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev rd (W : Dev nD → Valuation τ sig (Elt F)) : (c : Dev nD) → (b : Ref sig .tc) → Buf (Elt F) ((c : Thread nD τ).loc b) :=
  fun c b => W c b

/-! ## The buffers' contents between items -/

/-- After the first host stretch: region 0's entry. -/
abbrev U1 : Dev nD → Valuation τ sig (Elt F) := fun c => Gen.V1 m c
/-- After region 0: its output arrays at what the write-backs leave, every other buffer as entered. -/
def U2 (c : Dev nD) : Valuation τ sig (Elt F) :=
  Function.update (Function.update (U1 m c) main_v23_0 ((dat0 (rd (U1 m)) c).arrAt 2 cfg0.N)) main_v23_1 ((dat0 (rd (U1 m)) c).arrAt 3 cfg0.N)
/-- After region 1: its output arrays at what the write-backs leave, every other buffer as entered. -/
def U3 (c : Dev nD) : Valuation τ sig (Elt F) :=
  Function.update (U2 m c) main_v24 ((dat1 (rd (U2 m)) c).arrAt 3 cfg1.N)
/-- After region 2: its output arrays at what the write-backs leave, every other buffer as entered. -/
def U4 (c : Dev nD) : Valuation τ sig (Elt F) :=
  Function.update (U3 m c) main_v25 ((dat2 (rd (U3 m)) c).arrAt 7 cfg2.N)
/-- After region 3: its output arrays at what the write-backs leave, every other buffer as entered. -/
def U5 (c : Dev nD) : Valuation τ sig (Elt F) :=
  Function.update (Function.update (U4 m c) main_v26_0 ((dat3 (rd (U4 m)) c).arrAt 2 cfg3.N)) main_v26_1 ((dat3 (rd (U4 m)) c).arrAt 3 cfg3.N)
/-- After the second host stretch: region 4's entry. -/
def U6 (c : Dev nD) : Valuation τ sig (Elt F) := StableHlo.after hostOps4 (U5 m c)
/-- After region 4: its output arrays at what the write-backs leave, every other buffer as entered. -/
def U7 (c : Dev nD) : Valuation τ sig (Elt F) :=
  Function.update (Function.update (U6 m c) main_v31_0 ((dat4 (rd (U6 m)) c).arrAt 2 cfg4.N)) main_v31_1 ((dat4 (rd (U6 m)) c).arrAt 3 cfg4.N)
/-- After region 5: its output arrays at what the write-backs leave, every other buffer as entered. -/
def U8 (c : Dev nD) : Valuation τ sig (Elt F) :=
  Function.update (U7 m c) main_v32 ((dat5 (rd (U7 m)) c).arrAt 3 cfg5.N)
/-- After region 6: its output arrays at what the write-backs leave, every other buffer as entered. -/
def U9 (c : Dev nD) : Valuation τ sig (Elt F) :=
  Function.update (U8 m c) main_v33 ((dat6 (rd (U8 m)) c).arrAt 7 cfg6.N)
/-- After region 7: its output arrays at what the write-backs leave, every other buffer as entered. -/
def U10 (c : Dev nD) : Valuation τ sig (Elt F) :=
  Function.update (U9 m c) main_v34 ((dat7 (rd (U9 m)) c).arrAt 3 cfg7.N)
/-- After the last host stretch. -/
def U11 (c : Dev nD) : Valuation τ sig (Elt F) := StableHlo.after hostOps8 (U10 m c)

/-- What the regions leave, as the generated valuations read it. -/
def outs : Gen.Outs (F := F) := fun J r c =>
  match J with
  | 2 => U2 m c r | 3 => U3 m c r | 4 => U4 m c r | 5 => U5 m c r
  | 7 => U7 m c r | 8 => U8 m c r | 9 => U9 m c r | 10 => U10 m c r
  | _ => U1 m c r

/-! ## They are the generated valuations at these `outs` -/

theorem V1_eq (c : Dev nD) : Gen.V1 m c = U1 m c := rfl
theorem V2_eq (c : Dev nD) : Gen.V2 m (outs m) c = U2 m c := by
  have hne : (Proc.devRef .tc main_v23_0 : DevRef τ sig) ≠ (Proc.devRef .tc main_v23_1 : DevRef τ sig) := StableHlo.devRef_ne_of_ne (by decide)
  show Function.update (Function.update (Gen.V1 m c) main_v23_0 (U2 m c main_v23_0)) main_v23_1 (U2 m c main_v23_1) = U2 m c
  rw [V1_eq]
  unfold U2
  rw [Function.update_self, Function.update_of_ne hne, Function.update_self]
theorem V3_eq (c : Dev nD) : Gen.V3 m (outs m) c = U3 m c := by
  show Function.update (Gen.V2 m (outs m) c) main_v24 (U3 m c main_v24) = U3 m c
  rw [V2_eq]
  unfold U3
  rw [Function.update_self]
theorem V4_eq (c : Dev nD) : Gen.V4 m (outs m) c = U4 m c := by
  show Function.update (Gen.V3 m (outs m) c) main_v25 (U4 m c main_v25) = U4 m c
  rw [V3_eq]
  unfold U4
  rw [Function.update_self]
theorem V5_eq (c : Dev nD) : Gen.V5 m (outs m) c = U5 m c := by
  have hne : (Proc.devRef .tc main_v26_0 : DevRef τ sig) ≠ (Proc.devRef .tc main_v26_1 : DevRef τ sig) := StableHlo.devRef_ne_of_ne (by decide)
  show Function.update (Function.update (Gen.V4 m (outs m) c) main_v26_0 (U5 m c main_v26_0)) main_v26_1 (U5 m c main_v26_1) = U5 m c
  rw [V4_eq]
  unfold U5
  rw [Function.update_self, Function.update_of_ne hne, Function.update_self]
theorem V6_eq (c : Dev nD) : Gen.V6 m (outs m) c = U6 m c := by
  show StableHlo.after hostOps4 (Gen.V5 m (outs m) c) = U6 m c
  rw [V5_eq]; rfl
theorem V7_eq (c : Dev nD) : Gen.V7 m (outs m) c = U7 m c := by
  have hne : (Proc.devRef .tc main_v31_0 : DevRef τ sig) ≠ (Proc.devRef .tc main_v31_1 : DevRef τ sig) := StableHlo.devRef_ne_of_ne (by decide)
  show Function.update (Function.update (Gen.V6 m (outs m) c) main_v31_0 (U7 m c main_v31_0)) main_v31_1 (U7 m c main_v31_1) = U7 m c
  rw [V6_eq]
  unfold U7
  rw [Function.update_self, Function.update_of_ne hne, Function.update_self]
theorem V8_eq (c : Dev nD) : Gen.V8 m (outs m) c = U8 m c := by
  show Function.update (Gen.V7 m (outs m) c) main_v32 (U8 m c main_v32) = U8 m c
  rw [V7_eq]
  unfold U8
  rw [Function.update_self]
theorem V9_eq (c : Dev nD) : Gen.V9 m (outs m) c = U9 m c := by
  show Function.update (Gen.V8 m (outs m) c) main_v33 (U9 m c main_v33) = U9 m c
  rw [V8_eq]
  unfold U9
  rw [Function.update_self]
theorem V10_eq (c : Dev nD) : Gen.V10 m (outs m) c = U10 m c := by
  show Function.update (Gen.V9 m (outs m) c) main_v34 (U10 m c main_v34) = U10 m c
  rw [V9_eq]
  unfold U10
  rw [Function.update_self]
theorem V11_eq (c : Dev nD) : Gen.V11 m (outs m) c = U11 m c := by
  show StableHlo.after hostOps8 (Gen.V10 m (outs m) c) = U11 m c
  rw [V10_eq]; rfl

/-! ## What a region's exit contents hold -/

/-- A host stretch leaves every buffer it does not write as it was. -/
theorem U6_of (c : Dev nD) (b : Ref sig .tc) (h : b ∉ Gen.hostOps4_W) : U6 m c b = U5 m c b :=
  StableHlo.after_of_writes_sub hostOps4 _ Gen.hostOps4_writes h
theorem U11_of (c : Dev nD) (b : Ref sig .tc) (h : b ∉ Gen.hostOps8_W) : U11 m c b = U10 m c b :=
  StableHlo.after_of_writes_sub hostOps8 _ Gen.hostOps8_writes h

theorem U2_of (c : Dev nD) (b : Ref sig .tc) (h : b ∉ ([main_v23_0, main_v23_1] : List (Ref sig .tc))) : U2 m c b = U1 m c b := by
  unfold U2
  simp only [Function.update_of_ne (StableHlo.devRef_ne_of_ne (List.ne_of_not_mem_cons (List.not_mem_of_not_mem_cons h)) : (Proc.devRef .tc b : DevRef τ sig) ≠ Proc.devRef .tc main_v23_1), Function.update_of_ne (StableHlo.devRef_ne_of_ne (List.ne_of_not_mem_cons h) : (Proc.devRef .tc b : DevRef τ sig) ≠ Proc.devRef .tc main_v23_0)]
theorem U2_main_v23_0 (c : Dev nD) : U2 m c main_v23_0 = (dat0 (rd (U1 m)) c).arrAt 2 cfg0.N := by
  unfold U2
  rw [Function.update_of_ne (StableHlo.devRef_ne_of_ne (by decide) : (Proc.devRef .tc main_v23_0 : DevRef τ sig) ≠ (Proc.devRef .tc main_v23_1 : DevRef τ sig)), Function.update_self]
theorem U2_main_v23_1 (c : Dev nD) : U2 m c main_v23_1 = (dat0 (rd (U1 m)) c).arrAt 3 cfg0.N := by
  unfold U2
  rw [Function.update_self]
theorem hF0 (c : Dev nD) (w : Fin cfg0.W) : (dat0 (rd (U1 m)) c).arrAt w cfg0.N = rd (U2 m) c (Pipeline.arrRef spec0 w) := by
  fin_cases w
  · exact ((dat0 (rd (U1 m)) c).arrAt_in 0 rfl _).trans ((A_eq0 (rd (U1 m)) c 0).trans (U2_of m c _ (by decide)).symm)
  · exact ((dat0 (rd (U1 m)) c).arrAt_in 1 rfl _).trans ((A_eq0 (rd (U1 m)) c 1).trans (U2_of m c _ (by decide)).symm)
  · exact (U2_main_v23_0 m c).symm
  · exact (U2_main_v23_1 m c).symm
theorem hrest0 (c : Dev nD) : ∀ b, b ∉ Finset.univ.image (Pipeline.arrRef spec0) → rd (U2 m) c b = rd (U1 m) c b :=
  fun b hb => U2_of m c b (by
    simp only [List.mem_cons, List.not_mem_nil, or_false, not_or]
    exact ⟨fun h => hb (h ▸ Finset.mem_image.mpr ⟨2, Finset.mem_univ _, rfl⟩), fun h => hb (h ▸ Finset.mem_image.mpr ⟨3, Finset.mem_univ _, rfl⟩)⟩)
theorem U3_of (c : Dev nD) (b : Ref sig .tc) (h : b ∉ ([main_v24] : List (Ref sig .tc))) : U3 m c b = U2 m c b := by
  unfold U3
  simp only [Function.update_of_ne (StableHlo.devRef_ne_of_ne (List.ne_of_not_mem_cons h) : (Proc.devRef .tc b : DevRef τ sig) ≠ Proc.devRef .tc main_v24)]
theorem U3_main_v24 (c : Dev nD) : U3 m c main_v24 = (dat1 (rd (U2 m)) c).arrAt 3 cfg1.N := by
  unfold U3
  rw [Function.update_self]
theorem hF1 (c : Dev nD) (w : Fin cfg1.W) : (dat1 (rd (U2 m)) c).arrAt w cfg1.N = rd (U3 m) c (Pipeline.arrRef spec1 w) := by
  fin_cases w
  · exact ((dat1 (rd (U2 m)) c).arrAt_in 0 rfl _).trans ((A_eq1 (rd (U2 m)) c 0).trans (U3_of m c _ (by decide)).symm)
  · exact ((dat1 (rd (U2 m)) c).arrAt_in 1 rfl _).trans ((A_eq1 (rd (U2 m)) c 1).trans (U3_of m c _ (by decide)).symm)
  · exact ((dat1 (rd (U2 m)) c).arrAt_in 2 rfl _).trans ((A_eq1 (rd (U2 m)) c 2).trans (U3_of m c _ (by decide)).symm)
  · exact (U3_main_v24 m c).symm
theorem hrest1 (c : Dev nD) : ∀ b, b ∉ Finset.univ.image (Pipeline.arrRef spec1) → rd (U3 m) c b = rd (U2 m) c b :=
  fun b hb => U3_of m c b (by
    simp only [List.mem_cons, List.not_mem_nil, or_false, not_or]
    exact fun h => hb (h ▸ Finset.mem_image.mpr ⟨3, Finset.mem_univ _, rfl⟩))
theorem U4_of (c : Dev nD) (b : Ref sig .tc) (h : b ∉ ([main_v25] : List (Ref sig .tc))) : U4 m c b = U3 m c b := by
  unfold U4
  simp only [Function.update_of_ne (StableHlo.devRef_ne_of_ne (List.ne_of_not_mem_cons h) : (Proc.devRef .tc b : DevRef τ sig) ≠ Proc.devRef .tc main_v25)]
theorem U4_main_v25 (c : Dev nD) : U4 m c main_v25 = (dat2 (rd (U3 m)) c).arrAt 7 cfg2.N := by
  unfold U4
  rw [Function.update_self]
theorem hF2 (c : Dev nD) (w : Fin cfg2.W) : (dat2 (rd (U3 m)) c).arrAt w cfg2.N = rd (U4 m) c (Pipeline.arrRef spec2 w) := by
  fin_cases w
  · exact ((dat2 (rd (U3 m)) c).arrAt_in 0 rfl _).trans ((A_eq2 (rd (U3 m)) c 0).trans (U4_of m c _ (by decide)).symm)
  · exact ((dat2 (rd (U3 m)) c).arrAt_in 1 rfl _).trans ((A_eq2 (rd (U3 m)) c 1).trans (U4_of m c _ (by decide)).symm)
  · exact ((dat2 (rd (U3 m)) c).arrAt_in 2 rfl _).trans ((A_eq2 (rd (U3 m)) c 2).trans (U4_of m c _ (by decide)).symm)
  · exact ((dat2 (rd (U3 m)) c).arrAt_in 3 rfl _).trans ((A_eq2 (rd (U3 m)) c 3).trans (U4_of m c _ (by decide)).symm)
  · exact ((dat2 (rd (U3 m)) c).arrAt_in 4 rfl _).trans ((A_eq2 (rd (U3 m)) c 4).trans (U4_of m c _ (by decide)).symm)
  · exact ((dat2 (rd (U3 m)) c).arrAt_in 5 rfl _).trans ((A_eq2 (rd (U3 m)) c 5).trans (U4_of m c _ (by decide)).symm)
  · exact ((dat2 (rd (U3 m)) c).arrAt_in 6 rfl _).trans ((A_eq2 (rd (U3 m)) c 6).trans (U4_of m c _ (by decide)).symm)
  · exact (U4_main_v25 m c).symm
theorem hrest2 (c : Dev nD) : ∀ b, b ∉ Finset.univ.image (Pipeline.arrRef spec2) → rd (U4 m) c b = rd (U3 m) c b :=
  fun b hb => U4_of m c b (by
    simp only [List.mem_cons, List.not_mem_nil, or_false, not_or]
    exact fun h => hb (h ▸ Finset.mem_image.mpr ⟨7, Finset.mem_univ _, rfl⟩))
theorem U5_of (c : Dev nD) (b : Ref sig .tc) (h : b ∉ ([main_v26_0, main_v26_1] : List (Ref sig .tc))) : U5 m c b = U4 m c b := by
  unfold U5
  simp only [Function.update_of_ne (StableHlo.devRef_ne_of_ne (List.ne_of_not_mem_cons (List.not_mem_of_not_mem_cons h)) : (Proc.devRef .tc b : DevRef τ sig) ≠ Proc.devRef .tc main_v26_1), Function.update_of_ne (StableHlo.devRef_ne_of_ne (List.ne_of_not_mem_cons h) : (Proc.devRef .tc b : DevRef τ sig) ≠ Proc.devRef .tc main_v26_0)]
theorem U5_main_v26_0 (c : Dev nD) : U5 m c main_v26_0 = (dat3 (rd (U4 m)) c).arrAt 2 cfg3.N := by
  unfold U5
  rw [Function.update_of_ne (StableHlo.devRef_ne_of_ne (by decide) : (Proc.devRef .tc main_v26_0 : DevRef τ sig) ≠ (Proc.devRef .tc main_v26_1 : DevRef τ sig)), Function.update_self]
theorem U5_main_v26_1 (c : Dev nD) : U5 m c main_v26_1 = (dat3 (rd (U4 m)) c).arrAt 3 cfg3.N := by
  unfold U5
  rw [Function.update_self]
theorem hF3 (c : Dev nD) (w : Fin cfg3.W) : (dat3 (rd (U4 m)) c).arrAt w cfg3.N = rd (U5 m) c (Pipeline.arrRef spec3 w) := by
  fin_cases w
  · exact ((dat3 (rd (U4 m)) c).arrAt_in 0 rfl _).trans ((A_eq3 (rd (U4 m)) c 0).trans (U5_of m c _ (by decide)).symm)
  · exact ((dat3 (rd (U4 m)) c).arrAt_in 1 rfl _).trans ((A_eq3 (rd (U4 m)) c 1).trans (U5_of m c _ (by decide)).symm)
  · exact (U5_main_v26_0 m c).symm
  · exact (U5_main_v26_1 m c).symm
theorem hrest3 (c : Dev nD) : ∀ b, b ∉ Finset.univ.image (Pipeline.arrRef spec3) → rd (U5 m) c b = rd (U4 m) c b :=
  fun b hb => U5_of m c b (by
    simp only [List.mem_cons, List.not_mem_nil, or_false, not_or]
    exact ⟨fun h => hb (h ▸ Finset.mem_image.mpr ⟨2, Finset.mem_univ _, rfl⟩), fun h => hb (h ▸ Finset.mem_image.mpr ⟨3, Finset.mem_univ _, rfl⟩)⟩)
theorem U7_of (c : Dev nD) (b : Ref sig .tc) (h : b ∉ ([main_v31_0, main_v31_1] : List (Ref sig .tc))) : U7 m c b = U6 m c b := by
  unfold U7
  simp only [Function.update_of_ne (StableHlo.devRef_ne_of_ne (List.ne_of_not_mem_cons (List.not_mem_of_not_mem_cons h)) : (Proc.devRef .tc b : DevRef τ sig) ≠ Proc.devRef .tc main_v31_1), Function.update_of_ne (StableHlo.devRef_ne_of_ne (List.ne_of_not_mem_cons h) : (Proc.devRef .tc b : DevRef τ sig) ≠ Proc.devRef .tc main_v31_0)]
theorem U7_main_v31_0 (c : Dev nD) : U7 m c main_v31_0 = (dat4 (rd (U6 m)) c).arrAt 2 cfg4.N := by
  unfold U7
  rw [Function.update_of_ne (StableHlo.devRef_ne_of_ne (by decide) : (Proc.devRef .tc main_v31_0 : DevRef τ sig) ≠ (Proc.devRef .tc main_v31_1 : DevRef τ sig)), Function.update_self]
theorem U7_main_v31_1 (c : Dev nD) : U7 m c main_v31_1 = (dat4 (rd (U6 m)) c).arrAt 3 cfg4.N := by
  unfold U7
  rw [Function.update_self]
theorem hF4 (c : Dev nD) (w : Fin cfg4.W) : (dat4 (rd (U6 m)) c).arrAt w cfg4.N = rd (U7 m) c (Pipeline.arrRef spec4 w) := by
  fin_cases w
  · exact ((dat4 (rd (U6 m)) c).arrAt_in 0 rfl _).trans ((A_eq4 (rd (U6 m)) c 0).trans (U7_of m c _ (by decide)).symm)
  · exact ((dat4 (rd (U6 m)) c).arrAt_in 1 rfl _).trans ((A_eq4 (rd (U6 m)) c 1).trans (U7_of m c _ (by decide)).symm)
  · exact (U7_main_v31_0 m c).symm
  · exact (U7_main_v31_1 m c).symm
theorem hrest4 (c : Dev nD) : ∀ b, b ∉ Finset.univ.image (Pipeline.arrRef spec4) → rd (U7 m) c b = rd (U6 m) c b :=
  fun b hb => U7_of m c b (by
    simp only [List.mem_cons, List.not_mem_nil, or_false, not_or]
    exact ⟨fun h => hb (h ▸ Finset.mem_image.mpr ⟨2, Finset.mem_univ _, rfl⟩), fun h => hb (h ▸ Finset.mem_image.mpr ⟨3, Finset.mem_univ _, rfl⟩)⟩)
theorem U8_of (c : Dev nD) (b : Ref sig .tc) (h : b ∉ ([main_v32] : List (Ref sig .tc))) : U8 m c b = U7 m c b := by
  unfold U8
  simp only [Function.update_of_ne (StableHlo.devRef_ne_of_ne (List.ne_of_not_mem_cons h) : (Proc.devRef .tc b : DevRef τ sig) ≠ Proc.devRef .tc main_v32)]
theorem U8_main_v32 (c : Dev nD) : U8 m c main_v32 = (dat5 (rd (U7 m)) c).arrAt 3 cfg5.N := by
  unfold U8
  rw [Function.update_self]
theorem hF5 (c : Dev nD) (w : Fin cfg5.W) : (dat5 (rd (U7 m)) c).arrAt w cfg5.N = rd (U8 m) c (Pipeline.arrRef spec5 w) := by
  fin_cases w
  · exact ((dat5 (rd (U7 m)) c).arrAt_in 0 rfl _).trans ((A_eq5 (rd (U7 m)) c 0).trans (U8_of m c _ (by decide)).symm)
  · exact ((dat5 (rd (U7 m)) c).arrAt_in 1 rfl _).trans ((A_eq5 (rd (U7 m)) c 1).trans (U8_of m c _ (by decide)).symm)
  · exact ((dat5 (rd (U7 m)) c).arrAt_in 2 rfl _).trans ((A_eq5 (rd (U7 m)) c 2).trans (U8_of m c _ (by decide)).symm)
  · exact (U8_main_v32 m c).symm
theorem hrest5 (c : Dev nD) : ∀ b, b ∉ Finset.univ.image (Pipeline.arrRef spec5) → rd (U8 m) c b = rd (U7 m) c b :=
  fun b hb => U8_of m c b (by
    simp only [List.mem_cons, List.not_mem_nil, or_false, not_or]
    exact fun h => hb (h ▸ Finset.mem_image.mpr ⟨3, Finset.mem_univ _, rfl⟩))
theorem U9_of (c : Dev nD) (b : Ref sig .tc) (h : b ∉ ([main_v33] : List (Ref sig .tc))) : U9 m c b = U8 m c b := by
  unfold U9
  simp only [Function.update_of_ne (StableHlo.devRef_ne_of_ne (List.ne_of_not_mem_cons h) : (Proc.devRef .tc b : DevRef τ sig) ≠ Proc.devRef .tc main_v33)]
theorem U9_main_v33 (c : Dev nD) : U9 m c main_v33 = (dat6 (rd (U8 m)) c).arrAt 7 cfg6.N := by
  unfold U9
  rw [Function.update_self]
theorem hF6 (c : Dev nD) (w : Fin cfg6.W) : (dat6 (rd (U8 m)) c).arrAt w cfg6.N = rd (U9 m) c (Pipeline.arrRef spec6 w) := by
  fin_cases w
  · exact ((dat6 (rd (U8 m)) c).arrAt_in 0 rfl _).trans ((A_eq6 (rd (U8 m)) c 0).trans (U9_of m c _ (by decide)).symm)
  · exact ((dat6 (rd (U8 m)) c).arrAt_in 1 rfl _).trans ((A_eq6 (rd (U8 m)) c 1).trans (U9_of m c _ (by decide)).symm)
  · exact ((dat6 (rd (U8 m)) c).arrAt_in 2 rfl _).trans ((A_eq6 (rd (U8 m)) c 2).trans (U9_of m c _ (by decide)).symm)
  · exact ((dat6 (rd (U8 m)) c).arrAt_in 3 rfl _).trans ((A_eq6 (rd (U8 m)) c 3).trans (U9_of m c _ (by decide)).symm)
  · exact ((dat6 (rd (U8 m)) c).arrAt_in 4 rfl _).trans ((A_eq6 (rd (U8 m)) c 4).trans (U9_of m c _ (by decide)).symm)
  · exact ((dat6 (rd (U8 m)) c).arrAt_in 5 rfl _).trans ((A_eq6 (rd (U8 m)) c 5).trans (U9_of m c _ (by decide)).symm)
  · exact ((dat6 (rd (U8 m)) c).arrAt_in 6 rfl _).trans ((A_eq6 (rd (U8 m)) c 6).trans (U9_of m c _ (by decide)).symm)
  · exact (U9_main_v33 m c).symm
theorem hrest6 (c : Dev nD) : ∀ b, b ∉ Finset.univ.image (Pipeline.arrRef spec6) → rd (U9 m) c b = rd (U8 m) c b :=
  fun b hb => U9_of m c b (by
    simp only [List.mem_cons, List.not_mem_nil, or_false, not_or]
    exact fun h => hb (h ▸ Finset.mem_image.mpr ⟨7, Finset.mem_univ _, rfl⟩))
theorem U10_of (c : Dev nD) (b : Ref sig .tc) (h : b ∉ ([main_v34] : List (Ref sig .tc))) : U10 m c b = U9 m c b := by
  unfold U10
  simp only [Function.update_of_ne (StableHlo.devRef_ne_of_ne (List.ne_of_not_mem_cons h) : (Proc.devRef .tc b : DevRef τ sig) ≠ Proc.devRef .tc main_v34)]
theorem U10_main_v34 (c : Dev nD) : U10 m c main_v34 = (dat7 (rd (U9 m)) c).arrAt 3 cfg7.N := by
  unfold U10
  rw [Function.update_self]
theorem hF7 (c : Dev nD) (w : Fin cfg7.W) : (dat7 (rd (U9 m)) c).arrAt w cfg7.N = rd (U10 m) c (Pipeline.arrRef spec7 w) := by
  fin_cases w
  · exact ((dat7 (rd (U9 m)) c).arrAt_in 0 rfl _).trans ((A_eq7 (rd (U9 m)) c 0).trans (U10_of m c _ (by decide)).symm)
  · exact ((dat7 (rd (U9 m)) c).arrAt_in 1 rfl _).trans ((A_eq7 (rd (U9 m)) c 1).trans (U10_of m c _ (by decide)).symm)
  · exact ((dat7 (rd (U9 m)) c).arrAt_in 2 rfl _).trans ((A_eq7 (rd (U9 m)) c 2).trans (U10_of m c _ (by decide)).symm)
  · exact (U10_main_v34 m c).symm
theorem hrest7 (c : Dev nD) : ∀ b, b ∉ Finset.univ.image (Pipeline.arrRef spec7) → rd (U10 m) c b = rd (U9 m) c b :=
  fun b hb => U10_of m c b (by
    simp only [List.mem_cons, List.not_mem_nil, or_false, not_or]
    exact fun h => hb (h ▸ Finset.mem_image.mpr ⟨3, Finset.mem_univ _, rfl⟩))

/-! ## The proof data family and the thread state -/

/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- Every pipeline's proof data, each at its region's entry contents. -/
def pdats : (p : Fin 8) → (c : Dev nD) → Dat τ (Elt F) Unit ℕ (UR sig nD τ) ℕ (cfgs p) c
  | ⟨0, _⟩ => fun c => dat0 (rd (U1 m)) c
  | ⟨1, _⟩ => fun c => dat1 (rd (U2 m)) c
  | ⟨2, _⟩ => fun c => dat2 (rd (U3 m)) c
  | ⟨3, _⟩ => fun c => dat3 (rd (U4 m)) c
  | ⟨4, _⟩ => fun c => dat4 (rd (U6 m)) c
  | ⟨5, _⟩ => fun c => dat5 (rd (U7 m)) c
  | ⟨6, _⟩ => fun c => dat6 (rd (U8 m)) c
  | ⟨7, _⟩ => fun c => dat7 (rd (U9 m)) c

-- unifying a library lemma stated over the pinned configuration with the printed one unfolds plain definitions in a metavariable's type
set_option backward.isDefEq.respectTransparency.types false in
/-- Region 0 over the thread state: entered from every unscoped buffer at `U1`, left at `U2`. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (rd (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (rd (U1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (rd (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (rd (U1 m)) c)
    unfold Pipeline.ΦA
    iintro ⟨Hp, -, Hr⟩
    isplitl [Hr]; · iexact Hr
    iexact Hp
  hout c := by
    rw [Pipeline.ownSems0_none]
    refine (hout0 (rd (U1 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (rd (U1 m) c) (rd (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 1 over the thread state: entered from every unscoped buffer at `U2`, left at `U3`. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (rd (U2 m)) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (rd (U2 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (rd (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (rd (U2 m)) c)
    unfold Pipeline.ΦA
    iintro ⟨Hp, -, Hr⟩
    isplitl [Hr]; · iexact Hr
    iexact Hp
  hout c := by
    rw [Pipeline.ownSems0_none]
    refine (hout1 (rd (U2 m)) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (rd (U2 m) c) (rd (U3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 2 over the thread state: entered from every unscoped buffer at `U3`, left at `U4`. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (rd (U3 m)) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (rd (U3 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (rd (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hin2 (rd (U3 m)) c)
    unfold Pipeline.ΦA
    iintro ⟨Hp, -, Hr⟩
    isplitl [Hr]; · iexact Hr
    iexact Hp
  hout c := by
    rw [Pipeline.ownSems0_none]
    refine (hout2 (rd (U3 m)) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (rd (U3 m) c) (rd (U4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 3 over the thread state: entered from every unscoped buffer at `U4`, left at `U5`. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (rd (U4 m)) c).loose
  hwaits := Pipeline.hwaits_of_owed_zero _ _ _ _ L lv 3 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec3 c (rd (U4 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (rd (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (rd (U4 m)) c)
    unfold Pipeline.ΦA
    iintro ⟨Hp, -, Hr⟩
    isplitl [Hr]; · iexact Hr
    iexact Hp
  hout c := by
    rw [Pipeline.ownSems0_none]
    refine (hout3 (rd (U4 m)) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (rd (U4 m) c) (rd (U5 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 4 over the thread state: entered from every unscoped buffer at `U6`, left at `U7`. -/
def reg4 : Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (rd (U6 m)) c).loose
  hwaits := Pipeline.hwaits_of_owed_zero _ _ _ _ L lv 4 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec4 c (rd (U6 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (rd (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (hin4 (rd (U6 m)) c)
    unfold Pipeline.ΦA
    iintro ⟨Hp, -, Hr⟩
    isplitl [Hr]; · iexact Hr
    iexact Hp
  hout c := by
    rw [Pipeline.ownSems0_none]
    refine (hout4 (rd (U6 m)) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (rd (U6 m) c) (rd (U7 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 5 over the thread state: entered from every unscoped buffer at `U7`, left at `U8`. -/
def reg5 : Pipeline.RegionSeg (pcfgs (F := F)) Gen.adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (rd (U7 m)) c).loose
  hwaits := Pipeline.hwaits_of_owed_zero _ _ _ _ L lv 5 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec5 c (rd (U7 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (rd (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec5 c from ?_).trans (hin5 (rd (U7 m)) c)
    unfold Pipeline.ΦA
    iintro ⟨Hp, -, Hr⟩
    isplitl [Hr]; · iexact Hr
    iexact Hp
  hout c := by
    rw [Pipeline.ownSems0_none]
    refine (hout5 (rd (U7 m)) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (rd (U7 m) c) (rd (U8 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 6 over the thread state: entered from every unscoped buffer at `U8`, left at `U9`. -/
def reg6 : Pipeline.RegionSeg (pcfgs (F := F)) Gen.adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (rd (U8 m)) c).loose
  hwaits := Pipeline.hwaits_of_owed_zero _ _ _ _ L lv 6 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec6 c (rd (U8 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (rd (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec6 c from ?_).trans (hin6 (rd (U8 m)) c)
    unfold Pipeline.ΦA
    iintro ⟨Hp, -, Hr⟩
    isplitl [Hr]; · iexact Hr
    iexact Hp
  hout c := by
    rw [Pipeline.ownSems0_none]
    refine (hout6 (rd (U8 m)) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (rd (U8 m) c) (rd (U9 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 7 over the thread state: entered from every unscoped buffer at `U9`, left at `U10`. -/
def reg7 : Pipeline.RegionSeg (pcfgs (F := F)) Gen.adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (rd (U9 m)) c).loose
  hwaits := Pipeline.hwaits_of_owed_zero _ _ _ _ L lv 7 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec7 c (rd (U9 m) c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (rd (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec7 c from ?_).trans (hin7 (rd (U9 m)) c)
    unfold Pipeline.ΦA
    iintro ⟨Hp, -, Hr⟩
    isplitl [Hr]; · iexact Hr
    iexact Hp
  hout c := by
    rw [Pipeline.ownSems0_none]
    refine (hout7 (rd (U9 m)) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (rd (U9 m) c) (rd (U10 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame, and the run with the result named -/

variable (ρ : Dev nD → PrngReg)

/-- What the launch hands each core beside its buffers yields the state that rides along: its generator register and nothing owed. -/
theorem hR (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ R c := by
  iintro ⟨-, HO, -, Hp, -⟩
  isplitl [Hp]; · iexists _; iexact Hp
  iexists ∅; iexact HO

/-- The same on every core at once. -/
theorem hRall :
    (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R c) : sProp 𝕄) :=
  bigSep_mono fun c _ => hR (F := F) ρ c

set_option backward.isDefEq.respectTransparency.types false in
/-- THE FRAME: from any memory with zero counters every weakly fair execution of @main terminates, nothing faulting,
    and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m (EP := emb₁) (ι := ()) (𝒱₀ := Variants.none) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      iintro ⟨H, -⟩
      imodintro
      iapply (hRall (F := F) ρ)
      iexact H)
    (hE8 := fun c => by iintro ⟨-, HO⟩; iexact HO)
    (R0 := reg0 m) (hpre0 := fun c => by exact .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V3_eq]; exact .rfl) (hpost2 := fun c => by rw [V4_eq]; exact .rfl)
    (R3 := reg3 m) (hpre3 := fun c => by rw [V4_eq]; exact .rfl) (hpost3 := fun c => by rw [V5_eq]; exact .rfl)
    (R4 := reg4 m) (hpre4 := fun c => by rw [V6_eq]; exact .rfl) (hpost4 := fun c => by rw [V7_eq]; exact .rfl)
    (R5 := reg5 m) (hpre5 := fun c => by rw [V7_eq]; exact .rfl) (hpost5 := fun c => by rw [V8_eq]; exact .rfl)
    (R6 := reg6 m) (hpre6 := fun c => by rw [V8_eq]; exact .rfl) (hpost6 := fun c => by rw [V9_eq]; exact .rfl)
    (R7 := reg7 m) (hpre7 := fun c => by rw [V9_eq]; exact .rfl) (hpost7 := fun c => by rw [V10_eq]; exact .rfl)

set_option backward.isDefEq.respectTransparency.types false in
/-- The same run with the result buffer named: it ends at the last valuation's contents. -/
theorem run_value : θ_run defs (onTc (τ := τ) (main (F := F))) ⟨m, fun _ => 0, ρ⟩ (fun r => ∀ c : Dev nD,
      r.2.mem ((c.tc : Thread nD τ).loc main_v35) = U11 m c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1).trans (congrFun (V11_eq m c) _), (h c).2⟩) (
  run_cond m (EP := emb₁) (ι := ()) (𝒱₀ := Variants.none) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      iintro ⟨H, -⟩
      imodintro
      iapply (hRall (F := F) ρ)
      iexact H)
    (hE8 := fun c => by iintro ⟨-, HO⟩; iexact HO)
    (R0 := reg0 m) (hpre0 := fun c => by exact .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V3_eq]; exact .rfl) (hpost2 := fun c => by rw [V4_eq]; exact .rfl)
    (R3 := reg3 m) (hpre3 := fun c => by rw [V4_eq]; exact .rfl) (hpost3 := fun c => by rw [V5_eq]; exact .rfl)
    (R4 := reg4 m) (hpre4 := fun c => by rw [V6_eq]; exact .rfl) (hpost4 := fun c => by rw [V7_eq]; exact .rfl)
    (R5 := reg5 m) (hpre5 := fun c => by rw [V7_eq]; exact .rfl) (hpost5 := fun c => by rw [V8_eq]; exact .rfl)
    (R6 := reg6 m) (hpre6 := fun c => by rw [V8_eq]; exact .rfl) (hpost6 := fun c => by rw [V9_eq]; exact .rfl)
    (R7 := reg7 m) (hpre7 := fun c => by rw [V9_eq]; exact .rfl) (hpost7 := fun c => by rw [V10_eq]; exact .rfl))

end Cert.Kernel.Fr

end
-- ==== Proof.Fr.R0.lean ====
/-
  Region 0 of the kernel program: the first diffusion product  x1 = A * x0  as a 4 x 4 x 2 grid of
  [1024, 1024] output blocks, each accumulated in a scratch buffer over the two k-tiles of 2048.

  At a point with k = 0 the body clears the accumulator and adds the k-tile's product; at k = 1 it adds the second
  k-tile's product and stores the accumulator into both output blocks (once as it is, once after the change of
  format).  The accumulator is carried from the k = 0 point to the k = 1 point right after it, so the region's
  invariant names its contents after every point; the output windows are untouched at the k = 0 points.
  Everything here holds at any float instance.
-/
import proofs.«149401_j50302656971158_2_alg».proof.Proof.Gen.KernelIdeal.Launch
import proofs.«149401_j50302656971158_2_alg».proof.Proof.Gen.KernelIdeal.Skeleton
import proofs.«149401_j50302656971158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (clear the accumulator) is taken where k = 0: the even points. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second branch (store the outputs) is taken where k = 1: the odd points. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the even points nothing is stored into the outputs, and they are not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At the odd points both outputs are stored. -/
theorem liveAt0_2_B : ∀ t : Fin cfg0.N, ¬cond0_0 (grid0.coords t) → cond0_1 (grid0.coords t) → cfg0.idle 2 (grid0.coords t) = false := by decide +kernel
theorem liveAt0_3_B : ∀ t : Fin cfg0.N, ¬cond0_0 (grid0.coords t) → cond0_1 (grid0.coords t) → cfg0.idle 3 (grid0.coords t) = false := by decide +kernel

/-! ## The staging memrefs, the scratch, and the invariant's shape -/

abbrev VO0_2 : View sig .tc .vmem S1024x1024 .f32 := (Memref.whole cc0_stg2_0 : Memref sig .tc .vmem S1024x1024 .f32).view
abbrev VO0_3 : View sig .tc .vmem S1024x1024 .bf16 := (Memref.whole cc0_stg3_0 : Memref sig .tc .vmem S1024x1024 .bf16).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The scoped buffers the pipeline does not stage, other than the accumulator: never opened. -/
abbrev restBut0 (c : Dev nD) : sProp 𝕄 :=
  Pipeline.scopedRestBut (Ix := Unit) (Name := ℕ) (U := UR sig nD τ) (Lvl := ℕ) (Val := Elt F) spec0 c [cc0_scratch0]

/-- The class invariant with the accumulator split out of the scoped rest, owned at some contents. -/
theorem PhiA0_eq (c : Dev nD) :
    (Pipeline.ΦA spec0 c : sProp 𝕄)
      = iprop(iprop((∃ d, owns (c : Thread nD τ) scM0_0 fullShare d) ∗ restBut0 c) ∗ (∃ r, prngReg c r)) := by
  unfold Pipeline.ΦA; rw [scopedRest0_split]; simp only [scM0_0, owns_whole]; try rfl

/-! ## The body, run whole, in each of its two cases -/

set_option maxHeartbeats 4000000 in
/-- The even points: the accumulator is cleared and the first k-tile's product added.  The inputs come back as they
    were, the two outputs untouched (no piece), the accumulator with the pieces the run finds. -/
noncomputable def kernelRun0_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) :
    Σ' (L2 : List (View.Piece (Elt F) S1024x1024 .f32)) (L3 : List (View.Piece (Elt F) S1024x1024 .bf16)), { LS0 : List (View.Piece (Elt F) S1024x1024 .f32) //
      ∀ (xi2 : Vec F S1024x1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_dual_kernel i arg3 harg3 arg4 harg4 arg5 harg5 arg6 harg6 arg7 harg7) K } := by
  refine ⟨[], [], ?_, fun xi2 xi3 E K => ?run⟩
  case run =>
    simp only [cc0__matmul_dual_kernel_eq_skeleton]; unfold cc0__matmul_dual_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- The odd points: the second k-tile's product is added to what the point before left in the accumulator (`xs0`),
    and the accumulator stored into both outputs.  The pieces of the outputs and of the accumulator are what the run finds. -/
noncomputable def kernelRun0_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) :
    Σ' (L2 : List (View.Piece (Elt F) S1024x1024 .f32)) (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_dual_kernel i arg3 harg3 arg4 harg4 arg5 harg5 arg6 harg6 arg7 harg7) K } := by
  refine ⟨?_, ?_, ?_, fun E K => ?run⟩
  case run =>
    simp only [cc0__matmul_dual_kernel_eq_skeleton]; unfold cc0__matmul_dual_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

/-! ## What each case leaves in the outputs and in the accumulator -/

/-- At an even point nothing is stored into the outputs: placeholders nothing consults. -/
def out0_A_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) : Vec F S1024x1024 .f32 :=
  VO0_2.read (Elt F) (VO0_2.writes (Elt F) VO0_2.junk (kernelRun0_A c i arg3 harg3 arg4 harg4 arg5 harg5 arg6 harg6 arg7 harg7 hc0 hc1 x0 x1).1)
def out0_A_3 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) : Vec F S1024x1024 .bf16 :=
  VO0_3.read (Elt F) (VO0_3.writes (Elt F) VO0_3.junk (kernelRun0_A c i arg3 harg3 arg4 harg4 arg5 harg5 arg6 harg6 arg7 harg7 hc0 hc1 x0 x1).2.1)
/-- The accumulator's pieces at an even point tile it. -/
theorem scover0_A_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) (y : S1024x1024.Idx) :
    ∃ pc ∈ (kernelRun0_A c i arg3 harg3 arg4 harg4 arg5 harg5 arg6 harg6 arg7 harg7 hc0 hc1 x0 x1).2.2.1, y ∈ pc.1.set :=
  View.cover_of_tiledL (kernelRun0_A c i arg3 harg3 arg4 harg4 arg5 harg5 arg6 harg6 arg7 harg7 hc0 hc1 x0 x1).2.2.1 S1024x1024.size (by sl_kernel_rfl) y
def sout0_A_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) : Vec F S1024x1024 .f32 :=
  VS0_0.read (Elt F) (VS0_0.writes (Elt F) VS0_0.junk (kernelRun0_A c i arg3 harg3 arg4 harg4 arg5 harg5 arg6 harg6 arg7 harg7 hc0 hc1 x0 x1).2.2.1)

/-- At an odd point each output is stored whole, and the accumulator again. -/
theorem cover0_B_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) (y : S1024x1024.Idx) :
    ∃ pc ∈ (kernelRun0_B c i arg3 harg3 arg4 harg4 arg5 harg5 arg6 harg6 arg7 harg7 hc0 hc1 x0 x1 xs0).1, y ∈ pc.1.set :=
  View.cover_of_tiledL (kernelRun0_B c i arg3 harg3 arg4 harg4 arg5 harg5 arg6 harg6 arg7 harg7 hc0 hc1 x0 x1 xs0).1 S1024x1024.size (by sl_kernel_rfl) y
def out0_B_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) : Vec F S1024x1024 .f32 :=
  VO0_2.read (Elt F) (VO0_2.writes (Elt F) VO0_2.junk (kernelRun0_B c i arg3 harg3 arg4 harg4 arg5 harg5 arg6 harg6 arg7 harg7 hc0 hc1 x0 x1 xs0).1)
theorem cover0_B_3 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) (y : S1024x1024.Idx) :
    ∃ pc ∈ (kernelRun0_B c i arg3 harg3 arg4 harg4 arg5 harg5 arg6 harg6 arg7 harg7 hc0 hc1 x0 x1 xs0).2.1, y ∈ pc.1.set :=
  View.cover_of_tiledL (kernelRun0_B c i arg3 harg3 arg4 harg4 arg5 harg5 arg6 harg6 arg7 harg7 hc0 hc1 x0 x1 xs0).2.1 S1024x1024.size (by sl_kernel_rfl) y
def out0_B_3 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) : Vec F S1024x1024 .bf16 :=
  VO0_3.read (Elt F) (VO0_3.writes (Elt F) VO0_3.junk (kernelRun0_B c i arg3 harg3 arg4 harg4 arg5 harg5 arg6 harg6 arg7 harg7 hc0 hc1 x0 x1 xs0).2.1)
theorem scover0_B_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) (y : S1024x1024.Idx) :
    ∃ pc ∈ (kernelRun0_B c i arg3 harg3 arg4 harg4 arg5 harg5 arg6 harg6 arg7 harg7 hc0 hc1 x0 x1 xs0).2.2.1, y ∈ pc.1.set :=
  View.cover_of_tiledL (kernelRun0_B c i arg3 harg3 arg4 harg4 arg5 harg5 arg6 harg6 arg7 harg7 hc0 hc1 x0 x1 xs0).2.2.1 S1024x1024.size (by sl_kernel_rfl) y
def sout0_B_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 xs0).2.2.1)

/-! ## The region at its entry contents -/

-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION.  What the two outputs' buffers and the accumulator hold after the body at position `n`:
    at an even position the clearing case on the point's blocks, at an odd position the storing case on the point's
    blocks over what the position before left in the accumulator. -/
def outsAt0 (c : Dev nD) : (n : ℕ) → n < cfg0.N → Vec F S1024x1024 .f32 × Vec F S1024x1024 .bf16 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (iblk0 V c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (iblk0 V c 1 ⟨n + 1, hn⟩) (outsAt0 c n (Nat.lt_of_succ_lt hn)).2.2)

/-- `outsAt0` at an even point. -/
theorem outsAt0_A (c : Dev nD) (t : Fin cfg0.N) (h0 : t.val % 2 = 0) (h1 : ¬t.val % 2 = 1) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

/-- `outsAt0` at an odd point: over what the point before left in the accumulator. -/
theorem outsAt0_B (c : Dev nD) (t : Fin cfg0.N) (h0 : ¬t.val % 2 = 0) (h1 : t.val % 2 = 1) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: before the first point the class's; afterwards the accumulator at what the
    point before left in it, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restBut0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ restBut0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ restBut0 c) ∗ (∃ r, prngReg c r)) := by
  cases n with
  | zero => exact absurd rfl hz
  | succ n => rfl

/-- The proof data of the region on core `c`: the arrays as the region finds them; after the body at point `t` each
    input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point.  The inputs' buffers hold their blocks; the point's parity says which case it is in; the
    invariant hands the body the accumulator (at anything before the first point, else at what the point before left)
    and takes it back at this point's contents; an even point hands the outputs' buffers back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · have h1 : ¬t.val % 2 = 1 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hrb⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A_0 c _ _ _ _ _ _ _ _ _ _ _ _ _ _ _)
          iexact Hrb
        iexact Hg
      isplitl [Ho]; · iexact Ho
      isplitl [H0]; · iexact H0
      isplitl [H1]; · iexact H1
      isplitl [H2]; · iexists _; iexact H2
      iexists _; iexact H3
    · rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A_0 c _ _ _ _ _ _ _ _ _ _ _ _ _ _ _)
          iexact Hrb
        iexact Hg
      isplitl [Ho]; · iexact Ho
      isplitl [H0]; · iexact H0
      isplitl [H1]; · iexact H1
      isplitl [H2]; · iexists _; iexact H2
      iexists _; iexact H3
  · have h1 : t.val % 2 = 1 := by omega
    have hz : t.val ≠ 0 := by omega
    rw [show (dat0 V c).leavesExact 2 t = owns (c : Thread nD τ) (ms0_2 t) fullShare ((dat0 V c).after 2 t) from by
      unfold Dat.leavesExact; rw [liveAt0_2_B t (fun h => h0 ((hcond0_0 t).mp h)) ((hcond0_1 t).mpr h1)], after0_2]
    rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
    rw [outsAt0_B V c t h0 h1]
    unfold out0_B_2 out0_B_3 sout0_B_0; (try dsimp only)
    rw [PhiS0_castSucc V c t, PhiS0_pos V c _ _ hz]
    iintro ⟨⟨⟨HS0, Hrb⟩, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0_0 t).mp h)) ((hcond0_1 t).mpr h1) (iblk0 V c 0 t) (iblk0 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover0_B_0 c _ _ _ _ _ _ _ _ _ _ _ _ _ _ _ _)
        iexact Hrb
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrb⟩, Hg⟩
  isplitl [HS0 Hrb]
  · isplitl [HS0]
    · iexists _; iexact HS0
    iexact Hrb
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Fr

end
-- ==== Proof.Fr.R1.lean ====
/-
  Region 1, the frame half, at any float type.

  The region multiplies a 4096 x 4096 matrix A by a 4096 x 4096 matrix X in blocks and combines the product with a third
  matrix C: its grid is 4 x 4 x 2, point (i, j, k) reads block (i, k) of A (1024 x 2048), block (k, j) of X (2048 x 1024)
  and block (i, j) of C, and owns block (i, j) of the result.  An accumulator block is carried from the point k = 0 to the
  point k = 1 of the same (i, j):
    at k = 0 (the even positions of the grid's order) the accumulator is reset to zero and the first partial product is
      added to it; the result block is left untouched and is not written back;
    at k = 1 (the odd positions) the second partial product is added, and the result block is stored as
      2 * accumulator - C's block, then written back.
  This module states what each buffer holds after every point and proves that the body, run at any point from the state
  the point before left, reaches the state stated for it; the invariant carried between points is the accumulator at its
  stated contents beside the buffers the region never opens.
-/
import proofs.«149401_j50302656971158_2_alg».proof.Proof.Gen.KernelIdeal.Launch
import proofs.«149401_j50302656971158_2_alg».proof.Proof.Gen.KernelIdeal.Skeleton
import proofs.«149401_j50302656971158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (where it is not fetched
    its block index has not moved), for any proof data whose array is the entry contents and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, over the grid -/

/-- The first conditional (reset the accumulator) is taken where the third coordinate is 0. -/
abbrev cond1_0 (i : grid1.Coords) : Prop := (Scalar.cmpi .ne (Scalar.extui (Scalar.cmpi .eq (BitVec.ofNat 32 (i 2).val) 0#32)) 0#32) = 1#1
/-- That is: at the even positions. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional (store the result) is taken where the third coordinate is 1. -/
abbrev cond1_1 (i : grid1.Coords) : Prop := k1_cond2 i = 1#1
/-- That is: at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even positions the result window is idle, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- At the odd positions it is live. -/
theorem liveAt1_3_B : ∀ t : Fin cfg1.N, ¬cond1_0 (grid1.coords t) → cond1_1 (grid1.coords t) → cfg1.idle 3 (grid1.coords t) = false := by decide +kernel

/-! ## The memrefs the body is called with -/

/-- One buffer of the result window, through which its contents are stated (the choice does not matter). -/
abbrev VO1_3 : View sig .tc .vmem S1024x1024 .f32 := (Memref.whole cc1_stg3_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole buffer of the kernel's own, passed beside the windows, -/
abbrev scM1_0 : Memref sig .tc .vmem S1024x1024 .f32 := Memref.whole cc1_scratch0
/-- and the view through which its contents are stated. -/
abbrev VS1_0 : View sig .tc .vmem S1024x1024 .f32 := scM1_0.view

/-- The buffers the region never opens, on core `c`. -/
abbrev rest1 (c : Dev nD) : sProp 𝕄 :=
  Pipeline.scopedRestBut (Ix := Unit) (Name := ℕ) (U := UR sig nD τ) (Lvl := ℕ) (Val := Elt F) spec1 c [cc1_scratch0]

/-- What the region is handed: the accumulator at some contents, the buffers it never opens, the generator register. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA; rw [scopedRest1_split]; simp only [scM1_0, owns_whole]; try rfl

/-! ## The body's run, case by case -/

set_option maxHeartbeats 1000000 in
/-- CASE A (an even position).  From the inputs' buffers at their blocks, the result's buffer at any contents `xi3` and the
    accumulator at anything, the body runs to the inputs' and the result's buffers as they were and the accumulator with
    its two stores written: the zero block, then the first partial product added to it. -/
noncomputable def kernelRun1_A (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S2048x1024 .bf16) (x2 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_combine_kernel i arg3 harg3 arg4 harg4 arg5 harg5 arg6 harg6 arg7 harg7) K } := by
  refine ⟨[], ?_, fun xi3 E K => ?run⟩
  case run =>
    simp only [cc1__matmul_combine_kernel_eq_skeleton]; unfold cc1__matmul_combine_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- CASE B (an odd position).  From the inputs' buffers at their blocks, the result's buffer at anything and the accumulator
    at what the point before left (`xs0`), the body runs to the inputs' buffers as they were, the accumulator with its store
    written (the second partial product added) and the result's buffer with its store written. -/
noncomputable def kernelRun1_B (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S2048x1024 .bf16) (x2 : Vec F S1024x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_combine_kernel i arg3 harg3 arg4 harg4 arg5 harg5 arg6 harg6 arg7 harg7) K } := by
  refine ⟨?_, ?_, fun E K => ?run⟩
  case run =>
    simp only [cc1__matmul_combine_kernel_eq_skeleton]; unfold cc1__matmul_combine_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves -/

/-- Case A stores nothing into the result's buffer: a placeholder nothing consults. -/
def out1_A_3 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S2048x1024 .bf16) (x2 : Vec F S1024x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S2048x1024 .bf16) (x2 : Vec F S1024x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in the accumulator. -/
def sout1_A_0 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S2048x1024 .bf16) (x2 : Vec F S1024x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Case B's store into the result's buffer covers it. -/
theorem cover1_B_3 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S2048x1024 .bf16) (x2 : Vec F S1024x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y

/-- What case B leaves in the result's buffer. -/
def out1_B_3 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S2048x1024 .bf16) (x2 : Vec F S1024x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's store into the accumulator covers it. -/
theorem scover1_B_0 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S2048x1024 .bf16) (x2 : Vec F S1024x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in the accumulator. -/
def sout1_B_0 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S2048x1024 .bf16) (x2 : Vec F S1024x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-! ## What the result's buffer and the accumulator hold after each point -/

/-- After the body at position `n`: (the result's buffer, the accumulator).  An even position is case A, from the point's
    input blocks alone; an odd position is case B, over the accumulator the position before left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      if h1 : (n + 1) % 2 = 1 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 2 = 1 then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        False.elim (by omega)

/-- `outsAt1` at an even position: case A's contents. -/
theorem outsAt1_A (c : Dev nD) (t : Fin cfg1.N) (h0 : t.val % 2 = 0) (h1 : ¬t.val % 2 = 1) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at an odd position: case B's contents, over what the position before left. -/
theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the region is handed; afterwards the accumulator at what the position
    before left in it, the buffers the region never opens, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

/-- The proof data of region 1 on core `c`: the arrays as the region finds them; after the body at point `t` each input's
    buffer at its block and the result's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position's parity says which case it is; the invariant
    hands the body the accumulator (at anything where it is reset, at what the position before left where it is added to)
    and takes it back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have h1 : t.val % 2 = 1 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    have hz : t.val ≠ 0 := by omega
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the region was handed: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Fr

end
-- ==== Proof.Fr.R2.lean ====
import proofs.«149401_j50302656971158_2_alg».proof.Proof.Gen.KernelIdeal.Launch
import proofs.«149401_j50302656971158_2_alg».proof.Proof.Gen.KernelIdeal.Skeleton
import proofs.«149401_j50302656971158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the projection kernel `cc2_kernel`, frame half

Sixteen grid points. Windows 0, 1, 2 are row blocks of the three input matrices, windows 3, 4, 5 the three weight
matrices whole, window 6 the bias row whole, window 7 the output in blocks along its middle axis. The body loads the
seven inputs whole and stores one payload over the whole output block. Everything here is generic in the scalar
model `F`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not (a window not
    fetched at a point has the block index of the point before), for any proof data whose array is `V`'s and whose
    body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S256x4096 := Rect.unit (s := S256x4096) ![0, 0] S256x4096.size inb_S256x4096_S256x4096_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0
abbrev r2_7 : Rect S32x256x128 := Rect.unit (s := S32x256x128) ![0, 0, 0] S32x256x128.size inb_S32x256x128_S32x256x128_0_0_0

/-! ## What the body leaves in the output window's buffer -/

/-- Window 7's staging buffer after the body, from the input windows' blocks: its one store, of the payload at the
    seven loaded values. -/
def out2_7 (x0 : Vec F S256x4096 .f32) (x1 : Vec F S256x4096 .f32) (x2 : Vec F S256x4096 .f32) (x3 : Vec F S128x128 .f32) (x4 : Vec F S128x128 .f32) (x5 : Vec F S128x128 .f32) (x6 : Vec F S1x128 .f32) : Vec F S32x256x128 .f32 :=
  View.canon [⟨r2_7, k2_pay1 (View.ld x0 rX2) (View.ld x3 rW2) (View.ld x1 rX2) (View.ld x4 rW2) (View.ld x2 rX2) (View.ld x5 rW2) (View.ld x6 rB2)⟩]

/-- The store tiles the buffer, so it covers it. -/
theorem cover2_7 (p0 : Vec F S32x256x128 .f32) (y : S32x256x128.Idx) :
    ∃ pc ∈ ([⟨r2_7, p0⟩] : List (View.Piece (Elt F) S32x256x128 .f32)), y ∈ pc.1.set :=
  View.cover_of_tiled [⟨r2_7, p0⟩] S32x256x128.size (by rfl) y

/-! ## The body's triple -/

set_option maxHeartbeats 4000000 in
/-- The kernel body on whole staging memrefs, the inputs' at read contents `xW` and the output's at anything, runs to
    the continuation holding the inputs' as they were and the output's at `out2_7` of the inputs'. -/
theorem sound_kernel2 (c : Dev nD) (E : Set ℕ) (i : grid2.Coords) (arg0 : Memref sig .tc .vmem S256x4096 .f32) (harg0 : arg0.IsWhole) (arg1 : Memref sig .tc .vmem S256x4096 .f32) (harg1 : arg1.IsWhole) (arg2 : Memref sig .tc .vmem S256x4096 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S32x256x128 .f32) (harg7 : arg7.IsWhole)
    (x0 : Vec F S256x4096 .f32) (x1 : Vec F S256x4096 .f32) (x2 : Vec F S256x4096 .f32) (x3 : Vec F S128x128 .f32) (x4 : Vec F S128x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2_kernel i arg0 harg0 arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the region on core `c`: the arrays as the region finds them; after the body at point `t` each
    input's buffer at its block and the output's at `out2_7` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

/-! Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' memrefs hold their blocks, so `sound_kernel2` applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Entering and leaving the region: the invariant is the class's own -/

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.KernelIdeal.Fr
-- ==== Proof.Fr.R3.lean ====
/-
  Region 3, the gate split, on one core: the frame half, for any float model.

  The region walks the 8 blocks of 512 nodes.  At a block it reads the 128 gate units of every batch entry and node
  of the block and the 64 state features beside them, and writes two blocks of 64 features: the lower 64 gate units
  times the state, and the upper 64 gate units as they are.  Nothing is carried from block to block, so what a block
  leaves in each output buffer is a function of the two input blocks alone.
-/
import proofs.«149401_j50302656971158_2_alg».proof.Proof.Gen.KernelIdeal.Launch
import proofs.«149401_j50302656971158_2_alg».proof.Proof.Gen.KernelIdeal.Skeleton
import proofs.«149401_j50302656971158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The gates' block is in its buffer at every point: the window is whole and never idle, and the body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The state's block is in its buffer at every point, for the same reasons. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev r3_g : Rect S32x512x128 := Rect.unit (s := S32x512x128) ![0, 0, 0] S32x512x128.size inb_S32x512x128_S32x512x128_0_0_0
abbrev r3_h : Rect S32x512x64 := Rect.unit (s := S32x512x64) ![0, 0, 0] S32x512x64.size inb_S32x512x64_S32x512x64_0_0_0

/-! ## What the body leaves in each output buffer -/

/-- The first output: the lower half of the gates times the state, one whole store. -/
def out3_2 (x0 : Vec F S32x512x128 .f32) (x1 : Vec F S32x512x64 .f32) : Vec F S32x512x64 .f32 :=
  View.canon [⟨r3_h, k3_pay3 (View.ld x0 r3_g) (View.ld x1 r3_h)⟩]

/-- The second output: the upper half of the gates, one whole store. -/
def out3_3 (x0 : Vec F S32x512x128 .f32) : Vec F S32x512x64 .f32 :=
  View.canon [⟨r3_h, k3_pay2 (View.ld x0 r3_g)⟩]

/-- One whole store covers the buffer. -/
theorem cover3_h (p0 : Vec F S32x512x64 .f32) (y : S32x512x64.Idx) :
    ∃ pc ∈ ([⟨r3_h, p0⟩] : List (View.Piece (Elt F) S32x512x64 .f32)), y ∈ pc.1.set :=
  View.cover_of_tiled [⟨r3_h, p0⟩] S32x512x64.size (by rfl) y

/-! ## The body's triple -/

set_option maxHeartbeats 1000000 in
/-- The body on whole buffers, the inputs' at read contents `x0`, `x1` and the outputs' at anything, leaves the inputs as
    they were and the outputs at `out3_2 x0 x1` and `out3_3 x0`. -/
theorem sound_kernel3 (c : Dev nD) (E : Set ℕ) (i : grid3.Coords)
    (arg1 : Memref sig .tc .vmem S32x512x128 .f32) (harg1 : arg1.IsWhole)
    (arg2 : Memref sig .tc .vmem S32x512x64 .f32) (harg2 : arg2.IsWhole)
    (arg3 : Memref sig .tc .vmem S32x512x64 .f32) (harg3 : arg3.IsWhole)
    (arg4 : Memref sig .tc .vmem S32x512x64 .f32) (harg4 : arg4.IsWhole)
    (x0 : Vec F S32x512x128 .f32) (x1 : Vec F S32x512x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out3_2 x0 x1) ∗ owns (c : Thread nD τ) arg4 fullShare (out3_3 x0)) -∗ K ⟨⟩))
      ⊢ wp frame (wpE (defs₀ (F := F)) Variants.none c none) E (cc3__split_mul_kernel i arg1 harg1 arg2 harg2 arg3 harg3 arg4 harg4) K := by
  simp only [cc3__split_mul_kernel_eq_skeleton]; unfold cc3__split_mul_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_h _)
  iexists _; isplitr
  swap; · iexact H3
  ipureintro
  exact View.read_writes_eq_canon _ _ _ (cover3_h _)

/-! ## The proof data -/

/-- The proof data of region 3 on core `c`: the arrays as the region finds them; after the body at point `t` each input's
    buffer at its block and each output's at its function of the input blocks; the invariant is the untouched rest. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) := by dsimp only [dat3]

/-- Each input's buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

set_option maxHeartbeats 1000000 in
/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- The invariant is the untouched rest at every point: it is what the region enters with and what it gives back. -/
theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.KernelIdeal.Fr

end
-- ==== Proof.Fr.R4.lean ====
/-
  Region 4 of the kernel program: the first diffusion product  x1 = A * x0  of the candidate's diffusion, as a 4 x 4 x 2 grid of
  [1024, 1024] output blocks, each accumulated in a scratch buffer over the two k-tiles of 2048.

  At a point with k = 0 the body clears the accumulator and adds the k-tile's product; at k = 1 it adds the second
  k-tile's product and stores the accumulator into both output blocks (once as it is, once after the change of
  format).  The accumulator is carried from the k = 0 point to the k = 1 point right after it, so the region's
  invariant names its contents after every point; the output windows are untouched at the k = 0 points.
  Everything here holds at any float instance.
-/
import proofs.«149401_j50302656971158_2_alg».proof.Proof.Gen.KernelIdeal.Launch
import proofs.«149401_j50302656971158_2_alg».proof.Proof.Gen.KernelIdeal.Skeleton
import proofs.«149401_j50302656971158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (clear the accumulator) is taken where k = 0: the even points. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 2 = 0 :=
  (by decide +kernel : ∀ t : Fin grid4.N, cond4_0 (grid4.coords t) ↔ t.val % 2 = 0)

/-- The second branch (store the outputs) is taken where k = 1: the odd points. -/
abbrev cond4_1 (i : grid4.Coords) : Prop := k4_cond2 i = 1#1
theorem hcond4_1 : ∀ t : Fin cfg4.N, cond4_1 (grid4.coords t) ↔ t.val % 2 = 1 :=
  (by decide +kernel : ∀ t : Fin grid4.N, cond4_1 (grid4.coords t) ↔ t.val % 2 = 1)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- At the even points nothing is stored into the outputs, and they are not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
/-- At the odd points both outputs are stored. -/
theorem liveAt4_2_B : ∀ t : Fin cfg4.N, ¬cond4_0 (grid4.coords t) → cond4_1 (grid4.coords t) → cfg4.idle 2 (grid4.coords t) = false := by decide +kernel
theorem liveAt4_3_B : ∀ t : Fin cfg4.N, ¬cond4_0 (grid4.coords t) → cond4_1 (grid4.coords t) → cfg4.idle 3 (grid4.coords t) = false := by decide +kernel

/-! ## The staging memrefs, the scratch, and the invariant's shape -/

abbrev VO4_2 : View sig .tc .vmem S1024x1024 .f32 := (Memref.whole cc4_stg2_0 : Memref sig .tc .vmem S1024x1024 .f32).view
abbrev VO4_3 : View sig .tc .vmem S1024x1024 .bf16 := (Memref.whole cc4_stg3_0 : Memref sig .tc .vmem S1024x1024 .bf16).view
abbrev ms4_0 (t : Fin cfg4.N) : Memref sig .tc .vmem S1024x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x1024 .bf16 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4_0 : Memref sig .tc .vmem S1024x1024 .f32 := Memref.whole cc4_scratch0
abbrev VS4_0 : View sig .tc .vmem S1024x1024 .f32 := scM4_0.view

/-- The scoped buffers the pipeline does not stage, other than the accumulator: never opened. -/
abbrev restBut4 (c : Dev nD) : sProp 𝕄 :=
  Pipeline.scopedRestBut (Ix := Unit) (Name := ℕ) (U := UR sig nD τ) (Lvl := ℕ) (Val := Elt F) spec4 c [cc4_scratch0]

/-- The class invariant with the accumulator split out of the scoped rest, owned at some contents. -/
theorem PhiA4_eq (c : Dev nD) :
    (Pipeline.ΦA spec4 c : sProp 𝕄)
      = iprop(iprop((∃ d, owns (c : Thread nD τ) scM4_0 fullShare d) ∗ restBut4 c) ∗ (∃ r, prngReg c r)) := by
  unfold Pipeline.ΦA; rw [scopedRest4_split]; simp only [scM4_0, owns_whole]; try rfl

/-! ## The body, run whole, in each of its two cases -/

set_option maxHeartbeats 4000000 in
/-- The even points: the accumulator is cleared and the first k-tile's product added.  The inputs come back as they
    were, the two outputs untouched (no piece), the accumulator with the pieces the run finds. -/
noncomputable def kernelRun4_A (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond4_0 i) (hc1 : ¬cond4_1 i)
    (x0 : Vec F S1024x2048 .bf16) (x1 : Vec F S2048x1024 .bf16) :
    Σ' (L2 : List (View.Piece (Elt F) S1024x1024 .f32)) (L3 : List (View.Piece (Elt F) S1024x1024 .bf16)), { LS0 : List (View.Piece (Elt F) S1024x1024 .f32) //
      ∀ (xi2 : Vec F S1024x1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_dual_kernel i arg3 harg3 arg4 harg4 arg5 harg5 arg6 harg6 arg7 harg7) K } := by
  refine ⟨[], [], ?_, fun xi2 xi3 E K => ?run⟩
  case run =>
    simp only [cc4__matmul_dual_kernel_eq_skeleton]; unfold cc4__matmul_dual_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- The odd points: the second k-tile's product is added to what the point before left in the accumulator (`xs0`),
    and the accumulator stored into both outputs.  The pieces of the outputs and of the accumulator are what the run finds. -/
noncomputable def kernelRun4_B (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) :
    Σ' (L2 : List (View.Piece (Elt F) S1024x1024 .f32)) (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_dual_kernel i arg3 harg3 arg4 harg4 arg5 harg5 arg6 harg6 arg7 harg7) K } := by
  refine ⟨?_, ?_, ?_, fun E K => ?run⟩
  case run =>
    simp only [cc4__matmul_dual_kernel_eq_skeleton]; unfold cc4__matmul_dual_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

/-! ## What each case leaves in the outputs and in the accumulator -/

/-- At an even point nothing is stored into the outputs: placeholders nothing consults. -/
def out4_A_2 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond4_0 i) (hc1 : ¬cond4_1 i)
    (x0 : Vec F S1024x2048 .bf16) (x1 : Vec F S2048x1024 .bf16) : Vec F S1024x1024 .f32 :=
  VO4_2.read (Elt F) (VO4_2.writes (Elt F) VO4_2.junk (kernelRun4_A c i arg3 harg3 arg4 harg4 arg5 harg5 arg6 harg6 arg7 harg7 hc0 hc1 x0 x1).1)
def out4_A_3 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond4_0 i) (hc1 : ¬cond4_1 i)
    (x0 : Vec F S1024x2048 .bf16) (x1 : Vec F S2048x1024 .bf16) : Vec F S1024x1024 .bf16 :=
  VO4_3.read (Elt F) (VO4_3.writes (Elt F) VO4_3.junk (kernelRun4_A c i arg3 harg3 arg4 harg4 arg5 harg5 arg6 harg6 arg7 harg7 hc0 hc1 x0 x1).2.1)
/-- The accumulator's pieces at an even point tile it. -/
theorem scover4_A_0 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond4_0 i) (hc1 : ¬cond4_1 i)
    (x0 : Vec F S1024x2048 .bf16) (x1 : Vec F S2048x1024 .bf16) (y : S1024x1024.Idx) :
    ∃ pc ∈ (kernelRun4_A c i arg3 harg3 arg4 harg4 arg5 harg5 arg6 harg6 arg7 harg7 hc0 hc1 x0 x1).2.2.1, y ∈ pc.1.set :=
  View.cover_of_tiledL (kernelRun4_A c i arg3 harg3 arg4 harg4 arg5 harg5 arg6 harg6 arg7 harg7 hc0 hc1 x0 x1).2.2.1 S1024x1024.size (by sl_kernel_rfl) y
def sout4_A_0 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond4_0 i) (hc1 : ¬cond4_1 i)
    (x0 : Vec F S1024x2048 .bf16) (x1 : Vec F S2048x1024 .bf16) : Vec F S1024x1024 .f32 :=
  VS4_0.read (Elt F) (VS4_0.writes (Elt F) VS4_0.junk (kernelRun4_A c i arg3 harg3 arg4 harg4 arg5 harg5 arg6 harg6 arg7 harg7 hc0 hc1 x0 x1).2.2.1)

/-- At an odd point each output is stored whole, and the accumulator again. -/
theorem cover4_B_2 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) (y : S1024x1024.Idx) :
    ∃ pc ∈ (kernelRun4_B c i arg3 harg3 arg4 harg4 arg5 harg5 arg6 harg6 arg7 harg7 hc0 hc1 x0 x1 xs0).1, y ∈ pc.1.set :=
  View.cover_of_tiledL (kernelRun4_B c i arg3 harg3 arg4 harg4 arg5 harg5 arg6 harg6 arg7 harg7 hc0 hc1 x0 x1 xs0).1 S1024x1024.size (by sl_kernel_rfl) y
def out4_B_2 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) : Vec F S1024x1024 .f32 :=
  VO4_2.read (Elt F) (VO4_2.writes (Elt F) VO4_2.junk (kernelRun4_B c i arg3 harg3 arg4 harg4 arg5 harg5 arg6 harg6 arg7 harg7 hc0 hc1 x0 x1 xs0).1)
theorem cover4_B_3 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) (y : S1024x1024.Idx) :
    ∃ pc ∈ (kernelRun4_B c i arg3 harg3 arg4 harg4 arg5 harg5 arg6 harg6 arg7 harg7 hc0 hc1 x0 x1 xs0).2.1, y ∈ pc.1.set :=
  View.cover_of_tiledL (kernelRun4_B c i arg3 harg3 arg4 harg4 arg5 harg5 arg6 harg6 arg7 harg7 hc0 hc1 x0 x1 xs0).2.1 S1024x1024.size (by sl_kernel_rfl) y
def out4_B_3 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) : Vec F S1024x1024 .bf16 :=
  VO4_3.read (Elt F) (VO4_3.writes (Elt F) VO4_3.junk (kernelRun4_B c i arg3 harg3 arg4 harg4 arg5 harg5 arg6 harg6 arg7 harg7 hc0 hc1 x0 x1 xs0).2.1)
theorem scover4_B_0 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) (y : S1024x1024.Idx) :
    ∃ pc ∈ (kernelRun4_B c i arg3 harg3 arg4 harg4 arg5 harg5 arg6 harg6 arg7 harg7 hc0 hc1 x0 x1 xs0).2.2.1, y ∈ pc.1.set :=
  View.cover_of_tiledL (kernelRun4_B c i arg3 harg3 arg4 harg4 arg5 harg5 arg6 harg6 arg7 harg7 hc0 hc1 x0 x1 xs0).2.2.1 S1024x1024.size (by sl_kernel_rfl) y
def sout4_B_0 (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) : Vec F S1024x1024 .f32 :=
  VS4_0.read (Elt F) (VS4_0.writes (Elt F) VS4_0.junk (kernelRun4_B c i arg3 harg3 arg4 harg4 arg5 harg5 arg6 harg6 arg7 harg7 hc0 hc1 x0 x1 xs0).2.2.1)

/-! ## The region at its entry contents -/

-- the buffers' contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- THE ACCUMULATION.  What the two outputs' buffers and the accumulator hold after the body at position `n`:
    at an even position the clearing case on the point's blocks, at an odd position the storing case on the point's
    blocks over what the position before left in the accumulator. -/
def outsAt4 (c : Dev nD) : (n : ℕ) → n < cfg4.N → Vec F S1024x1024 .f32 × Vec F S1024x1024 .bf16 × Vec F S1024x1024 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 2 = 0 then
      (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩), out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩))
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr (by (try dsimp only); omega)) (iblk4 V c 0 ⟨n + 1, hn⟩) (iblk4 V c 1 ⟨n + 1, hn⟩) (outsAt4 c n (Nat.lt_of_succ_lt hn)).2.2, out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr (by (try dsimp only); omega)) (iblk4 V c 0 ⟨n + 1, hn⟩) (iblk4 V c 1 ⟨n + 1, hn⟩) (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr (by (try dsimp only); omega)) (iblk4 V c 0 ⟨n + 1, hn⟩) (iblk4 V c 1 ⟨n + 1, hn⟩) (outsAt4 c n (Nat.lt_of_succ_lt hn)).2.2)

/-- `outsAt4` at an even point. -/
theorem outsAt4_A (c : Dev nD) (t : Fin cfg4.N) (h0 : t.val % 2 = 0) (h1 : ¬t.val % 2 = 1) :
    outsAt4 V c t.val t.isLt = (out4_A_2 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t), out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans rfl

/-- `outsAt4` at an odd point: over what the point before left in the accumulator. -/
theorem outsAt4_B (c : Dev nD) (t : Fin cfg4.N) (h0 : ¬t.val % 2 = 0) (h1 : t.val % 2 = 1) :
    outsAt4 V c t.val t.isLt = (out4_B_2 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2, out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: before the first point the class's; afterwards the accumulator at what the
    point before left in it, the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2.2) ∗ restBut4 c) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4_0 fullShare ((outsAt4 V c n hn).2.2) ∗ restBut4 c) ∗ (∃ r, prngReg c r)) := rfl
theorem PhiS4_pos (c : Dev nD) (n : ℕ) (h : n ≤ cfg4.N) (hz : n ≠ 0) :
    PhiS4 V c n h = iprop(iprop(owns (c : Thread nD τ) scM4_0 fullShare ((outsAt4 V c (n - 1) (by omega)).2.2) ∗ restBut4 c) ∗ (∃ r, prngReg c r)) := by
  cases n with
  | zero => exact absurd rfl hz
  | succ n => rfl

/-- The proof data of the region on core `c`: the arrays as the region finds them; after the body at point `t` each
    input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point.  The inputs' buffers hold their blocks; the point's parity says which case it is in; the
    invariant hands the body the accumulator (at anything before the first point, else at what the point before left)
    and takes it back at this point's contents; an even point hands the outputs' buffers back untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 2 = 0
  · have h1 : ¬t.val % 2 = 1 := by omega
    rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
    rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
    rw [outsAt4_A V c t h0 h1]
    unfold sout4_A_0; (try dsimp only)
    by_cases hz : t.val = 0
    · rw [PhiS4_castSucc V c t, PhiS4_zero V c _ _ hz, PhiA4_eq]
      iintro ⟨⟨⟨HS0, Hrb⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t)).2.2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_A_0 c _ _ _ _ _ _ _ _ _ _ _ _ _ _ _)
          iexact Hrb
        iexact Hg
      isplitl [Ho]; · iexact Ho
      isplitl [H0]; · iexact H0
      isplitl [H1]; · iexact H1
      isplitl [H2]; · iexists _; iexact H2
      iexists _; iexact H3
    · rw [PhiS4_castSucc V c t, PhiS4_pos V c _ _ hz]
      iintro ⟨⟨⟨HS0, Hrb⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t)).2.2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_A_0 c _ _ _ _ _ _ _ _ _ _ _ _ _ _ _)
          iexact Hrb
        iexact Hg
      isplitl [Ho]; · iexact Ho
      isplitl [H0]; · iexact H0
      isplitl [H1]; · iexact H1
      isplitl [H2]; · iexists _; iexact H2
      iexists _; iexact H3
  · have h1 : t.val % 2 = 1 := by omega
    have hz : t.val ≠ 0 := by omega
    rw [show (dat4 V c).leavesExact 2 t = owns (c : Thread nD τ) (ms4_2 t) fullShare ((dat4 V c).after 2 t) from by
      unfold Dat.leavesExact; rw [liveAt4_2_B t (fun h => h0 ((hcond4_0 t).mp h)) ((hcond4_1 t).mpr h1)], after4_2]
    rw [show (dat4 V c).leavesExact 3 t = owns (c : Thread nD τ) (ms4_3 t) fullShare ((dat4 V c).after 3 t) from by
      unfold Dat.leavesExact; rw [liveAt4_3_B t (fun h => h0 ((hcond4_0 t).mp h)) ((hcond4_1 t).mpr h1)], after4_3]
    rw [outsAt4_B V c t h0 h1]
    unfold out4_B_2 out4_B_3 sout4_B_0; (try dsimp only)
    rw [PhiS4_castSucc V c t, PhiS4_pos V c _ _ hz]
    iintro ⟨⟨⟨HS0, Hrb⟩, Hg⟩, Ho, ⟨%d0, H0⟩, ⟨%d1, H1⟩, ⟨%d2, H2⟩, ⟨%d3, H3⟩⟩
    iapply ((kernelRun4_B c (grid4.coords t) _ _ _ _ _ _ _ _ _ _ (fun h => h0 ((hcond4_0 t).mp h)) ((hcond4_1 t).mpr h1) (iblk4 V c 0 t) (iblk4 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover4_B_0 c _ _ _ _ _ _ _ _ _ _ _ _ _ _ _ _)
        iexact Hrb
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_B_2 c _ _ _ _ _ _ _ _ _ _ _ _ _ _ _ _)
    unfold owns; iexists _; isplitr
    swap; · iexact H3
    ipureintro; exact View.read_writes_of_cover _ _ _ _ _ (cover4_B_3 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hrb⟩, Hg⟩
  isplitl [HS0 Hrb]
  · isplitl [HS0]
    · iexists _; iexact HS0
    iexact Hrb
  iexact Hg

theorem hout4 (c : Dev nD) : (dat4 V c).Φ (Fin.last cfg4.N) ⊢ Pipeline.ΦA spec4 c :=
  Phi_out4 V c _ (by rw [Fin.val_last]; have : cfg4.N = 32 := N_4; omega)

end Cert.KernelIdeal.Fr

end
-- ==== Proof.Fr.R5.lean ====
/-
  Region 5, the frame half, at any float type.

  The region multiplies a 4096 x 4096 matrix A by a 4096 x 4096 matrix X in blocks and combines the product with a third
  matrix C: its grid is 4 x 4 x 2, point (i, j, k) reads block (i, k) of A (1024 x 2048), block (k, j) of X (2048 x 1024)
  and block (i, j) of C, and owns block (i, j) of the result.  An accumulator block is carried from the point k = 0 to the
  point k = 1 of the same (i, j):
    at k = 0 (the even positions of the grid's order) the accumulator is reset to zero and the first partial product is
      added to it; the result block is left untouched and is not written back;
    at k = 1 (the odd positions) the second partial product is added, and the result block is stored as
      2 * accumulator - C's block, then written back.
  This module states what each buffer holds after every point and proves that the body, run at any point from the state
  the point before left, reaches the state stated for it; the invariant carried between points is the accumulator at its
  stated contents beside the buffers the region never opens.
-/
import proofs.«149401_j50302656971158_2_alg».proof.Proof.Gen.KernelIdeal.Launch
import proofs.«149401_j50302656971158_2_alg».proof.Proof.Gen.KernelIdeal.Skeleton
import proofs.«149401_j50302656971158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not (where it is not fetched
    its block index has not moved), for any proof data whose array is the entry contents and whose body leaves the
    block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's two branch conditions, over the grid -/

/-- The first conditional (reset the accumulator) is taken where the third coordinate is 0. -/
abbrev cond5_0 (i : grid5.Coords) : Prop := (Scalar.cmpi .ne (Scalar.extui (Scalar.cmpi .eq (BitVec.ofNat 32 (i 2).val) 0#32)) 0#32) = 1#1
/-- That is: at the even positions. -/
theorem hcond5_0 : ∀ t : Fin cfg5.N, cond5_0 (grid5.coords t) ↔ t.val % 2 = 0 :=
  (by decide +kernel : ∀ t : Fin grid5.N, cond5_0 (grid5.coords t) ↔ t.val % 2 = 0)

/-- The second conditional (store the result) is taken where the third coordinate is 1. -/
abbrev cond5_1 (i : grid5.Coords) : Prop := k5_cond2 i = 1#1
/-- That is: at the odd positions. -/
theorem hcond5_1 : ∀ t : Fin cfg5.N, cond5_1 (grid5.coords t) ↔ t.val % 2 = 1 :=
  (by decide +kernel : ∀ t : Fin grid5.N, cond5_1 (grid5.coords t) ↔ t.val % 2 = 1)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- At the even positions the result window is idle, -/
theorem idleAt5_3_A : ∀ t : Fin cfg5.N, cond5_0 (grid5.coords t) → ¬cond5_1 (grid5.coords t) → cfg5.idle 3 (grid5.coords t) = true := by decide +kernel
/-- and its block is not written back. -/
theorem noFlush5_3_A : ∀ t : Fin cfg5.N, cond5_0 (grid5.coords t) → ¬cond5_1 (grid5.coords t) → (cfg5.win 3).flush t = false := by decide +kernel
/-- At the odd positions it is live. -/
theorem liveAt5_3_B : ∀ t : Fin cfg5.N, ¬cond5_0 (grid5.coords t) → cond5_1 (grid5.coords t) → cfg5.idle 3 (grid5.coords t) = false := by decide +kernel

/-! ## The memrefs the body is called with -/

/-- One buffer of the result window, through which its contents are stated (the choice does not matter). -/
abbrev VO5_3 : View sig .tc .vmem S1024x1024 .f32 := (Memref.whole cc5_stg3_0 : Memref sig .tc .vmem S1024x1024 .f32).view
abbrev ms5_0 (t : Fin cfg5.N) : Memref sig .tc .vmem S1024x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x1024 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x1024 .f32 := win5_3.stage (cfg5.slots t 3)
abbrev hs5_3 (t : Fin cfg5.N) : (ms5_3 t).IsWhole := hstage5_3 ((cfg5.slots t 3).cast nbuf5_3)
/-- The accumulator: a whole buffer of the kernel's own, passed beside the windows, -/
abbrev scM5_0 : Memref sig .tc .vmem S1024x1024 .f32 := Memref.whole cc5_scratch0
/-- and the view through which its contents are stated. -/
abbrev VS5_0 : View sig .tc .vmem S1024x1024 .f32 := scM5_0.view

/-- The buffers the region never opens, on core `c`. -/
abbrev rest5 (c : Dev nD) : sProp 𝕄 :=
  Pipeline.scopedRestBut (Ix := Unit) (Name := ℕ) (U := UR sig nD τ) (Lvl := ℕ) (Val := Elt F) spec5 c [cc5_scratch0]

/-- What the region is handed: the accumulator at some contents, the buffers it never opens, the generator register. -/
theorem PhiA5_eq (c : Dev nD) :
    (Pipeline.ΦA spec5 c : sProp 𝕄)
      = iprop(iprop((∃ d, owns (c : Thread nD τ) scM5_0 fullShare d) ∗ rest5 c) ∗ (∃ r, prngReg c r)) := by
  unfold Pipeline.ΦA; rw [scopedRest5_split]; simp only [scM5_0, owns_whole]; try rfl

/-! ## The body's run, case by case -/

set_option maxHeartbeats 1000000 in
/-- CASE A (an even position).  From the inputs' buffers at their blocks, the result's buffer at any contents `xi3` and the
    accumulator at anything, the body runs to the inputs' and the result's buffers as they were and the accumulator with
    its two stores written: the zero block, then the first partial product added to it. -/
noncomputable def kernelRun5_A (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond5_0 i) (hc1 : ¬cond5_1 i)
    (x0 : Vec F S1024x2048 .bf16) (x1 : Vec F S2048x1024 .bf16) (x2 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_combine_kernel i arg3 harg3 arg4 harg4 arg5 harg5 arg6 harg6 arg7 harg7) K } := by
  refine ⟨[], ?_, fun xi3 E K => ?run⟩
  case run =>
    simp only [cc5__matmul_combine_kernel_eq_skeleton]; unfold cc5__matmul_combine_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- CASE B (an odd position).  From the inputs' buffers at their blocks, the result's buffer at anything and the accumulator
    at what the point before left (`xs0`), the body runs to the inputs' buffers as they were, the accumulator with its store
    written (the second partial product added) and the result's buffer with its store written. -/
noncomputable def kernelRun5_B (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x2048 .bf16) (x1 : Vec F S2048x1024 .bf16) (x2 : Vec F S1024x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_combine_kernel i arg3 harg3 arg4 harg4 arg5 harg5 arg6 harg6 arg7 harg7) K } := by
  refine ⟨?_, ?_, fun E K => ?run⟩
  case run =>
    simp only [cc5__matmul_combine_kernel_eq_skeleton]; unfold cc5__matmul_combine_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves -/

/-- Case A stores nothing into the result's buffer: a placeholder nothing consults. -/
def out5_A_3 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond5_0 i) (hc1 : ¬cond5_1 i)
    (x0 : Vec F S1024x2048 .bf16) (x1 : Vec F S2048x1024 .bf16) (x2 : Vec F S1024x1024 .f32) : Vec F S1024x1024 .f32 :=
  VO5_3.read (Elt F) (VO5_3.writes (Elt F) VO5_3.junk (kernelRun5_A c i arg3 harg3 arg4 harg4 arg5 harg5 arg6 harg6 arg7 harg7 hc0 hc1 x0 x1 x2).1)

/-- Case A's stores into the accumulator cover it. -/
theorem scover5_A_0 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond5_0 i) (hc1 : ¬cond5_1 i)
    (x0 : Vec F S1024x2048 .bf16) (x1 : Vec F S2048x1024 .bf16) (x2 : Vec F S1024x1024 .f32) (y : S1024x1024.Idx) :
    ∃ pc ∈ (kernelRun5_A c i arg3 harg3 arg4 harg4 arg5 harg5 arg6 harg6 arg7 harg7 hc0 hc1 x0 x1 x2).2.1, y ∈ pc.1.set :=
  View.cover_of_tiledL (kernelRun5_A c i arg3 harg3 arg4 harg4 arg5 harg5 arg6 harg6 arg7 harg7 hc0 hc1 x0 x1 x2).2.1 S1024x1024.size (by sl_kernel_rfl) y

/-- What case A leaves in the accumulator. -/
def sout5_A_0 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond5_0 i) (hc1 : ¬cond5_1 i)
    (x0 : Vec F S1024x2048 .bf16) (x1 : Vec F S2048x1024 .bf16) (x2 : Vec F S1024x1024 .f32) : Vec F S1024x1024 .f32 :=
  VS5_0.read (Elt F) (VS5_0.writes (Elt F) VS5_0.junk (kernelRun5_A c i arg3 harg3 arg4 harg4 arg5 harg5 arg6 harg6 arg7 harg7 hc0 hc1 x0 x1 x2).2.1)

/-- Case B's store into the result's buffer covers it. -/
theorem cover5_B_3 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x2048 .bf16) (x1 : Vec F S2048x1024 .bf16) (x2 : Vec F S1024x1024 .f32) (xs0 : Vec F S1024x1024 .f32) (y : S1024x1024.Idx) :
    ∃ pc ∈ (kernelRun5_B c i arg3 harg3 arg4 harg4 arg5 harg5 arg6 harg6 arg7 harg7 hc0 hc1 x0 x1 x2 xs0).1, y ∈ pc.1.set :=
  View.cover_of_tiledL (kernelRun5_B c i arg3 harg3 arg4 harg4 arg5 harg5 arg6 harg6 arg7 harg7 hc0 hc1 x0 x1 x2 xs0).1 S1024x1024.size (by sl_kernel_rfl) y

/-- What case B leaves in the result's buffer. -/
def out5_B_3 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x2048 .bf16) (x1 : Vec F S2048x1024 .bf16) (x2 : Vec F S1024x1024 .f32) (xs0 : Vec F S1024x1024 .f32) : Vec F S1024x1024 .f32 :=
  VO5_3.read (Elt F) (VO5_3.writes (Elt F) VO5_3.junk (kernelRun5_B c i arg3 harg3 arg4 harg4 arg5 harg5 arg6 harg6 arg7 harg7 hc0 hc1 x0 x1 x2 xs0).1)

/-- Case B's store into the accumulator covers it. -/
theorem scover5_B_0 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x2048 .bf16) (x1 : Vec F S2048x1024 .bf16) (x2 : Vec F S1024x1024 .f32) (xs0 : Vec F S1024x1024 .f32) (y : S1024x1024.Idx) :
    ∃ pc ∈ (kernelRun5_B c i arg3 harg3 arg4 harg4 arg5 harg5 arg6 harg6 arg7 harg7 hc0 hc1 x0 x1 x2 xs0).2.1, y ∈ pc.1.set :=
  View.cover_of_tiledL (kernelRun5_B c i arg3 harg3 arg4 harg4 arg5 harg5 arg6 harg6 arg7 harg7 hc0 hc1 x0 x1 x2 xs0).2.1 S1024x1024.size (by sl_kernel_rfl) y

/-- What case B leaves in the accumulator. -/
def sout5_B_0 (c : Dev nD) (i : grid5.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond5_0 i) (hc1 : cond5_1 i)
    (x0 : Vec F S1024x2048 .bf16) (x1 : Vec F S2048x1024 .bf16) (x2 : Vec F S1024x1024 .f32) (xs0 : Vec F S1024x1024 .f32) : Vec F S1024x1024 .f32 :=
  VS5_0.read (Elt F) (VS5_0.writes (Elt F) VS5_0.junk (kernelRun5_B c i arg3 harg3 arg4 harg4 arg5 harg5 arg6 harg6 arg7 harg7 hc0 hc1 x0 x1 x2 xs0).2.1)

/-! ## What the result's buffer and the accumulator hold after each point -/

/-- After the body at position `n`: (the result's buffer, the accumulator).  An even position is case A, from the point's
    input blocks alone; an odd position is case B, over the accumulator the position before left. -/
def outsAt5 (c : Dev nD) : (n : ℕ) → n < cfg5.N → Vec F S1024x1024 .f32 × Vec F S1024x1024 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 2 = 0 then
      if h1 : (n + 1) % 2 = 1 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 2 = 1 then
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        False.elim (by omega)

/-- `outsAt5` at an even position: case A's contents. -/
theorem outsAt5_A (c : Dev nD) (t : Fin cfg5.N) (h0 : t.val % 2 = 0) (h1 : ¬t.val % 2 = 1) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

/-- `outsAt5` at an odd position: case B's contents, over what the position before left. -/
theorem outsAt5_B (c : Dev nD) (t : Fin cfg5.N) (h0 : ¬t.val % 2 = 0) (h1 : t.val % 2 = 1) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the region is handed; afterwards the accumulator at what the position
    before left in it, the buffers the region never opens, and the generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ rest5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ rest5 c) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ rest5 c) ∗ (∃ r, prngReg c r)) := by
  cases n with
  | zero => exact absurd rfl hz
  | succ n => rfl

/-! ## The proof data -/

/-- The proof data of region 5 on core `c`: the arrays as the region finds them; after the body at point `t` each input's
    buffer at its block and the result's at `outsAt5`'s first component; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

/-- Each input's current buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' buffers hold their blocks; the position's parity says which case it is; the invariant
    hands the body the accumulator (at anything where it is reset, at what the position before left where it is added to)
    and takes it back at this position's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 32 := lt_of_lt_of_eq t.isLt (show cfg5.N = 32 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  by_cases h0 : t.val % 2 = 0
  · have h1 : ¬t.val % 2 = 1 := by omega
    rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
    rw [outsAt5_A V c t h0 h1]
    unfold sout5_A_0; (try dsimp only)
    by_cases hz : t.val = 0
    · rw [PhiS5_castSucc V c t, PhiS5_zero V c _ _ hz, PhiA5_eq]
      iintro ⟨⟨⟨HS0, HR⟩, Hg⟩, Ho, ⟨%d0, H0⟩, ⟨%d1, H1⟩, ⟨%d2, H2⟩, ⟨%d3, H3⟩⟩
      iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩⟩
      iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have h1 : t.val % 2 = 1 := by omega
    rw [show (dat5 V c).leavesExact 3 t = owns (c : Thread nD τ) (ms5_3 t) fullShare ((dat5 V c).after 3 t) from by
      unfold Dat.leavesExact; rw [liveAt5_3_B t (fun h => h0 ((hcond5_0 t).mp h)) ((hcond5_1 t).mpr h1)], after5_3]
    rw [outsAt5_B V c t h0 h1]
    unfold out5_B_3 sout5_B_0; (try dsimp only)
    have hz : t.val ≠ 0 := by omega
    rw [PhiS5_castSucc V c t, PhiS5_pos V c _ _ hz]
    iintro ⟨⟨⟨HS0, HR⟩, Hg⟩, Ho, ⟨%d0, H0⟩, ⟨%d1, H1⟩, ⟨%d2, H2⟩, ⟨%d3, H3⟩⟩
    iapply ((kernelRun5_B c (grid5.coords t) _ _ _ _ _ _ _ _ _ _ (fun h => h0 ((hcond5_0 t).mp h)) ((hcond5_1 t).mpr h1) (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover5_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_B_3 c _ _ _ _ _ _ _ _ _ _ _ _ _ _ _ _ _)

/-- The body obligation, at every point. -/
theorem body_obligation5 (c : Dev nD) : BodyObligation (dat5 (F := F) V c) (defs₀ (F := F)) Variants.none () Set.univ := fun t => by
  rw [bigSep_W5, bigSep_W5]
  exact sound_body5 V c t

/-- What the region is handed is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point the invariant gives back what the region was handed: the accumulator's contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 32 := N_5; omega)

end Cert.KernelIdeal.Fr

end
-- ==== Proof.Fr.R6.lean ====
import proofs.«149401_j50302656971158_2_alg».proof.Proof.Gen.KernelIdeal.Launch
import proofs.«149401_j50302656971158_2_alg».proof.Proof.Gen.KernelIdeal.Skeleton
import proofs.«149401_j50302656971158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the projection kernel `cc6_kernel`, frame half

Sixteen grid points. Windows 0, 1, 2 are row blocks of the three input matrices, windows 3, 4, 5 the three weight
matrices whole, window 6 the bias row whole, window 7 the output in blocks along its middle axis. The body loads the
seven inputs whole and stores one payload over the whole output block. Everything here is generic in the scalar
model `F`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, fetched there or not (a window not
    fetched at a point has the block index of the point before), for any proof data whose array is `V`'s and whose
    body leaves the block in place. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev rX6 : Rect S256x4096 := Rect.unit (s := S256x4096) ![0, 0] S256x4096.size inb_S256x4096_S256x4096_0_0
abbrev rW6 : Rect S128x64 := Rect.unit (s := S128x64) ![0, 0] S128x64.size inb_S128x64_S128x64_0_0
abbrev rB6 : Rect S1x64 := Rect.unit (s := S1x64) ![0, 0] S1x64.size inb_S1x64_S1x64_0_0
abbrev r6_7 : Rect S32x256x64 := Rect.unit (s := S32x256x64) ![0, 0, 0] S32x256x64.size inb_S32x256x64_S32x256x64_0_0_0

/-! ## What the body leaves in the output window's buffer -/

/-- Window 7's staging buffer after the body, from the input windows' blocks: its one store, of the payload at the
    seven loaded values. -/
def out6_7 (x0 : Vec F S256x4096 .f32) (x1 : Vec F S256x4096 .f32) (x2 : Vec F S256x4096 .f32) (x3 : Vec F S128x64 .f32) (x4 : Vec F S128x64 .f32) (x5 : Vec F S128x64 .f32) (x6 : Vec F S1x64 .f32) : Vec F S32x256x64 .f32 :=
  View.canon [⟨r6_7, k6_pay1 (View.ld x0 rX6) (View.ld x3 rW6) (View.ld x1 rX6) (View.ld x4 rW6) (View.ld x2 rX6) (View.ld x5 rW6) (View.ld x6 rB6)⟩]

/-- The store tiles the buffer, so it covers it. -/
theorem cover6_7 (p0 : Vec F S32x256x64 .f32) (y : S32x256x64.Idx) :
    ∃ pc ∈ ([⟨r6_7, p0⟩] : List (View.Piece (Elt F) S32x256x64 .f32)), y ∈ pc.1.set :=
  View.cover_of_tiled [⟨r6_7, p0⟩] S32x256x64.size (by rfl) y

/-! ## The body's triple -/

set_option maxHeartbeats 4000000 in
/-- The kernel body on whole staging memrefs, the inputs' at read contents `xW` and the output's at anything, runs to
    the continuation holding the inputs' as they were and the output's at `out6_7` of the inputs'. -/
theorem sound_kernel6 (c : Dev nD) (E : Set ℕ) (i : grid6.Coords) (arg0 : Memref sig .tc .vmem S256x4096 .f32) (harg0 : arg0.IsWhole) (arg1 : Memref sig .tc .vmem S256x4096 .f32) (harg1 : arg1.IsWhole) (arg2 : Memref sig .tc .vmem S256x4096 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S32x256x64 .f32) (harg7 : arg7.IsWhole)
    (x0 : Vec F S256x4096 .f32) (x1 : Vec F S256x4096 .f32) (x2 : Vec F S256x4096 .f32) (x3 : Vec F S128x64 .f32) (x4 : Vec F S128x64 .f32) (x5 : Vec F S128x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out6_7 x0 x1 x2 x3 x4 x5 x6)) -∗ K ⟨⟩))
      ⊢ wp frame (wpE (defs₀ (F := F)) Variants.none c none) E (cc6_kernel i arg0 harg0 arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of the region on core `c`: the arrays as the region finds them; after the body at point `t` each
    input's buffer at its block and the output's at `out6_7` of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-! What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t =
    out6_7 (iblk6 V c 0 t) (iblk6 V c 1 t) (iblk6 V c 2 t) (iblk6 V c 3 t) (iblk6 V c 4 t) (iblk6 V c 5 t) (iblk6 V c 6 t) := by dsimp only [dat6]

/-! Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

set_option maxHeartbeats 1000000 in
/-- The body at any point: the inputs' memrefs hold their blocks, so `sound_kernel6` applies; the invariant and the
    core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Entering and leaving the region: the invariant is the class's own -/

theorem hin6 (c : Dev nD) : Pipeline.ΦA spec6 c ⊢ (dat6 V c).Φ 0 := .rfl

theorem hout6 (c : Dev nD) : (dat6 V c).Φ (Fin.last cfg6.N) ⊢ Pipeline.ΦA spec6 c := .rfl

end Cert.KernelIdeal.Fr
-- ==== Proof.Fr.R7.lean ====
/-
  Region 7, the blend of the old state and the candidate, on one core: the frame half, for any float model.

  The region walks the 8 blocks of 512 nodes.  At a block it reads, for every batch entry, node of the block and feature,
  the update gate u, the old state h and the candidate c, and writes  u * h + (1 - u) * c.  Nothing is carried from
  block to block, so what a block leaves in the output buffer is a function of the three input blocks alone.
-/
import proofs.«149401_j50302656971158_2_alg».proof.Proof.Gen.KernelIdeal.Launch
import proofs.«149401_j50302656971158_2_alg».proof.Proof.Gen.KernelIdeal.Skeleton
import proofs.«149401_j50302656971158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The update gate's block is in its buffer at every point: the window is whole and never idle, and the body leaves it in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The old state's block is in its buffer at every point: the window is whole and never idle, and the body leaves it in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The candidate's block is in its buffer at every point: the window is whole and never idle, and the body leaves it in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer is read and written whole -/

abbrev r7_h : Rect S32x512x64 := Rect.unit (s := S32x512x64) ![0, 0, 0] S32x512x64.size inb_S32x512x64_S32x512x64_0_0_0

/-! ## What the body leaves in the output buffer -/

/-- The output: the blend of the three input blocks, one whole store. -/
def out7_3 (x0 x1 x2 : Vec F S32x512x64 .f32) : Vec F S32x512x64 .f32 :=
  View.canon [⟨r7_h, k7_pay1 (View.ld x0 r7_h) (View.ld x1 r7_h) (View.ld x2 r7_h)⟩]

/-- One whole store covers the buffer. -/
theorem cover7_h (p0 : Vec F S32x512x64 .f32) (y : S32x512x64.Idx) :
    ∃ pc ∈ ([⟨r7_h, p0⟩] : List (View.Piece (Elt F) S32x512x64 .f32)), y ∈ pc.1.set :=
  View.cover_of_tiled [⟨r7_h, p0⟩] S32x512x64.size (by rfl) y

/-! ## The body's triple -/

set_option maxHeartbeats 1000000 in
/-- The body on whole buffers, the inputs' at read contents `x0`, `x1`, `x2` and the output's at anything, leaves the
    inputs as they were and the output at `out7_3 x0 x1 x2`. -/
theorem sound_kernel7 (c : Dev nD) (E : Set ℕ) (i : grid7.Coords)
    (arg1 : Memref sig .tc .vmem S32x512x64 .f32) (harg1 : arg1.IsWhole)
    (arg2 : Memref sig .tc .vmem S32x512x64 .f32) (harg2 : arg2.IsWhole)
    (arg3 : Memref sig .tc .vmem S32x512x64 .f32) (harg3 : arg3.IsWhole)
    (arg4 : Memref sig .tc .vmem S32x512x64 .f32) (harg4 : arg4.IsWhole)
    (x0 x1 x2 : Vec F S32x512x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__combine_kernel i arg1 harg1 arg2 harg2 arg3 harg3 arg4 harg4) K := by
  simp only [cc7__combine_kernel_eq_skeleton]; unfold cc7__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_h _)

/-! ## The proof data -/

/-- The proof data of region 7 on core `c`: the arrays as the region finds them; after the body at point `t` each input's
    buffer at its block and the output's at its function of the input blocks; the invariant is the untouched rest. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

set_option maxHeartbeats 1000000 in
/-- The body at any point: the inputs' buffers hold their blocks, so the body's triple applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

/-- The invariant is the untouched rest at every point: it is what the region enters with and what it gives back. -/
theorem hin7 (c : Dev nD) : Pipeline.ΦA spec7 c ⊢ (dat7 V c).Φ 0 := .rfl
theorem hout7 (c : Dev nD) : (dat7 V c).Φ (Fin.last cfg7.N) ⊢ Pipeline.ΦA spec7 c := .rfl

end Cert.KernelIdeal.Fr

end
-- ==== Proof.Fr.RunCond.lean ====
/-
  The run of the kernel program with its result named.

  For any contents the regions leave (`outs`) and any proof data, given one segment record per region entered from
  the thread state before it and left at the one after it, every weakly fair execution of @main terminates, each
  argument array ends as launched, and the result buffer ends at the last valuation's contents: the launch's first
  thread state, the chaining of the segments and the read-back of the final memory against the last valuation.
-/
import proofs.«149401_j50302656971158_2_alg».proof.Proof.Gen.KernelIdeal.Regions

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run with the result named, given the regions' records. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V4 m outs c) ∗ E 3 c) ⊢ R3.pre c)
    (hpost3 : ∀ c : Dev nD, R3.post c ⊢ iprop(StableHlo.held (c : Thread nD τ) (Pipeline.ucRefs τ sig) (V5 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V6 m outs c) ∗ E 4 c) ⊢ R4.pre c)
    (hpost4 : ∀ c : Dev nD, R4.post c ⊢ iprop(StableHlo.held (c : Thread nD τ) (Pipeline.ucRefs τ sig) (V7 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V7 m outs c) ∗ E 5 c) ⊢ R5.pre c)
    (hpost5 : ∀ c : Dev nD, R5.post c ⊢ iprop(StableHlo.held (c : Thread nD τ) (Pipeline.ucRefs τ sig) (V8 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V8 m outs c) ∗ E 6 c) ⊢ R6.pre c)
    (hpost6 : ∀ c : Dev nD, R6.post c ⊢ iprop(StableHlo.held (c : Thread nD τ) (Pipeline.ucRefs τ sig) (V9 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V9 m outs c) ∗ E 7 c) ⊢ R7.pre c)
    (hpost7 : ∀ c : Dev nD, R7.post c ⊢ iprop(StableHlo.held (c : Thread nD τ) (Pipeline.ucRefs τ sig) (V10 m outs c) ∗ E 8 c)) :
    θ_run defs (onTc (τ := τ) (main (F := F))) ⟨m, fun _ => 0, ρ⟩ (fun r => ∀ c : Dev nD,
      r.2.mem ((c.tc : Thread nD τ).loc main_v35) = Gen.V11 m outs c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          Prog.lift (.customCall (Pipeline.entry 6) ()),
          Prog.lift (.customCall (Pipeline.entry 7) ()),
          StableHlo.seq hostOps8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, hpre0 c, (hpost0 c).trans (hpre1 c), (hpost1 c).trans (hpre2 c), (hpost2 c).trans (hpre3 c), hpost3 c, hpre4 c, (hpost4 c).trans (hpre5 c), (hpost5 c).trans (hpre6 c), (hpost6 c).trans (hpre7 c), hpost7 c, sep_mono .rfl (hE8 c)⟩)
    (hinit := ?_) (QY := fun c s => s.mem ((c.tc : Thread nD τ).loc main_v35) = Gen.V11 m outs c main_v35 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v35) (Finset.mem_filter.mpr ⟨StableHlo.devRef_mem_tcRefs main_v35, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c),
        (h (Proc.devRef .tc main_arg5) (Finset.mem_filter.mpr ⟨StableHlo.devRef_mem_tcRefs main_arg5, by decide⟩)).trans (V11_main_arg5 m outs c),
        (h (Proc.devRef .tc main_arg6) (Finset.mem_filter.mpr ⟨StableHlo.devRef_mem_tcRefs main_arg6, by decide⟩)).trans (V11_main_arg6 m outs c)⟩
    · iexact HSI

end Cert.KernelIdeal.Fr

end
-- ==== Proof.Fr.Assembly.lean ====
/-
  The kernel program as a whole: what every unscoped buffer holds between two items of @main, the eight regions as
  segments over those contents, and the frame.

  Between two items core c holds every unscoped buffer at a valuation: the launch memory, then the host operations
  of a stretch applied (StableHlo.after), then, after a region, the region's output arrays at what its write-backs
  leave (the proof data's arrAt at the last point) and every other buffer as it was.  A region is entered by splitting
  its windows' arrays out of the unscoped buffers and left by putting them back at those contents; the generator
  register goes into the region's invariant and comes back; no core owes another anything.
-/
import proofs.«149401_j50302656971158_2_alg».proof.Proof.Fr.R0
import proofs.«149401_j50302656971158_2_alg».proof.Proof.Fr.R1
import proofs.«149401_j50302656971158_2_alg».proof.Proof.Fr.R2
import proofs.«149401_j50302656971158_2_alg».proof.Proof.Fr.R3
import proofs.«149401_j50302656971158_2_alg».proof.Proof.Fr.R4
import proofs.«149401_j50302656971158_2_alg».proof.Proof.Fr.R5
import proofs.«149401_j50302656971158_2_alg».proof.Proof.Fr.R6
import proofs.«149401_j50302656971158_2_alg».proof.Proof.Fr.R7
import proofs.«149401_j50302656971158_2_alg».proof.Proof.Gen.KernelIdeal.Regions
import proofs.«149401_j50302656971158_2_alg».proof.Proof.Fr.RunCond

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev rd (W : Dev nD → Valuation τ sig (Elt F)) : (c : Dev nD) → (b : Ref sig .tc) → Buf (Elt F) ((c : Thread nD τ).loc b) :=
  fun c b => W c b

/-! ## The buffers' contents between items -/

/-- After the first host stretch: region 0's entry. -/
abbrev U1 : Dev nD → Valuation τ sig (Elt F) := fun c => Gen.V1 m c
/-- After region 0: its output arrays at what the write-backs leave, every other buffer as entered. -/
def U2 (c : Dev nD) : Valuation τ sig (Elt F) :=
  Function.update (Function.update (U1 m c) main_v23_0 ((dat0 (rd (U1 m)) c).arrAt 2 cfg0.N)) main_v23_1 ((dat0 (rd (U1 m)) c).arrAt 3 cfg0.N)
/-- After region 1: its output arrays at what the write-backs leave, every other buffer as entered. -/
def U3 (c : Dev nD) : Valuation τ sig (Elt F) :=
  Function.update (U2 m c) main_v24 ((dat1 (rd (U2 m)) c).arrAt 3 cfg1.N)
/-- After region 2: its output arrays at what the write-backs leave, every other buffer as entered. -/
def U4 (c : Dev nD) : Valuation τ sig (Elt F) :=
  Function.update (U3 m c) main_v25 ((dat2 (rd (U3 m)) c).arrAt 7 cfg2.N)
/-- After region 3: its output arrays at what the write-backs leave, every other buffer as entered. -/
def U5 (c : Dev nD) : Valuation τ sig (Elt F) :=
  Function.update (Function.update (U4 m c) main_v26_0 ((dat3 (rd (U4 m)) c).arrAt 2 cfg3.N)) main_v26_1 ((dat3 (rd (U4 m)) c).arrAt 3 cfg3.N)
/-- After the second host stretch: region 4's entry. -/
def U6 (c : Dev nD) : Valuation τ sig (Elt F) := StableHlo.after hostOps4 (U5 m c)
/-- After region 4: its output arrays at what the write-backs leave, every other buffer as entered. -/
def U7 (c : Dev nD) : Valuation τ sig (Elt F) :=
  Function.update (Function.update (U6 m c) main_v31_0 ((dat4 (rd (U6 m)) c).arrAt 2 cfg4.N)) main_v31_1 ((dat4 (rd (U6 m)) c).arrAt 3 cfg4.N)
/-- After region 5: its output arrays at what the write-backs leave, every other buffer as entered. -/
def U8 (c : Dev nD) : Valuation τ sig (Elt F) :=
  Function.update (U7 m c) main_v32 ((dat5 (rd (U7 m)) c).arrAt 3 cfg5.N)
/-- After region 6: its output arrays at what the write-backs leave, every other buffer as entered. -/
def U9 (c : Dev nD) : Valuation τ sig (Elt F) :=
  Function.update (U8 m c) main_v33 ((dat6 (rd (U8 m)) c).arrAt 7 cfg6.N)
/-- After region 7: its output arrays at what the write-backs leave, every other buffer as entered. -/
def U10 (c : Dev nD) : Valuation τ sig (Elt F) :=
  Function.update (U9 m c) main_v34 ((dat7 (rd (U9 m)) c).arrAt 3 cfg7.N)
/-- After the last host stretch. -/
def U11 (c : Dev nD) : Valuation τ sig (Elt F) := StableHlo.after hostOps8 (U10 m c)

/-- What the regions leave, as the generated valuations read it. -/
def outs : Gen.Outs (F := F) := fun J r c =>
  match J with
  | 2 => U2 m c r | 3 => U3 m c r | 4 => U4 m c r | 5 => U5 m c r
  | 7 => U7 m c r | 8 => U8 m c r | 9 => U9 m c r | 10 => U10 m c r
  | _ => U1 m c r

/-! ## They are the generated valuations at these `outs` -/

theorem V1_eq (c : Dev nD) : Gen.V1 m c = U1 m c := rfl
theorem V2_eq (c : Dev nD) : Gen.V2 m (outs m) c = U2 m c := by
  have hne : (Proc.devRef .tc main_v23_0 : DevRef τ sig) ≠ (Proc.devRef .tc main_v23_1 : DevRef τ sig) := StableHlo.devRef_ne_of_ne (by decide)
  show Function.update (Function.update (Gen.V1 m c) main_v23_0 (U2 m c main_v23_0)) main_v23_1 (U2 m c main_v23_1) = U2 m c
  rw [V1_eq]
  unfold U2
  rw [Function.update_self, Function.update_of_ne hne, Function.update_self]
theorem V3_eq (c : Dev nD) : Gen.V3 m (outs m) c = U3 m c := by
  show Function.update (Gen.V2 m (outs m) c) main_v24 (U3 m c main_v24) = U3 m c
  rw [V2_eq]
  unfold U3
  rw [Function.update_self]
theorem V4_eq (c : Dev nD) : Gen.V4 m (outs m) c = U4 m c := by
  show Function.update (Gen.V3 m (outs m) c) main_v25 (U4 m c main_v25) = U4 m c
  rw [V3_eq]
  unfold U4
  rw [Function.update_self]
theorem V5_eq (c : Dev nD) : Gen.V5 m (outs m) c = U5 m c := by
  have hne : (Proc.devRef .tc main_v26_0 : DevRef τ sig) ≠ (Proc.devRef .tc main_v26_1 : DevRef τ sig) := StableHlo.devRef_ne_of_ne (by decide)
  show Function.update (Function.update (Gen.V4 m (outs m) c) main_v26_0 (U5 m c main_v26_0)) main_v26_1 (U5 m c main_v26_1) = U5 m c
  rw [V4_eq]
  unfold U5
  rw [Function.update_self, Function.update_of_ne hne, Function.update_self]
theorem V6_eq (c : Dev nD) : Gen.V6 m (outs m) c = U6 m c := by
  show StableHlo.after hostOps4 (Gen.V5 m (outs m) c) = U6 m c
  rw [V5_eq]; rfl
theorem V7_eq (c : Dev nD) : Gen.V7 m (outs m) c = U7 m c := by
  have hne : (Proc.devRef .tc main_v31_0 : DevRef τ sig) ≠ (Proc.devRef .tc main_v31_1 : DevRef τ sig) := StableHlo.devRef_ne_of_ne (by decide)
  show Function.update (Function.update (Gen.V6 m (outs m) c) main_v31_0 (U7 m c main_v31_0)) main_v31_1 (U7 m c main_v31_1) = U7 m c
  rw [V6_eq]
  unfold U7
  rw [Function.update_self, Function.update_of_ne hne, Function.update_self]
theorem V8_eq (c : Dev nD) : Gen.V8 m (outs m) c = U8 m c := by
  show Function.update (Gen.V7 m (outs m) c) main_v32 (U8 m c main_v32) = U8 m c
  rw [V7_eq]
  unfold U8
  rw [Function.update_self]
theorem V9_eq (c : Dev nD) : Gen.V9 m (outs m) c = U9 m c := by
  show Function.update (Gen.V8 m (outs m) c) main_v33 (U9 m c main_v33) = U9 m c
  rw [V8_eq]
  unfold U9
  rw [Function.update_self]
theorem V10_eq (c : Dev nD) : Gen.V10 m (outs m) c = U10 m c := by
  show Function.update (Gen.V9 m (outs m) c) main_v34 (U10 m c main_v34) = U10 m c
  rw [V9_eq]
  unfold U10
  rw [Function.update_self]
theorem V11_eq (c : Dev nD) : Gen.V11 m (outs m) c = U11 m c := by
  show StableHlo.after hostOps8 (Gen.V10 m (outs m) c) = U11 m c
  rw [V10_eq]; rfl

/-! ## What a region's exit contents hold -/

/-- A host stretch leaves every buffer it does not write as it was. -/
theorem U6_of (c : Dev nD) (b : Ref sig .tc) (h : b ∉ Gen.hostOps4_W) : U6 m c b = U5 m c b :=
  StableHlo.after_of_writes_sub hostOps4 _ Gen.hostOps4_writes h
theorem U11_of (c : Dev nD) (b : Ref sig .tc) (h : b ∉ Gen.hostOps8_W) : U11 m c b = U10 m c b :=
  StableHlo.after_of_writes_sub hostOps8 _ Gen.hostOps8_writes h

theorem U2_of (c : Dev nD) (b : Ref sig .tc) (h : b ∉ ([main_v23_0, main_v23_1] : List (Ref sig .tc))) : U2 m c b = U1 m c b := by
  unfold U2
  simp only [Function.update_of_ne (StableHlo.devRef_ne_of_ne (List.ne_of_not_mem_cons (List.not_mem_of_not_mem_cons h)) : (Proc.devRef .tc b : DevRef τ sig) ≠ Proc.devRef .tc main_v23_1), Function.update_of_ne (StableHlo.devRef_ne_of_ne (List.ne_of_not_mem_cons h) : (Proc.devRef .tc b : DevRef τ sig) ≠ Proc.devRef .tc main_v23_0)]
theorem U2_main_v23_0 (c : Dev nD) : U2 m c main_v23_0 = (dat0 (rd (U1 m)) c).arrAt 2 cfg0.N := by
  unfold U2
  rw [Function.update_of_ne (StableHlo.devRef_ne_of_ne (by decide) : (Proc.devRef .tc main_v23_0 : DevRef τ sig) ≠ (Proc.devRef .tc main_v23_1 : DevRef τ sig)), Function.update_self]
theorem U2_main_v23_1 (c : Dev nD) : U2 m c main_v23_1 = (dat0 (rd (U1 m)) c).arrAt 3 cfg0.N := by
  unfold U2
  rw [Function.update_self]
theorem hF0 (c : Dev nD) (w : Fin cfg0.W) : (dat0 (rd (U1 m)) c).arrAt w cfg0.N = rd (U2 m) c (Pipeline.arrRef spec0 w) := by
  fin_cases w
  · exact ((dat0 (rd (U1 m)) c).arrAt_in 0 rfl _).trans ((A_eq0 (rd (U1 m)) c 0).trans (U2_of m c _ (by decide)).symm)
  · exact ((dat0 (rd (U1 m)) c).arrAt_in 1 rfl _).trans ((A_eq0 (rd (U1 m)) c 1).trans (U2_of m c _ (by decide)).symm)
  · exact (U2_main_v23_0 m c).symm
  · exact (U2_main_v23_1 m c).symm
theorem hrest0 (c : Dev nD) : ∀ b, b ∉ Finset.univ.image (Pipeline.arrRef spec0) → rd (U2 m) c b = rd (U1 m) c b :=
  fun b hb => U2_of m c b (by
    simp only [List.mem_cons, List.not_mem_nil, or_false, not_or]
    exact ⟨fun h => hb (h ▸ Finset.mem_image.mpr ⟨2, Finset.mem_univ _, rfl⟩), fun h => hb (h ▸ Finset.mem_image.mpr ⟨3, Finset.mem_univ _, rfl⟩)⟩)
theorem U3_of (c : Dev nD) (b : Ref sig .tc) (h : b ∉ ([main_v24] : List (Ref sig .tc))) : U3 m c b = U2 m c b := by
  unfold U3
  simp only [Function.update_of_ne (StableHlo.devRef_ne_of_ne (List.ne_of_not_mem_cons h) : (Proc.devRef .tc b : DevRef τ sig) ≠ Proc.devRef .tc main_v24)]
theorem U3_main_v24 (c : Dev nD) : U3 m c main_v24 = (dat1 (rd (U2 m)) c).arrAt 3 cfg1.N := by
  unfold U3
  rw [Function.update_self]
theorem hF1 (c : Dev nD) (w : Fin cfg1.W) : (dat1 (rd (U2 m)) c).arrAt w cfg1.N = rd (U3 m) c (Pipeline.arrRef spec1 w) := by
  fin_cases w
  · exact ((dat1 (rd (U2 m)) c).arrAt_in 0 rfl _).trans ((A_eq1 (rd (U2 m)) c 0).trans (U3_of m c _ (by decide)).symm)
  · exact ((dat1 (rd (U2 m)) c).arrAt_in 1 rfl _).trans ((A_eq1 (rd (U2 m)) c 1).trans (U3_of m c _ (by decide)).symm)
  · exact ((dat1 (rd (U2 m)) c).arrAt_in 2 rfl _).trans ((A_eq1 (rd (U2 m)) c 2).trans (U3_of m c _ (by decide)).symm)
  · exact (U3_main_v24 m c).symm
theorem hrest1 (c : Dev nD) : ∀ b, b ∉ Finset.univ.image (Pipeline.arrRef spec1) → rd (U3 m) c b = rd (U2 m) c b :=
  fun b hb => U3_of m c b (by
    simp only [List.mem_cons, List.not_mem_nil, or_false, not_or]
    exact fun h => hb (h ▸ Finset.mem_image.mpr ⟨3, Finset.mem_univ _, rfl⟩))
theorem U4_of (c : Dev nD) (b : Ref sig .tc) (h : b ∉ ([main_v25] : List (Ref sig .tc))) : U4 m c b = U3 m c b := by
  unfold U4
  simp only [Function.update_of_ne (StableHlo.devRef_ne_of_ne (List.ne_of_not_mem_cons h) : (Proc.devRef .tc b : DevRef τ sig) ≠ Proc.devRef .tc main_v25)]
theorem U4_main_v25 (c : Dev nD) : U4 m c main_v25 = (dat2 (rd (U3 m)) c).arrAt 7 cfg2.N := by
  unfold U4
  rw [Function.update_self]
theorem hF2 (c : Dev nD) (w : Fin cfg2.W) : (dat2 (rd (U3 m)) c).arrAt w cfg2.N = rd (U4 m) c (Pipeline.arrRef spec2 w) := by
  fin_cases w
  · exact ((dat2 (rd (U3 m)) c).arrAt_in 0 rfl _).trans ((A_eq2 (rd (U3 m)) c 0).trans (U4_of m c _ (by decide)).symm)
  · exact ((dat2 (rd (U3 m)) c).arrAt_in 1 rfl _).trans ((A_eq2 (rd (U3 m)) c 1).trans (U4_of m c _ (by decide)).symm)
  · exact ((dat2 (rd (U3 m)) c).arrAt_in 2 rfl _).trans ((A_eq2 (rd (U3 m)) c 2).trans (U4_of m c _ (by decide)).symm)
  · exact ((dat2 (rd (U3 m)) c).arrAt_in 3 rfl _).trans ((A_eq2 (rd (U3 m)) c 3).trans (U4_of m c _ (by decide)).symm)
  · exact ((dat2 (rd (U3 m)) c).arrAt_in 4 rfl _).trans ((A_eq2 (rd (U3 m)) c 4).trans (U4_of m c _ (by decide)).symm)
  · exact ((dat2 (rd (U3 m)) c).arrAt_in 5 rfl _).trans ((A_eq2 (rd (U3 m)) c 5).trans (U4_of m c _ (by decide)).symm)
  · exact ((dat2 (rd (U3 m)) c).arrAt_in 6 rfl _).trans ((A_eq2 (rd (U3 m)) c 6).trans (U4_of m c _ (by decide)).symm)
  · exact (U4_main_v25 m c).symm
theorem hrest2 (c : Dev nD) : ∀ b, b ∉ Finset.univ.image (Pipeline.arrRef spec2) → rd (U4 m) c b = rd (U3 m) c b :=
  fun b hb => U4_of m c b (by
    simp only [List.mem_cons, List.not_mem_nil, or_false, not_or]
    exact fun h => hb (h ▸ Finset.mem_image.mpr ⟨7, Finset.mem_univ _, rfl⟩))
theorem U5_of (c : Dev nD) (b : Ref sig .tc) (h : b ∉ ([main_v26_0, main_v26_1] : List (Ref sig .tc))) : U5 m c b = U4 m c b := by
  unfold U5
  simp only [Function.update_of_ne (StableHlo.devRef_ne_of_ne (List.ne_of_not_mem_cons (List.not_mem_of_not_mem_cons h)) : (Proc.devRef .tc b : DevRef τ sig) ≠ Proc.devRef .tc main_v26_1), Function.update_of_ne (StableHlo.devRef_ne_of_ne (List.ne_of_not_mem_cons h) : (Proc.devRef .tc b : DevRef τ sig) ≠ Proc.devRef .tc main_v26_0)]
theorem U5_main_v26_0 (c : Dev nD) : U5 m c main_v26_0 = (dat3 (rd (U4 m)) c).arrAt 2 cfg3.N := by
  unfold U5
  rw [Function.update_of_ne (StableHlo.devRef_ne_of_ne (by decide) : (Proc.devRef .tc main_v26_0 : DevRef τ sig) ≠ (Proc.devRef .tc main_v26_1 : DevRef τ sig)), Function.update_self]
theorem U5_main_v26_1 (c : Dev nD) : U5 m c main_v26_1 = (dat3 (rd (U4 m)) c).arrAt 3 cfg3.N := by
  unfold U5
  rw [Function.update_self]
theorem hF3 (c : Dev nD) (w : Fin cfg3.W) : (dat3 (rd (U4 m)) c).arrAt w cfg3.N = rd (U5 m) c (Pipeline.arrRef spec3 w) := by
  fin_cases w
  · exact ((dat3 (rd (U4 m)) c).arrAt_in 0 rfl _).trans ((A_eq3 (rd (U4 m)) c 0).trans (U5_of m c _ (by decide)).symm)
  · exact ((dat3 (rd (U4 m)) c).arrAt_in 1 rfl _).trans ((A_eq3 (rd (U4 m)) c 1).trans (U5_of m c _ (by decide)).symm)
  · exact (U5_main_v26_0 m c).symm
  · exact (U5_main_v26_1 m c).symm
theorem hrest3 (c : Dev nD) : ∀ b, b ∉ Finset.univ.image (Pipeline.arrRef spec3) → rd (U5 m) c b = rd (U4 m) c b :=
  fun b hb => U5_of m c b (by
    simp only [List.mem_cons, List.not_mem_nil, or_false, not_or]
    exact ⟨fun h => hb (h ▸ Finset.mem_image.mpr ⟨2, Finset.mem_univ _, rfl⟩), fun h => hb (h ▸ Finset.mem_image.mpr ⟨3, Finset.mem_univ _, rfl⟩)⟩)
theorem U7_of (c : Dev nD) (b : Ref sig .tc) (h : b ∉ ([main_v31_0, main_v31_1] : List (Ref sig .tc))) : U7 m c b = U6 m c b := by
  unfold U7
  simp only [Function.update_of_ne (StableHlo.devRef_ne_of_ne (List.ne_of_not_mem_cons (List.not_mem_of_not_mem_cons h)) : (Proc.devRef .tc b : DevRef τ sig) ≠ Proc.devRef .tc main_v31_1), Function.update_of_ne (StableHlo.devRef_ne_of_ne (List.ne_of_not_mem_cons h) : (Proc.devRef .tc b : DevRef τ sig) ≠ Proc.devRef .tc main_v31_0)]
theorem U7_main_v31_0 (c : Dev nD) : U7 m c main_v31_0 = (dat4 (rd (U6 m)) c).arrAt 2 cfg4.N := by
  unfold U7
  rw [Function.update_of_ne (StableHlo.devRef_ne_of_ne (by decide) : (Proc.devRef .tc main_v31_0 : DevRef τ sig) ≠ (Proc.devRef .tc main_v31_1 : DevRef τ sig)), Function.update_self]
theorem U7_main_v31_1 (c : Dev nD) : U7 m c main_v31_1 = (dat4 (rd (U6 m)) c).arrAt 3 cfg4.N := by
  unfold U7
  rw [Function.update_self]
theorem hF4 (c : Dev nD) (w : Fin cfg4.W) : (dat4 (rd (U6 m)) c).arrAt w cfg4.N = rd (U7 m) c (Pipeline.arrRef spec4 w) := by
  fin_cases w
  · exact ((dat4 (rd (U6 m)) c).arrAt_in 0 rfl _).trans ((A_eq4 (rd (U6 m)) c 0).trans (U7_of m c _ (by decide)).symm)
  · exact ((dat4 (rd (U6 m)) c).arrAt_in 1 rfl _).trans ((A_eq4 (rd (U6 m)) c 1).trans (U7_of m c _ (by decide)).symm)
  · exact (U7_main_v31_0 m c).symm
  · exact (U7_main_v31_1 m c).symm
theorem hrest4 (c : Dev nD) : ∀ b, b ∉ Finset.univ.image (Pipeline.arrRef spec4) → rd (U7 m) c b = rd (U6 m) c b :=
  fun b hb => U7_of m c b (by
    simp only [List.mem_cons, List.not_mem_nil, or_false, not_or]
    exact ⟨fun h => hb (h ▸ Finset.mem_image.mpr ⟨2, Finset.mem_univ _, rfl⟩), fun h => hb (h ▸ Finset.mem_image.mpr ⟨3, Finset.mem_univ _, rfl⟩)⟩)
theorem U8_of (c : Dev nD) (b : Ref sig .tc) (h : b ∉ ([main_v32] : List (Ref sig .tc))) : U8 m c b = U7 m c b := by
  unfold U8
  simp only [Function.update_of_ne (StableHlo.devRef_ne_of_ne (List.ne_of_not_mem_cons h) : (Proc.devRef .tc b : DevRef τ sig) ≠ Proc.devRef .tc main_v32)]
theorem U8_main_v32 (c : Dev nD) : U8 m c main_v32 = (dat5 (rd (U7 m)) c).arrAt 3 cfg5.N := by
  unfold U8
  rw [Function.update_self]
theorem hF5 (c : Dev nD) (w : Fin cfg5.W) : (dat5 (rd (U7 m)) c).arrAt w cfg5.N = rd (U8 m) c (Pipeline.arrRef spec5 w) := by
  fin_cases w
  · exact ((dat5 (rd (U7 m)) c).arrAt_in 0 rfl _).trans ((A_eq5 (rd (U7 m)) c 0).trans (U8_of m c _ (by decide)).symm)
  · exact ((dat5 (rd (U7 m)) c).arrAt_in 1 rfl _).trans ((A_eq5 (rd (U7 m)) c 1).trans (U8_of m c _ (by decide)).symm)
  · exact ((dat5 (rd (U7 m)) c).arrAt_in 2 rfl _).trans ((A_eq5 (rd (U7 m)) c 2).trans (U8_of m c _ (by decide)).symm)
  · exact (U8_main_v32 m c).symm
theorem hrest5 (c : Dev nD) : ∀ b, b ∉ Finset.univ.image (Pipeline.arrRef spec5) → rd (U8 m) c b = rd (U7 m) c b :=
  fun b hb => U8_of m c b (by
    simp only [List.mem_cons, List.not_mem_nil, or_false, not_or]
    exact fun h => hb (h ▸ Finset.mem_image.mpr ⟨3, Finset.mem_univ _, rfl⟩))
theorem U9_of (c : Dev nD) (b : Ref sig .tc) (h : b ∉ ([main_v33] : List (Ref sig .tc))) : U9 m c b = U8 m c b := by
  unfold U9
  simp only [Function.update_of_ne (StableHlo.devRef_ne_of_ne (List.ne_of_not_mem_cons h) : (Proc.devRef .tc b : DevRef τ sig) ≠ Proc.devRef .tc main_v33)]
theorem U9_main_v33 (c : Dev nD) : U9 m c main_v33 = (dat6 (rd (U8 m)) c).arrAt 7 cfg6.N := by
  unfold U9
  rw [Function.update_self]
theorem hF6 (c : Dev nD) (w : Fin cfg6.W) : (dat6 (rd (U8 m)) c).arrAt w cfg6.N = rd (U9 m) c (Pipeline.arrRef spec6 w) := by
  fin_cases w
  · exact ((dat6 (rd (U8 m)) c).arrAt_in 0 rfl _).trans ((A_eq6 (rd (U8 m)) c 0).trans (U9_of m c _ (by decide)).symm)
  · exact ((dat6 (rd (U8 m)) c).arrAt_in 1 rfl _).trans ((A_eq6 (rd (U8 m)) c 1).trans (U9_of m c _ (by decide)).symm)
  · exact ((dat6 (rd (U8 m)) c).arrAt_in 2 rfl _).trans ((A_eq6 (rd (U8 m)) c 2).trans (U9_of m c _ (by decide)).symm)
  · exact ((dat6 (rd (U8 m)) c).arrAt_in 3 rfl _).trans ((A_eq6 (rd (U8 m)) c 3).trans (U9_of m c _ (by decide)).symm)
  · exact ((dat6 (rd (U8 m)) c).arrAt_in 4 rfl _).trans ((A_eq6 (rd (U8 m)) c 4).trans (U9_of m c _ (by decide)).symm)
  · exact ((dat6 (rd (U8 m)) c).arrAt_in 5 rfl _).trans ((A_eq6 (rd (U8 m)) c 5).trans (U9_of m c _ (by decide)).symm)
  · exact ((dat6 (rd (U8 m)) c).arrAt_in 6 rfl _).trans ((A_eq6 (rd (U8 m)) c 6).trans (U9_of m c _ (by decide)).symm)
  · exact (U9_main_v33 m c).symm
theorem hrest6 (c : Dev nD) : ∀ b, b ∉ Finset.univ.image (Pipeline.arrRef spec6) → rd (U9 m) c b = rd (U8 m) c b :=
  fun b hb => U9_of m c b (by
    simp only [List.mem_cons, List.not_mem_nil, or_false, not_or]
    exact fun h => hb (h ▸ Finset.mem_image.mpr ⟨7, Finset.mem_univ _, rfl⟩))
theorem U10_of (c : Dev nD) (b : Ref sig .tc) (h : b ∉ ([main_v34] : List (Ref sig .tc))) : U10 m c b = U9 m c b := by
  unfold U10
  simp only [Function.update_of_ne (StableHlo.devRef_ne_of_ne (List.ne_of_not_mem_cons h) : (Proc.devRef .tc b : DevRef τ sig) ≠ Proc.devRef .tc main_v34)]
theorem U10_main_v34 (c : Dev nD) : U10 m c main_v34 = (dat7 (rd (U9 m)) c).arrAt 3 cfg7.N := by
  unfold U10
  rw [Function.update_self]
theorem hF7 (c : Dev nD) (w : Fin cfg7.W) : (dat7 (rd (U9 m)) c).arrAt w cfg7.N = rd (U10 m) c (Pipeline.arrRef spec7 w) := by
  fin_cases w
  · exact ((dat7 (rd (U9 m)) c).arrAt_in 0 rfl _).trans ((A_eq7 (rd (U9 m)) c 0).trans (U10_of m c _ (by decide)).symm)
  · exact ((dat7 (rd (U9 m)) c).arrAt_in 1 rfl _).trans ((A_eq7 (rd (U9 m)) c 1).trans (U10_of m c _ (by decide)).symm)
  · exact ((dat7 (rd (U9 m)) c).arrAt_in 2 rfl _).trans ((A_eq7 (rd (U9 m)) c 2).trans (U10_of m c _ (by decide)).symm)
  · exact (U10_main_v34 m c).symm
theorem hrest7 (c : Dev nD) : ∀ b, b ∉ Finset.univ.image (Pipeline.arrRef spec7) → rd (U10 m) c b = rd (U9 m) c b :=
  fun b hb => U10_of m c b (by
    simp only [List.mem_cons, List.not_mem_nil, or_false, not_or]
    exact fun h => hb (h ▸ Finset.mem_image.mpr ⟨3, Finset.mem_univ _, rfl⟩))

/-! ## The proof data family and the thread state -/

/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- Every pipeline's proof data, each at its region's entry contents. -/
def pdats : (p : Fin 8) → (c : Dev nD) → Dat τ (Elt F) Unit ℕ (UR sig nD τ) ℕ (cfgs p) c
  | ⟨0, _⟩ => fun c => dat0 (rd (U1 m)) c
  | ⟨1, _⟩ => fun c => dat1 (rd (U2 m)) c
  | ⟨2, _⟩ => fun c => dat2 (rd (U3 m)) c
  | ⟨3, _⟩ => fun c => dat3 (rd (U4 m)) c
  | ⟨4, _⟩ => fun c => dat4 (rd (U6 m)) c
  | ⟨5, _⟩ => fun c => dat5 (rd (U7 m)) c
  | ⟨6, _⟩ => fun c => dat6 (rd (U8 m)) c
  | ⟨7, _⟩ => fun c => dat7 (rd (U9 m)) c

-- unifying a library lemma stated over the pinned configuration with the printed one unfolds plain definitions in a metavariable's type
set_option backward.isDefEq.respectTransparency.types false in
/-- Region 0 over the thread state: entered from every unscoped buffer at `U1`, left at `U2`. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (rd (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (rd (U1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (rd (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (rd (U1 m)) c)
    unfold Pipeline.ΦA
    iintro ⟨Hp, -, Hr⟩
    isplitl [Hr]; · iexact Hr
    iexact Hp
  hout c := by
    rw [Pipeline.ownSems0_none]
    refine (hout0 (rd (U1 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (rd (U1 m) c) (rd (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 1 over the thread state: entered from every unscoped buffer at `U2`, left at `U3`. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (rd (U2 m)) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (rd (U2 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (rd (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (rd (U2 m)) c)
    unfold Pipeline.ΦA
    iintro ⟨Hp, -, Hr⟩
    isplitl [Hr]; · iexact Hr
    iexact Hp
  hout c := by
    rw [Pipeline.ownSems0_none]
    refine (hout1 (rd (U2 m)) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (rd (U2 m) c) (rd (U3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 2 over the thread state: entered from every unscoped buffer at `U3`, left at `U4`. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (rd (U3 m)) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (rd (U3 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (rd (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hin2 (rd (U3 m)) c)
    unfold Pipeline.ΦA
    iintro ⟨Hp, -, Hr⟩
    isplitl [Hr]; · iexact Hr
    iexact Hp
  hout c := by
    rw [Pipeline.ownSems0_none]
    refine (hout2 (rd (U3 m)) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (rd (U3 m) c) (rd (U4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 3 over the thread state: entered from every unscoped buffer at `U4`, left at `U5`. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (rd (U4 m)) c).loose
  hwaits := Pipeline.hwaits_of_owed_zero _ _ _ _ L lv 3 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec3 c (rd (U4 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (rd (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (rd (U4 m)) c)
    unfold Pipeline.ΦA
    iintro ⟨Hp, -, Hr⟩
    isplitl [Hr]; · iexact Hr
    iexact Hp
  hout c := by
    rw [Pipeline.ownSems0_none]
    refine (hout3 (rd (U4 m)) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (rd (U4 m) c) (rd (U5 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 4 over the thread state: entered from every unscoped buffer at `U6`, left at `U7`. -/
def reg4 : Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (rd (U6 m)) c).loose
  hwaits := Pipeline.hwaits_of_owed_zero _ _ _ _ L lv 4 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec4 c (rd (U6 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (rd (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (hin4 (rd (U6 m)) c)
    unfold Pipeline.ΦA
    iintro ⟨Hp, -, Hr⟩
    isplitl [Hr]; · iexact Hr
    iexact Hp
  hout c := by
    rw [Pipeline.ownSems0_none]
    refine (hout4 (rd (U6 m)) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (rd (U6 m) c) (rd (U7 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 5 over the thread state: entered from every unscoped buffer at `U7`, left at `U8`. -/
def reg5 : Pipeline.RegionSeg (pcfgs (F := F)) Gen.adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (rd (U7 m)) c).loose
  hwaits := Pipeline.hwaits_of_owed_zero _ _ _ _ L lv 5 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec5 c (rd (U7 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (rd (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec5 c from ?_).trans (hin5 (rd (U7 m)) c)
    unfold Pipeline.ΦA
    iintro ⟨Hp, -, Hr⟩
    isplitl [Hr]; · iexact Hr
    iexact Hp
  hout c := by
    rw [Pipeline.ownSems0_none]
    refine (hout5 (rd (U7 m)) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (rd (U7 m) c) (rd (U8 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 6 over the thread state: entered from every unscoped buffer at `U8`, left at `U9`. -/
def reg6 : Pipeline.RegionSeg (pcfgs (F := F)) Gen.adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (rd (U8 m)) c).loose
  hwaits := Pipeline.hwaits_of_owed_zero _ _ _ _ L lv 6 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec6 c (rd (U8 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (rd (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec6 c from ?_).trans (hin6 (rd (U8 m)) c)
    unfold Pipeline.ΦA
    iintro ⟨Hp, -, Hr⟩
    isplitl [Hr]; · iexact Hr
    iexact Hp
  hout c := by
    rw [Pipeline.ownSems0_none]
    refine (hout6 (rd (U8 m)) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (rd (U8 m) c) (rd (U9 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- Region 7 over the thread state: entered from every unscoped buffer at `U9`, left at `U10`. -/
def reg7 : Pipeline.RegionSeg (pcfgs (F := F)) Gen.adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (rd (U9 m)) c).loose
  hwaits := Pipeline.hwaits_of_owed_zero _ _ _ _ L lv 7 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec7 c (rd (U9 m) c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (rd (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec7 c from ?_).trans (hin7 (rd (U9 m)) c)
    unfold Pipeline.ΦA
    iintro ⟨Hp, -, Hr⟩
    isplitl [Hr]; · iexact Hr
    iexact Hp
  hout c := by
    rw [Pipeline.ownSems0_none]
    refine (hout7 (rd (U9 m)) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (rd (U9 m) c) (rd (U10 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame, and the run with the result named -/

variable (ρ : Dev nD → PrngReg)

/-- What the launch hands each core beside its buffers yields the state that rides along: its generator register and nothing owed. -/
theorem hR (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ R c := by
  iintro ⟨-, HO, -, Hp, -⟩
  isplitl [Hp]; · iexists _; iexact Hp
  iexists ∅; iexact HO

/-- The same on every core at once. -/
theorem hRall :
    (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R c) : sProp 𝕄) :=
  bigSep_mono fun c _ => hR (F := F) ρ c

set_option backward.isDefEq.respectTransparency.types false in
/-- THE FRAME: from any memory with zero counters every weakly fair execution of @main terminates, nothing faulting,
    and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m (EP := emb₁) (ι := ()) (𝒱₀ := Variants.none) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      iintro ⟨H, -⟩
      imodintro
      iapply (hRall (F := F) ρ)
      iexact H)
    (hE8 := fun c => by iintro ⟨-, HO⟩; iexact HO)
    (R0 := reg0 m) (hpre0 := fun c => by exact .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V3_eq]; exact .rfl) (hpost2 := fun c => by rw [V4_eq]; exact .rfl)
    (R3 := reg3 m) (hpre3 := fun c => by rw [V4_eq]; exact .rfl) (hpost3 := fun c => by rw [V5_eq]; exact .rfl)
    (R4 := reg4 m) (hpre4 := fun c => by rw [V6_eq]; exact .rfl) (hpost4 := fun c => by rw [V7_eq]; exact .rfl)
    (R5 := reg5 m) (hpre5 := fun c => by rw [V7_eq]; exact .rfl) (hpost5 := fun c => by rw [V8_eq]; exact .rfl)
    (R6 := reg6 m) (hpre6 := fun c => by rw [V8_eq]; exact .rfl) (hpost6 := fun c => by rw [V9_eq]; exact .rfl)
    (R7 := reg7 m) (hpre7 := fun c => by rw [V9_eq]; exact .rfl) (hpost7 := fun c => by rw [V10_eq]; exact .rfl)

set_option backward.isDefEq.respectTransparency.types false in
/-- The same run with the result buffer named: it ends at the last valuation's contents. -/
theorem run_value : θ_run defs (onTc (τ := τ) (main (F := F))) ⟨m, fun _ => 0, ρ⟩ (fun r => ∀ c : Dev nD,
      r.2.mem ((c.tc : Thread nD τ).loc main_v35) = U11 m c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1).trans (congrFun (V11_eq m c) _), (h c).2⟩) (
  run_cond m (EP := emb₁) (ι := ()) (𝒱₀ := Variants.none) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      iintro ⟨H, -⟩
      imodintro
      iapply (hRall (F := F) ρ)
      iexact H)
    (hE8 := fun c => by iintro ⟨-, HO⟩; iexact HO)
    (R0 := reg0 m) (hpre0 := fun c => by exact .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V3_eq]; exact .rfl) (hpost2 := fun c => by rw [V4_eq]; exact .rfl)
    (R3 := reg3 m) (hpre3 := fun c => by rw [V4_eq]; exact .rfl) (hpost3 := fun c => by rw [V5_eq]; exact .rfl)
    (R4 := reg4 m) (hpre4 := fun c => by rw [V6_eq]; exact .rfl) (hpost4 := fun c => by rw [V7_eq]; exact .rfl)
    (R5 := reg5 m) (hpre5 := fun c => by rw [V7_eq]; exact .rfl) (hpost5 := fun c => by rw [V8_eq]; exact .rfl)
    (R6 := reg6 m) (hpre6 := fun c => by rw [V8_eq]; exact .rfl) (hpost6 := fun c => by rw [V9_eq]; exact .rfl)
    (R7 := reg7 m) (hpre7 := fun c => by rw [V9_eq]; exact .rfl) (hpost7 := fun c => by rw [V10_eq]; exact .rfl))

end Cert.KernelIdeal.Fr

end
-- ==== Proof.Spec.lean ====
/-
  The mathematics of the cell, as plain functions on arrays of extended reals.

  A graph-convolutional gated recurrent cell on N = 4096 nodes, batch B = 32, S = 128 features per node
  (64 input features beside 64 state features).  The features of all nodes are laid out as one
  4096 x 4096 matrix whose row is the node and whose column is  s * 32 + b  (feature s, batch entry b).
  One diffusion applies the support matrix A twice:  x1 = A * x0,  x2 = 2 * (A * x1) - x0  (the second
  Chebyshev term), and a gate is an activation of  x0 * W0 + x1 * W1 + x2 * W2 + bias  read per batch
  entry, node and output unit.  The weights arrive as one 384-row matrix whose row  s * 3 + m  belongs to
  feature s of term m.  Every function below is stated index by index over literal extents.
-/
import Idealize.ShloMosaic.PureOps.Ideal
import Idealize.ShloMosaic.Lib.ValueIdx

noncomputable section

namespace Cert.Spec

open Idealize.ShloMosaic Idealize.ShloMosaic.ValueIdx

/-- A matrix, and a rank-3 array, of extended reals. -/
abbrev Mat (a b : Nat) : Type := (⟨2, ![a, b]⟩ : Shape).Idx → EReal
abbrev Ten (a b c : Nat) : Type := (⟨3, ![a, b, c]⟩ : Shape).Idx → EReal

/-- The two float literals of the cell, kept as their words. -/
def two : EReal := Ideal.ofBits .f32 0x40000000#32
def one : EReal := Ideal.ofBits .f32 0x3F800000#32

/-- The product of two 4096 x 4096 matrices. -/
def mm (A X : Mat 4096 4096) : Mat 4096 4096 :=
  fun i => ∑ k : Fin 4096, A (ix2 (i 0) k) * X (ix2 k (i 1))

/-- The second Chebyshev term  2 * (A * X) - C. -/
def cheb (A X C : Mat 4096 4096) : Mat 4096 4096 :=
  fun i => two * mm A X i - C i

/-- Column  s * 32 + b  of the node-major layout: feature s of batch entry b. -/
def col (s : Fin 128) (b : Fin 32) : Fin 4096 := ⟨s.val * 32 + b.val, by omega⟩

/-- Row  s * 3 + m  of the stacked weights: feature s of diffusion term m. -/
def wrow (s : Fin 128) (m : Fin 3) : Fin 384 := ⟨s.val * 3 + m.val, by omega⟩

/-- The weights of diffusion term m cut out of the stacked weights. -/
def wsl {O : Nat} (m : Fin 3) (W : Mat 384 O) : Mat 128 O :=
  fun i => W (ix2 (wrow (i 0) m) (i 1))

/-- A gate before its split: per batch entry b, node n and unit o, the activation of the three terms'
    projections summed in the order ((term 0 + term 1) + term 2) + bias. -/
def proj (act : EReal → EReal) {O : Nat} (x0 x1 x2 : Mat 4096 4096) (w0 w1 w2 : Mat 128 O) (bias : Mat 1 O) :
    Ten 32 4096 O :=
  fun i => act ((((∑ s : Fin 128, x0 (ix2 (i 1) (col s (i 0))) * w0 (ix2 s (i 2)))
      + ∑ s : Fin 128, x1 (ix2 (i 1) (col s (i 0))) * w1 (ix2 s (i 2)))
      + ∑ s : Fin 128, x2 (ix2 (i 1) (col s (i 0))) * w2 (ix2 s (i 2)))
      + bias (ix2 0 (i 2)))

/-- The lower and upper half of the 128 gate units. -/
def lo (u : Fin 64) : Fin 128 := ⟨u.val, by omega⟩
def hi (u : Fin 64) : Fin 128 := ⟨64 + u.val, by omega⟩

/-- The reset gate applied to the state, and the update gate. -/
def gateR (ru : Ten 32 4096 128) (h : Ten 32 4096 64) : Ten 32 4096 64 :=
  fun i => ru (ix3 (i 0) (i 1) (lo (i 2))) * h i
def gateU (ru : Ten 32 4096 128) : Ten 32 4096 64 :=
  fun i => ru (ix3 (i 0) (i 1) (hi (i 2)))

/-- The new state  u * h + (1 - u) * c. -/
def blend (u h c : Ten 32 4096 64) : Ten 32 4096 64 :=
  fun i => u i * h i + (one - u i) * c i

end Cert.Spec

end
-- ==== Proof.Bridge.Algebra.lean ====
/-
  Regrouping of finite sums of extended reals: the 384 rows of the stacked weights read as 128 features
  times 3 diffusion terms, and a 4096-term contraction read as two halves of 2048 terms.  Only the
  commutative-monoid structure of addition on the extended reals is used.
-/
import proofs.«149401_j50302656971158_2_alg».proof.Proof.Spec
import Idealize.ShloMosaic.PureOps.Ideal.Laws

noncomputable section

namespace Cert.Spec

open Idealize.ShloMosaic

/-- The row  s * 3 + m  is the image of the pair (s, m) under the standard bijection
    Fin 128 x Fin 3 = Fin 384. -/
theorem wrow_eq_prod (s : Fin 128) (m : Fin 3) :
    wrow s m = (finProdFinEquiv (m := 128) (n := 3) (s, m) : Fin 384) := by
  apply Fin.ext
  simp only [wrow, finProdFinEquiv, Equiv.coe_fn_mk]
  omega

/-- A sum over the 384 stacked rows, regrouped by row = s * 3 + m and split over the three terms m. -/
theorem sum_stacked (f : Fin 384 → EReal) :
    ∑ j, f j = ((∑ s : Fin 128, f (wrow s 0)) + ∑ s : Fin 128, f (wrow s 1))
      + ∑ s : Fin 128, f (wrow s 2) := by
  have h : ∑ j, f j = ∑ p : Fin 128 × Fin 3, f (wrow p.1 p.2) := by
    refine (Fintype.sum_equiv (finProdFinEquiv (m := 128) (n := 3))
      (fun p => f (wrow p.1 p.2)) f ?_).symm
    rintro ⟨s, m⟩
    rw [wrow_eq_prod]
  rw [h, Fintype.sum_prod_type]
  simp only [Fin.sum_univ_three, Finset.sum_add_distrib]

/-- A sum of 4096 terms as the sum of its first and its second 2048 terms. -/
theorem sum_halves (f : Fin 4096 → EReal) :
    ∑ k, f k = (∑ k : Fin 2048, f ⟨k.val, by omega⟩) + ∑ k : Fin 2048, f ⟨2048 + k.val, by omega⟩ :=
  Fin.sum_univ_add (a := 2048) (b := 2048) f

/-- An accumulator that starts at zero and receives two summands holds their sum. -/
theorem zero_add_sums (a b : EReal) : (0 + a) + b = a + b := by
  rw [zero_add]

/-- The word 0x00000000 read as a 32-bit float is the extended real zero. -/
theorem zero_word : Ideal.ofBits .f32 0x00000000#32 = (0 : EReal) := Ideal.ofBits_zero_f32

/-- An accumulator reset to the zero word and then given two summands holds their sum. -/
theorem zero_word_add_sums (a b : EReal) : (Ideal.ofBits .f32 0x00000000#32 + a) + b = a + b := by
  rw [zero_word, zero_add]

end Cert.Spec

end
-- ==== Proof.Bridge.Mm.lean ====
/-
  The 4096-term matrix product accumulated over two tiles of 2048 contraction indices: an accumulator
  that starts at zero and receives the partial product of each tile in turn holds the whole product,
  and twice that minus a third matrix is the second Chebyshev term.
-/
import proofs.«149401_j50302656971158_2_alg».proof.Proof.Bridge.Algebra

noncomputable section

namespace Cert.Spec

open Idealize.ShloMosaic Idealize.ShloMosaic.ValueIdx

/-- The entry of the product as the partial product over contraction indices below 2048 plus the partial
    product over the indices from 2048 on. -/
theorem mm_eq_halves (A X : Mat 4096 4096) (i : (⟨2, ![4096, 4096]⟩ : Shape).Idx) :
    mm A X i = (∑ k : Fin 2048, A (ix2 (i 0) ⟨k.val, by omega⟩) * X (ix2 ⟨k.val, by omega⟩ (i 1)))
      + ∑ k : Fin 2048, A (ix2 (i 0) ⟨2048 + k.val, by omega⟩) * X (ix2 ⟨2048 + k.val, by omega⟩ (i 1)) :=
  sum_halves fun k => A (ix2 (i 0) k) * X (ix2 k (i 1))

/-- Two families of 2048 summands that are, term by term, the products of the lower and of the upper
    contraction tile add up, from a zero accumulator, to the entry of the product. -/
theorem mm_of_two_tiles (A X : Mat 4096 4096) (i : (⟨2, ![4096, 4096]⟩ : Shape).Idx) (p q : Fin 2048 → EReal)
    (hp : ∀ k : Fin 2048, p k = A (ix2 (i 0) ⟨k.val, by omega⟩) * X (ix2 ⟨k.val, by omega⟩ (i 1)))
    (hq : ∀ k : Fin 2048, q k = A (ix2 (i 0) ⟨2048 + k.val, by omega⟩) * X (ix2 ⟨2048 + k.val, by omega⟩ (i 1))) :
    (0 + ∑ k, p k) + ∑ k, q k = mm A X i := by
  rw [zero_add_sums, mm_eq_halves, Finset.sum_congr rfl fun k _ => hp k, Finset.sum_congr rfl fun k _ => hq k]

/-- The same with the accumulator reset to the zero word of a 32-bit float. -/
theorem mm_of_two_tiles_word (A X : Mat 4096 4096) (i : (⟨2, ![4096, 4096]⟩ : Shape).Idx) (p q : Fin 2048 → EReal)
    (hp : ∀ k : Fin 2048, p k = A (ix2 (i 0) ⟨k.val, by omega⟩) * X (ix2 ⟨k.val, by omega⟩ (i 1)))
    (hq : ∀ k : Fin 2048, q k = A (ix2 (i 0) ⟨2048 + k.val, by omega⟩) * X (ix2 ⟨2048 + k.val, by omega⟩ (i 1))) :
    (Ideal.ofBits .f32 0x00000000#32 + ∑ k, p k) + ∑ k, q k = mm A X i := by
  rw [zero_word]; exact mm_of_two_tiles A X i p q hp hq

/-- Twice the two-tile accumulation minus the entry of a third matrix is the second Chebyshev term. -/
theorem cheb_of_two_tiles (A X C : Mat 4096 4096) (i : (⟨2, ![4096, 4096]⟩ : Shape).Idx) (p q : Fin 2048 → EReal)
    (hp : ∀ k : Fin 2048, p k = A (ix2 (i 0) ⟨k.val, by omega⟩) * X (ix2 ⟨k.val, by omega⟩ (i 1)))
    (hq : ∀ k : Fin 2048, q k = A (ix2 (i 0) ⟨2048 + k.val, by omega⟩) * X (ix2 ⟨2048 + k.val, by omega⟩ (i 1))) :
    two * ((0 + ∑ k, p k) + ∑ k, q k) - C i = cheb A X C i := by
  rw [mm_of_two_tiles A X i p q hp hq]; rfl

/-- The same with the accumulator reset to the zero word of a 32-bit float. -/
theorem cheb_of_two_tiles_word (A X C : Mat 4096 4096) (i : (⟨2, ![4096, 4096]⟩ : Shape).Idx) (p q : Fin 2048 → EReal)
    (hp : ∀ k : Fin 2048, p k = A (ix2 (i 0) ⟨k.val, by omega⟩) * X (ix2 ⟨k.val, by omega⟩ (i 1)))
    (hq : ∀ k : Fin 2048, q k = A (ix2 (i 0) ⟨2048 + k.val, by omega⟩) * X (ix2 ⟨2048 + k.val, by omega⟩ (i 1))) :
    two * ((Ideal.ofBits .f32 0x00000000#32 + ∑ k, p k) + ∑ k, q k) - C i = cheb A X C i := by
  rw [mm_of_two_tiles_word A X i p q hp hq]; rfl

/-- Contraction index k of the lower tile, and of the upper tile, as an index below 4096. -/
def lo2048 (k : Fin 2048) : Fin 4096 := ⟨k.val, by omega⟩
def hi2048 (k : Fin 2048) : Fin 4096 := ⟨2048 + k.val, by omega⟩

/-- Entry (r, s) of the product from an accumulator reset to the zero word and given the lower tile's
    partial product, then the upper tile's. -/
theorem mm_two_tiles (A X : Mat 4096 4096) (r s : Fin 4096) :
    (Ideal.ofBits .f32 0x00000000#32 + ∑ k : Fin 2048, A (ix2 r (lo2048 k)) * X (ix2 (lo2048 k) s))
      + ∑ k : Fin 2048, A (ix2 r (hi2048 k)) * X (ix2 (hi2048 k) s) = mm A X (ix2 r s) :=
  mm_of_two_tiles_word A X (ix2 r s) _ _ (fun _ => rfl) (fun _ => rfl)

/-- Entry (r, s) of the second Chebyshev term from the same accumulation. -/
theorem cheb_two_tiles (A X C : Mat 4096 4096) (r s : Fin 4096) :
    two * ((Ideal.ofBits .f32 0x00000000#32 + ∑ k : Fin 2048, A (ix2 r (lo2048 k)) * X (ix2 (lo2048 k) s))
      + ∑ k : Fin 2048, A (ix2 r (hi2048 k)) * X (ix2 (hi2048 k) s)) - C (ix2 r s) = cheb A X C (ix2 r s) :=
  cheb_of_two_tiles_word A X C (ix2 r s) _ _ (fun _ => rfl) (fun _ => rfl)

end Cert.Spec

end
-- ==== Proof.Val.R0.lean ====
/-
  Region 0 of the kernel program read at the ideal values: the two output arrays of the first diffusion
  product end holding the matrix product of the two input arrays, entry by entry.

  An output block (i, j) is written back at the point (i, j, k = 1).  The point before it, (i, j, k = 0), clears
  the accumulator and adds the product of the lower k-tiles; the point itself adds the product of the upper
  k-tiles and stores the accumulator into both outputs (the second through a change of format, which is the
  identity on the extended reals).  So the entry (r, s) is  (0 + sum over k < 2048) + sum over 2048 <= k < 4096
  of A(r, k) * X(k, s): the whole product.
-/
import proofs.«149401_j50302656971158_2_alg».proof.Proof.Fr.R0
import proofs.«149401_j50302656971158_2_alg».proof.Proof.Bridge.Mm
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.ValueIdx
open Idealize.ShloMosaic.Pipeline (Dat)

/-! ## What each case of the body leaves, as payloads of the blocks it loads -/

section cases

variable {F : FTy → Type} [FloatOps F]

theorem hz0 : (![0, 0] : Fin 2 → Nat) = fun _ => 0 := funext fun a => by fin_cases a <;> rfl

/-- At an even point the accumulator ends at the cleared accumulator plus the product of the point's blocks. -/
theorem sout0_A_0_eq (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) :
    sout0_A_0 c i arg3 harg3 arg4 harg4 arg5 harg5 arg6 harg6 arg7 harg7 hc0 hc1 x0 x1 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1)]
  unfold kernelRun0_A
  dsimp only
  sl_unfold_words
  rw [View.canon_cons_unit_zero (S := S1024x1024) hz0]
  simp only [View.readAt_eq_ld, harg3.read_unread, harg4.read_unread, View.ld_unit_zero (S := S1024x2048) hz0, View.ld_unit_zero (S := S2048x1024) hz0, View.readCov_unit_zero (S := S1024x1024) _ hz0]

/-- At an odd point the accumulator ends at what it held plus the product of the point's blocks, -/
theorem sout0_B_0_eq (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) :
    sout0_B_0 c i arg3 harg3 arg4 harg4 arg5 harg5 arg6 harg6 arg7 harg7 hc0 hc1 x0 x1 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 xs0)]
  unfold kernelRun0_B
  dsimp only
  sl_unfold_words
  rw [View.canon_unit_zero (S := S1024x1024) hz0]
  simp only [View.readAt_eq_ld, harg3.read_unread, harg4.read_unread, harg7.read_unread, View.ld_unit_zero (S := S1024x2048) hz0, View.ld_unit_zero (S := S2048x1024) hz0, View.ld_unit_zero (S := S1024x1024) hz0]

/-- the first output's buffer at the same, -/
theorem out0_B_2_eq (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) :
    out0_B_2 c i arg3 harg3 arg4 harg4 arg5 harg5 arg6 harg6 arg7 harg7 hc0 hc1 x0 x1 xs0 = k0_pay2 xs0 x0 x1 := by
  unfold out0_B_2
  rw [View.read_writes_eq_canon _ _ _ (cover0_B_2 c i arg3 harg3 arg4 harg4 arg5 harg5 arg6 harg6 arg7 harg7 hc0 hc1 x0 x1 xs0)]
  unfold kernelRun0_B
  dsimp only
  sl_unfold_words
  rw [View.canon_unit_zero (S := S1024x1024) hz0]
  simp only [View.readAt_eq_ld, harg3.read_unread, harg4.read_unread, harg7.read_unread, View.ld_unit_zero (S := S1024x2048) hz0, View.ld_unit_zero (S := S2048x1024) hz0, View.ld_unit_zero (S := S1024x1024) hz0, View.readCov_unit_zero (S := S1024x1024) _ hz0]

/-- and the second output's buffer at its change of format. -/
theorem out0_B_3_eq (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (xs0 : Vec F S1024x1024 .f32) :
    out0_B_3 c i arg3 harg3 arg4 harg4 arg5 harg5 arg6 harg6 arg7 harg7 hc0 hc1 x0 x1 xs0 = k0_pay3 (k0_pay2 xs0 x0 x1) := by
  unfold out0_B_3
  rw [View.read_writes_eq_canon _ _ _ (cover0_B_3 c i arg3 harg3 arg4 harg4 arg5 harg5 arg6 harg6 arg7 harg7 hc0 hc1 x0 x1 xs0)]
  unfold kernelRun0_B
  dsimp only
  sl_unfold_words
  rw [View.canon_unit_zero (S := S1024x1024) hz0]
  simp only [View.readAt_eq_ld, harg3.read_unread, harg4.read_unread, harg7.read_unread, View.ld_unit_zero (S := S1024x2048) hz0, View.ld_unit_zero (S := S2048x1024) hz0, View.ld_unit_zero (S := S1024x1024) hz0, View.readCov_unit_zero (S := S1024x1024) _ hz0]

end cases

/-! ## The payloads at an index, at the ideal values -/

theorem lhs0_0 (j : S1024x1024.Idx) (q : dot_S1024x2048_S2048x1024_S1024x1024_1_0_0_1_n_n.contr.Idx) : (dot_S1024x2048_S2048x1024_S1024x1024_1_0_0_1_n_n.lhsIdx j q 0).val = (j 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs0_1 (j : S1024x1024.Idx) (q : dot_S1024x2048_S2048x1024_S1024x1024_1_0_0_1_n_n.contr.Idx) : (dot_S1024x2048_S2048x1024_S1024x1024_1_0_0_1_n_n.lhsIdx j q 1).val = (q ⟨0, by decide⟩).val :=
  dot_S1024x2048_S2048x1024_S1024x1024_1_0_0_1_n_n.lhsIdx_val_of_single rfl j q
theorem rhs0_0 (j : S1024x1024.Idx) (q : dot_S1024x2048_S2048x1024_S1024x1024_1_0_0_1_n_n.contr.Idx) : (dot_S1024x2048_S2048x1024_S1024x1024_1_0_0_1_n_n.rhsIdx j q 0).val = (q ⟨0, by decide⟩).val :=
  dot_S1024x2048_S2048x1024_S1024x1024_1_0_0_1_n_n.rhsIdx_val_of_single rfl j q
theorem rhs0_1 (j : S1024x1024.Idx) (q : dot_S1024x2048_S2048x1024_S1024x1024_1_0_0_1_n_n.contr.Idx) : (dot_S1024x2048_S2048x1024_S1024x1024_1_0_0_1_n_n.rhsIdx j q 1).val = (j 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The cleared accumulator holds the zero word everywhere. -/
theorem k0_pay1_apply (j : S1024x1024.Idx) : k0_pay1 (F := Ideal) j = Ideal.ofBits .f32 0x00000000#32 := rfl

/-- The accumulating payload at entry (p, q): what the accumulator held there plus the sum over the block's 2048
    contraction indices of the products of the two blocks' entries. -/
theorem k0_pay2_apply (v3 : FVec Ideal S1024x1024 .f32) (v4 : FVec Ideal S1024x2048 .bf16) (v6 : FVec Ideal S2048x1024 .bf16)
    (p q : Fin 1024) :
    k0_pay2 (F := Ideal) v3 v4 v6 (ix2 p q) = v3 (ix2 p q) + ∑ k : Fin 2048, v4 (ix2 p k) * v6 (ix2 k q) := by
  unfold k0_pay2
  simp only [shapeCast_self]
  rw [addf_apply]
  simp only [matmul]
  rw [Ideal.matmul_constant_zero_apply, ← Equiv.sum_comp (contrEquiv1 dot_S1024x2048_S2048x1024_S1024x1024_1_0_0_1_n_n 2048 rfl rfl).symm]
  refine congrArg (v3 (ix2 p q) + ·) (Finset.sum_congr rfl fun k _ => ?_)
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k := funext fun a => Fin.ext (by
    match a with
    | ⟨0, _⟩ => exact lhs0_0 _ _
    | ⟨1, _⟩ => exact (lhs0_1 _ _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q := funext fun a => Fin.ext (by
    match a with
    | ⟨0, _⟩ => exact (rhs0_0 _ _).trans hk
    | ⟨1, _⟩ => exact rhs0_1 _ _)
  rw [el, er]

/-- The change of format is the identity on the extended reals. -/
theorem k0_pay3_eq (v : Vec Ideal S1024x1024 .f32) : k0_pay3 (F := Ideal) v = v := rfl

/-! ## The two outputs at a point that writes them back -/

variable (V : (c : Dev nD) → (b : Ref sig .tc) → Buf (Elt Ideal) ((c : Thread nD τ).loc b))

/-- After an even point the accumulator holds the cleared accumulator plus the product of the point's blocks. -/
theorem acc0_even (c : Dev nD) (t : Fin cfg0.N) (h0 : t.val % 2 = 0) (h1 : ¬t.val % 2 = 1) :
    (outsAt0 V c t.val t.isLt).2.2 = k0_pay2 (k0_pay1 (F := Ideal)) (iblk0 V c 0 t) (iblk0 V c 1 t) := by
  rw [outsAt0_A V c t h0 h1]
  dsimp only
  exact sout0_A_0_eq (F := Ideal) c (grid0.coords t) (ms0_0 t) (hs0_0 t) (ms0_1 t) (hs0_1 t) (ms0_2 t) (hs0_2 t) (ms0_3 t) (hs0_3 t) scM0_0 (Memref.isWhole_whole _) _ _ (iblk0 V c 0 t) (iblk0 V c 1 t)

/-- At the odd point after it the first output's buffer holds that plus the product of the odd point's blocks, -/
theorem out0_odd_2 (c : Dev nD) (t : Fin cfg0.N) (h0 : ¬t.val % 2 = 0) (h1 : t.val % 2 = 1) (hp : t.val - 1 < cfg0.N) :
    (outsAt0 V c t.val t.isLt).1 = k0_pay2 (k0_pay2 (k0_pay1 (F := Ideal)) (iblk0 V c 0 ⟨t.val - 1, hp⟩) (iblk0 V c 1 ⟨t.val - 1, hp⟩))
      (iblk0 V c 0 t) (iblk0 V c 1 t) := by
  have ha := acc0_even V c ⟨t.val - 1, hp⟩ (by dsimp only; omega) (by dsimp only; omega)
  dsimp only at ha
  rw [outsAt0_B V c t h0 h1]
  dsimp only
  refine (out0_B_2_eq (F := Ideal) c (grid0.coords t) (ms0_0 t) (hs0_0 t) (ms0_1 t) (hs0_1 t) (ms0_2 t) (hs0_2 t) (ms0_3 t) (hs0_3 t) scM0_0 (Memref.isWhole_whole _) _ _ (iblk0 V c 0 t) (iblk0 V c 1 t) _).trans ?_
  rw [ha]

/-- and the second output's buffer the same (the change of format is the identity). -/
theorem out0_odd_3 (c : Dev nD) (t : Fin cfg0.N) (h0 : ¬t.val % 2 = 0) (h1 : t.val % 2 = 1) (hp : t.val - 1 < cfg0.N) :
    (outsAt0 V c t.val t.isLt).2.1 = k0_pay2 (k0_pay2 (k0_pay1 (F := Ideal)) (iblk0 V c 0 ⟨t.val - 1, hp⟩) (iblk0 V c 1 ⟨t.val - 1, hp⟩))
      (iblk0 V c 0 t) (iblk0 V c 1 t) := by
  have ha := acc0_even V c ⟨t.val - 1, hp⟩ (by dsimp only; omega) (by dsimp only; omega)
  dsimp only at ha
  rw [outsAt0_B V c t h0 h1]
  dsimp only
  refine (out0_B_3_eq (F := Ideal) c (grid0.coords t) (ms0_0 t) (hs0_0 t) (ms0_1 t) (hs0_1 t) (ms0_2 t) (hs0_2 t) (ms0_3 t) (hs0_3 t) scM0_0 (Memref.isWhole_whole _) _ _ (iblk0 V c 0 t) (iblk0 V c 1 t) _).trans ?_
  rw [ha]
  exact k0_pay3_eq _

/-! ## From the blocks to the arrays -/

/-- The block indices over the grid: the point  t = (i * 4 + j) * 2 + k  reads block (i, k) of the first input and
    block (k, j) of the second, and owns block (i, j) of each output. -/
theorem idx0 : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = t.val / 8 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-- Entry (p, k) of the first input's block at point t is entry (r, s) of the array at the block's offsets. -/
theorem iblk0_0_apply (c : Dev nD) (t : Fin cfg0.N) (p : Fin 1024) (k : Fin 2048) (r s : Fin 4096)
    (hr : r.val = t.val / 8 * 1024 + p.val) (hs : s.val = t.val % 2 * 2048 + k.val) :
    iblk0 V c 0 t (ix2 p k) = V c (Pipeline.arrRef spec0 0) (ix2 r s) := by
  obtain ⟨e0, e1, -⟩ := idx0 t
  show V c (Pipeline.arrRef spec0 0) (((cfg0.win 0).blk t).view.emb (ix2 p k)) = _
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 2048 + 1 * k.val = s.val; rw [e1, hs]; omega

/-- Entry (k, q) of the second input's block at point t is entry (r, s) of the array at the block's offsets. -/
theorem iblk0_1_apply (c : Dev nD) (t : Fin cfg0.N) (k : Fin 2048) (q : Fin 1024) (r s : Fin 4096)
    (hr : r.val = t.val % 2 * 2048 + k.val) (hs : s.val = t.val / 2 % 4 * 1024 + q.val) :
    iblk0 V c 1 t (ix2 k q) = V c (Pipeline.arrRef spec0 1) (ix2 r s) := by
  obtain ⟨-, -, e2, e3, -⟩ := idx0 t
  show V c (Pipeline.arrRef spec0 1) (((cfg0.win 1).blk t).view.emb (ix2 k q)) = _
  refine congrArg _ (funext fun a => Fin.ext ?_)
  match a with
  | ⟨0, _⟩ => show win0_1.index t (0 : Fin 2) * 2048 + 1 * k.val = r.val; rw [e2, hr]; omega
  | ⟨1, _⟩ => show win0_1.index t (1 : Fin 2) * 1024 + 1 * q.val = s.val; rw [e3, hs]; omega

/-- What an odd point writes back into output one is its block of the matrix product of the two input arrays. -/
theorem flushed0_2_eq (c : Dev nD) (t : Fin cfg0.N) (hf : (cfg0.win 2).flush t = true) :
    (dat0 V c).flushed 2 t = ((cfg0.win 2).blk t).view.read (Elt Ideal)
      (Spec.mm (V c (Pipeline.arrRef spec0 0)) (V c (Pipeline.arrRef spec0 1))) := by
  have hN : cfg0.N = 32 := N_0
  have hlt : t.val < 32 := lt_of_lt_of_eq t.isLt hN
  have h1 : t.val % 2 = 1 := (flush0_2 t).mp hf
  have hp : t.val - 1 < cfg0.N := by omega
  show (cfg0.win 2).cut (grid0.coords t) ((dat0 V c).after 2 t) = _
  rw [after0_2, out0_odd_2 V c t (by omega) h1 hp]
  obtain ⟨-, -, -, -, e4, e5, e6, e7⟩ := idx0 t
  funext j
  obtain ⟨p, q, rfl⟩ : ∃ (p q : Fin 1024), j = ix2 p q := ⟨j 0, j 1, eq_ix2 (n0 := 1024) (n1 := 1024) j⟩
  show k0_pay2 (F := Ideal) _ _ _ (ix2 p q) = Spec.mm _ _ (((cfg0.win 2).blk t).view.emb (ix2 p q))
  have hi0 : ((((cfg0.win 2).blk t).view.emb (ix2 p q)) 0).val = t.val / 8 * 1024 + p.val := by
    show win0_2.index t (0 : Fin 2) * 1024 + 1 * p.val = _; rw [e4]; omega
  have hi1 : ((((cfg0.win 2).blk t).view.emb (ix2 p q)) 1).val = t.val / 2 % 4 * 1024 + q.val := by
    show win0_2.index t (1 : Fin 2) * 1024 + 1 * q.val = _; rw [e5]; omega
  rw [k0_pay2_apply, k0_pay2_apply, k0_pay1_apply]
  refine Spec.mm_of_two_tiles_word _ _ _ _ _ (fun k => ?_) (fun k => ?_)
  · refine congrArg₂ (· * ·) (iblk0_0_apply V c ⟨t.val - 1, hp⟩ p k _ _ ?_ ?_) (iblk0_1_apply V c ⟨t.val - 1, hp⟩ k q _ _ ?_ ?_)
    · rw [hi0]; dsimp only; omega
    · dsimp only; omega
    · dsimp only; omega
    · rw [hi1]; dsimp only; omega
  · refine congrArg₂ (· * ·) (iblk0_0_apply V c t p k _ _ ?_ ?_) (iblk0_1_apply V c t k q _ _ ?_ ?_)
    · rw [hi0]
    · dsimp only; omega
    · dsimp only; omega
    · rw [hi1]

/-- An index of the array is in point t's block of output one iff each coordinate is in the block's range. -/
theorem mem_blk0_2 (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole (Pipeline.arrRef spec0 2)).slice (win0_2.rect t)).set ↔ _
  rw [View.set_slice_whole, Rect.mem_set_unit]
  exact Iff.rfl

/-- Entry (r, s) of output one is written back by the odd point of the block (r / 1024, s / 1024). -/
theorem cover0_2 (i : S4096x4096.Idx) : ∃ t : Fin cfg0.N, (cfg0.win 2).flush t = true ∧ i ∈ ((cfg0.win 2).blk t).view.set := by
  have hN : cfg0.N = 32 := N_0
  have h0 : (i 0).val < 4096 := (i 0).isLt
  have h1 : (i 1).val < 4096 := (i 1).isLt
  have ht : ((i 0).val / 1024 * 4 + (i 1).val / 1024) * 2 + 1 < cfg0.N := by omega
  refine ⟨⟨((i 0).val / 1024 * 4 + (i 1).val / 1024) * 2 + 1, ht⟩, (flush0_2 _).mpr (by dsimp only; omega), ?_⟩
  obtain ⟨-, -, -, -, e4, e5, e6, e7⟩ := idx0 ⟨((i 0).val / 1024 * 4 + (i 1).val / 1024) * 2 + 1, ht⟩
  dsimp only at e4 e5 e6 e7
  rw [mem_blk0_2]
  intro a
  match a with
  | ⟨0, _⟩ =>
    show win0_2.index _ (0 : Fin 2) * 1024 ≤ (i 0).val ∧ (i 0).val < win0_2.index _ (0 : Fin 2) * 1024 + 1024
    rw [e4]; omega
  | ⟨1, _⟩ =>
    show win0_2.index _ (1 : Fin 2) * 1024 ≤ (i 1).val ∧ (i 1).val < win0_2.index _ (1 : Fin 2) * 1024 + 1024
    rw [e5]; omega

/-- Output one ends holding the matrix product of the two input arrays. -/
theorem arrAt0_2 (c : Dev nD) :
    (dat0 V c).arrAt 2 cfg0.N = Spec.mm (V c (Pipeline.arrRef spec0 0)) (V c (Pipeline.arrRef spec0 1)) :=
  (dat0 V c).arrAt_eq_of_cover 2 _ (flushed0_2_eq V c) cover0_2

/-- What an odd point writes back into output two is its block of the matrix product of the two input arrays. -/
theorem flushed0_3_eq (c : Dev nD) (t : Fin cfg0.N) (hf : (cfg0.win 3).flush t = true) :
    (dat0 V c).flushed 3 t = ((cfg0.win 3).blk t).view.read (Elt Ideal)
      (Spec.mm (V c (Pipeline.arrRef spec0 0)) (V c (Pipeline.arrRef spec0 1))) := by
  have hN : cfg0.N = 32 := N_0
  have hlt : t.val < 32 := lt_of_lt_of_eq t.isLt hN
  have h1 : t.val % 2 = 1 := (flush0_3 t).mp hf
  have hp : t.val - 1 < cfg0.N := by omega
  show (cfg0.win 3).cut (grid0.coords t) ((dat0 V c).after 3 t) = _
  rw [after0_3, out0_odd_3 V c t (by omega) h1 hp]
  obtain ⟨-, -, -, -, e4, e5, e6, e7⟩ := idx0 t
  funext j
  obtain ⟨p, q, rfl⟩ : ∃ (p q : Fin 1024), j = ix2 p q := ⟨j 0, j 1, eq_ix2 (n0 := 1024) (n1 := 1024) j⟩
  show k0_pay2 (F := Ideal) _ _ _ (ix2 p q) = Spec.mm _ _ (((cfg0.win 3).blk t).view.emb (ix2 p q))
  have hi0 : ((((cfg0.win 3).blk t).view.emb (ix2 p q)) 0).val = t.val / 8 * 1024 + p.val := by
    show win0_3.index t (0 : Fin 2) * 1024 + 1 * p.val = _; rw [e6]; omega
  have hi1 : ((((cfg0.win 3).blk t).view.emb (ix2 p q)) 1).val = t.val / 2 % 4 * 1024 + q.val := by
    show win0_3.index t (1 : Fin 2) * 1024 + 1 * q.val = _; rw [e7]; omega
  rw [k0_pay2_apply, k0_pay2_apply, k0_pay1_apply]
  refine Spec.mm_of_two_tiles_word _ _ _ _ _ (fun k => ?_) (fun k => ?_)
  · refine congrArg₂ (· * ·) (iblk0_0_apply V c ⟨t.val - 1, hp⟩ p k _ _ ?_ ?_) (iblk0_1_apply V c ⟨t.val - 1, hp⟩ k q _ _ ?_ ?_)
    · rw [hi0]; dsimp only; omega
    · dsimp only; omega
    · dsimp only; omega
    · rw [hi1]; dsimp only; omega
  · refine congrArg₂ (· * ·) (iblk0_0_apply V c t p k _ _ ?_ ?_) (iblk0_1_apply V c t k q _ _ ?_ ?_)
    · rw [hi0]
    · dsimp only; omega
    · dsimp only; omega
    · rw [hi1]

/-- An index of the array is in point t's block of output two iff each coordinate is in the block's range. -/
theorem mem_blk0_3 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole (Pipeline.arrRef spec0 3)).slice (win0_3.rect t)).set ↔ _
  rw [View.set_slice_whole, Rect.mem_set_unit]
  exact Iff.rfl

/-- Entry (r, s) of output two is written back by the odd point of the block (r / 1024, s / 1024). -/
theorem cover0_3 (i : S4096x4096.Idx) : ∃ t : Fin cfg0.N, (cfg0.win 3).flush t = true ∧ i ∈ ((cfg0.win 3).blk t).view.set := by
  have hN : cfg0.N = 32 := N_0
  have h0 : (i 0).val < 4096 := (i 0).isLt
  have h1 : (i 1).val < 4096 := (i 1).isLt
  have ht : ((i 0).val / 1024 * 4 + (i 1).val / 1024) * 2 + 1 < cfg0.N := by omega
  refine ⟨⟨((i 0).val / 1024 * 4 + (i 1).val / 1024) * 2 + 1, ht⟩, (flush0_3 _).mpr (by dsimp only; omega), ?_⟩
  obtain ⟨-, -, -, -, e4, e5, e6, e7⟩ := idx0 ⟨((i 0).val / 1024 * 4 + (i 1).val / 1024) * 2 + 1, ht⟩
  dsimp only at e4 e5 e6 e7
  rw [mem_blk0_3]
  intro a
  match a with
  | ⟨0, _⟩ =>
    show win0_3.index _ (0 : Fin 2) * 1024 ≤ (i 0).val ∧ (i 0).val < win0_3.index _ (0 : Fin 2) * 1024 + 1024
    rw [e6]; omega
  | ⟨1, _⟩ =>
    show win0_3.index _ (1 : Fin 2) * 1024 ≤ (i 1).val ∧ (i 1).val < win0_3.index _ (1 : Fin 2) * 1024 + 1024
    rw [e7]; omega

/-- Output two ends holding the matrix product of the two input arrays. -/
theorem arrAt0_3 (c : Dev nD) :
    (dat0 V c).arrAt 3 cfg0.N = Spec.mm (V c (Pipeline.arrRef spec0 0)) (V c (Pipeline.arrRef spec0 1)) :=
  (dat0 V c).arrAt_eq_of_cover 3 _ (flushed0_3_eq V c) cover0_3

end Cert.KernelIdeal.Val

end
-- ==== Proof.Val.R1.lean ====
/-
  Region 1, the values at the extended reals.

  The region's result array is, index by index, the second Chebyshev term of its three input arrays:
      result (r, s) = 2 * (sum over k < 4096 of A (r, k) * X (k, s)) - C (r, s).
  The grid visits each 1024 x 1024 block (i, j) of the result twice in a row.  At the first visit (an even position, the
  contraction block 0) the accumulator is set to zero and the first half of the sum, over k < 2048, is added to it; at the
  second visit (an odd position, the contraction block 1) the second half, over 2048 <= k < 4096, is added, and the block
  stored is twice the accumulator less C's block.  So the block written back at an odd position is
      2 * ((0 + first half) + second half) - C's block,
  and over the extended reals 0 is neutral for addition and the two halves make the whole sum.  Every index of the result
  lies in the block of exactly one odd position, so the array after the region is that function everywhere.
-/
import proofs.«149401_j50302656971158_2_alg».proof.Proof.Fr.R1
import proofs.«149401_j50302656971158_2_alg».proof.Proof.Spec
import proofs.«149401_j50302656971158_2_alg».proof.Proof.Bridge.Algebra
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem Idealize.ShloMosaic.ValueIdx
open Idealize.ShloMosaic.Pipeline (Dat)
open scoped BigOperators

/-! ## What each case leaves, as the payloads of the blocks -/

section Cases
variable {F : FTy → Type} [FloatOps F]

theorem hz1 : (![0, 0] : Fin 2 → Nat) = fun _ => 0 := funext fun a => by fin_cases a <;> rfl

/-- At an even position the accumulator ends at the first partial product added to the zero block. -/
theorem sout1_A_eq (c : Dev nD) (i : grid1.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : cond1_0 i) (hc1 : ¬cond1_1 i)
    (x0 : Vec F S1024x2048 .bf16) (x1 : Vec F S2048x1024 .bf16) (x2 : Vec F S1024x1024 .f32) :
    sout1_A_0 c i a3 h3 a4 h4 a5 h5 a6 h6 a7 h7 hc0 hc1 x0 x1 x2 = k1_pay2 (k1_pay1 (F := F)) x0 x1 := by
  unfold sout1_A_0
  rw [View.read_writes_eq_canon _ _ _ (scover1_A_0 c i a3 h3 a4 h4 a5 h5 a6 h6 a7 h7 hc0 hc1 x0 x1 x2)]
  unfold kernelRun1_A
  dsimp only
  sl_unfold_words
  rw [View.canon_cons_unit_zero (S := S1024x1024) hz1, View.readCov_unit_zero (S := S1024x1024) _ hz1]
  simp only [View.readAt_eq_ld, h3.read_unread, h4.read_unread, View.ld_unit_zero (S := S1024x2048) hz1, View.ld_unit_zero (S := S2048x1024) hz1]

/-- At an odd position the accumulator ends at the second partial product added to what it held. -/
theorem sout1_B_eq (c : Dev nD) (i : grid1.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x2048 .bf16) (x1 : Vec F S2048x1024 .bf16) (x2 : Vec F S1024x1024 .f32) (xs0 : Vec F S1024x1024 .f32) :
    sout1_B_0 c i a3 h3 a4 h4 a5 h5 a6 h6 a7 h7 hc0 hc1 x0 x1 x2 xs0 = k1_pay2 xs0 x0 x1 := by
  unfold sout1_B_0
  rw [View.read_writes_eq_canon _ _ _ (scover1_B_0 c i a3 h3 a4 h4 a5 h5 a6 h6 a7 h7 hc0 hc1 x0 x1 x2 xs0)]
  unfold kernelRun1_B
  dsimp only
  sl_unfold_words
  rw [View.canon_unit_zero hz1]
  simp only [View.readAt_eq_ld, h3.read_unread, h4.read_unread, h7.read_unread, View.ld_unit_zero (S := S1024x2048) hz1, View.ld_unit_zero (S := S2048x1024) hz1, View.ld_unit_zero (S := S1024x1024) hz1]

/-- and the result's block is the combination of that accumulator with the third input's block. -/
theorem out1_B_eq (c : Dev nD) (i : grid1.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x2048 .bf16) (x1 : Vec F S2048x1024 .bf16) (x2 : Vec F S1024x1024 .f32) (xs0 : Vec F S1024x1024 .f32) :
    out1_B_3 c i a3 h3 a4 h4 a5 h5 a6 h6 a7 h7 hc0 hc1 x0 x1 x2 xs0 = k1_pay3 (k1_pay2 xs0 x0 x1) x2 := by
  unfold out1_B_3
  rw [View.read_writes_eq_canon _ _ _ (cover1_B_3 c i a3 h3 a4 h4 a5 h5 a6 h6 a7 h7 hc0 hc1 x0 x1 x2 xs0)]
  unfold kernelRun1_B
  dsimp only
  sl_unfold_words
  rw [View.canon_unit_zero hz1, View.readCov_unit_zero (S := S1024x1024) _ hz1]
  simp only [View.readAt_eq_ld, h3.read_unread, h4.read_unread, h5.read_unread, h7.read_unread, View.ld_unit_zero (S := S1024x2048) hz1, View.ld_unit_zero (S := S2048x1024) hz1, View.ld_unit_zero (S := S1024x1024) hz1]

end Cases

/-! ## The payloads at the extended reals, read at an index -/

/-- The product's dimension numbers: rows by contraction times contraction by columns. -/
abbrev dot1 : DotDims S1024x2048 S2048x1024 S1024x1024 := dot_S1024x2048_S2048x1024_S1024x1024_1_0_0_1_n_n

/-- Its one contraction axis has 2048 positions. -/
def ce1 : dot1.contr.Idx ≃ Fin 2048 := contrEquiv1 dot1 2048 rfl rfl

/-- The zero block. -/
theorem k1_pay1_apply (j : S1024x1024.Idx) : k1_pay1 (F := Ideal) j = 0 := by
  unfold k1_pay1
  simp only [shapeCast_self]
  show Ideal.ofBits .f32 0x00000000#32 = 0
  exact Ideal.ofBits_zero_f32

/-- The accumulation: what was held plus the sum over the contraction axis of the operands' products. -/
theorem k1_pay2_apply (v3 : Vec Ideal S1024x1024 .f32) (x0 : Vec Ideal S1024x2048 .bf16) (x1 : Vec Ideal S2048x1024 .bf16) (j : S1024x1024.Idx) :
    k1_pay2 (F := Ideal) v3 x0 x1 j = v3 j + ∑ l : Fin 2048, x0 (ix2 (j 0) l) * x1 (ix2 l (j 1)) := by
  unfold k1_pay2
  simp only [shapeCast_self]
  rw [addf_apply]
  simp only [matmul]
  rw [Ideal.matmul_constant_zero_apply]
  congr 1
  rw [← Equiv.sum_comp ce1.symm]
  refine Finset.sum_congr rfl fun l _ => ?_
  have hk : ((ce1.symm l) ⟨0, by decide⟩ : ℕ) = l.val := contrEquiv1_symm_val dot1 2048 rfl rfl l
  congr 2
  · funext a
    apply Fin.ext
    match a with
    | ⟨0, _⟩ => rfl
    | ⟨1, _⟩ => exact hk
  · funext a
    apply Fin.ext
    match a with
    | ⟨0, _⟩ => exact hk
    | ⟨1, _⟩ => rfl

/-- The combination: twice the accumulator less the third input. -/
theorem k1_pay3_apply (v16 v19 : Vec Ideal S1024x1024 .f32) (j : S1024x1024.Idx) :
    k1_pay3 (F := Ideal) v16 v19 j = Spec.two * v16 j - v19 j := by
  unfold k1_pay3
  simp only [shapeCast_self]
  rfl

/-! ## The blocks after a pair of positions, as payloads -/

section Chain
variable {F : FTy → Type} [FloatOps F]
variable (V : (c : Dev nD) → (b : Ref sig .tc) → Buf (Elt F) ((c : Thread nD τ).loc b))

set_option maxHeartbeats 1000000 in
/-- After an even position the accumulator holds the first partial product added to the zero block. -/
theorem acc_even1 (c : Dev nD) (s : Fin cfg1.N) (h0 : s.val % 2 = 0) :
    (outsAt1 V c s.val s.isLt).2 = k1_pay2 (k1_pay1 (F := F)) (iblk1 V c 0 s) (iblk1 V c 1 s) := by
  have h1 : ¬s.val % 2 = 1 := by omega
  rw [outsAt1_A V c s h0 h1]
  dsimp only
  rw [sout1_A_eq]

set_option maxHeartbeats 1000000 in
/-- After an odd position the result's buffer holds the combination of the two partial products with the third input's
    block. -/
theorem out_odd1 (c : Dev nD) (t : Fin cfg1.N) (h1 : t.val % 2 = 1) :
    (outsAt1 V c t.val t.isLt).1
      = k1_pay3 (k1_pay2 (k1_pay2 (k1_pay1 (F := F)) (iblk1 V c 0 ⟨t.val - 1, Nat.lt_of_le_of_lt (Nat.sub_le _ _) t.isLt⟩) (iblk1 V c 1 ⟨t.val - 1, Nat.lt_of_le_of_lt (Nat.sub_le _ _) t.isLt⟩))
          (iblk1 V c 0 t) (iblk1 V c 1 t)) (iblk1 V c 2 t) := by
  have h0 : ¬t.val % 2 = 0 := by omega
  rw [outsAt1_B V c t h0 h1]
  dsimp only
  rw [out1_B_eq]
  rw [acc_even1 V c ⟨t.val - 1, Nat.lt_of_le_of_lt (Nat.sub_le _ _) t.isLt⟩ (by dsimp only; omega)]

end Chain

section Array
variable (V : (c : Dev nD) → (b : Ref sig .tc) → Buf (Elt Ideal) ((c : Thread nD τ).loc b))

theorem idx_facts1 : ∀ t s : Fin cfg1.N, t.val % 2 = 1 → s.val + 1 = t.val →
    win1_0.index s (0 : Fin 2) = win1_3.index t (0 : Fin 2) ∧ win1_0.index s (1 : Fin 2) = 0
    ∧ win1_0.index t (0 : Fin 2) = win1_3.index t (0 : Fin 2) ∧ win1_0.index t (1 : Fin 2) = 1
    ∧ win1_1.index s (0 : Fin 2) = 0 ∧ win1_1.index s (1 : Fin 2) = win1_3.index t (1 : Fin 2)
    ∧ win1_1.index t (0 : Fin 2) = 1 ∧ win1_1.index t (1 : Fin 2) = win1_3.index t (1 : Fin 2)
    ∧ win1_2.index t (0 : Fin 2) = win1_3.index t (0 : Fin 2) ∧ win1_2.index t (1 : Fin 2) = win1_3.index t (1 : Fin 2)
    ∧ win1_3.index t (0 : Fin 2) ≤ 3 ∧ win1_3.index t (1 : Fin 2) ≤ 3 :=
  (by decide +kernel : ∀ t s : Fin grid1.N, t.val % 2 = 1 → s.val + 1 = t.val →
    win1_0.index s (0 : Fin 2) = win1_3.index t (0 : Fin 2) ∧ win1_0.index s (1 : Fin 2) = 0
    ∧ win1_0.index t (0 : Fin 2) = win1_3.index t (0 : Fin 2) ∧ win1_0.index t (1 : Fin 2) = 1
    ∧ win1_1.index s (0 : Fin 2) = 0 ∧ win1_1.index s (1 : Fin 2) = win1_3.index t (1 : Fin 2)
    ∧ win1_1.index t (0 : Fin 2) = 1 ∧ win1_1.index t (1 : Fin 2) = win1_3.index t (1 : Fin 2)
    ∧ win1_2.index t (0 : Fin 2) = win1_3.index t (0 : Fin 2) ∧ win1_2.index t (1 : Fin 2) = win1_3.index t (1 : Fin 2)
    ∧ win1_3.index t (0 : Fin 2) ≤ 3 ∧ win1_3.index t (1 : Fin 2) ≤ 3)

theorem idx_onto1 : ∀ (q0 q1 : Fin 4), ∃ t : Fin cfg1.N, (cfg1.win 3).flush t = true ∧ win1_3.index t = ![q0.val, q1.val] :=
  (by decide +kernel : ∀ (q0 q1 : Fin 4), ∃ t : Fin grid1.N, win1_3.flush t = true ∧ win1_3.index t = ![q0.val, q1.val])

/-- The three input arrays as the region finds them, as matrices of extended reals. -/
abbrev A1 (c : Dev nD) : Spec.Mat 4096 4096 := V c (Pipeline.arrRef spec1 0)
abbrev X1 (c : Dev nD) : Spec.Mat 4096 4096 := V c (Pipeline.arrRef spec1 1)
abbrev C1 (c : Dev nD) : Spec.Mat 4096 4096 := V c (Pipeline.arrRef spec1 2)

/-- The result array, index by index. -/
abbrev G1 (c : Dev nD) : Buf (Elt Ideal) ((cfg1.win 3).arr.view.loc (c.tc : Thread nD τ)) :=
  Spec.cheb (A1 V c) (X1 V c) (C1 V c)

/-! ## A block read at an index is the array read at the block's offset plus the index -/

theorem blk1_0_apply (c : Dev nD) (u : Fin cfg1.N) (a : Fin 1024) (l : Fin 2048) (p : (⟨2, ![4096, 4096]⟩ : Shape).Idx)
    (h0 : (p 0).val = win1_0.index u (0 : Fin 2) * 1024 + a.val) (h1 : (p 1).val = win1_0.index u (1 : Fin 2) * 2048 + l.val) :
    iblk1 V c 0 u (ix2 a l) = A1 V c p := by
  show A1 V c (((cfg1.win 0).blk u).view.emb (ix2 a l)) = _
  congr 1
  funext d; apply Fin.ext
  match d with
  | ⟨0, _⟩ => show win1_0.index u (0 : Fin 2) * 1024 + 1 * a.val = (p 0).val; omega
  | ⟨1, _⟩ => show win1_0.index u (1 : Fin 2) * 2048 + 1 * l.val = (p 1).val; omega

theorem blk1_1_apply (c : Dev nD) (u : Fin cfg1.N) (l : Fin 2048) (b : Fin 1024) (p : (⟨2, ![4096, 4096]⟩ : Shape).Idx)
    (h0 : (p 0).val = win1_1.index u (0 : Fin 2) * 2048 + l.val) (h1 : (p 1).val = win1_1.index u (1 : Fin 2) * 1024 + b.val) :
    iblk1 V c 1 u (ix2 l b) = X1 V c p := by
  show X1 V c (((cfg1.win 1).blk u).view.emb (ix2 l b)) = _
  congr 1
  funext d; apply Fin.ext
  match d with
  | ⟨0, _⟩ => show win1_1.index u (0 : Fin 2) * 2048 + 1 * l.val = (p 0).val; omega
  | ⟨1, _⟩ => show win1_1.index u (1 : Fin 2) * 1024 + 1 * b.val = (p 1).val; omega

theorem blk1_2_apply (c : Dev nD) (u : Fin cfg1.N) (j : S1024x1024.Idx) (p : (⟨2, ![4096, 4096]⟩ : Shape).Idx)
    (h0 : (p 0).val = win1_2.index u (0 : Fin 2) * 1024 + (j 0).val) (h1 : (p 1).val = win1_2.index u (1 : Fin 2) * 1024 + (j 1).val) :
    iblk1 V c 2 u j = C1 V c p := by
  show C1 V c (((cfg1.win 2).blk u).view.emb j) = _
  congr 1
  funext d; apply Fin.ext
  match d with
  | ⟨0, _⟩ => show win1_2.index u (0 : Fin 2) * 1024 + 1 * (j 0).val = (p 0).val; omega
  | ⟨1, _⟩ => show win1_2.index u (1 : Fin 2) * 1024 + 1 * (j 1).val = (p 1).val; omega

/-- The result array at an index: the sum over the contraction axis taken in its two halves. -/
theorem G1_apply (c : Dev nD) (e : (⟨2, ![4096, 4096]⟩ : Shape).Idx) :
    G1 V c e = Spec.two * ((∑ k : Fin 2048, A1 V c (ix2 (e 0) (⟨k.val, by omega⟩ : Fin 4096)) * X1 V c (ix2 (⟨k.val, by omega⟩ : Fin 4096) (e 1)))
        + ∑ k : Fin 2048, A1 V c (ix2 (e 0) (⟨2048 + k.val, by omega⟩ : Fin 4096)) * X1 V c (ix2 (⟨2048 + k.val, by omega⟩ : Fin 4096) (e 1)))
      - C1 V c e := by
  show Spec.two * (∑ k : Fin 4096, A1 V c (ix2 (e 0) k) * X1 V c (ix2 k (e 1))) - C1 V c e = _
  rw [Cert.Spec.sum_halves]

set_option maxHeartbeats 1000000 in
/-- What an odd position writes back is its block of the result array. -/
theorem flushed1_3_eq (c : Dev nD) (t : Fin cfg1.N) (hf : (cfg1.win 3).flush t = true) :
    (dat1 V c).flushed 3 t = ((cfg1.win 3).blk t).view.read (Elt Ideal) (G1 V c) := by
  have h1 : t.val % 2 = 1 := (flush1_3 t).mp hf
  have hN : t.val < 32 := lt_of_lt_of_eq t.isLt (show cfg1.N = 32 from N_1)
  obtain ⟨f0, f1, f2, f3, f4, f5, f6, f7, f8, f9, f10, f11⟩ :=
    idx_facts1 t ⟨t.val - 1, Nat.lt_of_le_of_lt (Nat.sub_le _ _) t.isLt⟩ h1 (by dsimp only; omega)
  show (cfg1.win 3).cut (grid1.coords t) ((dat1 V c).after 3 t) = _
  rw [after1_3, out_odd1 V c t h1]
  funext j
  rw [View.read_apply]
  show k1_pay3 _ _ j = _
  rw [k1_pay3_apply, k1_pay2_apply, k1_pay2_apply, k1_pay1_apply, zero_add]
  have hj0 : (j 0).val < 1024 := (j 0).isLt
  have hj1 : (j 1).val < 1024 := (j 1).isLt
  have e0 : ((((cfg1.win 3).blk t).view.emb j) 0).val = win1_3.index t (0 : Fin 2) * 1024 + (j 0).val := by
    show win1_3.index t (0 : Fin 2) * 1024 + 1 * (j 0).val = _; omega
  have e1 : ((((cfg1.win 3).blk t).view.emb j) 1).val = win1_3.index t (1 : Fin 2) * 1024 + (j 1).val := by
    show win1_3.index t (1 : Fin 2) * 1024 + 1 * (j 1).val = _; omega
  rw [G1_apply]
  refine congrArg₂ (fun a b : EReal => a - b) (congrArg (fun s : EReal => Spec.two * s) (congrArg₂ (fun a b : EReal => a + b)
    (Finset.sum_congr rfl fun l _ => ?_) (Finset.sum_congr rfl fun l _ => ?_))) ?_
  · refine congrArg₂ (fun a b : EReal => a * b) ?_ ?_
    · exact blk1_0_apply V c _ (j 0) l _ (by show (((cfg1.win 3).blk t).view.emb j 0).val = _; rw [e0, f0]) (by show l.val = _; rw [f1]; try omega)
    · exact blk1_1_apply V c _ l (j 1) _ (by show l.val = _; rw [f4]; try omega) (by show (((cfg1.win 3).blk t).view.emb j 1).val = _; rw [e1, f5])
  · refine congrArg₂ (fun a b : EReal => a * b) ?_ ?_
    · exact blk1_0_apply V c _ (j 0) l _ (by show (((cfg1.win 3).blk t).view.emb j 0).val = _; rw [e0, f2]) (by show 2048 + l.val = _; rw [f3]; try omega)
    · exact blk1_1_apply V c _ l (j 1) _ (by show 2048 + l.val = _; rw [f6]; try omega) (by show (((cfg1.win 3).blk t).view.emb j 1).val = _; rw [e1, f7])
  · exact blk1_2_apply V c t j _ (by rw [e0, f8]) (by rw [e1, f9])

/-- An index of the result array is in an odd position's block iff each coordinate is in the block's range. -/
theorem mem_blk1_3 (t : Fin cfg1.N) (i : (⟨2, ![4096, 4096]⟩ : Shape).Idx) :
    i ∈ ((cfg1.win 3).blk t).view.set ↔ ∀ a : Fin 2, win1_3.index t a * S1024x1024.size a ≤ (i a).val ∧ (i a).val < win1_3.index t a * S1024x1024.size a + S1024x1024.size a := by
  change i ∈ ((View.whole (Pipeline.arrRef spec1 3)).slice (win1_3.rect t)).set ↔ _
  rw [View.set_slice_whole, Rect.mem_set_unit]
  exact Iff.rfl

/-- THE VALUE of region 1: after the region the result array is twice the product of the first two arrays less the third,
    index by index. -/
theorem arrAt1_3 (c : Dev nD) :
    (dat1 V c).arrAt 3 cfg1.N = Spec.cheb (V c (Pipeline.arrRef spec1 0)) (V c (Pipeline.arrRef spec1 1)) (V c (Pipeline.arrRef spec1 2)) :=
  (dat1 V c).arrAt_eq_of_cover 3 (G1 V c) (flushed1_3_eq V c) fun i => by
    have hi0 : (i 0).val < 4096 := (i 0).isLt
    have hi1 : (i 1).val < 4096 := (i 1).isLt
    obtain ⟨t, hf, ht⟩ := idx_onto1 ⟨(i 0).val / 1024, by omega⟩ ⟨(i 1).val / 1024, by omega⟩
    have q0 : win1_3.index t (0 : Fin 2) = (i 0).val / 1024 := congrFun ht 0
    have q1 : win1_3.index t (1 : Fin 2) = (i 1).val / 1024 := congrFun ht 1
    refine ⟨t, hf, ?_⟩
    rw [mem_blk1_3]
    intro a
    match a with
    | ⟨0, _⟩ => show win1_3.index t (0 : Fin 2) * 1024 ≤ (i 0).val ∧ (i 0).val < win1_3.index t (0 : Fin 2) * 1024 + 1024; omega
    | ⟨1, _⟩ => show win1_3.index t (1 : Fin 2) * 1024 ≤ (i 1).val ∧ (i 1).val < win1_3.index t (1 : Fin 2) * 1024 + 1024; omega

end Array

end Cert.KernelIdeal.Val

end
-- ==== Proof.Val.R2.lean ====
import proofs.«149401_j50302656971158_2_alg».proof.Proof.Fr.R2
import proofs.«149401_j50302656971158_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! # Region 2: the projection kernel, its output array at the extended reals

The output array after the region is, index by index, the activation of the three diffusion terms' projections
summed in the order ((term 0 + term 1) + term 2) + bias: per batch entry `b`, node `n` and unit `o`,
`∑ s, x (n, s * 32 + b) * w (s, o)` for each term. A block of 256 node rows is read as [row, feature, batch entry],
turned to [row, batch entry, feature], flattened to (row, batch entry) by feature and multiplied by the weights; the
product is read back as [row, batch entry, unit] and turned to [batch entry, row, unit]. -/

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

/-! ## The product's operand indices -/

theorem lhs2_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs2_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs2_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs2_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-! ## One term at an index -/

/-- One diffusion term's projection at row `r`, batch entry `b`, unit `o`: the sum over the 128 features `s` of
    the block's entry at column `s * 32 + b` times the weight of feature `s` for unit `o`. -/
theorem term2_apply (x : Vec Ideal S256x4096 .f32) (w : Vec Ideal S128x128 .f32) (r : Fin 256) (b : Fin 32) (o : Fin 128) :
    (shapeCast S256x32x128 (matmul (φ₁ := .f32) (φ₂ := .f32) dot_S8192x128_S128x128_S8192x128_1_0_0_1_n_n none
        (shapeCast S8192x128 (transpose S256x32x128 [0, 2, 1] (shapeCast S256x128x32 (shapeCast S256x4096 x shapeCasts_S256x4096_S256x4096) shapeCasts_S256x4096_S256x128x32) transposes_S256x128x32_p0_2_1_S256x32x128) shapeCasts_S256x32x128_S8192x128)
        (shapeCast S128x128 w shapeCasts_S128x128_S128x128)
        (constant (F := Ideal) S8192x128 .f32 0x00000000#32)) shapeCasts_S8192x128_S256x32x128 : FVec Ideal S256x32x128 .f32) (ix3 r b o)
      = ∑ s : Fin 128, x (ix2 r (Spec.col s b)) * w (ix2 s o) := by
  have hR : r.val * 32 + b.val < 8192 := by have := r.isLt; have := b.isLt; omega
  -- the product read back as [row, batch entry, unit]: row-major position (r * 32 + b, o)
  refine (shapeCast_apply _ shapeCasts_S8192x128_S256x32x128 (ix3 r b o) (ix2 (⟨r.val * 32 + b.val, hR⟩ : Fin 8192) o) ?_).trans ?_
  · rw [Shape.rowMajor_val_two, Shape.rowMajor_val_three]
    rfl
  simp only [matmul]
  rw [Ideal.matmul_constant_zero_apply, ← Equiv.sum_comp (contrEquiv1 dot_S8192x128_S128x128_S8192x128_1_0_0_1_n_n 128 rfl rfl).symm]
  refine Finset.sum_congr rfl fun s _ => ?_
  have hk := contrEquiv1_symm_val dot_S8192x128_S128x128_S8192x128_1_0_0_1_n_n 128 rfl rfl s
  have el : dot_S8192x128_S128x128_S8192x128_1_0_0_1_n_n.lhsIdx (ix2 (⟨r.val * 32 + b.val, hR⟩ : Fin 8192) o) ((contrEquiv1 dot_S8192x128_S128x128_S8192x128_1_0_0_1_n_n 128 rfl rfl).symm s)
      = ix2 (⟨r.val * 32 + b.val, hR⟩ : Fin 8192) s := funext fun a => Fin.ext (by
    match a with
    | ⟨0, _⟩ => exact lhs2_0 _ _
    | ⟨1, _⟩ => exact (lhs2_1 _ _).trans hk)
  have er : dot_S8192x128_S128x128_S8192x128_1_0_0_1_n_n.rhsIdx (ix2 (⟨r.val * 32 + b.val, hR⟩ : Fin 8192) o) ((contrEquiv1 dot_S8192x128_S128x128_S8192x128_1_0_0_1_n_n 128 rfl rfl).symm s)
      = ix2 s o := funext fun a => Fin.ext (by
    match a with
    | ⟨0, _⟩ => exact (rhs2_0 _ _).trans hk
    | ⟨1, _⟩ => exact rhs2_1 _ _)
  rw [el, er]
  refine congrArg₂ (· * ·) ?_ ?_
  · -- (row, batch entry) by feature, from [row, batch entry, feature]
    refine (shapeCast_apply _ shapeCasts_S256x32x128_S8192x128 (ix2 (⟨r.val * 32 + b.val, hR⟩ : Fin 8192) s) (ix3 r b s) ?_).trans ?_
    · rw [Shape.rowMajor_val_two, Shape.rowMajor_val_three]
      rfl
    -- [row, batch entry, feature] from [row, feature, batch entry]
    refine (transpose_apply [0, 2, 1] _ transposes_S256x128x32_p0_2_1_S256x32x128 (ix3 r b s) (ix3 r s b)
      (fun a => match a with | ⟨0, _⟩ => rfl | ⟨1, _⟩ => rfl | ⟨2, _⟩ => rfl)).trans ?_
    -- [row, feature, batch entry] from the block: column s * 32 + b
    refine (shapeCast_apply _ shapeCasts_S256x4096_S256x128x32 (ix3 r s b) (ix2 r (Spec.col s b)) ?_).trans ?_
    · rw [Shape.rowMajor_val_two, Shape.rowMajor_val_three]
      show r.val * 4096 + (s.val * 32 + b.val) = (r.val * 128 + s.val) * 32 + b.val
      omega
    exact congrFun (shapeCast_self x shapeCasts_S256x4096_S256x4096) _
  · exact congrFun (shapeCast_self w shapeCasts_S128x128_S128x128) _

/-! ## The payload at an index -/

/-- The stored value at batch entry `b`, row `r`, unit `o`. -/
theorem pay2_apply (x0 x1 x2 : Vec Ideal S256x4096 .f32) (w0 w1 w2 : Vec Ideal S128x128 .f32) (bias : Vec Ideal S1x128 .f32)
    (b : Fin 32) (r : Fin 256) (o : Fin 128) :
    k2_pay1 (F := Ideal) x0 w0 x1 w1 x2 w2 bias (ix3 b r o)
      = Ideal.logistic ((((∑ s : Fin 128, x0 (ix2 r (Spec.col s b)) * w0 (ix2 s o))
          + ∑ s : Fin 128, x1 (ix2 r (Spec.col s b)) * w1 (ix2 s o))
          + ∑ s : Fin 128, x2 (ix2 r (Spec.col s b)) * w2 (ix2 s o))
          + bias (ix2 0 o)) := by
  unfold k2_pay1
  dsimp only
  show Ideal.logistic (_ + _) = _
  refine congrArg Ideal.logistic (congrArg₂ (· + ·) ?_ ?_)
  · -- [batch entry, row, unit] from [row, batch entry, unit]
    refine (transpose_apply [1, 0, 2] _ transposes_S256x32x128_p1_0_2_S32x256x128 (ix3 b r o) (ix3 r b o)
      (fun a => match a with | ⟨0, _⟩ => rfl | ⟨1, _⟩ => rfl | ⟨2, _⟩ => rfl)).trans ?_
    show (_ + _) + _ = _
    exact congrArg₂ (· + ·) (congrArg₂ (· + ·) (term2_apply x0 w0 r b o) (term2_apply x1 w1 r b o)) (term2_apply x2 w2 r b o)
  · -- the bias row, the same for every batch entry and row
    refine (broadcastTo_apply _ broadcasts_S1x1x128_S32x256x128 (ix3 b r o) (ix3 0 0 o)
      (fun a => match a with | ⟨0, _⟩ => rfl | ⟨1, _⟩ => rfl | ⟨2, _⟩ => rfl)).trans ?_
    refine (shapeCast_apply _ shapeCasts_S1x128_S1x1x128 (ix3 0 0 o) (ix2 0 o) ?_).trans ?_
    · rw [Shape.rowMajor_val_two, Shape.rowMajor_val_three]
      rfl
    exact congrFun (shapeCast_self bias shapeCasts_S1x128_S1x128) _

/-! ## From blocks to the array -/

variable (V : (c : Dev nD) → (b : Ref sig .tc) → Buf (Elt Ideal) ((c : Thread nD τ).loc b))

theorem zero2_R2 : (![0, 0] : Fin 2 → Nat) = fun _ => 0 := funext fun a => by fin_cases a <;> rfl
theorem zero3_R2 : (![0, 0, 0] : Fin 3 → Nat) = fun _ => 0 := funext fun a => by fin_cases a <;> rfl

/-- The windows' block indices at point `t`: the inputs' row blocks and the output's node blocks move with the
    point, everything else stays at zero. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 3) = 0 ∧ win2_7.index t (1 : Fin 3) = t.val ∧ win2_7.index t (2 : Fin 3) = 0 :=
  (by decide +kernel : ∀ t : Fin grid2.N, _)

/-- Row `r` of point `t`'s block of 256 node rows. -/
def row2 (t : Fin cfg2.N) (r : Fin 256) : Fin 4096 :=
  ⟨t.val * 256 + r.val, by have ht : t.val < 16 := lt_of_lt_of_eq t.isLt N_2; have := r.isLt; omega⟩

/-- Input window 0's block at point `t` is rows `t * 256 …` of its array. -/
theorem iblk2_0_apply (c : Dev nD) (t : Fin cfg2.N) (r : Fin 256) (q : Fin 4096) :
    iblk2 V c 0 t (ix2 r q) = (V c (Pipeline.arrRef spec2 0)) (ix2 (row2 t r) q) := by
  obtain ⟨e00, e01, e10, e11, e20, e21, -⟩ := idx_facts2 t
  show (V c (Pipeline.arrRef spec2 0)) (((cfg2.win 0).blk t).view.emb (ix2 r q)) = _
  refine congrArg _ (funext fun a => Fin.ext ?_)
  match a with
  | ⟨0, _⟩ => show win2_0.index t (0 : Fin 2) * 256 + 1 * r.val = t.val * 256 + r.val; omega
  | ⟨1, _⟩ => show win2_0.index t (1 : Fin 2) * 4096 + 1 * q.val = q.val; omega

/-- Input window 1's block at point `t` is rows `t * 256 …` of its array. -/
theorem iblk2_1_apply (c : Dev nD) (t : Fin cfg2.N) (r : Fin 256) (q : Fin 4096) :
    iblk2 V c 1 t (ix2 r q) = (V c (Pipeline.arrRef spec2 1)) (ix2 (row2 t r) q) := by
  obtain ⟨e00, e01, e10, e11, e20, e21, -⟩ := idx_facts2 t
  show (V c (Pipeline.arrRef spec2 1)) (((cfg2.win 1).blk t).view.emb (ix2 r q)) = _
  refine congrArg _ (funext fun a => Fin.ext ?_)
  match a with
  | ⟨0, _⟩ => show win2_1.index t (0 : Fin 2) * 256 + 1 * r.val = t.val * 256 + r.val; omega
  | ⟨1, _⟩ => show win2_1.index t (1 : Fin 2) * 4096 + 1 * q.val = q.val; omega

/-- Input window 2's block at point `t` is rows `t * 256 …` of its array. -/
theorem iblk2_2_apply (c : Dev nD) (t : Fin cfg2.N) (r : Fin 256) (q : Fin 4096) :
    iblk2 V c 2 t (ix2 r q) = (V c (Pipeline.arrRef spec2 2)) (ix2 (row2 t r) q) := by
  obtain ⟨e00, e01, e10, e11, e20, e21, -⟩ := idx_facts2 t
  show (V c (Pipeline.arrRef spec2 2)) (((cfg2.win 2).blk t).view.emb (ix2 r q)) = _
  refine congrArg _ (funext fun a => Fin.ext ?_)
  match a with
  | ⟨0, _⟩ => show win2_2.index t (0 : Fin 2) * 256 + 1 * r.val = t.val * 256 + r.val; omega
  | ⟨1, _⟩ => show win2_2.index t (1 : Fin 2) * 4096 + 1 * q.val = q.val; omega

/-- Weight window 3's block is its whole array. -/
theorem iblk2_3_apply (c : Dev nD) (t : Fin cfg2.N) (s : Fin 128) (o : Fin 128) :
    iblk2 V c 3 t (ix2 s o) = (V c (Pipeline.arrRef spec2 3)) (ix2 s o) := by
  obtain ⟨-, -, -, -, -, -, e30, e31, e40, e41, e50, e51, -⟩ := idx_facts2 t
  show (V c (Pipeline.arrRef spec2 3)) (((cfg2.win 3).blk t).view.emb (ix2 s o)) = _
  refine congrArg _ (funext fun a => Fin.ext ?_)
  match a with
  | ⟨0, _⟩ => show win2_3.index t (0 : Fin 2) * 128 + 1 * s.val = s.val; omega
  | ⟨1, _⟩ => show win2_3.index t (1 : Fin 2) * 128 + 1 * o.val = o.val; omega

/-- Weight window 4's block is its whole array. -/
theorem iblk2_4_apply (c : Dev nD) (t : Fin cfg2.N) (s : Fin 128) (o : Fin 128) :
    iblk2 V c 4 t (ix2 s o) = (V c (Pipeline.arrRef spec2 4)) (ix2 s o) := by
  obtain ⟨-, -, -, -, -, -, e30, e31, e40, e41, e50, e51, -⟩ := idx_facts2 t
  show (V c (Pipeline.arrRef spec2 4)) (((cfg2.win 4).blk t).view.emb (ix2 s o)) = _
  refine congrArg _ (funext fun a => Fin.ext ?_)
  match a with
  | ⟨0, _⟩ => show win2_4.index t (0 : Fin 2) * 128 + 1 * s.val = s.val; omega
  | ⟨1, _⟩ => show win2_4.index t (1 : Fin 2) * 128 + 1 * o.val = o.val; omega

/-- Weight window 5's block is its whole array. -/
theorem iblk2_5_apply (c : Dev nD) (t : Fin cfg2.N) (s : Fin 128) (o : Fin 128) :
    iblk2 V c 5 t (ix2 s o) = (V c (Pipeline.arrRef spec2 5)) (ix2 s o) := by
  obtain ⟨-, -, -, -, -, -, e30, e31, e40, e41, e50, e51, -⟩ := idx_facts2 t
  show (V c (Pipeline.arrRef spec2 5)) (((cfg2.win 5).blk t).view.emb (ix2 s o)) = _
  refine congrArg _ (funext fun a => Fin.ext ?_)
  match a with
  | ⟨0, _⟩ => show win2_5.index t (0 : Fin 2) * 128 + 1 * s.val = s.val; omega
  | ⟨1, _⟩ => show win2_5.index t (1 : Fin 2) * 128 + 1 * o.val = o.val; omega

/-- The bias window's block is its whole array. -/
theorem iblk2_6_apply (c : Dev nD) (t : Fin cfg2.N) (o : Fin 128) :
    iblk2 V c 6 t (ix2 0 o) = (V c (Pipeline.arrRef spec2 6)) (ix2 0 o) := by
  obtain ⟨-, -, -, -, -, -, -, -, -, -, -, -, e60, e61, -⟩ := idx_facts2 t
  show (V c (Pipeline.arrRef spec2 6)) (((cfg2.win 6).blk t).view.emb (ix2 0 o)) = _
  refine congrArg _ (funext fun a => Fin.ext ?_)
  match a with
  | ⟨0, _⟩ => show win2_6.index t (0 : Fin 2) * 1 + 1 * 0 = 0; omega
  | ⟨1, _⟩ => show win2_6.index t (1 : Fin 2) * 128 + 1 * o.val = o.val; omega

/-- An element of the output's block at point `t` sits at node `t * 256 + r`. -/
theorem emb2_7 (t : Fin cfg2.N) (b : Fin 32) (r : Fin 256) (o : Fin 128) :
    ((cfg2.win 7).blk t).view.emb (ix3 b r o) = ix3 b (row2 t r) o := by
  obtain ⟨-, -, -, -, -, -, -, -, -, -, -, -, -, -, e70, e71, e72⟩ := idx_facts2 t
  funext a; apply Fin.ext
  match a with
  | ⟨0, _⟩ => show win2_7.index t (0 : Fin 3) * 32 + 1 * b.val = b.val; omega
  | ⟨1, _⟩ => show win2_7.index t (1 : Fin 3) * 256 + 1 * r.val = t.val * 256 + r.val; omega
  | ⟨2, _⟩ => show win2_7.index t (2 : Fin 3) * 128 + 1 * o.val = o.val; omega

/-- What point `t` writes back is block `t` of the projection of the arrays as the region finds them. -/
theorem flushed2_7_eq (c : Dev nD) (t : Fin cfg2.N) :
    (dat2 V c).flushed 7 t = ((cfg2.win 7).blk t).view.read (Elt Ideal)
      (Spec.proj Ideal.logistic (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  show (cfg2.win 7).cut (grid2.coords t) ((dat2 V c).after 7 t) = _
  rw [after2_7]
  unfold out2_7
  rw [View.canon_unit_zero zero3_R2]
  simp only [View.ld_unit_zero (S := S256x4096) zero2_R2, View.ld_unit_zero (S := S128x128) zero2_R2, View.ld_unit_zero (S := S1x128) zero2_R2]
  funext j
  obtain ⟨b, r, o, rfl⟩ : ∃ (b : Fin 32) (r : Fin 256) (o : Fin 128), j = ix3 b r o := ⟨j 0, j 1, j 2, eq_ix3 j⟩
  show k2_pay1 (F := Ideal) (iblk2 V c 0 t) (iblk2 V c 3 t) (iblk2 V c 1 t) (iblk2 V c 4 t) (iblk2 V c 2 t) (iblk2 V c 5 t) (iblk2 V c 6 t) (ix3 b r o)
    = (Spec.proj Ideal.logistic (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) (((cfg2.win 7).blk t).view.emb (ix3 b r o))
  refine (pay2_apply (iblk2 V c 0 t) (iblk2 V c 1 t) (iblk2 V c 2 t) (iblk2 V c 3 t) (iblk2 V c 4 t) (iblk2 V c 5 t) (iblk2 V c 6 t) b r o).trans ?_
  refine Eq.trans ?_ (congrArg (Spec.proj Ideal.logistic (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) (emb2_7 t b r o)).symm
  show Ideal.logistic _ = Ideal.logistic _
  refine congrArg Ideal.logistic (congrArg₂ (· + ·) (congrArg₂ (· + ·) (congrArg₂ (· + ·) ?_ ?_) ?_) ?_)
  · exact Finset.sum_congr rfl fun s _ => congrArg₂ (· * ·) (iblk2_0_apply V c t r (Spec.col s b)) (iblk2_3_apply V c t s o)
  · exact Finset.sum_congr rfl fun s _ => congrArg₂ (· * ·) (iblk2_1_apply V c t r (Spec.col s b)) (iblk2_4_apply V c t s o)
  · exact Finset.sum_congr rfl fun s _ => congrArg₂ (· * ·) (iblk2_2_apply V c t r (Spec.col s b)) (iblk2_5_apply V c t s o)
  · exact iblk2_6_apply V c t o

/-- An index of the output array is in point `t`'s block iff each coordinate is in the block's range on its axis. -/
theorem mem_blk2_7 (t : Fin cfg2.N) (i : S32x4096x128.Idx) :
    i ∈ ((cfg2.win 7).blk t).view.set ↔ ∀ a : Fin 3, win2_7.index t a * S32x256x128.size a ≤ (i a).val ∧ (i a).val < win2_7.index t a * S32x256x128.size a + S32x256x128.size a := by
  show i ∈ ((View.whole (Pipeline.arrRef spec2 7)).slice (win2_7.rect t)).set ↔ _
  rw [View.set_slice_whole, Rect.mem_set_unit]
  exact Iff.rfl

/-- Every index of the output array is in some point's block: node `n` in the block of point `n / 256`. -/
theorem covered2_7 (i : S32x4096x128.Idx) :
    ∃ t : Fin cfg2.N, (cfg2.win 7).flush t = true ∧ i ∈ ((cfg2.win 7).blk t).view.set := by
  have h0 : (i 0).val < 32 := (i 0).isLt
  have h1 : (i 1).val < 4096 := (i 1).isLt
  have h2 : (i 2).val < 128 := (i 2).isLt
  have hN : (i 1).val / 256 < cfg2.N := by rw [show cfg2.N = 16 from N_2]; omega
  refine ⟨⟨(i 1).val / 256, hN⟩, flush2_7 _, ?_⟩
  rw [mem_blk2_7]
  obtain ⟨-, -, -, -, -, -, -, -, -, -, -, -, -, -, e70, e71, e72⟩ := idx_facts2 ⟨(i 1).val / 256, hN⟩
  have e71' : win2_7.index ⟨(i 1).val / 256, hN⟩ (1 : Fin 3) = (i 1).val / 256 := e71
  intro a
  match a with
  | ⟨0, _⟩ => show win2_7.index ⟨(i 1).val / 256, hN⟩ (0 : Fin 3) * 32 ≤ (i 0).val ∧ (i 0).val < win2_7.index ⟨(i 1).val / 256, hN⟩ (0 : Fin 3) * 32 + 32; omega
  | ⟨1, _⟩ => show win2_7.index ⟨(i 1).val / 256, hN⟩ (1 : Fin 3) * 256 ≤ (i 1).val ∧ (i 1).val < win2_7.index ⟨(i 1).val / 256, hN⟩ (1 : Fin 3) * 256 + 256; omega
  | ⟨2, _⟩ => show win2_7.index ⟨(i 1).val / 256, hN⟩ (2 : Fin 3) * 128 ≤ (i 2).val ∧ (i 2).val < win2_7.index ⟨(i 1).val / 256, hN⟩ (2 : Fin 3) * 128 + 128; omega

/-- The output array after the region: the projection of the arrays as the region finds them. -/
theorem arrAt2_7 (c : Dev nD) :
    (dat2 V c).arrAt 7 cfg2.N = (Spec.proj Ideal.logistic (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) :=
  (dat2 V c).arrAt_eq_of_cover 7 _ (fun t _ => flushed2_7_eq V c t) covered2_7

end Cert.KernelIdeal.Val
-- ==== Proof.Val.R3.lean ====
/-
  Region 3, the gate split: what its two output arrays hold when it ends, over the extended reals.

  The gates arrive as an array  ru  of 128 units per batch entry and node, the state as an array  h  of 64 features.
  Block t of every array is nodes 512 t … 512 t + 511.  At a block the body writes  ru[.., u] * h[.., u]  (u < 64) into the
  first output and  ru[.., 64 + u]  into the second.  The eight blocks tile the 4096 nodes, so the first output ends as
  Spec.gateR ru h  and the second as  Spec.gateU ru,  index by index.
-/
import proofs.«149401_j50302656971158_2_alg».proof.Proof.Fr.R3
import proofs.«149401_j50302656971158_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

-- the buffers' contents when the region is entered, as extended reals
variable (V : (c : Dev nD) → (b : Ref sig .tc) → Buf (Elt Ideal) ((c : Thread nD τ).loc b))

theorem hz3 : (![0, 0, 0] : Fin 3 → Nat) = fun _ => 0 := funext fun a => by fin_cases a <;> rfl

/-- Where the blocks sit: at point `t` every window's block is nodes `512 t … 512 t + 511`, all batch entries, all features. -/
theorem idx3 : ∀ t : Fin cfg3.N,
    win3_0.index t (0 : Fin 3) = 0 ∧ win3_0.index t (1 : Fin 3) = t.val ∧ win3_0.index t (2 : Fin 3) = 0
    ∧ win3_1.index t (0 : Fin 3) = 0 ∧ win3_1.index t (1 : Fin 3) = t.val ∧ win3_1.index t (2 : Fin 3) = 0
    ∧ win3_2.index t (0 : Fin 3) = 0 ∧ win3_2.index t (1 : Fin 3) = t.val ∧ win3_2.index t (2 : Fin 3) = 0
    ∧ win3_3.index t (0 : Fin 3) = 0 ∧ win3_3.index t (1 : Fin 3) = t.val ∧ win3_3.index t (2 : Fin 3) = 0 :=
  (by decide +kernel : ∀ t : Fin grid3.N, _)

/-! ## The body's two results at an index -/

/-- The second result at an index: the gate unit 64 places up. -/
theorem pay3_U (x0 : Vec Ideal S32x512x128 .f32) (y : S32x512x64.Idx) (k : S32x512x128.Idx)
    (h0 : (k 0).val = (y 0).val) (h1 : (k 1).val = (y 1).val) (h2 : (k 2).val = 64 + (y 2).val) :
    k3_pay2 x0 y = x0 k := by
  unfold k3_pay2 k3_pay1
  dsimp only
  refine (extractStridedSlice_apply _ _ _ y k fun a => ?_).trans (congrFun (shapeCast_self x0 _) k)
  match a with
  | ⟨0, _⟩ => show (k 0).val = 0 + (y 0).val; omega
  | ⟨1, _⟩ => show (k 1).val = 0 + (y 1).val; omega
  | ⟨2, _⟩ => show (k 2).val = 64 + (y 2).val; omega

/-- The first result at an index: the gate unit at the same place times the state. -/
theorem pay3_R (x0 : Vec Ideal S32x512x128 .f32) (x1 : Vec Ideal S32x512x64 .f32) (y : S32x512x64.Idx) (k : S32x512x128.Idx)
    (h0 : (k 0).val = (y 0).val) (h1 : (k 1).val = (y 1).val) (h2 : (k 2).val = (y 2).val) :
    k3_pay3 x0 x1 y = x0 k * x1 y := by
  unfold k3_pay3 k3_pay1
  dsimp only
  refine (mulf_apply _ _ y).trans ?_
  refine congrArg₂ (· * ·) ?_ (congrFun (shapeCast_self x1 _) y)
  refine (extractStridedSlice_apply _ _ _ y k fun a => ?_).trans (congrFun (shapeCast_self x0 _) k)
  match a with
  | ⟨0, _⟩ => show (k 0).val = 0 + (y 0).val; omega
  | ⟨1, _⟩ => show (k 1).val = 0 + (y 1).val; omega
  | ⟨2, _⟩ => show (k 2).val = 0 + (y 2).val; omega

/-! ## The input blocks as parts of their arrays -/

/-- The gates' block at point `t`, in the array's coordinates. -/
theorem iblk3_0_apply (c : Dev nD) (t : Fin cfg3.N) (x : S32x512x128.Idx) (k : S32x4096x128.Idx)
    (hk0 : (k 0).val = (x 0).val) (hk1 : (k 1).val = 512 * t.val + (x 1).val) (hk2 : (k 2).val = (x 2).val) :
    (iblk3 V c 0 t : Vec Ideal S32x512x128 .f32) x = (V c (Pipeline.arrRef spec3 0) : S32x4096x128.Idx → EReal) k := by
  obtain ⟨e0, e1, e2, -⟩ := idx3 t
  unfold iblk3
  rw [View.read_apply]
  refine congrArg (V c (Pipeline.arrRef spec3 0) : S32x4096x128.Idx → EReal) ?_
  funext a
  apply Fin.ext
  match a with
  | ⟨0, _⟩ => show win3_0.index t 0 * 32 + 1 * (x 0).val = (k 0).val; omega
  | ⟨1, _⟩ => show win3_0.index t 1 * 512 + 1 * (x 1).val = (k 1).val; omega
  | ⟨2, _⟩ => show win3_0.index t 2 * 128 + 1 * (x 2).val = (k 2).val; omega

/-- The state's block at point `t`, in the array's coordinates. -/
theorem iblk3_1_apply (c : Dev nD) (t : Fin cfg3.N) (x : S32x512x64.Idx) (k : S32x4096x64.Idx)
    (hk0 : (k 0).val = (x 0).val) (hk1 : (k 1).val = 512 * t.val + (x 1).val) (hk2 : (k 2).val = (x 2).val) :
    (iblk3 V c 1 t : Vec Ideal S32x512x64 .f32) x = (V c (Pipeline.arrRef spec3 1) : S32x4096x64.Idx → EReal) k := by
  obtain ⟨-, -, -, e0, e1, e2, -⟩ := idx3 t
  unfold iblk3
  rw [View.read_apply]
  refine congrArg (V c (Pipeline.arrRef spec3 1) : S32x4096x64.Idx → EReal) ?_
  funext a
  apply Fin.ext
  match a with
  | ⟨0, _⟩ => show win3_1.index t 0 * 32 + 1 * (x 0).val = (k 0).val; omega
  | ⟨1, _⟩ => show win3_1.index t 1 * 512 + 1 * (x 1).val = (k 1).val; omega
  | ⟨2, _⟩ => show win3_1.index t 2 * 64 + 1 * (x 2).val = (k 2).val; omega

/-! ## What a point writes back -/

/-- Point `t` writes back block `t` of the update gate. -/
theorem flushed3_3_eq (c : Dev nD) (t : Fin cfg3.N) :
    (dat3 V c).flushed 3 t = ((cfg3.win 3).blk t).view.read (Elt Ideal) (Spec.gateU (V c (Pipeline.arrRef spec3 0))) := by
  show (cfg3.win 3).cut (grid3.coords t) ((dat3 V c).after 3 t) = _
  rw [after3_3]
  unfold out3_3
  rw [View.canon_unit_zero hz3]
  simp only [View.ld_unit_zero (S := S32x512x128) hz3]
  obtain ⟨-, -, -, -, -, -, -, -, -, o0, o1, o2⟩ := idx3 t
  refine funext fun (j : S32x512x64.Idx) => ?_
  show k3_pay2 (iblk3 V c 0 t) j = Spec.gateU (V c (Pipeline.arrRef spec3 0)) (((cfg3.win 3).blk t).view.emb j)
  refine (pay3_U (iblk3 V c 0 t) j (ix3 (j 0) (j 1) (Spec.hi (j 2))) rfl rfl rfl).trans ?_
  refine iblk3_0_apply V c t _ _ ?_ ?_ ?_
  · show win3_3.index t 0 * 32 + 1 * (j 0).val = (j 0).val; omega
  · show win3_3.index t 1 * 512 + 1 * (j 1).val = 512 * t.val + (j 1).val; omega
  · show 64 + (win3_3.index t 2 * 64 + 1 * (j 2).val) = 64 + (j 2).val; omega

/-- Point `t` writes back block `t` of the reset gate times the state. -/
theorem flushed3_2_eq (c : Dev nD) (t : Fin cfg3.N) :
    (dat3 V c).flushed 2 t = ((cfg3.win 2).blk t).view.read (Elt Ideal)
      (Spec.gateR (V c (Pipeline.arrRef spec3 0)) (V c (Pipeline.arrRef spec3 1))) := by
  show (cfg3.win 2).cut (grid3.coords t) ((dat3 V c).after 2 t) = _
  rw [after3_2]
  unfold out3_2
  rw [View.canon_unit_zero hz3]
  simp only [View.ld_unit_zero (S := S32x512x128) hz3, View.ld_unit_zero (S := S32x512x64) hz3]
  obtain ⟨-, -, -, -, -, -, o0, o1, o2, -⟩ := idx3 t
  refine funext fun (j : S32x512x64.Idx) => ?_
  show k3_pay3 (iblk3 V c 0 t) (iblk3 V c 1 t) j
    = Spec.gateR (V c (Pipeline.arrRef spec3 0)) (V c (Pipeline.arrRef spec3 1)) (((cfg3.win 2).blk t).view.emb j)
  refine (pay3_R (iblk3 V c 0 t) (iblk3 V c 1 t) j (ix3 (j 0) (j 1) (Spec.lo (j 2))) rfl rfl rfl).trans ?_
  refine congrArg₂ (· * ·) (iblk3_0_apply V c t _ _ ?_ ?_ ?_) (iblk3_1_apply V c t _ _ ?_ ?_ ?_)
  · show win3_2.index t 0 * 32 + 1 * (j 0).val = (j 0).val; omega
  · show win3_2.index t 1 * 512 + 1 * (j 1).val = 512 * t.val + (j 1).val; omega
  · show win3_2.index t 2 * 64 + 1 * (j 2).val = (j 2).val; omega
  · show win3_2.index t 0 * 32 + 1 * (j 0).val = (j 0).val; omega
  · show win3_2.index t 1 * 512 + 1 * (j 1).val = 512 * t.val + (j 1).val; omega
  · show win3_2.index t 2 * 64 + 1 * (j 2).val = (j 2).val; omega

/-! ## The blocks tile the arrays -/

/-- An index of the first output's array is in point `t`'s block iff each coordinate is in the block's range. -/
theorem mem_blk3_2 (t : Fin cfg3.N) (i : S32x4096x64.Idx) :
    i ∈ ((cfg3.win 2).blk t).view.set ↔ ∀ a : Fin 3, win3_2.index t a * S32x512x64.size a ≤ (i a).val
      ∧ (i a).val < win3_2.index t a * S32x512x64.size a + S32x512x64.size a := by
  show i ∈ ((View.whole main_v26_0).slice (win3_2.rect t)).set ↔ _
  rw [View.set_slice_whole, Rect.mem_set_unit]
  exact Iff.rfl

/-- The same of the second output's array. -/
theorem mem_blk3_3 (t : Fin cfg3.N) (i : S32x4096x64.Idx) :
    i ∈ ((cfg3.win 3).blk t).view.set ↔ ∀ a : Fin 3, win3_3.index t a * S32x512x64.size a ≤ (i a).val
      ∧ (i a).val < win3_3.index t a * S32x512x64.size a + S32x512x64.size a := by
  show i ∈ ((View.whole main_v26_1).slice (win3_3.rect t)).set ↔ _
  rw [View.set_slice_whole, Rect.mem_set_unit]
  exact Iff.rfl

/-- The point whose block holds node `n` is `n / 512`. -/
theorem point3 (n : Fin 4096) : ∃ t : Fin cfg3.N, t.val = n.val / 512 :=
  ⟨⟨n.val / 512, by show _ < grid3.N; rw [N_3]; have := n.isLt; omega⟩, rfl⟩

/-- Every index of the first output's array is in some point's block. -/
theorem cover3_2 (i : S32x4096x64.Idx) :
    ∃ t : Fin cfg3.N, (cfg3.win 2).flush t = true ∧ i ∈ ((cfg3.win 2).blk t).view.set := by
  have h0 : (i 0).val < 32 := (i 0).isLt
  have h1 : (i 1).val < 4096 := (i 1).isLt
  have h2 : (i 2).val < 64 := (i 2).isLt
  obtain ⟨t, ht⟩ := point3 (i 1)
  obtain ⟨-, -, -, -, -, -, o0, o1, o2, -⟩ := idx3 t
  refine ⟨t, flush3_2 t, ?_⟩
  rw [mem_blk3_2]
  intro a
  match a with
  | ⟨0, _⟩ => show win3_2.index t 0 * 32 ≤ (i 0).val ∧ (i 0).val < win3_2.index t 0 * 32 + 32; omega
  | ⟨1, _⟩ => show win3_2.index t 1 * 512 ≤ (i 1).val ∧ (i 1).val < win3_2.index t 1 * 512 + 512; omega
  | ⟨2, _⟩ => show win3_2.index t 2 * 64 ≤ (i 2).val ∧ (i 2).val < win3_2.index t 2 * 64 + 64; omega

/-- Every index of the second output's array is in some point's block. -/
theorem cover3_3 (i : S32x4096x64.Idx) :
    ∃ t : Fin cfg3.N, (cfg3.win 3).flush t = true ∧ i ∈ ((cfg3.win 3).blk t).view.set := by
  have h0 : (i 0).val < 32 := (i 0).isLt
  have h1 : (i 1).val < 4096 := (i 1).isLt
  have h2 : (i 2).val < 64 := (i 2).isLt
  obtain ⟨t, ht⟩ := point3 (i 1)
  obtain ⟨-, -, -, -, -, -, -, -, -, o0, o1, o2⟩ := idx3 t
  refine ⟨t, flush3_3 t, ?_⟩
  rw [mem_blk3_3]
  intro a
  match a with
  | ⟨0, _⟩ => show win3_3.index t 0 * 32 ≤ (i 0).val ∧ (i 0).val < win3_3.index t 0 * 32 + 32; omega
  | ⟨1, _⟩ => show win3_3.index t 1 * 512 ≤ (i 1).val ∧ (i 1).val < win3_3.index t 1 * 512 + 512; omega
  | ⟨2, _⟩ => show win3_3.index t 2 * 64 ≤ (i 2).val ∧ (i 2).val < win3_3.index t 2 * 64 + 64; omega

/-! ## The arrays after the region -/

/-- The first output ends as the reset gate (the lower 64 gate units) times the state, index by index. -/
theorem arrAt3_2 (c : Dev nD) :
    (dat3 V c).arrAt 2 cfg3.N = Spec.gateR (V c (Pipeline.arrRef spec3 0)) (V c (Pipeline.arrRef spec3 1)) :=
  (dat3 V c).arrAt_eq_of_cover 2 _ (fun t _ => flushed3_2_eq V c t) cover3_2

/-- The second output ends as the update gate (the upper 64 gate units), index by index. -/
theorem arrAt3_3 (c : Dev nD) :
    (dat3 V c).arrAt 3 cfg3.N = Spec.gateU (V c (Pipeline.arrRef spec3 0)) :=
  (dat3 V c).arrAt_eq_of_cover 3 _ (fun t _ => flushed3_3_eq V c t) cover3_3

end Cert.KernelIdeal.Val

end
-- ==== Proof.Val.R4.lean ====
/-
  Region 4 of the kernel program read at the ideal values: the two output arrays of the first diffusion
  product of the candidate's diffusion end holding the matrix product of the two input arrays, entry by entry.

  An output block (i, j) is written back at the point (i, j, k = 1).  The point before it, (i, j, k = 0), clears
  the accumulator and adds the product of the lower k-tiles; the point itself adds the product of the upper
  k-tiles and stores the accumulator into both outputs (the second through a change of format, which is the
  identity on the extended reals).  So the entry (r, s) is  (0 + sum over k < 2048) + sum over 2048 <= k < 4096
  of A(r, k) * X(k, s): the whole product.
-/
import proofs.«149401_j50302656971158_2_alg».proof.Proof.Fr.R4
import proofs.«149401_j50302656971158_2_alg».proof.Proof.Bridge.Mm
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.ValueIdx
open Idealize.ShloMosaic.Pipeline (Dat)

/-! ## What each case of the body leaves, as payloads of the blocks it loads -/

section cases

variable {F : FTy → Type} [FloatOps F]

theorem hz4 : (![0, 0] : Fin 2 → Nat) = fun _ => 0 := funext fun a => by fin_cases a <;> rfl

/-- At an even point the accumulator ends at the cleared accumulator plus the product of the point's blocks. -/
theorem sout4_A_0_eq (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : cond4_0 i) (hc1 : ¬cond4_1 i)
    (x0 : Vec F S1024x2048 .bf16) (x1 : Vec F S2048x1024 .bf16) :
    sout4_A_0 c i arg3 harg3 arg4 harg4 arg5 harg5 arg6 harg6 arg7 harg7 hc0 hc1 x0 x1 = k4_pay2 (k4_pay1 (F := F)) x0 x1 := by
  unfold sout4_A_0
  rw [View.read_writes_eq_canon _ _ _ (scover4_A_0 c i arg3 harg3 arg4 harg4 arg5 harg5 arg6 harg6 arg7 harg7 hc0 hc1 x0 x1)]
  unfold kernelRun4_A
  dsimp only
  sl_unfold_words
  rw [View.canon_cons_unit_zero (S := S1024x1024) hz4]
  simp only [View.readAt_eq_ld, harg3.read_unread, harg4.read_unread, View.ld_unit_zero (S := S1024x2048) hz4, View.ld_unit_zero (S := S2048x1024) hz4, View.readCov_unit_zero (S := S1024x1024) _ hz4]

/-- At an odd point the accumulator ends at what it held plus the product of the point's blocks, -/
theorem sout4_B_0_eq (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) :
    sout4_B_0 c i arg3 harg3 arg4 harg4 arg5 harg5 arg6 harg6 arg7 harg7 hc0 hc1 x0 x1 xs0 = k4_pay2 xs0 x0 x1 := by
  unfold sout4_B_0
  rw [View.read_writes_eq_canon _ _ _ (scover4_B_0 c i arg3 harg3 arg4 harg4 arg5 harg5 arg6 harg6 arg7 harg7 hc0 hc1 x0 x1 xs0)]
  unfold kernelRun4_B
  dsimp only
  sl_unfold_words
  rw [View.canon_unit_zero (S := S1024x1024) hz4]
  simp only [View.readAt_eq_ld, harg3.read_unread, harg4.read_unread, harg7.read_unread, View.ld_unit_zero (S := S1024x2048) hz4, View.ld_unit_zero (S := S2048x1024) hz4, View.ld_unit_zero (S := S1024x1024) hz4]

/-- the first output's buffer at the same, -/
theorem out4_B_2_eq (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) :
    out4_B_2 c i arg3 harg3 arg4 harg4 arg5 harg5 arg6 harg6 arg7 harg7 hc0 hc1 x0 x1 xs0 = k4_pay2 xs0 x0 x1 := by
  unfold out4_B_2
  rw [View.read_writes_eq_canon _ _ _ (cover4_B_2 c i arg3 harg3 arg4 harg4 arg5 harg5 arg6 harg6 arg7 harg7 hc0 hc1 x0 x1 xs0)]
  unfold kernelRun4_B
  dsimp only
  sl_unfold_words
  rw [View.canon_unit_zero (S := S1024x1024) hz4]
  simp only [View.readAt_eq_ld, harg3.read_unread, harg4.read_unread, harg7.read_unread, View.ld_unit_zero (S := S1024x2048) hz4, View.ld_unit_zero (S := S2048x1024) hz4, View.ld_unit_zero (S := S1024x1024) hz4, View.readCov_unit_zero (S := S1024x1024) _ hz4]

/-- and the second output's buffer at its change of format. -/
theorem out4_B_3_eq (c : Dev nD) (i : grid4.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond4_0 i) (hc1 : cond4_1 i)
    (x0 : Vec F S1024x2048 .bf16) (x1 : Vec F S2048x1024 .bf16) (xs0 : Vec F S1024x1024 .f32) :
    out4_B_3 c i arg3 harg3 arg4 harg4 arg5 harg5 arg6 harg6 arg7 harg7 hc0 hc1 x0 x1 xs0 = k4_pay3 (k4_pay2 xs0 x0 x1) := by
  unfold out4_B_3
  rw [View.read_writes_eq_canon _ _ _ (cover4_B_3 c i arg3 harg3 arg4 harg4 arg5 harg5 arg6 harg6 arg7 harg7 hc0 hc1 x0 x1 xs0)]
  unfold kernelRun4_B
  dsimp only
  sl_unfold_words
  rw [View.canon_unit_zero (S := S1024x1024) hz4]
  simp only [View.readAt_eq_ld, harg3.read_unread, harg4.read_unread, harg7.read_unread, View.ld_unit_zero (S := S1024x2048) hz4, View.ld_unit_zero (S := S2048x1024) hz4, View.ld_unit_zero (S := S1024x1024) hz4, View.readCov_unit_zero (S := S1024x1024) _ hz4]

end cases

/-! ## The payloads at an index, at the ideal values -/

theorem lhs4_0 (j : S1024x1024.Idx) (q : dot_S1024x2048_S2048x1024_S1024x1024_1_0_0_1_n_n.contr.Idx) : (dot_S1024x2048_S2048x1024_S1024x1024_1_0_0_1_n_n.lhsIdx j q 0).val = (j 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs4_1 (j : S1024x1024.Idx) (q : dot_S1024x2048_S2048x1024_S1024x1024_1_0_0_1_n_n.contr.Idx) : (dot_S1024x2048_S2048x1024_S1024x1024_1_0_0_1_n_n.lhsIdx j q 1).val = (q ⟨0, by decide⟩).val :=
  dot_S1024x2048_S2048x1024_S1024x1024_1_0_0_1_n_n.lhsIdx_val_of_single rfl j q
theorem rhs4_0 (j : S1024x1024.Idx) (q : dot_S1024x2048_S2048x1024_S1024x1024_1_0_0_1_n_n.contr.Idx) : (dot_S1024x2048_S2048x1024_S1024x1024_1_0_0_1_n_n.rhsIdx j q 0).val = (q ⟨0, by decide⟩).val :=
  dot_S1024x2048_S2048x1024_S1024x1024_1_0_0_1_n_n.rhsIdx_val_of_single rfl j q
theorem rhs4_1 (j : S1024x1024.Idx) (q : dot_S1024x2048_S2048x1024_S1024x1024_1_0_0_1_n_n.contr.Idx) : (dot_S1024x2048_S2048x1024_S1024x1024_1_0_0_1_n_n.rhsIdx j q 1).val = (j 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The cleared accumulator holds the zero word everywhere. -/
theorem k4_pay1_apply (j : S1024x1024.Idx) : k4_pay1 (F := Ideal) j = Ideal.ofBits .f32 0x00000000#32 := rfl

/-- The accumulating payload at entry (p, q): what the accumulator held there plus the sum over the block's 2048
    contraction indices of the products of the two blocks' entries. -/
theorem k4_pay2_apply (v3 : FVec Ideal S1024x1024 .f32) (v4 : FVec Ideal S1024x2048 .bf16) (v6 : FVec Ideal S2048x1024 .bf16)
    (p q : Fin 1024) :
    k4_pay2 (F := Ideal) v3 v4 v6 (ix2 p q) = v3 (ix2 p q) + ∑ k : Fin 2048, v4 (ix2 p k) * v6 (ix2 k q) := by
  unfold k4_pay2
  simp only [shapeCast_self]
  rw [addf_apply]
  simp only [matmul]
  rw [Ideal.matmul_constant_zero_apply, ← Equiv.sum_comp (contrEquiv1 dot_S1024x2048_S2048x1024_S1024x1024_1_0_0_1_n_n 2048 rfl rfl).symm]
  refine congrArg (v3 (ix2 p q) + ·) (Finset.sum_congr rfl fun k _ => ?_)
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k := funext fun a => Fin.ext (by
    match a with
    | ⟨0, _⟩ => exact lhs4_0 _ _
    | ⟨1, _⟩ => exact (lhs4_1 _ _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q := funext fun a => Fin.ext (by
    match a with
    | ⟨0, _⟩ => exact (rhs4_0 _ _).trans hk
    | ⟨1, _⟩ => exact rhs4_1 _ _)
  rw [el, er]

/-- The change of format is the identity on the extended reals. -/
theorem k4_pay3_eq (v : Vec Ideal S1024x1024 .f32) : k4_pay3 (F := Ideal) v = v := rfl

/-! ## The two outputs at a point that writes them back -/

variable (V : (c : Dev nD) → (b : Ref sig .tc) → Buf (Elt Ideal) ((c : Thread nD τ).loc b))

/-- After an even point the accumulator holds the cleared accumulator plus the product of the point's blocks. -/
theorem acc4_even (c : Dev nD) (t : Fin cfg4.N) (h0 : t.val % 2 = 0) (h1 : ¬t.val % 2 = 1) :
    (outsAt4 V c t.val t.isLt).2.2 = k4_pay2 (k4_pay1 (F := Ideal)) (iblk4 V c 0 t) (iblk4 V c 1 t) := by
  rw [outsAt4_A V c t h0 h1]
  dsimp only
  exact sout4_A_0_eq (F := Ideal) c (grid4.coords t) (ms4_0 t) (hs4_0 t) (ms4_1 t) (hs4_1 t) (ms4_2 t) (hs4_2 t) (ms4_3 t) (hs4_3 t) scM4_0 (Memref.isWhole_whole _) _ _ (iblk4 V c 0 t) (iblk4 V c 1 t)

/-- At the odd point after it the first output's buffer holds that plus the product of the odd point's blocks, -/
theorem out4_odd_2 (c : Dev nD) (t : Fin cfg4.N) (h0 : ¬t.val % 2 = 0) (h1 : t.val % 2 = 1) (hp : t.val - 1 < cfg4.N) :
    (outsAt4 V c t.val t.isLt).1 = k4_pay2 (k4_pay2 (k4_pay1 (F := Ideal)) (iblk4 V c 0 ⟨t.val - 1, hp⟩) (iblk4 V c 1 ⟨t.val - 1, hp⟩))
      (iblk4 V c 0 t) (iblk4 V c 1 t) := by
  have ha := acc4_even V c ⟨t.val - 1, hp⟩ (by dsimp only; omega) (by dsimp only; omega)
  dsimp only at ha
  rw [outsAt4_B V c t h0 h1]
  dsimp only
  refine (out4_B_2_eq (F := Ideal) c (grid4.coords t) (ms4_0 t) (hs4_0 t) (ms4_1 t) (hs4_1 t) (ms4_2 t) (hs4_2 t) (ms4_3 t) (hs4_3 t) scM4_0 (Memref.isWhole_whole _) _ _ (iblk4 V c 0 t) (iblk4 V c 1 t) _).trans ?_
  rw [ha]

/-- and the second output's buffer the same (the change of format is the identity). -/
theorem out4_odd_3 (c : Dev nD) (t : Fin cfg4.N) (h0 : ¬t.val % 2 = 0) (h1 : t.val % 2 = 1) (hp : t.val - 1 < cfg4.N) :
    (outsAt4 V c t.val t.isLt).2.1 = k4_pay2 (k4_pay2 (k4_pay1 (F := Ideal)) (iblk4 V c 0 ⟨t.val - 1, hp⟩) (iblk4 V c 1 ⟨t.val - 1, hp⟩))
      (iblk4 V c 0 t) (iblk4 V c 1 t) := by
  have ha := acc4_even V c ⟨t.val - 1, hp⟩ (by dsimp only; omega) (by dsimp only; omega)
  dsimp only at ha
  rw [outsAt4_B V c t h0 h1]
  dsimp only
  refine (out4_B_3_eq (F := Ideal) c (grid4.coords t) (ms4_0 t) (hs4_0 t) (ms4_1 t) (hs4_1 t) (ms4_2 t) (hs4_2 t) (ms4_3 t) (hs4_3 t) scM4_0 (Memref.isWhole_whole _) _ _ (iblk4 V c 0 t) (iblk4 V c 1 t) _).trans ?_
  rw [ha]
  exact k4_pay3_eq _

/-! ## From the blocks to the arrays -/

/-- The block indices over the grid: the point  t = (i * 4 + j) * 2 + k  reads block (i, k) of the first input and
    block (k, j) of the second, and owns block (i, j) of each output. -/
theorem idx4 : ∀ t : Fin cfg4.N,
    win4_0.index t (0 : Fin 2) = t.val / 8 ∧ win4_0.index t (1 : Fin 2) = t.val % 2
    ∧ win4_1.index t (0 : Fin 2) = t.val % 2 ∧ win4_1.index t (1 : Fin 2) = t.val / 2 % 4
    ∧ win4_2.index t (0 : Fin 2) = t.val / 8 ∧ win4_2.index t (1 : Fin 2) = t.val / 2 % 4
    ∧ win4_3.index t (0 : Fin 2) = t.val / 8 ∧ win4_3.index t (1 : Fin 2) = t.val / 2 % 4 :=
  (by decide +kernel : ∀ t : Fin grid4.N, _)

/-- Entry (p, k) of the first input's block at point t is entry (r, s) of the array at the block's offsets. -/
theorem iblk4_0_apply (c : Dev nD) (t : Fin cfg4.N) (p : Fin 1024) (k : Fin 2048) (r s : Fin 4096)
    (hr : r.val = t.val / 8 * 1024 + p.val) (hs : s.val = t.val % 2 * 2048 + k.val) :
    iblk4 V c 0 t (ix2 p k) = V c (Pipeline.arrRef spec4 0) (ix2 r s) := by
  obtain ⟨e0, e1, -⟩ := idx4 t
  show V c (Pipeline.arrRef spec4 0) (((cfg4.win 0).blk t).view.emb (ix2 p k)) = _
  refine congrArg _ (funext fun a => Fin.ext ?_)
  match a with
  | ⟨0, _⟩ => show win4_0.index t (0 : Fin 2) * 1024 + 1 * p.val = r.val; rw [e0, hr]; omega
  | ⟨1, _⟩ => show win4_0.index t (1 : Fin 2) * 2048 + 1 * k.val = s.val; rw [e1, hs]; omega

/-- Entry (k, q) of the second input's block at point t is entry (r, s) of the array at the block's offsets. -/
theorem iblk4_1_apply (c : Dev nD) (t : Fin cfg4.N) (k : Fin 2048) (q : Fin 1024) (r s : Fin 4096)
    (hr : r.val = t.val % 2 * 2048 + k.val) (hs : s.val = t.val / 2 % 4 * 1024 + q.val) :
    iblk4 V c 1 t (ix2 k q) = V c (Pipeline.arrRef spec4 1) (ix2 r s) := by
  obtain ⟨-, -, e2, e3, -⟩ := idx4 t
  show V c (Pipeline.arrRef spec4 1) (((cfg4.win 1).blk t).view.emb (ix2 k q)) = _
  refine congrArg _ (funext fun a => Fin.ext ?_)
  match a with
  | ⟨0, _⟩ => show win4_1.index t (0 : Fin 2) * 2048 + 1 * k.val = r.val; rw [e2, hr]; omega
  | ⟨1, _⟩ => show win4_1.index t (1 : Fin 2) * 1024 + 1 * q.val = s.val; rw [e3, hs]; omega

/-- What an odd point writes back into output one is its block of the matrix product of the two input arrays. -/
theorem flushed4_2_eq (c : Dev nD) (t : Fin cfg4.N) (hf : (cfg4.win 2).flush t = true) :
    (dat4 V c).flushed 2 t = ((cfg4.win 2).blk t).view.read (Elt Ideal)
      (Spec.mm (V c (Pipeline.arrRef spec4 0)) (V c (Pipeline.arrRef spec4 1))) := by
  have hN : cfg4.N = 32 := N_4
  have hlt : t.val < 32 := lt_of_lt_of_eq t.isLt hN
  have h1 : t.val % 2 = 1 := (flush4_2 t).mp hf
  have hp : t.val - 1 < cfg4.N := by omega
  show (cfg4.win 2).cut (grid4.coords t) ((dat4 V c).after 2 t) = _
  rw [after4_2, out4_odd_2 V c t (by omega) h1 hp]
  obtain ⟨-, -, -, -, e4, e5, e6, e7⟩ := idx4 t
  funext j
  obtain ⟨p, q, rfl⟩ : ∃ (p q : Fin 1024), j = ix2 p q := ⟨j 0, j 1, eq_ix2 (n0 := 1024) (n1 := 1024) j⟩
  show k4_pay2 (F := Ideal) _ _ _ (ix2 p q) = Spec.mm _ _ (((cfg4.win 2).blk t).view.emb (ix2 p q))
  have hi0 : ((((cfg4.win 2).blk t).view.emb (ix2 p q)) 0).val = t.val / 8 * 1024 + p.val := by
    show win4_2.index t (0 : Fin 2) * 1024 + 1 * p.val = _; rw [e4]; omega
  have hi1 : ((((cfg4.win 2).blk t).view.emb (ix2 p q)) 1).val = t.val / 2 % 4 * 1024 + q.val := by
    show win4_2.index t (1 : Fin 2) * 1024 + 1 * q.val = _; rw [e5]; omega
  rw [k4_pay2_apply, k4_pay2_apply, k4_pay1_apply]
  refine Spec.mm_of_two_tiles_word _ _ _ _ _ (fun k => ?_) (fun k => ?_)
  · refine congrArg₂ (· * ·) (iblk4_0_apply V c ⟨t.val - 1, hp⟩ p k _ _ ?_ ?_) (iblk4_1_apply V c ⟨t.val - 1, hp⟩ k q _ _ ?_ ?_)
    · rw [hi0]; dsimp only; omega
    · dsimp only; omega
    · dsimp only; omega
    · rw [hi1]; dsimp only; omega
  · refine congrArg₂ (· * ·) (iblk4_0_apply V c t p k _ _ ?_ ?_) (iblk4_1_apply V c t k q _ _ ?_ ?_)
    · rw [hi0]
    · dsimp only; omega
    · dsimp only; omega
    · rw [hi1]

/-- An index of the array is in point t's block of output one iff each coordinate is in the block's range. -/
theorem mem_blk4_2 (t : Fin cfg4.N) (i : S4096x4096.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole (Pipeline.arrRef spec4 2)).slice (win4_2.rect t)).set ↔ _
  rw [View.set_slice_whole, Rect.mem_set_unit]
  exact Iff.rfl

/-- Entry (r, s) of output one is written back by the odd point of the block (r / 1024, s / 1024). -/
theorem cover4_2 (i : S4096x4096.Idx) : ∃ t : Fin cfg4.N, (cfg4.win 2).flush t = true ∧ i ∈ ((cfg4.win 2).blk t).view.set := by
  have hN : cfg4.N = 32 := N_4
  have h0 : (i 0).val < 4096 := (i 0).isLt
  have h1 : (i 1).val < 4096 := (i 1).isLt
  have ht : ((i 0).val / 1024 * 4 + (i 1).val / 1024) * 2 + 1 < cfg4.N := by omega
  refine ⟨⟨((i 0).val / 1024 * 4 + (i 1).val / 1024) * 2 + 1, ht⟩, (flush4_2 _).mpr (by dsimp only; omega), ?_⟩
  obtain ⟨-, -, -, -, e4, e5, e6, e7⟩ := idx4 ⟨((i 0).val / 1024 * 4 + (i 1).val / 1024) * 2 + 1, ht⟩
  dsimp only at e4 e5 e6 e7
  rw [mem_blk4_2]
  intro a
  match a with
  | ⟨0, _⟩ =>
    show win4_2.index _ (0 : Fin 2) * 1024 ≤ (i 0).val ∧ (i 0).val < win4_2.index _ (0 : Fin 2) * 1024 + 1024
    rw [e4]; omega
  | ⟨1, _⟩ =>
    show win4_2.index _ (1 : Fin 2) * 1024 ≤ (i 1).val ∧ (i 1).val < win4_2.index _ (1 : Fin 2) * 1024 + 1024
    rw [e5]; omega

/-- Output one ends holding the matrix product of the two input arrays. -/
theorem arrAt4_2 (c : Dev nD) :
    (dat4 V c).arrAt 2 cfg4.N = Spec.mm (V c (Pipeline.arrRef spec4 0)) (V c (Pipeline.arrRef spec4 1)) :=
  (dat4 V c).arrAt_eq_of_cover 2 _ (flushed4_2_eq V c) cover4_2

/-- What an odd point writes back into output two is its block of the matrix product of the two input arrays. -/
theorem flushed4_3_eq (c : Dev nD) (t : Fin cfg4.N) (hf : (cfg4.win 3).flush t = true) :
    (dat4 V c).flushed 3 t = ((cfg4.win 3).blk t).view.read (Elt Ideal)
      (Spec.mm (V c (Pipeline.arrRef spec4 0)) (V c (Pipeline.arrRef spec4 1))) := by
  have hN : cfg4.N = 32 := N_4
  have hlt : t.val < 32 := lt_of_lt_of_eq t.isLt hN
  have h1 : t.val % 2 = 1 := (flush4_3 t).mp hf
  have hp : t.val - 1 < cfg4.N := by omega
  show (cfg4.win 3).cut (grid4.coords t) ((dat4 V c).after 3 t) = _
  rw [after4_3, out4_odd_3 V c t (by omega) h1 hp]
  obtain ⟨-, -, -, -, e4, e5, e6, e7⟩ := idx4 t
  funext j
  obtain ⟨p, q, rfl⟩ : ∃ (p q : Fin 1024), j = ix2 p q := ⟨j 0, j 1, eq_ix2 (n0 := 1024) (n1 := 1024) j⟩
  show k4_pay2 (F := Ideal) _ _ _ (ix2 p q) = Spec.mm _ _ (((cfg4.win 3).blk t).view.emb (ix2 p q))
  have hi0 : ((((cfg4.win 3).blk t).view.emb (ix2 p q)) 0).val = t.val / 8 * 1024 + p.val := by
    show win4_3.index t (0 : Fin 2) * 1024 + 1 * p.val = _; rw [e6]; omega
  have hi1 : ((((cfg4.win 3).blk t).view.emb (ix2 p q)) 1).val = t.val / 2 % 4 * 1024 + q.val := by
    show win4_3.index t (1 : Fin 2) * 1024 + 1 * q.val = _; rw [e7]; omega
  rw [k4_pay2_apply, k4_pay2_apply, k4_pay1_apply]
  refine Spec.mm_of_two_tiles_word _ _ _ _ _ (fun k => ?_) (fun k => ?_)
  · refine congrArg₂ (· * ·) (iblk4_0_apply V c ⟨t.val - 1, hp⟩ p k _ _ ?_ ?_) (iblk4_1_apply V c ⟨t.val - 1, hp⟩ k q _ _ ?_ ?_)
    · rw [hi0]; dsimp only; omega
    · dsimp only; omega
    · dsimp only; omega
    · rw [hi1]; dsimp only; omega
  · refine congrArg₂ (· * ·) (iblk4_0_apply V c t p k _ _ ?_ ?_) (iblk4_1_apply V c t k q _ _ ?_ ?_)
    · rw [hi0]
    · dsimp only; omega
    · dsimp only; omega
    · rw [hi1]

/-- An index of the array is in point t's block of output two iff each coordinate is in the block's range. -/
theorem mem_blk4_3 (t : Fin cfg4.N) (i : S4096x4096.Idx) :
    i ∈ ((cfg4.win 3).blk t).view.set ↔ ∀ a : Fin 2, win4_3.index t a * S1024x1024.size a ≤ (i a).val ∧ (i a).val < win4_3.index t a * S1024x1024.size a + S1024x1024.size a := by
  show i ∈ ((View.whole (Pipeline.arrRef spec4 3)).slice (win4_3.rect t)).set ↔ _
  rw [View.set_slice_whole, Rect.mem_set_unit]
  exact Iff.rfl

/-- Entry (r, s) of output two is written back by the odd point of the block (r / 1024, s / 1024). -/
theorem cover4_3 (i : S4096x4096.Idx) : ∃ t : Fin cfg4.N, (cfg4.win 3).flush t = true ∧ i ∈ ((cfg4.win 3).blk t).view.set := by
  have hN : cfg4.N = 32 := N_4
  have h0 : (i 0).val < 4096 := (i 0).isLt
  have h1 : (i 1).val < 4096 := (i 1).isLt
  have ht : ((i 0).val / 1024 * 4 + (i 1).val / 1024) * 2 + 1 < cfg4.N := by omega
  refine ⟨⟨((i 0).val / 1024 * 4 + (i 1).val / 1024) * 2 + 1, ht⟩, (flush4_3 _).mpr (by dsimp only; omega), ?_⟩
  obtain ⟨-, -, -, -, e4, e5, e6, e7⟩ := idx4 ⟨((i 0).val / 1024 * 4 + (i 1).val / 1024) * 2 + 1, ht⟩
  dsimp only at e4 e5 e6 e7
  rw [mem_blk4_3]
  intro a
  match a with
  | ⟨0, _⟩ =>
    show win4_3.index _ (0 : Fin 2) * 1024 ≤ (i 0).val ∧ (i 0).val < win4_3.index _ (0 : Fin 2) * 1024 + 1024
    rw [e6]; omega
  | ⟨1, _⟩ =>
    show win4_3.index _ (1 : Fin 2) * 1024 ≤ (i 1).val ∧ (i 1).val < win4_3.index _ (1 : Fin 2) * 1024 + 1024
    rw [e7]; omega

/-- Output two ends holding the matrix product of the two input arrays. -/
theorem arrAt4_3 (c : Dev nD) :
    (dat4 V c).arrAt 3 cfg4.N = Spec.mm (V c (Pipeline.arrRef spec4 0)) (V c (Pipeline.arrRef spec4 1)) :=
  (dat4 V c).arrAt_eq_of_cover 3 _ (flushed4_3_eq V c) cover4_3

end Cert.KernelIdeal.Val

end
-- ==== Proof.Val.R5.lean ====
/-
  Region 5, the values at the extended reals.

  The region's result array is, index by index, the second Chebyshev term of its three input arrays:
      result (r, s) = 2 * (sum over k < 4096 of A (r, k) * X (k, s)) - C (r, s).
  The grid visits each 1024 x 1024 block (i, j) of the result twice in a row.  At the first visit (an even position, the
  contraction block 0) the accumulator is set to zero and the first half of the sum, over k < 2048, is added to it; at the
  second visit (an odd position, the contraction block 1) the second half, over 2048 <= k < 4096, is added, and the block
  stored is twice the accumulator less C's block.  So the block written back at an odd position is
      2 * ((0 + first half) + second half) - C's block,
  and over the extended reals 0 is neutral for addition and the two halves make the whole sum.  Every index of the result
  lies in the block of exactly one odd position, so the array after the region is that function everywhere.
-/
import proofs.«149401_j50302656971158_2_alg».proof.Proof.Fr.R5
import proofs.«149401_j50302656971158_2_alg».proof.Proof.Spec
import proofs.«149401_j50302656971158_2_alg».proof.Proof.Bridge.Algebra
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem Idealize.ShloMosaic.ValueIdx
open Idealize.ShloMosaic.Pipeline (Dat)
open scoped BigOperators

/-! ## What each case leaves, as the payloads of the blocks -/

section Cases
variable {F : FTy → Type} [FloatOps F]

theorem hz5 : (![0, 0] : Fin 2 → Nat) = fun _ => 0 := funext fun a => by fin_cases a <;> rfl

/-- At an even position the accumulator ends at the first partial product added to the zero block. -/
theorem sout5_A_eq (c : Dev nD) (i : grid5.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : cond5_0 i) (hc1 : ¬cond5_1 i)
    (x0 : Vec F S1024x2048 .bf16) (x1 : Vec F S2048x1024 .bf16) (x2 : Vec F S1024x1024 .f32) :
    sout5_A_0 c i a3 h3 a4 h4 a5 h5 a6 h6 a7 h7 hc0 hc1 x0 x1 x2 = k5_pay2 (k5_pay1 (F := F)) x0 x1 := by
  unfold sout5_A_0
  rw [View.read_writes_eq_canon _ _ _ (scover5_A_0 c i a3 h3 a4 h4 a5 h5 a6 h6 a7 h7 hc0 hc1 x0 x1 x2)]
  unfold kernelRun5_A
  dsimp only
  sl_unfold_words
  rw [View.canon_cons_unit_zero (S := S1024x1024) hz5, View.readCov_unit_zero (S := S1024x1024) _ hz5]
  simp only [View.readAt_eq_ld, h3.read_unread, h4.read_unread, View.ld_unit_zero (S := S1024x2048) hz5, View.ld_unit_zero (S := S2048x1024) hz5]

/-- At an odd position the accumulator ends at the second partial product added to what it held. -/
theorem sout5_B_eq (c : Dev nD) (i : grid5.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond5_0 i) (hc1 : cond5_1 i)
    (x0 : Vec F S1024x2048 .bf16) (x1 : Vec F S2048x1024 .bf16) (x2 : Vec F S1024x1024 .f32) (xs0 : Vec F S1024x1024 .f32) :
    sout5_B_0 c i a3 h3 a4 h4 a5 h5 a6 h6 a7 h7 hc0 hc1 x0 x1 x2 xs0 = k5_pay2 xs0 x0 x1 := by
  unfold sout5_B_0
  rw [View.read_writes_eq_canon _ _ _ (scover5_B_0 c i a3 h3 a4 h4 a5 h5 a6 h6 a7 h7 hc0 hc1 x0 x1 x2 xs0)]
  unfold kernelRun5_B
  dsimp only
  sl_unfold_words
  rw [View.canon_unit_zero hz5]
  simp only [View.readAt_eq_ld, h3.read_unread, h4.read_unread, h7.read_unread, View.ld_unit_zero (S := S1024x2048) hz5, View.ld_unit_zero (S := S2048x1024) hz5, View.ld_unit_zero (S := S1024x1024) hz5]

/-- and the result's block is the combination of that accumulator with the third input's block. -/
theorem out5_B_eq (c : Dev nD) (i : grid5.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond5_0 i) (hc1 : cond5_1 i)
    (x0 : Vec F S1024x2048 .bf16) (x1 : Vec F S2048x1024 .bf16) (x2 : Vec F S1024x1024 .f32) (xs0 : Vec F S1024x1024 .f32) :
    out5_B_3 c i a3 h3 a4 h4 a5 h5 a6 h6 a7 h7 hc0 hc1 x0 x1 x2 xs0 = k5_pay3 (k5_pay2 xs0 x0 x1) x2 := by
  unfold out5_B_3
  rw [View.read_writes_eq_canon _ _ _ (cover5_B_3 c i a3 h3 a4 h4 a5 h5 a6 h6 a7 h7 hc0 hc1 x0 x1 x2 xs0)]
  unfold kernelRun5_B
  dsimp only
  sl_unfold_words
  rw [View.canon_unit_zero hz5, View.readCov_unit_zero (S := S1024x1024) _ hz5]
  simp only [View.readAt_eq_ld, h3.read_unread, h4.read_unread, h5.read_unread, h7.read_unread, View.ld_unit_zero (S := S1024x2048) hz5, View.ld_unit_zero (S := S2048x1024) hz5, View.ld_unit_zero (S := S1024x1024) hz5]

end Cases

/-! ## The payloads at the extended reals, read at an index -/

/-- The product's dimension numbers: rows by contraction times contraction by columns. -/
abbrev dot5 : DotDims S1024x2048 S2048x1024 S1024x1024 := dot_S1024x2048_S2048x1024_S1024x1024_1_0_0_1_n_n

/-- Its one contraction axis has 2048 positions. -/
def ce5 : dot5.contr.Idx ≃ Fin 2048 := contrEquiv1 dot5 2048 rfl rfl

/-- The zero block. -/
theorem k5_pay1_apply (j : S1024x1024.Idx) : k5_pay1 (F := Ideal) j = 0 := by
  unfold k5_pay1
  simp only [shapeCast_self]
  show Ideal.ofBits .f32 0x00000000#32 = 0
  exact Ideal.ofBits_zero_f32

/-- The accumulation: what was held plus the sum over the contraction axis of the operands' products. -/
theorem k5_pay2_apply (v3 : Vec Ideal S1024x1024 .f32) (x0 : Vec Ideal S1024x2048 .bf16) (x1 : Vec Ideal S2048x1024 .bf16) (j : S1024x1024.Idx) :
    k5_pay2 (F := Ideal) v3 x0 x1 j = v3 j + ∑ l : Fin 2048, x0 (ix2 (j 0) l) * x1 (ix2 l (j 1)) := by
  unfold k5_pay2
  simp only [shapeCast_self]
  rw [addf_apply]
  simp only [matmul]
  rw [Ideal.matmul_constant_zero_apply]
  congr 1
  rw [← Equiv.sum_comp ce5.symm]
  refine Finset.sum_congr rfl fun l _ => ?_
  have hk : ((ce5.symm l) ⟨0, by decide⟩ : ℕ) = l.val := contrEquiv1_symm_val dot5 2048 rfl rfl l
  congr 2
  · funext a
    apply Fin.ext
    match a with
    | ⟨0, _⟩ => rfl
    | ⟨1, _⟩ => exact hk
  · funext a
    apply Fin.ext
    match a with
    | ⟨0, _⟩ => exact hk
    | ⟨1, _⟩ => rfl

/-- The combination: twice the accumulator less the third input. -/
theorem k5_pay3_apply (v16 v19 : Vec Ideal S1024x1024 .f32) (j : S1024x1024.Idx) :
    k5_pay3 (F := Ideal) v16 v19 j = Spec.two * v16 j - v19 j := by
  unfold k5_pay3
  simp only [shapeCast_self]
  rfl

/-! ## The blocks after a pair of positions, as payloads -/

section Chain
variable {F : FTy → Type} [FloatOps F]
variable (V : (c : Dev nD) → (b : Ref sig .tc) → Buf (Elt F) ((c : Thread nD τ).loc b))

set_option maxHeartbeats 1000000 in
/-- After an even position the accumulator holds the first partial product added to the zero block. -/
theorem acc_even5 (c : Dev nD) (s : Fin cfg5.N) (h0 : s.val % 2 = 0) :
    (outsAt5 V c s.val s.isLt).2 = k5_pay2 (k5_pay1 (F := F)) (iblk5 V c 0 s) (iblk5 V c 1 s) := by
  have h1 : ¬s.val % 2 = 1 := by omega
  rw [outsAt5_A V c s h0 h1]
  dsimp only
  rw [sout5_A_eq]

set_option maxHeartbeats 1000000 in
/-- After an odd position the result's buffer holds the combination of the two partial products with the third input's
    block. -/
theorem out_odd5 (c : Dev nD) (t : Fin cfg5.N) (h1 : t.val % 2 = 1) :
    (outsAt5 V c t.val t.isLt).1
      = k5_pay3 (k5_pay2 (k5_pay2 (k5_pay1 (F := F)) (iblk5 V c 0 ⟨t.val - 1, Nat.lt_of_le_of_lt (Nat.sub_le _ _) t.isLt⟩) (iblk5 V c 1 ⟨t.val - 1, Nat.lt_of_le_of_lt (Nat.sub_le _ _) t.isLt⟩))
          (iblk5 V c 0 t) (iblk5 V c 1 t)) (iblk5 V c 2 t) := by
  have h0 : ¬t.val % 2 = 0 := by omega
  rw [outsAt5_B V c t h0 h1]
  dsimp only
  rw [out5_B_eq]
  rw [acc_even5 V c ⟨t.val - 1, Nat.lt_of_le_of_lt (Nat.sub_le _ _) t.isLt⟩ (by dsimp only; omega)]

end Chain

section Array
variable (V : (c : Dev nD) → (b : Ref sig .tc) → Buf (Elt Ideal) ((c : Thread nD τ).loc b))

theorem idx_facts5 : ∀ t s : Fin cfg5.N, t.val % 2 = 1 → s.val + 1 = t.val →
    win5_0.index s (0 : Fin 2) = win5_3.index t (0 : Fin 2) ∧ win5_0.index s (1 : Fin 2) = 0
    ∧ win5_0.index t (0 : Fin 2) = win5_3.index t (0 : Fin 2) ∧ win5_0.index t (1 : Fin 2) = 1
    ∧ win5_1.index s (0 : Fin 2) = 0 ∧ win5_1.index s (1 : Fin 2) = win5_3.index t (1 : Fin 2)
    ∧ win5_1.index t (0 : Fin 2) = 1 ∧ win5_1.index t (1 : Fin 2) = win5_3.index t (1 : Fin 2)
    ∧ win5_2.index t (0 : Fin 2) = win5_3.index t (0 : Fin 2) ∧ win5_2.index t (1 : Fin 2) = win5_3.index t (1 : Fin 2)
    ∧ win5_3.index t (0 : Fin 2) ≤ 3 ∧ win5_3.index t (1 : Fin 2) ≤ 3 :=
  (by decide +kernel : ∀ t s : Fin grid5.N, t.val % 2 = 1 → s.val + 1 = t.val →
    win5_0.index s (0 : Fin 2) = win5_3.index t (0 : Fin 2) ∧ win5_0.index s (1 : Fin 2) = 0
    ∧ win5_0.index t (0 : Fin 2) = win5_3.index t (0 : Fin 2) ∧ win5_0.index t (1 : Fin 2) = 1
    ∧ win5_1.index s (0 : Fin 2) = 0 ∧ win5_1.index s (1 : Fin 2) = win5_3.index t (1 : Fin 2)
    ∧ win5_1.index t (0 : Fin 2) = 1 ∧ win5_1.index t (1 : Fin 2) = win5_3.index t (1 : Fin 2)
    ∧ win5_2.index t (0 : Fin 2) = win5_3.index t (0 : Fin 2) ∧ win5_2.index t (1 : Fin 2) = win5_3.index t (1 : Fin 2)
    ∧ win5_3.index t (0 : Fin 2) ≤ 3 ∧ win5_3.index t (1 : Fin 2) ≤ 3)

theorem idx_onto5 : ∀ (q0 q1 : Fin 4), ∃ t : Fin cfg5.N, (cfg5.win 3).flush t = true ∧ win5_3.index t = ![q0.val, q1.val] :=
  (by decide +kernel : ∀ (q0 q1 : Fin 4), ∃ t : Fin grid5.N, win5_3.flush t = true ∧ win5_3.index t = ![q0.val, q1.val])

/-- The three input arrays as the region finds them, as matrices of extended reals. -/
abbrev A5 (c : Dev nD) : Spec.Mat 4096 4096 := V c (Pipeline.arrRef spec5 0)
abbrev X5 (c : Dev nD) : Spec.Mat 4096 4096 := V c (Pipeline.arrRef spec5 1)
abbrev C5 (c : Dev nD) : Spec.Mat 4096 4096 := V c (Pipeline.arrRef spec5 2)

/-- The result array, index by index. -/
abbrev G5 (c : Dev nD) : Buf (Elt Ideal) ((cfg5.win 3).arr.view.loc (c.tc : Thread nD τ)) :=
  Spec.cheb (A5 V c) (X5 V c) (C5 V c)

/-! ## A block read at an index is the array read at the block's offset plus the index -/

theorem blk5_0_apply (c : Dev nD) (u : Fin cfg5.N) (a : Fin 1024) (l : Fin 2048) (p : (⟨2, ![4096, 4096]⟩ : Shape).Idx)
    (h0 : (p 0).val = win5_0.index u (0 : Fin 2) * 1024 + a.val) (h1 : (p 1).val = win5_0.index u (1 : Fin 2) * 2048 + l.val) :
    iblk5 V c 0 u (ix2 a l) = A5 V c p := by
  show A5 V c (((cfg5.win 0).blk u).view.emb (ix2 a l)) = _
  congr 1
  funext d; apply Fin.ext
  match d with
  | ⟨0, _⟩ => show win5_0.index u (0 : Fin 2) * 1024 + 1 * a.val = (p 0).val; omega
  | ⟨1, _⟩ => show win5_0.index u (1 : Fin 2) * 2048 + 1 * l.val = (p 1).val; omega

theorem blk5_1_apply (c : Dev nD) (u : Fin cfg5.N) (l : Fin 2048) (b : Fin 1024) (p : (⟨2, ![4096, 4096]⟩ : Shape).Idx)
    (h0 : (p 0).val = win5_1.index u (0 : Fin 2) * 2048 + l.val) (h1 : (p 1).val = win5_1.index u (1 : Fin 2) * 1024 + b.val) :
    iblk5 V c 1 u (ix2 l b) = X5 V c p := by
  show X5 V c (((cfg5.win 1).blk u).view.emb (ix2 l b)) = _
  congr 1
  funext d; apply Fin.ext
  match d with
  | ⟨0, _⟩ => show win5_1.index u (0 : Fin 2) * 2048 + 1 * l.val = (p 0).val; omega
  | ⟨1, _⟩ => show win5_1.index u (1 : Fin 2) * 1024 + 1 * b.val = (p 1).val; omega

theorem blk5_2_apply (c : Dev nD) (u : Fin cfg5.N) (j : S1024x1024.Idx) (p : (⟨2, ![4096, 4096]⟩ : Shape).Idx)
    (h0 : (p 0).val = win5_2.index u (0 : Fin 2) * 1024 + (j 0).val) (h1 : (p 1).val = win5_2.index u (1 : Fin 2) * 1024 + (j 1).val) :
    iblk5 V c 2 u j = C5 V c p := by
  show C5 V c (((cfg5.win 2).blk u).view.emb j) = _
  congr 1
  funext d; apply Fin.ext
  match d with
  | ⟨0, _⟩ => show win5_2.index u (0 : Fin 2) * 1024 + 1 * (j 0).val = (p 0).val; omega
  | ⟨1, _⟩ => show win5_2.index u (1 : Fin 2) * 1024 + 1 * (j 1).val = (p 1).val; omega

/-- The result array at an index: the sum over the contraction axis taken in its two halves. -/
theorem G5_apply (c : Dev nD) (e : (⟨2, ![4096, 4096]⟩ : Shape).Idx) :
    G5 V c e = Spec.two * ((∑ k : Fin 2048, A5 V c (ix2 (e 0) (⟨k.val, by omega⟩ : Fin 4096)) * X5 V c (ix2 (⟨k.val, by omega⟩ : Fin 4096) (e 1)))
        + ∑ k : Fin 2048, A5 V c (ix2 (e 0) (⟨2048 + k.val, by omega⟩ : Fin 4096)) * X5 V c (ix2 (⟨2048 + k.val, by omega⟩ : Fin 4096) (e 1)))
      - C5 V c e := by
  show Spec.two * (∑ k : Fin 4096, A5 V c (ix2 (e 0) k) * X5 V c (ix2 k (e 1))) - C5 V c e = _
  rw [Cert.Spec.sum_halves]

set_option maxHeartbeats 1000000 in
/-- What an odd position writes back is its block of the result array. -/
theorem flushed5_3_eq (c : Dev nD) (t : Fin cfg5.N) (hf : (cfg5.win 3).flush t = true) :
    (dat5 V c).flushed 3 t = ((cfg5.win 3).blk t).view.read (Elt Ideal) (G5 V c) := by
  have h1 : t.val % 2 = 1 := (flush5_3 t).mp hf
  have hN : t.val < 32 := lt_of_lt_of_eq t.isLt (show cfg5.N = 32 from N_5)
  obtain ⟨f0, f1, f2, f3, f4, f5, f6, f7, f8, f9, f10, f11⟩ :=
    idx_facts5 t ⟨t.val - 1, Nat.lt_of_le_of_lt (Nat.sub_le _ _) t.isLt⟩ h1 (by dsimp only; omega)
  show (cfg5.win 3).cut (grid5.coords t) ((dat5 V c).after 3 t) = _
  rw [after5_3, out_odd5 V c t h1]
  funext j
  rw [View.read_apply]
  show k5_pay3 _ _ j = _
  rw [k5_pay3_apply, k5_pay2_apply, k5_pay2_apply, k5_pay1_apply, zero_add]
  have hj0 : (j 0).val < 1024 := (j 0).isLt
  have hj1 : (j 1).val < 1024 := (j 1).isLt
  have e0 : ((((cfg5.win 3).blk t).view.emb j) 0).val = win5_3.index t (0 : Fin 2) * 1024 + (j 0).val := by
    show win5_3.index t (0 : Fin 2) * 1024 + 1 * (j 0).val = _; omega
  have e1 : ((((cfg5.win 3).blk t).view.emb j) 1).val = win5_3.index t (1 : Fin 2) * 1024 + (j 1).val := by
    show win5_3.index t (1 : Fin 2) * 1024 + 1 * (j 1).val = _; omega
  rw [G5_apply]
  refine congrArg₂ (fun a b : EReal => a - b) (congrArg (fun s : EReal => Spec.two * s) (congrArg₂ (fun a b : EReal => a + b)
    (Finset.sum_congr rfl fun l _ => ?_) (Finset.sum_congr rfl fun l _ => ?_))) ?_
  · refine congrArg₂ (fun a b : EReal => a * b) ?_ ?_
    · exact blk5_0_apply V c _ (j 0) l _ (by show (((cfg5.win 3).blk t).view.emb j 0).val = _; rw [e0, f0]) (by show l.val = _; rw [f1]; try omega)
    · exact blk5_1_apply V c _ l (j 1) _ (by show l.val = _; rw [f4]; try omega) (by show (((cfg5.win 3).blk t).view.emb j 1).val = _; rw [e1, f5])
  · refine congrArg₂ (fun a b : EReal => a * b) ?_ ?_
    · exact blk5_0_apply V c _ (j 0) l _ (by show (((cfg5.win 3).blk t).view.emb j 0).val = _; rw [e0, f2]) (by show 2048 + l.val = _; rw [f3]; try omega)
    · exact blk5_1_apply V c _ l (j 1) _ (by show 2048 + l.val = _; rw [f6]; try omega) (by show (((cfg5.win 3).blk t).view.emb j 1).val = _; rw [e1, f7])
  · exact blk5_2_apply V c t j _ (by rw [e0, f8]) (by rw [e1, f9])

/-- An index of the result array is in an odd position's block iff each coordinate is in the block's range. -/
theorem mem_blk5_3 (t : Fin cfg5.N) (i : (⟨2, ![4096, 4096]⟩ : Shape).Idx) :
    i ∈ ((cfg5.win 3).blk t).view.set ↔ ∀ a : Fin 2, win5_3.index t a * S1024x1024.size a ≤ (i a).val ∧ (i a).val < win5_3.index t a * S1024x1024.size a + S1024x1024.size a := by
  change i ∈ ((View.whole (Pipeline.arrRef spec5 3)).slice (win5_3.rect t)).set ↔ _
  rw [View.set_slice_whole, Rect.mem_set_unit]
  exact Iff.rfl

/-- THE VALUE of region 5: after the region the result array is twice the product of the first two arrays less the third,
    index by index. -/
theorem arrAt5_3 (c : Dev nD) :
    (dat5 V c).arrAt 3 cfg5.N = Spec.cheb (V c (Pipeline.arrRef spec5 0)) (V c (Pipeline.arrRef spec5 1)) (V c (Pipeline.arrRef spec5 2)) :=
  (dat5 V c).arrAt_eq_of_cover 3 (G5 V c) (flushed5_3_eq V c) fun i => by
    have hi0 : (i 0).val < 4096 := (i 0).isLt
    have hi1 : (i 1).val < 4096 := (i 1).isLt
    obtain ⟨t, hf, ht⟩ := idx_onto5 ⟨(i 0).val / 1024, by omega⟩ ⟨(i 1).val / 1024, by omega⟩
    have q0 : win5_3.index t (0 : Fin 2) = (i 0).val / 1024 := congrFun ht 0
    have q1 : win5_3.index t (1 : Fin 2) = (i 1).val / 1024 := congrFun ht 1
    refine ⟨t, hf, ?_⟩
    rw [mem_blk5_3]
    intro a
    match a with
    | ⟨0, _⟩ => show win5_3.index t (0 : Fin 2) * 1024 ≤ (i 0).val ∧ (i 0).val < win5_3.index t (0 : Fin 2) * 1024 + 1024; omega
    | ⟨1, _⟩ => show win5_3.index t (1 : Fin 2) * 1024 ≤ (i 1).val ∧ (i 1).val < win5_3.index t (1 : Fin 2) * 1024 + 1024; omega

end Array

end Cert.KernelIdeal.Val

end
-- ==== Proof.Val.R6.lean ====
import proofs.«149401_j50302656971158_2_alg».proof.Proof.Fr.R6
import proofs.«149401_j50302656971158_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! # Region 6: the projection kernel, its output array at the extended reals

The output array after the region is, index by index, the activation of the three diffusion terms' projections
summed in the order ((term 0 + term 1) + term 2) + bias: per batch entry `b`, node `n` and unit `o`,
`∑ s, x (n, s * 32 + b) * w (s, o)` for each term. A block of 256 node rows is read as [row, feature, batch entry],
turned to [row, batch entry, feature], flattened to (row, batch entry) by feature and multiplied by the weights; the
product is read back as [row, batch entry, unit] and turned to [batch entry, row, unit]. -/

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

/-! ## The product's operand indices -/

theorem lhs6_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhs6_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem rhs6_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem rhs6_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-! ## One term at an index -/

/-- One diffusion term's projection at row `r`, batch entry `b`, unit `o`: the sum over the 128 features `s` of
    the block's entry at column `s * 32 + b` times the weight of feature `s` for unit `o`. -/
theorem term6_apply (x : Vec Ideal S256x4096 .f32) (w : Vec Ideal S128x64 .f32) (r : Fin 256) (b : Fin 32) (o : Fin 64) :
    (shapeCast S256x32x64 (matmul (φ₁ := .f32) (φ₂ := .f32) dot_S8192x128_S128x64_S8192x64_1_0_0_1_n_n none
        (shapeCast S8192x128 (transpose S256x32x128 [0, 2, 1] (shapeCast S256x128x32 (shapeCast S256x4096 x shapeCasts_S256x4096_S256x4096) shapeCasts_S256x4096_S256x128x32) transposes_S256x128x32_p0_2_1_S256x32x128) shapeCasts_S256x32x128_S8192x128)
        (shapeCast S128x64 w shapeCasts_S128x64_S128x64)
        (constant (F := Ideal) S8192x64 .f32 0x00000000#32)) shapeCasts_S8192x64_S256x32x64 : FVec Ideal S256x32x64 .f32) (ix3 r b o)
      = ∑ s : Fin 128, x (ix2 r (Spec.col s b)) * w (ix2 s o) := by
  have hR : r.val * 32 + b.val < 8192 := by have := r.isLt; have := b.isLt; omega
  -- the product read back as [row, batch entry, unit]: row-major position (r * 32 + b, o)
  refine (shapeCast_apply _ shapeCasts_S8192x64_S256x32x64 (ix3 r b o) (ix2 (⟨r.val * 32 + b.val, hR⟩ : Fin 8192) o) ?_).trans ?_
  · rw [Shape.rowMajor_val_two, Shape.rowMajor_val_three]
    rfl
  simp only [matmul]
  rw [Ideal.matmul_constant_zero_apply, ← Equiv.sum_comp (contrEquiv1 dot_S8192x128_S128x64_S8192x64_1_0_0_1_n_n 128 rfl rfl).symm]
  refine Finset.sum_congr rfl fun s _ => ?_
  have hk := contrEquiv1_symm_val dot_S8192x128_S128x64_S8192x64_1_0_0_1_n_n 128 rfl rfl s
  have el : dot_S8192x128_S128x64_S8192x64_1_0_0_1_n_n.lhsIdx (ix2 (⟨r.val * 32 + b.val, hR⟩ : Fin 8192) o) ((contrEquiv1 dot_S8192x128_S128x64_S8192x64_1_0_0_1_n_n 128 rfl rfl).symm s)
      = ix2 (⟨r.val * 32 + b.val, hR⟩ : Fin 8192) s := funext fun a => Fin.ext (by
    match a with
    | ⟨0, _⟩ => exact lhs6_0 _ _
    | ⟨1, _⟩ => exact (lhs6_1 _ _).trans hk)
  have er : dot_S8192x128_S128x64_S8192x64_1_0_0_1_n_n.rhsIdx (ix2 (⟨r.val * 32 + b.val, hR⟩ : Fin 8192) o) ((contrEquiv1 dot_S8192x128_S128x64_S8192x64_1_0_0_1_n_n 128 rfl rfl).symm s)
      = ix2 s o := funext fun a => Fin.ext (by
    match a with
    | ⟨0, _⟩ => exact (rhs6_0 _ _).trans hk
    | ⟨1, _⟩ => exact rhs6_1 _ _)
  rw [el, er]
  refine congrArg₂ (· * ·) ?_ ?_
  · -- (row, batch entry) by feature, from [row, batch entry, feature]
    refine (shapeCast_apply _ shapeCasts_S256x32x128_S8192x128 (ix2 (⟨r.val * 32 + b.val, hR⟩ : Fin 8192) s) (ix3 r b s) ?_).trans ?_
    · rw [Shape.rowMajor_val_two, Shape.rowMajor_val_three]
      rfl
    -- [row, batch entry, feature] from [row, feature, batch entry]
    refine (transpose_apply [0, 2, 1] _ transposes_S256x128x32_p0_2_1_S256x32x128 (ix3 r b s) (ix3 r s b)
      (fun a => match a with | ⟨0, _⟩ => rfl | ⟨1, _⟩ => rfl | ⟨2, _⟩ => rfl)).trans ?_
    -- [row, feature, batch entry] from the block: column s * 32 + b
    refine (shapeCast_apply _ shapeCasts_S256x4096_S256x128x32 (ix3 r s b) (ix2 r (Spec.col s b)) ?_).trans ?_
    · rw [Shape.rowMajor_val_two, Shape.rowMajor_val_three]
      show r.val * 4096 + (s.val * 32 + b.val) = (r.val * 128 + s.val) * 32 + b.val
      omega
    exact congrFun (shapeCast_self x shapeCasts_S256x4096_S256x4096) _
  · exact congrFun (shapeCast_self w shapeCasts_S128x64_S128x64) _

/-! ## The payload at an index -/

/-- The stored value at batch entry `b`, row `r`, unit `o`. -/
theorem pay6_apply (x0 x1 x2 : Vec Ideal S256x4096 .f32) (w0 w1 w2 : Vec Ideal S128x64 .f32) (bias : Vec Ideal S1x64 .f32)
    (b : Fin 32) (r : Fin 256) (o : Fin 64) :
    k6_pay1 (F := Ideal) x0 w0 x1 w1 x2 w2 bias (ix3 b r o)
      = Ideal.tanh ((((∑ s : Fin 128, x0 (ix2 r (Spec.col s b)) * w0 (ix2 s o))
          + ∑ s : Fin 128, x1 (ix2 r (Spec.col s b)) * w1 (ix2 s o))
          + ∑ s : Fin 128, x2 (ix2 r (Spec.col s b)) * w2 (ix2 s o))
          + bias (ix2 0 o)) := by
  unfold k6_pay1
  dsimp only
  show Ideal.tanh (_ + _) = _
  refine congrArg Ideal.tanh (congrArg₂ (· + ·) ?_ ?_)
  · -- [batch entry, row, unit] from [row, batch entry, unit]
    refine (transpose_apply [1, 0, 2] _ transposes_S256x32x64_p1_0_2_S32x256x64 (ix3 b r o) (ix3 r b o)
      (fun a => match a with | ⟨0, _⟩ => rfl | ⟨1, _⟩ => rfl | ⟨2, _⟩ => rfl)).trans ?_
    show (_ + _) + _ = _
    exact congrArg₂ (· + ·) (congrArg₂ (· + ·) (term6_apply x0 w0 r b o) (term6_apply x1 w1 r b o)) (term6_apply x2 w2 r b o)
  · -- the bias row, the same for every batch entry and row
    refine (broadcastTo_apply _ broadcasts_S1x1x64_S32x256x64 (ix3 b r o) (ix3 0 0 o)
      (fun a => match a with | ⟨0, _⟩ => rfl | ⟨1, _⟩ => rfl | ⟨2, _⟩ => rfl)).trans ?_
    refine (shapeCast_apply _ shapeCasts_S1x64_S1x1x64 (ix3 0 0 o) (ix2 0 o) ?_).trans ?_
    · rw [Shape.rowMajor_val_two, Shape.rowMajor_val_three]
      rfl
    exact congrFun (shapeCast_self bias shapeCasts_S1x64_S1x64) _

/-! ## From blocks to the array -/

variable (V : (c : Dev nD) → (b : Ref sig .tc) → Buf (Elt Ideal) ((c : Thread nD τ).loc b))

theorem zero2_R6 : (![0, 0] : Fin 2 → Nat) = fun _ => 0 := funext fun a => by fin_cases a <;> rfl
theorem zero3_R6 : (![0, 0, 0] : Fin 3 → Nat) = fun _ => 0 := funext fun a => by fin_cases a <;> rfl

/-- The windows' block indices at point `t`: the inputs' row blocks and the output's node blocks move with the
    point, everything else stays at zero. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 3) = 0 ∧ win6_7.index t (1 : Fin 3) = t.val ∧ win6_7.index t (2 : Fin 3) = 0 :=
  (by decide +kernel : ∀ t : Fin grid6.N, _)

/-- Row `r` of point `t`'s block of 256 node rows. -/
def row6 (t : Fin cfg6.N) (r : Fin 256) : Fin 4096 :=
  ⟨t.val * 256 + r.val, by have ht : t.val < 16 := lt_of_lt_of_eq t.isLt N_6; have := r.isLt; omega⟩

/-- Input window 0's block at point `t` is rows `t * 256 …` of its array. -/
theorem iblk6_0_apply (c : Dev nD) (t : Fin cfg6.N) (r : Fin 256) (q : Fin 4096) :
    iblk6 V c 0 t (ix2 r q) = (V c (Pipeline.arrRef spec6 0)) (ix2 (row6 t r) q) := by
  obtain ⟨e00, e01, e10, e11, e20, e21, -⟩ := idx_facts6 t
  show (V c (Pipeline.arrRef spec6 0)) (((cfg6.win 0).blk t).view.emb (ix2 r q)) = _
  refine congrArg _ (funext fun a => Fin.ext ?_)
  match a with
  | ⟨0, _⟩ => show win6_0.index t (0 : Fin 2) * 256 + 1 * r.val = t.val * 256 + r.val; omega
  | ⟨1, _⟩ => show win6_0.index t (1 : Fin 2) * 4096 + 1 * q.val = q.val; omega

/-- Input window 1's block at point `t` is rows `t * 256 …` of its array. -/
theorem iblk6_1_apply (c : Dev nD) (t : Fin cfg6.N) (r : Fin 256) (q : Fin 4096) :
    iblk6 V c 1 t (ix2 r q) = (V c (Pipeline.arrRef spec6 1)) (ix2 (row6 t r) q) := by
  obtain ⟨e00, e01, e10, e11, e20, e21, -⟩ := idx_facts6 t
  show (V c (Pipeline.arrRef spec6 1)) (((cfg6.win 1).blk t).view.emb (ix2 r q)) = _
  refine congrArg _ (funext fun a => Fin.ext ?_)
  match a with
  | ⟨0, _⟩ => show win6_1.index t (0 : Fin 2) * 256 + 1 * r.val = t.val * 256 + r.val; omega
  | ⟨1, _⟩ => show win6_1.index t (1 : Fin 2) * 4096 + 1 * q.val = q.val; omega

/-- Input window 2's block at point `t` is rows `t * 256 …` of its array. -/
theorem iblk6_2_apply (c : Dev nD) (t : Fin cfg6.N) (r : Fin 256) (q : Fin 4096) :
    iblk6 V c 2 t (ix2 r q) = (V c (Pipeline.arrRef spec6 2)) (ix2 (row6 t r) q) := by
  obtain ⟨e00, e01, e10, e11, e20, e21, -⟩ := idx_facts6 t
  show (V c (Pipeline.arrRef spec6 2)) (((cfg6.win 2).blk t).view.emb (ix2 r q)) = _
  refine congrArg _ (funext fun a => Fin.ext ?_)
  match a with
  | ⟨0, _⟩ => show win6_2.index t (0 : Fin 2) * 256 + 1 * r.val = t.val * 256 + r.val; omega
  | ⟨1, _⟩ => show win6_2.index t (1 : Fin 2) * 4096 + 1 * q.val = q.val; omega

/-- Weight window 3's block is its whole array. -/
theorem iblk6_3_apply (c : Dev nD) (t : Fin cfg6.N) (s : Fin 128) (o : Fin 64) :
    iblk6 V c 3 t (ix2 s o) = (V c (Pipeline.arrRef spec6 3)) (ix2 s o) := by
  obtain ⟨-, -, -, -, -, -, e30, e31, e40, e41, e50, e51, -⟩ := idx_facts6 t
  show (V c (Pipeline.arrRef spec6 3)) (((cfg6.win 3).blk t).view.emb (ix2 s o)) = _
  refine congrArg _ (funext fun a => Fin.ext ?_)
  match a with
  | ⟨0, _⟩ => show win6_3.index t (0 : Fin 2) * 128 + 1 * s.val = s.val; omega
  | ⟨1, _⟩ => show win6_3.index t (1 : Fin 2) * 64 + 1 * o.val = o.val; omega

/-- Weight window 4's block is its whole array. -/
theorem iblk6_4_apply (c : Dev nD) (t : Fin cfg6.N) (s : Fin 128) (o : Fin 64) :
    iblk6 V c 4 t (ix2 s o) = (V c (Pipeline.arrRef spec6 4)) (ix2 s o) := by
  obtain ⟨-, -, -, -, -, -, e30, e31, e40, e41, e50, e51, -⟩ := idx_facts6 t
  show (V c (Pipeline.arrRef spec6 4)) (((cfg6.win 4).blk t).view.emb (ix2 s o)) = _
  refine congrArg _ (funext fun a => Fin.ext ?_)
  match a with
  | ⟨0, _⟩ => show win6_4.index t (0 : Fin 2) * 128 + 1 * s.val = s.val; omega
  | ⟨1, _⟩ => show win6_4.index t (1 : Fin 2) * 64 + 1 * o.val = o.val; omega

/-- Weight window 5's block is its whole array. -/
theorem iblk6_5_apply (c : Dev nD) (t : Fin cfg6.N) (s : Fin 128) (o : Fin 64) :
    iblk6 V c 5 t (ix2 s o) = (V c (Pipeline.arrRef spec6 5)) (ix2 s o) := by
  obtain ⟨-, -, -, -, -, -, e30, e31, e40, e41, e50, e51, -⟩ := idx_facts6 t
  show (V c (Pipeline.arrRef spec6 5)) (((cfg6.win 5).blk t).view.emb (ix2 s o)) = _
  refine congrArg _ (funext fun a => Fin.ext ?_)
  match a with
  | ⟨0, _⟩ => show win6_5.index t (0 : Fin 2) * 128 + 1 * s.val = s.val; omega
  | ⟨1, _⟩ => show win6_5.index t (1 : Fin 2) * 64 + 1 * o.val = o.val; omega

/-- The bias window's block is its whole array. -/
theorem iblk6_6_apply (c : Dev nD) (t : Fin cfg6.N) (o : Fin 64) :
    iblk6 V c 6 t (ix2 0 o) = (V c (Pipeline.arrRef spec6 6)) (ix2 0 o) := by
  obtain ⟨-, -, -, -, -, -, -, -, -, -, -, -, e60, e61, -⟩ := idx_facts6 t
  show (V c (Pipeline.arrRef spec6 6)) (((cfg6.win 6).blk t).view.emb (ix2 0 o)) = _
  refine congrArg _ (funext fun a => Fin.ext ?_)
  match a with
  | ⟨0, _⟩ => show win6_6.index t (0 : Fin 2) * 1 + 1 * 0 = 0; omega
  | ⟨1, _⟩ => show win6_6.index t (1 : Fin 2) * 64 + 1 * o.val = o.val; omega

/-- An element of the output's block at point `t` sits at node `t * 256 + r`. -/
theorem emb6_7 (t : Fin cfg6.N) (b : Fin 32) (r : Fin 256) (o : Fin 64) :
    ((cfg6.win 7).blk t).view.emb (ix3 b r o) = ix3 b (row6 t r) o := by
  obtain ⟨-, -, -, -, -, -, -, -, -, -, -, -, -, -, e70, e71, e72⟩ := idx_facts6 t
  funext a; apply Fin.ext
  match a with
  | ⟨0, _⟩ => show win6_7.index t (0 : Fin 3) * 32 + 1 * b.val = b.val; omega
  | ⟨1, _⟩ => show win6_7.index t (1 : Fin 3) * 256 + 1 * r.val = t.val * 256 + r.val; omega
  | ⟨2, _⟩ => show win6_7.index t (2 : Fin 3) * 64 + 1 * o.val = o.val; omega

/-- What point `t` writes back is block `t` of the projection of the arrays as the region finds them. -/
theorem flushed6_7_eq (c : Dev nD) (t : Fin cfg6.N) :
    (dat6 V c).flushed 7 t = ((cfg6.win 7).blk t).view.read (Elt Ideal)
      (Spec.proj Ideal.tanh (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  show (cfg6.win 7).cut (grid6.coords t) ((dat6 V c).after 7 t) = _
  rw [after6_7]
  unfold out6_7
  rw [View.canon_unit_zero zero3_R6]
  simp only [View.ld_unit_zero (S := S256x4096) zero2_R6, View.ld_unit_zero (S := S128x64) zero2_R6, View.ld_unit_zero (S := S1x64) zero2_R6]
  funext j
  obtain ⟨b, r, o, rfl⟩ : ∃ (b : Fin 32) (r : Fin 256) (o : Fin 64), j = ix3 b r o := ⟨j 0, j 1, j 2, eq_ix3 j⟩
  show k6_pay1 (F := Ideal) (iblk6 V c 0 t) (iblk6 V c 3 t) (iblk6 V c 1 t) (iblk6 V c 4 t) (iblk6 V c 2 t) (iblk6 V c 5 t) (iblk6 V c 6 t) (ix3 b r o)
    = (Spec.proj Ideal.tanh (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) (((cfg6.win 7).blk t).view.emb (ix3 b r o))
  refine (pay6_apply (iblk6 V c 0 t) (iblk6 V c 1 t) (iblk6 V c 2 t) (iblk6 V c 3 t) (iblk6 V c 4 t) (iblk6 V c 5 t) (iblk6 V c 6 t) b r o).trans ?_
  refine Eq.trans ?_ (congrArg (Spec.proj Ideal.tanh (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) (emb6_7 t b r o)).symm
  show Ideal.tanh _ = Ideal.tanh _
  refine congrArg Ideal.tanh (congrArg₂ (· + ·) (congrArg₂ (· + ·) (congrArg₂ (· + ·) ?_ ?_) ?_) ?_)
  · exact Finset.sum_congr rfl fun s _ => congrArg₂ (· * ·) (iblk6_0_apply V c t r (Spec.col s b)) (iblk6_3_apply V c t s o)
  · exact Finset.sum_congr rfl fun s _ => congrArg₂ (· * ·) (iblk6_1_apply V c t r (Spec.col s b)) (iblk6_4_apply V c t s o)
  · exact Finset.sum_congr rfl fun s _ => congrArg₂ (· * ·) (iblk6_2_apply V c t r (Spec.col s b)) (iblk6_5_apply V c t s o)
  · exact iblk6_6_apply V c t o

/-- An index of the output array is in point `t`'s block iff each coordinate is in the block's range on its axis. -/
theorem mem_blk6_7 (t : Fin cfg6.N) (i : S32x4096x64.Idx) :
    i ∈ ((cfg6.win 7).blk t).view.set ↔ ∀ a : Fin 3, win6_7.index t a * S32x256x64.size a ≤ (i a).val ∧ (i a).val < win6_7.index t a * S32x256x64.size a + S32x256x64.size a := by
  show i ∈ ((View.whole (Pipeline.arrRef spec6 7)).slice (win6_7.rect t)).set ↔ _
  rw [View.set_slice_whole, Rect.mem_set_unit]
  exact Iff.rfl

/-- Every index of the output array is in some point's block: node `n` in the block of point `n / 256`. -/
theorem covered6_7 (i : S32x4096x64.Idx) :
    ∃ t : Fin cfg6.N, (cfg6.win 7).flush t = true ∧ i ∈ ((cfg6.win 7).blk t).view.set := by
  have h0 : (i 0).val < 32 := (i 0).isLt
  have h1 : (i 1).val < 4096 := (i 1).isLt
  have h2 : (i 2).val < 64 := (i 2).isLt
  have hN : (i 1).val / 256 < cfg6.N := by rw [show cfg6.N = 16 from N_6]; omega
  refine ⟨⟨(i 1).val / 256, hN⟩, flush6_7 _, ?_⟩
  rw [mem_blk6_7]
  obtain ⟨-, -, -, -, -, -, -, -, -, -, -, -, -, -, e70, e71, e72⟩ := idx_facts6 ⟨(i 1).val / 256, hN⟩
  have e71' : win6_7.index ⟨(i 1).val / 256, hN⟩ (1 : Fin 3) = (i 1).val / 256 := e71
  intro a
  match a with
  | ⟨0, _⟩ => show win6_7.index ⟨(i 1).val / 256, hN⟩ (0 : Fin 3) * 32 ≤ (i 0).val ∧ (i 0).val < win6_7.index ⟨(i 1).val / 256, hN⟩ (0 : Fin 3) * 32 + 32; omega
  | ⟨1, _⟩ => show win6_7.index ⟨(i 1).val / 256, hN⟩ (1 : Fin 3) * 256 ≤ (i 1).val ∧ (i 1).val < win6_7.index ⟨(i 1).val / 256, hN⟩ (1 : Fin 3) * 256 + 256; omega
  | ⟨2, _⟩ => show win6_7.index ⟨(i 1).val / 256, hN⟩ (2 : Fin 3) * 64 ≤ (i 2).val ∧ (i 2).val < win6_7.index ⟨(i 1).val / 256, hN⟩ (2 : Fin 3) * 64 + 64; omega

/-- The output array after the region: the projection of the arrays as the region finds them. -/
theorem arrAt6_7 (c : Dev nD) :
    (dat6 V c).arrAt 7 cfg6.N = (Spec.proj Ideal.tanh (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) :=
  (dat6 V c).arrAt_eq_of_cover 7 _ (fun t _ => flushed6_7_eq V c t) covered6_7

end Cert.KernelIdeal.Val
-- ==== Proof.Val.R7.lean ====
/-
  Region 7, the blend: what its output array holds when it ends, over the extended reals.

  The update gate  u,  the old state  h  and the candidate  c  arrive as arrays of 64 features per batch entry and node.
  Block t of every array is nodes 512 t … 512 t + 511.  At a block the body writes  u * h + (1 - u) * c,  entry by entry.
  The eight blocks tile the 4096 nodes, so the output ends as  Spec.blend u h c,  index by index.
-/
import proofs.«149401_j50302656971158_2_alg».proof.Proof.Fr.R7
import proofs.«149401_j50302656971158_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

-- the buffers' contents when the region is entered, as extended reals
variable (V : (c : Dev nD) → (b : Ref sig .tc) → Buf (Elt Ideal) ((c : Thread nD τ).loc b))

theorem hz7 : (![0, 0, 0] : Fin 3 → Nat) = fun _ => 0 := funext fun a => by fin_cases a <;> rfl

/-- Where the blocks sit: at point `t` every window's block is nodes `512 t … 512 t + 511`, all batch entries, all features. -/
theorem idx7 : ∀ t : Fin cfg7.N,
    win7_0.index t (0 : Fin 3) = 0 ∧ win7_0.index t (1 : Fin 3) = t.val ∧ win7_0.index t (2 : Fin 3) = 0
    ∧ win7_1.index t (0 : Fin 3) = 0 ∧ win7_1.index t (1 : Fin 3) = t.val ∧ win7_1.index t (2 : Fin 3) = 0
    ∧ win7_2.index t (0 : Fin 3) = 0 ∧ win7_2.index t (1 : Fin 3) = t.val ∧ win7_2.index t (2 : Fin 3) = 0
    ∧ win7_3.index t (0 : Fin 3) = 0 ∧ win7_3.index t (1 : Fin 3) = t.val ∧ win7_3.index t (2 : Fin 3) = 0 :=
  (by decide +kernel : ∀ t : Fin grid7.N, _)

/-! ## The body's result at an index -/

/-- The result at an index: the gate times the old state plus one minus the gate times the candidate. -/
theorem pay7 (x0 x1 x2 : Vec Ideal S32x512x64 .f32) (y : S32x512x64.Idx) :
    k7_pay1 x0 x1 x2 y = x0 y * x1 y + (Spec.one - x0 y) * x2 y := by
  have e0 : shapeCast S32x512x64 x0 shapeCasts_S32x512x64_S32x512x64 = x0 := shapeCast_self _ _
  have e1 : shapeCast S32x512x64 x1 shapeCasts_S32x512x64_S32x512x64 = x1 := shapeCast_self _ _
  have e2 : shapeCast S32x512x64 x2 shapeCasts_S32x512x64_S32x512x64 = x2 := shapeCast_self _ _
  unfold k7_pay1
  rw [e0, e1, e2]
  rfl

/-! ## The input blocks as parts of their arrays -/

/-- The update gate's block at point `t`, in the array's coordinates. -/
theorem iblk7_0_apply (c : Dev nD) (t : Fin cfg7.N) (x : S32x512x64.Idx) (k : S32x4096x64.Idx)
    (hk0 : (k 0).val = (x 0).val) (hk1 : (k 1).val = 512 * t.val + (x 1).val) (hk2 : (k 2).val = (x 2).val) :
    (iblk7 V c 0 t : Vec Ideal S32x512x64 .f32) x = (V c (Pipeline.arrRef spec7 0) : S32x4096x64.Idx → EReal) k := by
  have e := idx7 t
  unfold iblk7
  rw [View.read_apply]
  refine congrArg (V c (Pipeline.arrRef spec7 0) : S32x4096x64.Idx → EReal) ?_
  funext a
  apply Fin.ext
  match a with
  | ⟨0, _⟩ => show win7_0.index t 0 * 32 + 1 * (x 0).val = (k 0).val; omega
  | ⟨1, _⟩ => show win7_0.index t 1 * 512 + 1 * (x 1).val = (k 1).val; omega
  | ⟨2, _⟩ => show win7_0.index t 2 * 64 + 1 * (x 2).val = (k 2).val; omega

/-- The old state's block at point `t`, in the array's coordinates. -/
theorem iblk7_1_apply (c : Dev nD) (t : Fin cfg7.N) (x : S32x512x64.Idx) (k : S32x4096x64.Idx)
    (hk0 : (k 0).val = (x 0).val) (hk1 : (k 1).val = 512 * t.val + (x 1).val) (hk2 : (k 2).val = (x 2).val) :
    (iblk7 V c 1 t : Vec Ideal S32x512x64 .f32) x = (V c (Pipeline.arrRef spec7 1) : S32x4096x64.Idx → EReal) k := by
  have e := idx7 t
  unfold iblk7
  rw [View.read_apply]
  refine congrArg (V c (Pipeline.arrRef spec7 1) : S32x4096x64.Idx → EReal) ?_
  funext a
  apply Fin.ext
  match a with
  | ⟨0, _⟩ => show win7_1.index t 0 * 32 + 1 * (x 0).val = (k 0).val; omega
  | ⟨1, _⟩ => show win7_1.index t 1 * 512 + 1 * (x 1).val = (k 1).val; omega
  | ⟨2, _⟩ => show win7_1.index t 2 * 64 + 1 * (x 2).val = (k 2).val; omega

/-- The candidate's block at point `t`, in the array's coordinates. -/
theorem iblk7_2_apply (c : Dev nD) (t : Fin cfg7.N) (x : S32x512x64.Idx) (k : S32x4096x64.Idx)
    (hk0 : (k 0).val = (x 0).val) (hk1 : (k 1).val = 512 * t.val + (x 1).val) (hk2 : (k 2).val = (x 2).val) :
    (iblk7 V c 2 t : Vec Ideal S32x512x64 .f32) x = (V c (Pipeline.arrRef spec7 2) : S32x4096x64.Idx → EReal) k := by
  have e := idx7 t
  unfold iblk7
  rw [View.read_apply]
  refine congrArg (V c (Pipeline.arrRef spec7 2) : S32x4096x64.Idx → EReal) ?_
  funext a
  apply Fin.ext
  match a with
  | ⟨0, _⟩ => show win7_2.index t 0 * 32 + 1 * (x 0).val = (k 0).val; omega
  | ⟨1, _⟩ => show win7_2.index t 1 * 512 + 1 * (x 1).val = (k 1).val; omega
  | ⟨2, _⟩ => show win7_2.index t 2 * 64 + 1 * (x 2).val = (k 2).val; omega

/-! ## What a point writes back -/

/-- Point `t` writes back block `t` of the blend. -/
theorem flushed7_3_eq (c : Dev nD) (t : Fin cfg7.N) :
    (dat7 V c).flushed 3 t = ((cfg7.win 3).blk t).view.read (Elt Ideal)
      (Spec.blend (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz7]
  simp only [View.ld_unit_zero (S := S32x512x64) hz7]
  obtain ⟨-, -, -, -, -, -, -, -, -, o0, o1, o2⟩ := idx7 t
  refine funext fun (j : S32x512x64.Idx) => ?_
  show k7_pay1 (iblk7 V c 0 t) (iblk7 V c 1 t) (iblk7 V c 2 t) j
    = Spec.blend (V c (Pipeline.arrRef spec7 0)) (V c (Pipeline.arrRef spec7 1)) (V c (Pipeline.arrRef spec7 2))
        (((cfg7.win 3).blk t).view.emb j)
  refine (pay7 (iblk7 V c 0 t) (iblk7 V c 1 t) (iblk7 V c 2 t) j).trans ?_
  have hu := iblk7_0_apply V c t j (((cfg7.win 3).blk t).view.emb j)
    (by show win7_3.index t 0 * 32 + 1 * (j 0).val = (j 0).val; omega)
    (by show win7_3.index t 1 * 512 + 1 * (j 1).val = 512 * t.val + (j 1).val; omega)
    (by show win7_3.index t 2 * 64 + 1 * (j 2).val = (j 2).val; omega)
  have hh := iblk7_1_apply V c t j (((cfg7.win 3).blk t).view.emb j)
    (by show win7_3.index t 0 * 32 + 1 * (j 0).val = (j 0).val; omega)
    (by show win7_3.index t 1 * 512 + 1 * (j 1).val = 512 * t.val + (j 1).val; omega)
    (by show win7_3.index t 2 * 64 + 1 * (j 2).val = (j 2).val; omega)
  have hc := iblk7_2_apply V c t j (((cfg7.win 3).blk t).view.emb j)
    (by show win7_3.index t 0 * 32 + 1 * (j 0).val = (j 0).val; omega)
    (by show win7_3.index t 1 * 512 + 1 * (j 1).val = 512 * t.val + (j 1).val; omega)
    (by show win7_3.index t 2 * 64 + 1 * (j 2).val = (j 2).val; omega)
  rw [hu, hh, hc]
  rfl

/-! ## The blocks tile the array -/

/-- An index of the output's array is in point `t`'s block iff each coordinate is in the block's range. -/
theorem mem_blk7_3 (t : Fin cfg7.N) (i : S32x4096x64.Idx) :
    i ∈ ((cfg7.win 3).blk t).view.set ↔ ∀ a : Fin 3, win7_3.index t a * S32x512x64.size a ≤ (i a).val
      ∧ (i a).val < win7_3.index t a * S32x512x64.size a + S32x512x64.size a := by
  show i ∈ ((View.whole main_v34).slice (win7_3.rect t)).set ↔ _
  rw [View.set_slice_whole, Rect.mem_set_unit]
  exact Iff.rfl

/-- The point whose block holds node `n` is `n / 512`. -/
theorem point7 (n : Fin 4096) : ∃ t : Fin cfg7.N, t.val = n.val / 512 :=
  ⟨⟨n.val / 512, by show _ < grid7.N; rw [N_7]; have := n.isLt; omega⟩, rfl⟩

/-- Every index of the output's array is in some point's block. -/
theorem cover7_3 (i : S32x4096x64.Idx) :
    ∃ t : Fin cfg7.N, (cfg7.win 3).flush t = true ∧ i ∈ ((cfg7.win 3).blk t).view.set := by
  have h0 : (i 0).val < 32 := (i 0).isLt
  have h1 : (i 1).val < 4096 := (i 1).isLt
  have h2 : (i 2).val < 64 := (i 2).isLt
  obtain ⟨t, ht⟩ := point7 (i 1)
  obtain ⟨-, -, -, -, -, -, -, -, -, o0, o1, o2⟩ := idx7 t
  refine ⟨t, flush7_3 t, ?_⟩
  rw [mem_blk7_3]
  intro a
  match a with
  | ⟨0, _⟩ => show win7_3.index t 0 * 32 ≤ (i 0).val ∧ (i 0).val < win7_3.index t 0 * 32 + 32; omega
  | ⟨1, _⟩ => show win7_3.index t 1 * 512 ≤ (i 1).val ∧ (i 1).val < win7_3.index t 1 * 512 + 512; omega
  | ⟨2, _⟩ => show win7_3.index t 2 * 64 ≤ (i 2).val ∧ (i 2).val < win7_3.index t 2 * 64 + 64; omega

/-! ## The array after the region -/

/-- The output ends as the blend  u * h + (1 - u) * c  of the three input arrays, index by index. -/
theorem arrAt7_3 (c : Dev nD) :
    (dat7 V c).arrAt 3 cfg7.N
      = Spec.blend (V c (Pipeline.arrRef spec7 0)) (V c (Pipeline.arrRef spec7 1)) (V c (Pipeline.arrRef spec7 2)) :=
  (dat7 V c).arrAt_eq_of_cover 3 _ (fun t _ => flushed7_3_eq V c t) cover7_3

end Cert.KernelIdeal.Val

end
-- ==== Proof.SpecCell.lean ====
/-
  The whole cell as one function of its seven argument arrays, composed from the pieces of Spec.lean.

  inputs and state arrive as [32, 262144] and are read as [32, 4096, 64] (node n, feature d at column n * 64 + d).
  The node-major layout of a pair (input features, state features) puts feature s < 64 of the input, or feature
  s - 64 of the state, of batch entry b at row n, column s * 32 + b.  A gate applies the diffusion (Spec.mm,
  Spec.cheb) to that matrix and projects the three terms with the weights of each term (Spec.wsl) and the bias as
  a one-row matrix.  The reset gate multiplies the state before the candidate's diffusion; the update gate blends.
-/
import proofs.«149401_j50302656971158_2_alg».proof.Proof.Spec

noncomputable section

namespace Cert.Spec

open Idealize.ShloMosaic Idealize.ShloMosaic.ValueIdx

/-- Column n * 64 + d of the flat [32, 262144] layout, and its two coordinates back. -/
def flat64 (n : Fin 4096) (d : Fin 64) : Fin 262144 := ⟨n.val * 64 + d.val, by omega⟩
def flatN (j : Fin 262144) : Fin 4096 := ⟨j.val / 64, by omega⟩
def flatD (j : Fin 262144) : Fin 64 := ⟨j.val % 64, Nat.mod_lt _ (by norm_num)⟩

/-- [32, 262144] read as [32, 4096, 64], and back. -/
def rs3 (x : Mat 32 262144) : Ten 32 4096 64 := fun i => x (ix2 (i 0) (flat64 (i 1) (i 2)))
def unrs3 (y : Ten 32 4096 64) : Mat 32 262144 := fun i => y (ix3 (i 0) (flatN (i 1)) (flatD (i 1)))

/-- Two feature blocks joined along the last axis, at explicit coordinates and as an array. -/
def catAt (a b : Ten 32 4096 64) (p : Fin 32) (n : Fin 4096) (s : Fin 128) : EReal :=
  if h : s.val < 64 then a (ix3 p n ⟨s.val, h⟩) else b (ix3 p n ⟨s.val - 64, by omega⟩)
def cat (a b : Ten 32 4096 64) : Ten 32 4096 128 := fun i => catAt a b (i 0) (i 1) (i 2)

/-- The feature and the batch entry of a column s * 32 + b. -/
def colS (j : Fin 4096) : Fin 128 := ⟨j.val / 32, by omega⟩
def colB (j : Fin 4096) : Fin 32 := ⟨j.val % 32, Nat.mod_lt _ (by norm_num)⟩

/-- The node-major layout of (input features, state features): row n, column s * 32 + b. -/
def lay (xin st : Ten 32 4096 64) : Mat 4096 4096 := fun i => catAt xin st (colB (i 1)) (i 0) (colS (i 1))

/-- A bias vector as a one-row matrix. -/
def brow {O : Nat} (b : (⟨1, ![O]⟩ : Shape).Idx → EReal) : Mat 1 O := fun i => b (ix1 (i 1))

/-- One gate: diffusion of the layout, projection with the stacked weights' three slices, activation. -/
def gate (act : EReal → EReal) {O : Nat} (A x0 : Mat 4096 4096) (W : Mat 384 O) (b : (⟨1, ![O]⟩ : Shape).Idx → EReal) :
    Ten 32 4096 O :=
  proj act x0 (mm A x0) (cheb A (mm A x0) x0) (wsl 0 W) (wsl 1 W) (wsl 2 W) (brow b)

/-- The cell: the new state as a [32, 262144] array. -/
def cell (inp hx : Mat 32 262144) (A : Mat 4096 4096) (Wru : Mat 384 128) (bru : (⟨1, ![128]⟩ : Shape).Idx → EReal)
    (Wc : Mat 384 64) (bc : (⟨1, ![64]⟩ : Shape).Idx → EReal) : Mat 32 262144 :=
  let xin := rs3 inp
  let h := rs3 hx
  let ru := gate Ideal.logistic A (lay xin h) Wru bru
  let c := gate Ideal.tanh A (lay xin (gateR ru h)) Wc bc
  unrs3 (blend (gateU ru) h c)

end Cert.Spec

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.Val.Host.lean ====
/-
  The host lines of the kernel program, read as the cell's functions.

  Between its regions the program only rearranges arrays.  The two [32, 262144] arguments are read as
  [32, 4096, 64].  The stacked weights [384, O] are read as [128, 3, O], cut at one position of the middle axis and
  read as [128, O]: row s of the cut at m is row s * 3 + m of the stack.  A bias vector becomes a one-row matrix.
  A pair of [32, 4096, 64] arrays is joined along the last axis, its axes are rotated to (node, feature, batch entry)
  and the result is read as a 4096 x 4096 matrix: entry (n, s * 32 + b) is feature s of batch entry b at node n, taken
  from the first array when s < 64 and from the second, at s - 64, otherwise.  The last result [32, 4096, 64] is read
  as [32, 262144] again.  A change of float format is the identity on extended reals.

  First each rearrangement is computed index by index over explicit coordinates; then every buffer a host line writes
  and a later region (or the result) reads is identified with the matching function of the buffers the line reads.
-/
import proofs.«149401_j50302656971158_2_alg».proof.Proof.Gen.KernelIdeal.Launch
import proofs.«149401_j50302656971158_2_alg».proof.Proof.Spec
import proofs.«149401_j50302656971158_2_alg».proof.Proof.SpecCell
import proofs.«149401_j50302656971158_2_alg».proof.Proof.LibLineEval
import Idealize.ShloMosaic.Lib.ValueLayout
import Idealize.ShloMosaic.Lib.StableHlo.Run

noncomputable section

namespace Cert.KernelIdeal.Val

open Idealize.ShloMosaic Idealize.ShloMosaic.ValueIdx
open Cert.KernelIdeal Cert.KernelIdeal.Gen Cert.LineEval

/-! ## The rearrangements, index by index -/

/-- [32, 262144] read as [32, 4096, 64]: entry (p, n, d) is entry (p, n * 64 + d). -/
theorem cast_rs3 (x : Spec.Mat 32 262144) (h : (⟨2, ![32, 262144]⟩ : Shape).ShapeCasts ⟨3, ![32, 4096, 64]⟩) :
    shapeCast ⟨3, ![32, 4096, 64]⟩ x h = Spec.rs3 x := by
  funext i
  obtain ⟨p, n, d, rfl⟩ : ∃ (p : Fin 32) (n : Fin 4096) (d : Fin 64), i = ix3 p n d := ⟨i 0, i 1, i 2, eq_ix3 i⟩
  refine shapeCast_apply x h _ (ix2 p (Spec.flat64 n d)) ?_
  rw [Shape.rowMajor_val_two, Shape.rowMajor_val_three]
  show p.val * 262144 + (n.val * 64 + d.val) = (p.val * 4096 + n.val) * 64 + d.val
  omega

/-- [32, 4096, 64] read as [32, 262144]: entry (p, j) is entry (p, j / 64, j % 64). -/
theorem cast_unrs3 (y : Spec.Ten 32 4096 64) (h : (⟨3, ![32, 4096, 64]⟩ : Shape).ShapeCasts ⟨2, ![32, 262144]⟩) :
    shapeCast ⟨2, ![32, 262144]⟩ y h = Spec.unrs3 y := by
  funext i
  obtain ⟨p, j, rfl⟩ : ∃ (p : Fin 32) (j : Fin 262144), i = ix2 p j := ⟨i 0, i 1, eq_ix2 i⟩
  refine shapeCast_apply y h _ (ix3 p (Spec.flatN j) (Spec.flatD j)) ?_
  rw [Shape.rowMajor_val_three, Shape.rowMajor_val_two]
  show (p.val * 4096 + j.val / 64) * 64 + j.val % 64 = p.val * 262144 + j.val
  omega

/-- The stacked weights read as [128, 3, O], cut at position o of the middle axis, read as [128, O]: the weights of
    diffusion term o. -/
theorem cast_wsl {O : Nat} (o : Nat) (m : Fin 3) (hm : m.val = o) (w : Spec.Mat 384 O)
    (h1 : (⟨2, ![384, O]⟩ : Shape).ShapeCasts ⟨3, ![128, 3, O]⟩)
    (h2 : (⟨3, ![128, 3, O]⟩ : Shape).Slices ![0, o, 0] ⟨3, ![128, 1, O]⟩)
    (h3 : (⟨3, ![128, 1, O]⟩ : Shape).ShapeCasts ⟨2, ![128, O]⟩) :
    shapeCast ⟨2, ![128, O]⟩
        (extractStridedSlice ⟨3, ![128, 1, O]⟩ ![0, o, 0] (shapeCast ⟨3, ![128, 3, O]⟩ w h1) h2) h3
      = Spec.wsl m w := by
  funext i
  obtain ⟨s, u, rfl⟩ : ∃ (s : Fin 128) (u : Fin O), i = ix2 s u := ⟨i 0, i 1, eq_ix2 i⟩
  refine (shapeCast_apply _ h3 _ (ix3 s (0 : Fin 1) u) ?_).trans ?_
  · rw [Shape.rowMajor_val_three, Shape.rowMajor_val_two]
    show (s.val * 1 + 0) * O + u.val = s.val * O + u.val
    rw [Nat.mul_one, Nat.add_zero]
  refine (slice3_axis1_apply o _ h2 s (0 : Fin 1) u m (by rw [hm]; exact (Nat.add_zero o).symm)).trans ?_
  refine shapeCast_apply w h1 _ (ix2 (Spec.wrow s m) u) ?_
  rw [Shape.rowMajor_val_two, Shape.rowMajor_val_three]
  show (s.val * 3 + m.val) * O + u.val = (s.val * 3 + m.val) * O + u.val
  rfl

/-- A vector read as a one-row matrix. -/
theorem cast_brow {O : Nat} (b : (⟨1, ![O]⟩ : Shape).Idx → EReal) (h : (⟨1, ![O]⟩ : Shape).ShapeCasts ⟨2, ![1, O]⟩) :
    shapeCast ⟨2, ![1, O]⟩ b h = Spec.brow b := by
  funext i
  obtain ⟨u, j, rfl⟩ : ∃ (u : Fin 1) (j : Fin O), i = ix2 u j := ⟨i 0, i 1, eq_ix2 i⟩
  exact shapeCast_a_1a_apply b h u j

/-- Two [32, 4096, 64] arrays joined along the last axis, the axes rotated to (node, feature, batch entry), read as a
    4096 x 4096 matrix: the node-major layout. -/
theorem cast_lay (xin st : Spec.Ten 32 4096 64)
    (hc : Shape.Concatenates [(⟨3, ![32, 4096, 64]⟩ : Shape), ⟨3, ![32, 4096, 64]⟩] ⟨3, ![32, 4096, 128]⟩ 2)
    (ht : (⟨3, ![32, 4096, 128]⟩ : Shape).Transposes [1, 2, 0] ⟨3, ![4096, 128, 32]⟩)
    (hs : (⟨3, ![4096, 128, 32]⟩ : Shape).ShapeCasts ⟨2, ![4096, 4096]⟩) :
    shapeCast ⟨2, ![4096, 4096]⟩ (transpose ⟨3, ![4096, 128, 32]⟩ [1, 2, 0]
        (concatenate ⟨3, ![32, 4096, 128]⟩ 2 [⟨⟨3, ![32, 4096, 64]⟩, xin⟩, ⟨⟨3, ![32, 4096, 64]⟩, st⟩] hc) ht) hs
      = Spec.lay xin st := by
  funext i
  obtain ⟨n, j, rfl⟩ : ∃ (n : Fin 4096) (j : Fin 4096), i = ix2 n j := ⟨i 0, i 1, eq_ix2 i⟩
  refine (shapeCast_apply _ hs _ (ix3 n (Spec.colS j) (Spec.colB j)) ?_).trans ?_
  · rw [Shape.rowMajor_val_three, Shape.rowMajor_val_two]
    show (n.val * 128 + j.val / 32) * 32 + j.val % 32 = n.val * 4096 + j.val
    omega
  refine (transpose_apply _ _ ht _ (ix3 (Spec.colB j) n (Spec.colS j))
    (fun c => match c with | ⟨0, _⟩ => rfl | ⟨1, _⟩ => rfl | ⟨2, _⟩ => rfl)).trans ?_
  show _ = Spec.catAt xin st (Spec.colB j) n (Spec.colS j)
  unfold Spec.catAt
  split
  · next hlt =>
    exact concatenate_pair_apply_left 2 xin st hc _ rfl _
      (fun b => match b with | ⟨0, _⟩ => rfl | ⟨1, _⟩ => rfl | ⟨2, _⟩ => rfl)
  · next hge =>
    refine concatenate_pair_apply_right 2 xin st hc _ rfl rfl _
      (fun b hb => match b, hb with | ⟨0, _⟩, _ => rfl | ⟨1, _⟩, _ => rfl | ⟨2, _⟩, hb => (hb (Fin.ext rfl)).elim) ?_
    show ((Spec.colS j).val - 64) + 64 = (Spec.colS j).val
    omega

/-! ## The buffers the host lines write

    `W` is what the buffers hold when a stretch of host lines begins. -/

section Host
variable (W : Valuation τ sig (Elt Ideal))

/-- A change of float format leaves an array of extended reals as it is. -/
theorem truncf_ideal {s : Shape} {φ ψ : FTy} (a : FVec Ideal s φ) (h : ψ.bits < φ.bits) :
    (truncf ψ a h : s.Idx → EReal) = a := rfl

/-! ### The last stretch: the result -/

/-- The result is the last region's output read as [32, 262144]. -/
theorem host8_v35 : (StableHlo.after (hostOps8 (F := Ideal)) W (Proc.devRef .tc main_v35) : Spec.Mat 32 262144)
    = Spec.unrs3 (W (Proc.devRef .tc main_v34)) := by
  eval_line
  exact cast_unrs3 _ _

/-! ### The first stretch -/

/-- The inputs read as [32, 4096, 64]. -/
theorem host0_v0 : (StableHlo.after (hostOps0 (F := Ideal)) W (Proc.devRef .tc main_v0) : Spec.Ten 32 4096 64)
    = Spec.rs3 (W (Proc.devRef .tc main_arg0)) := by
  eval_line
  exact cast_rs3 _ _

/-- The state read as [32, 4096, 64]. -/
theorem host0_v1 : (StableHlo.after (hostOps0 (F := Ideal)) W (Proc.devRef .tc main_v1) : Spec.Ten 32 4096 64)
    = Spec.rs3 (W (Proc.devRef .tc main_arg1)) := by
  eval_line
  exact cast_rs3 _ _

/-- The support matrix in the narrower float format is the support matrix. -/
theorem host0_v2 : (StableHlo.after (hostOps0 (F := Ideal)) W (Proc.devRef .tc main_v2) : Spec.Mat 4096 4096)
    = W (Proc.devRef .tc main_arg2) := by
  eval_line
  rfl

/-- The gates' weights of diffusion term 0. -/
theorem host0_v5 : (StableHlo.after (hostOps0 (F := Ideal)) W (Proc.devRef .tc main_v5) : Spec.Mat 128 128)
    = Spec.wsl 0 (W (Proc.devRef .tc main_arg3)) := by
  eval_line
  exact cast_wsl 0 0 rfl _ _ _ _

/-- The gates' weights of diffusion term 1. -/
theorem host0_v7 : (StableHlo.after (hostOps0 (F := Ideal)) W (Proc.devRef .tc main_v7) : Spec.Mat 128 128)
    = Spec.wsl 1 (W (Proc.devRef .tc main_arg3)) := by
  eval_line
  exact cast_wsl 1 1 rfl _ _ _ _

/-- The gates' weights of diffusion term 2. -/
theorem host0_v9 : (StableHlo.after (hostOps0 (F := Ideal)) W (Proc.devRef .tc main_v9) : Spec.Mat 128 128)
    = Spec.wsl 2 (W (Proc.devRef .tc main_arg3)) := by
  eval_line
  exact cast_wsl 2 2 rfl _ _ _ _

/-- The candidate's weights of diffusion term 0. -/
theorem host0_v12 : (StableHlo.after (hostOps0 (F := Ideal)) W (Proc.devRef .tc main_v12) : Spec.Mat 128 64)
    = Spec.wsl 0 (W (Proc.devRef .tc main_arg5)) := by
  eval_line
  exact cast_wsl 0 0 rfl _ _ _ _

/-- The candidate's weights of diffusion term 1. -/
theorem host0_v14 : (StableHlo.after (hostOps0 (F := Ideal)) W (Proc.devRef .tc main_v14) : Spec.Mat 128 64)
    = Spec.wsl 1 (W (Proc.devRef .tc main_arg5)) := by
  eval_line
  exact cast_wsl 1 1 rfl _ _ _ _

/-- The candidate's weights of diffusion term 2. -/
theorem host0_v16 : (StableHlo.after (hostOps0 (F := Ideal)) W (Proc.devRef .tc main_v16) : Spec.Mat 128 64)
    = Spec.wsl 2 (W (Proc.devRef .tc main_arg5)) := by
  eval_line
  exact cast_wsl 2 2 rfl _ _ _ _

/-- The gates' bias as a one-row matrix. -/
theorem host0_v17 : (StableHlo.after (hostOps0 (F := Ideal)) W (Proc.devRef .tc main_v17) : Spec.Mat 1 128)
    = Spec.brow (W (Proc.devRef .tc main_arg4)) := by
  eval_line
  exact cast_brow _ _

/-- The candidate's bias as a one-row matrix. -/
theorem host0_v18 : (StableHlo.after (hostOps0 (F := Ideal)) W (Proc.devRef .tc main_v18) : Spec.Mat 1 64)
    = Spec.brow (W (Proc.devRef .tc main_arg6)) := by
  eval_line
  exact cast_brow _ _

/-- The node-major layout of (inputs, state). -/
theorem host0_v21 : (StableHlo.after (hostOps0 (F := Ideal)) W (Proc.devRef .tc main_v21) : Spec.Mat 4096 4096)
    = Spec.lay (Spec.rs3 (W (Proc.devRef .tc main_arg0))) (Spec.rs3 (W (Proc.devRef .tc main_arg1))) := by
  eval_line
  rw [← cast_rs3 (W (Proc.devRef .tc main_arg0)) shapeCasts_S32x262144_S32x4096x64,
    ← cast_rs3 (W (Proc.devRef .tc main_arg1)) shapeCasts_S32x262144_S32x4096x64]
  exact cast_lay _ _ _ _ _

/-- The same layout in the narrower float format. -/
theorem host0_v22 : (StableHlo.after (hostOps0 (F := Ideal)) W (Proc.devRef .tc main_v22) : Spec.Mat 4096 4096)
    = Spec.lay (Spec.rs3 (W (Proc.devRef .tc main_arg0))) (Spec.rs3 (W (Proc.devRef .tc main_arg1))) := by
  eval_line
  refine (truncf_ideal (s := S4096x4096) (φ := .f32) (ψ := .bf16) _ bitsLt_bf16_f32).trans ?_
  rw [← cast_rs3 (W (Proc.devRef .tc main_arg0)) shapeCasts_S32x262144_S32x4096x64,
    ← cast_rs3 (W (Proc.devRef .tc main_arg1)) shapeCasts_S32x262144_S32x4096x64]
  exact cast_lay _ _ _ _ _

/-! ### The middle stretch -/

/-- The node-major layout of (inputs, reset state). -/
theorem host4_v29 : (StableHlo.after (hostOps4 (F := Ideal)) W (Proc.devRef .tc main_v29) : Spec.Mat 4096 4096)
    = Spec.lay (W (Proc.devRef .tc main_v0)) (W (Proc.devRef .tc main_v26_0)) := by
  eval_line
  exact cast_lay _ _ _ _ _

/-- The same layout in the narrower float format. -/
theorem host4_v30 : (StableHlo.after (hostOps4 (F := Ideal)) W (Proc.devRef .tc main_v30) : Spec.Mat 4096 4096)
    = Spec.lay (W (Proc.devRef .tc main_v0)) (W (Proc.devRef .tc main_v26_0)) := by
  eval_line
  refine (truncf_ideal (s := S4096x4096) (φ := .f32) (ψ := .bf16) _ bitsLt_bf16_f32).trans ?_
  exact cast_lay _ _ _ _ _

end Host

end Cert.KernelIdeal.Val

end
-- ==== Proof.Val.Run.lean ====
/-
  The kernel program's result is the cell of its arguments.

  Walking @main's items in order: the first host stretch lays the arguments out (inputs and state read as
  [32, 4096, 64], the node-major layout of the pair, the stacked weights cut into the three terms' weights, the biases
  as rows); regions 0 and 1 are the two diffusion terms of the gates, region 2 their projection through the logistic,
  region 3 the reset gate applied to the state beside the update gate; the second host stretch lays out the inputs
  beside the reset state; regions 4, 5, 6 repeat the diffusion and the projection for the candidate through tanh;
  region 7 blends; the last host stretch reads the result back as [32, 262144].  A buffer no later item writes keeps
  its contents, so every read is traced back to the item that wrote the buffer.
-/
import proofs.«149401_j50302656971158_2_alg».proof.Proof.Fr.Assembly
import proofs.«149401_j50302656971158_2_alg».proof.Proof.Val.R0
import proofs.«149401_j50302656971158_2_alg».proof.Proof.Val.R1
import proofs.«149401_j50302656971158_2_alg».proof.Proof.Val.R2
import proofs.«149401_j50302656971158_2_alg».proof.Proof.Val.R3
import proofs.«149401_j50302656971158_2_alg».proof.Proof.Val.R4
import proofs.«149401_j50302656971158_2_alg».proof.Proof.Val.R5
import proofs.«149401_j50302656971158_2_alg».proof.Proof.Val.R6
import proofs.«149401_j50302656971158_2_alg».proof.Proof.Val.R7
import proofs.«149401_j50302656971158_2_alg».proof.Proof.Val.Host
import proofs.«149401_j50302656971158_2_alg».proof.Proof.SpecCell

noncomputable section

namespace Cert.KernelIdeal.Val

open Cert.KernelIdeal Cert.KernelIdeal.Gen Cert.KernelIdeal.Fr Cert.Spec
open Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments and the cell's intermediate arrays -/

abbrev a0 : Mat 32 262144 := m ((c : Thread nD τ).loc main_arg0)
abbrev a1 : Mat 32 262144 := m ((c : Thread nD τ).loc main_arg1)
abbrev a2 : Mat 4096 4096 := m ((c : Thread nD τ).loc main_arg2)
abbrev a3 : Mat 384 128 := m ((c : Thread nD τ).loc main_arg3)
abbrev a4 : (⟨1, ![128]⟩ : Shape).Idx → EReal := m ((c : Thread nD τ).loc main_arg4)
abbrev a5 : Mat 384 64 := m ((c : Thread nD τ).loc main_arg5)
abbrev a6 : (⟨1, ![64]⟩ : Shape).Idx → EReal := m ((c : Thread nD τ).loc main_arg6)
/-- inputs and state as [32, 4096, 64]; the gates' layout and its two diffusion terms; the gates -/
def xin : Ten 32 4096 64 := rs3 (a0 m c)
def hst : Ten 32 4096 64 := rs3 (a1 m c)
def x0h : Mat 4096 4096 := lay (xin m c) (hst m c)
def x1h : Mat 4096 4096 := mm (a2 m c) (x0h m c)
def x2h : Mat 4096 4096 := cheb (a2 m c) (x1h m c) (x0h m c)
def ru : Ten 32 4096 128 := proj Ideal.logistic (x0h m c) (x1h m c) (x2h m c) (wsl 0 (a3 m c)) (wsl 1 (a3 m c)) (wsl 2 (a3 m c)) (brow (a4 m c))
def rh : Ten 32 4096 64 := gateR (ru m c) (hst m c)
def ug : Ten 32 4096 64 := gateU (ru m c)
/-- the candidate's layout, its diffusion terms, the candidate -/
def x0c : Mat 4096 4096 := lay (xin m c) (rh m c)
def x1c : Mat 4096 4096 := mm (a2 m c) (x0c m c)
def x2c : Mat 4096 4096 := cheb (a2 m c) (x1c m c) (x0c m c)
def cand : Ten 32 4096 64 := proj Ideal.tanh (x0c m c) (x1c m c) (x2c m c) (wsl 0 (a5 m c)) (wsl 1 (a5 m c)) (wsl 2 (a5 m c)) (brow (a6 m c))

/-- The cell is the blend of these, read back flat. -/
theorem cell_eq : cell (a0 m c) (a1 m c) (a2 m c) (a3 m c) (a4 m c) (a5 m c) (a6 m c) = unrs3 (blend (ug m c) (hst m c) (cand m c)) := rfl

/-! ## After the first host stretch -/
theorem s1_v0 : (U1 m c main_v0 : Ten 32 4096 64) = xin m c := host0_v0 (Gen.V0 m c)
theorem s1_v1 : (U1 m c main_v1 : Ten 32 4096 64) = hst m c := host0_v1 (Gen.V0 m c)
theorem s1_v2 : (U1 m c main_v2 : Mat 4096 4096) = a2 m c := host0_v2 (Gen.V0 m c)
theorem s1_v5 : (U1 m c main_v5 : Mat 128 128) = wsl 0 (a3 m c) := host0_v5 (Gen.V0 m c)
theorem s1_v7 : (U1 m c main_v7 : Mat 128 128) = wsl 1 (a3 m c) := host0_v7 (Gen.V0 m c)
theorem s1_v9 : (U1 m c main_v9 : Mat 128 128) = wsl 2 (a3 m c) := host0_v9 (Gen.V0 m c)
theorem s1_v12 : (U1 m c main_v12 : Mat 128 64) = wsl 0 (a5 m c) := host0_v12 (Gen.V0 m c)
theorem s1_v14 : (U1 m c main_v14 : Mat 128 64) = wsl 1 (a5 m c) := host0_v14 (Gen.V0 m c)
theorem s1_v16 : (U1 m c main_v16 : Mat 128 64) = wsl 2 (a5 m c) := host0_v16 (Gen.V0 m c)
theorem s1_v17 : (U1 m c main_v17 : Mat 1 128) = brow (a4 m c) := host0_v17 (Gen.V0 m c)
theorem s1_v18 : (U1 m c main_v18 : Mat 1 64) = brow (a6 m c) := host0_v18 (Gen.V0 m c)
theorem s1_v21 : (U1 m c main_v21 : Mat 4096 4096) = x0h m c := host0_v21 (Gen.V0 m c)
theorem s1_v22 : (U1 m c main_v22 : Mat 4096 4096) = x0h m c := host0_v22 (Gen.V0 m c)

/-! ## Regions 0 and 1: the gates' diffusion terms -/
theorem s2_v23_0 : (U2 m c main_v23_0 : Mat 4096 4096) = x1h m c :=
  (U2_main_v23_0 m c).trans ((arrAt0_2 (rd (U1 m)) c).trans (by
    show mm (U1 m c main_v2) (U1 m c main_v22) = _
    rw [s1_v2, s1_v22]; rfl))
theorem s2_v23_1 : (U2 m c main_v23_1 : Mat 4096 4096) = x1h m c :=
  (U2_main_v23_1 m c).trans ((arrAt0_3 (rd (U1 m)) c).trans (by
    show mm (U1 m c main_v2) (U1 m c main_v22) = _
    rw [s1_v2, s1_v22]; rfl))
theorem s2_v2 : (U2 m c main_v2 : Mat 4096 4096) = a2 m c :=
  (U2_of m c main_v2 (by decide)).trans <| s1_v2 m c
theorem s2_v21 : (U2 m c main_v21 : Mat 4096 4096) = x0h m c :=
  (U2_of m c main_v21 (by decide)).trans <| s1_v21 m c
theorem s3_v24 : (U3 m c main_v24 : Mat 4096 4096) = x2h m c :=
  (U3_main_v24 m c).trans ((arrAt1_3 (rd (U2 m)) c).trans (by
    show cheb (U2 m c main_v2) (U2 m c main_v23_1) (U2 m c main_v21) = _
    rw [s2_v2, s2_v23_1, s2_v21]; rfl))

/-! ## Region 2: the gates -/
theorem s3_v21 : (U3 m c main_v21 : Mat 4096 4096) = x0h m c :=
  (U3_of m c main_v21 (by decide)).trans <| (U2_of m c main_v21 (by decide)).trans <| s1_v21 m c
theorem s3_v23_0 : (U3 m c main_v23_0 : Mat 4096 4096) = x1h m c :=
  (U3_of m c main_v23_0 (by decide)).trans <| s2_v23_0 m c
theorem s3_v5 : (U3 m c main_v5 : Mat 128 128) = wsl 0 (a3 m c) :=
  (U3_of m c main_v5 (by decide)).trans <| (U2_of m c main_v5 (by decide)).trans <| s1_v5 m c
theorem s3_v7 : (U3 m c main_v7 : Mat 128 128) = wsl 1 (a3 m c) :=
  (U3_of m c main_v7 (by decide)).trans <| (U2_of m c main_v7 (by decide)).trans <| s1_v7 m c
theorem s3_v9 : (U3 m c main_v9 : Mat 128 128) = wsl 2 (a3 m c) :=
  (U3_of m c main_v9 (by decide)).trans <| (U2_of m c main_v9 (by decide)).trans <| s1_v9 m c
theorem s3_v17 : (U3 m c main_v17 : Mat 1 128) = brow (a4 m c) :=
  (U3_of m c main_v17 (by decide)).trans <| (U2_of m c main_v17 (by decide)).trans <| s1_v17 m c
theorem s4_v25 : (U4 m c main_v25 : Ten 32 4096 128) = ru m c :=
  (U4_main_v25 m c).trans ((arrAt2_7 (rd (U3 m)) c).trans (by
    show proj Ideal.logistic (U3 m c main_v21) (U3 m c main_v23_0) (U3 m c main_v24) (U3 m c main_v5) (U3 m c main_v7) (U3 m c main_v9) (U3 m c main_v17) = _
    rw [s3_v21, s3_v23_0, s3_v24, s3_v5, s3_v7, s3_v9, s3_v17]; rfl))

/-! ## Region 3: the reset state and the update gate -/
theorem s4_v1 : (U4 m c main_v1 : Ten 32 4096 64) = hst m c :=
  (U4_of m c main_v1 (by decide)).trans <| (U3_of m c main_v1 (by decide)).trans <| (U2_of m c main_v1 (by decide)).trans <| s1_v1 m c
theorem s5_v26_0 : (U5 m c main_v26_0 : Ten 32 4096 64) = rh m c :=
  (U5_main_v26_0 m c).trans ((arrAt3_2 (rd (U4 m)) c).trans (by
    show gateR (U4 m c main_v25) (U4 m c main_v1) = _
    rw [s4_v25, s4_v1]; rfl))
theorem s5_v26_1 : (U5 m c main_v26_1 : Ten 32 4096 64) = ug m c :=
  (U5_main_v26_1 m c).trans ((arrAt3_3 (rd (U4 m)) c).trans (by
    show gateU (U4 m c main_v25) = _
    rw [s4_v25]; rfl))

/-! ## The second host stretch: the candidate's layout -/
theorem s5_v0 : (U5 m c main_v0 : Ten 32 4096 64) = xin m c :=
  (U5_of m c main_v0 (by decide)).trans <| (U4_of m c main_v0 (by decide)).trans <| (U3_of m c main_v0 (by decide)).trans <| (U2_of m c main_v0 (by decide)).trans <| s1_v0 m c
theorem s6_v29 : (U6 m c main_v29 : Mat 4096 4096) = x0c m c :=
  (host4_v29 (U5 m c)).trans (by
    show lay (U5 m c main_v0) (U5 m c main_v26_0) = _
    rw [s5_v0, s5_v26_0]; rfl)
theorem s6_v30 : (U6 m c main_v30 : Mat 4096 4096) = x0c m c :=
  (host4_v30 (U5 m c)).trans (by
    show lay (U5 m c main_v0) (U5 m c main_v26_0) = _
    rw [s5_v0, s5_v26_0]; rfl)

/-! ## Regions 4 and 5: the candidate's diffusion terms -/
theorem s6_v2 : (U6 m c main_v2 : Mat 4096 4096) = a2 m c :=
  (U6_of m c main_v2 (by decide)).trans <| (U5_of m c main_v2 (by decide)).trans <| (U4_of m c main_v2 (by decide)).trans <| (U3_of m c main_v2 (by decide)).trans <| s2_v2 m c
theorem s7_v31_0 : (U7 m c main_v31_0 : Mat 4096 4096) = x1c m c :=
  (U7_main_v31_0 m c).trans ((arrAt4_2 (rd (U6 m)) c).trans (by
    show mm (U6 m c main_v2) (U6 m c main_v30) = _
    rw [s6_v2, s6_v30]; rfl))
theorem s7_v31_1 : (U7 m c main_v31_1 : Mat 4096 4096) = x1c m c :=
  (U7_main_v31_1 m c).trans ((arrAt4_3 (rd (U6 m)) c).trans (by
    show mm (U6 m c main_v2) (U6 m c main_v30) = _
    rw [s6_v2, s6_v30]; rfl))
theorem s7_v2 : (U7 m c main_v2 : Mat 4096 4096) = a2 m c :=
  (U7_of m c main_v2 (by decide)).trans <| s6_v2 m c
theorem s7_v29 : (U7 m c main_v29 : Mat 4096 4096) = x0c m c :=
  (U7_of m c main_v29 (by decide)).trans <| s6_v29 m c
theorem s8_v32 : (U8 m c main_v32 : Mat 4096 4096) = x2c m c :=
  (U8_main_v32 m c).trans ((arrAt5_3 (rd (U7 m)) c).trans (by
    show cheb (U7 m c main_v2) (U7 m c main_v31_1) (U7 m c main_v29) = _
    rw [s7_v2, s7_v31_1, s7_v29]; rfl))

/-! ## Region 6: the candidate -/
theorem s8_v29 : (U8 m c main_v29 : Mat 4096 4096) = x0c m c :=
  (U8_of m c main_v29 (by decide)).trans <| s7_v29 m c
theorem s8_v31_0 : (U8 m c main_v31_0 : Mat 4096 4096) = x1c m c :=
  (U8_of m c main_v31_0 (by decide)).trans <| s7_v31_0 m c
theorem s8_v12 : (U8 m c main_v12 : Mat 128 64) = wsl 0 (a5 m c) :=
  (U8_of m c main_v12 (by decide)).trans <| (U7_of m c main_v12 (by decide)).trans <| (U6_of m c main_v12 (by decide)).trans <| (U5_of m c main_v12 (by decide)).trans <| (U4_of m c main_v12 (by decide)).trans <| (U3_of m c main_v12 (by decide)).trans <| (U2_of m c main_v12 (by decide)).trans <| s1_v12 m c
theorem s8_v14 : (U8 m c main_v14 : Mat 128 64) = wsl 1 (a5 m c) :=
  (U8_of m c main_v14 (by decide)).trans <| (U7_of m c main_v14 (by decide)).trans <| (U6_of m c main_v14 (by decide)).trans <| (U5_of m c main_v14 (by decide)).trans <| (U4_of m c main_v14 (by decide)).trans <| (U3_of m c main_v14 (by decide)).trans <| (U2_of m c main_v14 (by decide)).trans <| s1_v14 m c
theorem s8_v16 : (U8 m c main_v16 : Mat 128 64) = wsl 2 (a5 m c) :=
  (U8_of m c main_v16 (by decide)).trans <| (U7_of m c main_v16 (by decide)).trans <| (U6_of m c main_v16 (by decide)).trans <| (U5_of m c main_v16 (by decide)).trans <| (U4_of m c main_v16 (by decide)).trans <| (U3_of m c main_v16 (by decide)).trans <| (U2_of m c main_v16 (by decide)).trans <| s1_v16 m c
theorem s8_v18 : (U8 m c main_v18 : Mat 1 64) = brow (a6 m c) :=
  (U8_of m c main_v18 (by decide)).trans <| (U7_of m c main_v18 (by decide)).trans <| (U6_of m c main_v18 (by decide)).trans <| (U5_of m c main_v18 (by decide)).trans <| (U4_of m c main_v18 (by decide)).trans <| (U3_of m c main_v18 (by decide)).trans <| (U2_of m c main_v18 (by decide)).trans <| s1_v18 m c
theorem s9_v33 : (U9 m c main_v33 : Ten 32 4096 64) = cand m c :=
  (U9_main_v33 m c).trans ((arrAt6_7 (rd (U8 m)) c).trans (by
    show proj Ideal.tanh (U8 m c main_v29) (U8 m c main_v31_0) (U8 m c main_v32) (U8 m c main_v12) (U8 m c main_v14) (U8 m c main_v16) (U8 m c main_v18) = _
    rw [s8_v29, s8_v31_0, s8_v32, s8_v12, s8_v14, s8_v16, s8_v18]; rfl))

/-! ## Region 7 and the last host stretch: the blend, read back flat -/
theorem s9_v26_1 : (U9 m c main_v26_1 : Ten 32 4096 64) = ug m c :=
  (U9_of m c main_v26_1 (by decide)).trans <| (U8_of m c main_v26_1 (by decide)).trans <| (U7_of m c main_v26_1 (by decide)).trans <| (U6_of m c main_v26_1 (by decide)).trans <| s5_v26_1 m c
theorem s9_v1 : (U9 m c main_v1 : Ten 32 4096 64) = hst m c :=
  (U9_of m c main_v1 (by decide)).trans <| (U8_of m c main_v1 (by decide)).trans <| (U7_of m c main_v1 (by decide)).trans <| (U6_of m c main_v1 (by decide)).trans <| (U5_of m c main_v1 (by decide)).trans <| s4_v1 m c
theorem s10_v34 : (U10 m c main_v34 : Ten 32 4096 64) = blend (ug m c) (hst m c) (cand m c) :=
  (U10_main_v34 m c).trans ((arrAt7_3 (rd (U9 m)) c).trans (by
    show blend (U9 m c main_v26_1) (U9 m c main_v1) (U9 m c main_v33) = _
    rw [s9_v26_1, s9_v1, s9_v33]))

/-- THE RESULT: after the last item the result buffer holds the cell of the argument arrays. -/
theorem result_is_cell : (U11 m c main_v35 : Mat 32 262144)
    = cell (a0 m c) (a1 m c) (a2 m c) (a3 m c) (a4 m c) (a5 m c) (a6 m c) :=
  (host8_v35 (U10 m c)).trans (by
    show unrs3 (U10 m c main_v34) = _
    rw [s10_v34, cell_eq])

end Cert.KernelIdeal.Val

end
-- ==== Proof.Ref.Ops.lean ====
/-
  The reference's layout and diffusion operations as the cell's functions.

  A [32, 262144] array viewed as [32, 4096, 64] is read at column n * 64 + d.  Two feature blocks joined along the last
  axis, transposed to (node, feature, batch entry) and viewed as a 4096 x 4096 matrix, put feature s of batch entry b
  at column s * 32 + b.  A contraction of the support's columns with a matrix's rows is the matrix product, and twice
  the product less a third matrix is the second Chebyshev term.  Each statement is an equality of whole arrays,
  proved index by index, for arbitrary operands.
-/
import proofs.«149401_j50302656971158_2_alg».proof.Proof.Gen.ReferenceIdeal
import proofs.«149401_j50302656971158_2_alg».proof.Proof.SpecCell
import Idealize.ShloMosaic.Lib.Pipeline.Value
import Idealize.ShloMosaic.Lib.ValueIdx
import Idealize.ShloMosaic.PureOps.Ideal.Laws
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx
open Cert.Spec (Mat Ten)

/-- [32, 262144] viewed as [32, 4096, 64]: entry (b, n, d) is column n * 64 + d of row b. -/
theorem rs3_eq (x : Mat 32 262144) :
    shapeCast S32x4096x64 x shapeCasts_S32x262144_S32x4096x64 = Cert.Spec.rs3 x := by
  funext i
  refine shapeCast_apply x shapeCasts_S32x262144_S32x4096x64 i (ix2 (i 0) (Cert.Spec.flat64 (i 1) (i 2))) ?_
  rw [Shape.rowMajor_val_two, Shape.rowMajor_val_three]
  have h0 : (i 0).val < 32 := (i 0).isLt
  have h1 : (i 1).val < 4096 := (i 1).isLt
  have h2 : (i 2).val < 64 := (i 2).isLt
  show (i 0).val * 262144 + ((i 1).val * 64 + (i 2).val) = ((i 0).val * 4096 + (i 1).val) * 64 + (i 2).val
  omega

/-- Two feature blocks joined along the last axis, read at explicit coordinates: the first block below 64, the second
    from 64 on. -/
theorem cat_apply (a b : Ten 32 4096 64) (p : Fin 32) (n : Fin 4096) (s : Fin 128) :
    concatenate S32x4096x128 2 [⟨S32x4096x64, a⟩, ⟨S32x4096x64, b⟩] concatenates_S32x4096x64_S32x4096x64_S32x4096x128_d2 (ix3 p n s)
      = Cert.Spec.catAt a b p n s := by
  unfold Cert.Spec.catAt
  split
  · rename_i h
    exact concatenate_pair_apply_left 2 a b _ (ix3 p n s) rfl (ix3 p n ⟨s.val, h⟩) (fun c => match c with
      | ⟨0, _⟩ => rfl
      | ⟨1, _⟩ => rfl
      | ⟨2, _⟩ => rfl)
  · rename_i h
    exact concatenate_pair_apply_right 2 a b _ (ix3 p n s) rfl rfl (ix3 p n ⟨s.val - 64, by omega⟩) (fun c hc => match c, hc with
      | ⟨0, _⟩, _ => rfl
      | ⟨1, _⟩, _ => rfl
      | ⟨2, _⟩, hc => absurd rfl hc) (by show s.val - 64 + 64 = s.val; omega)

/-- The node-major layout: join, transpose to (node, feature, batch entry), view as 4096 x 4096. -/
theorem lay_eq (a b : Ten 32 4096 64) :
    shapeCast S4096x4096 (transpose S4096x128x32 [1, 2, 0]
      (concatenate S32x4096x128 2 [⟨S32x4096x64, a⟩, ⟨S32x4096x64, b⟩] concatenates_S32x4096x64_S32x4096x64_S32x4096x128_d2)
      transposes_S32x4096x128_S4096x128x32_1_2_0) shapeCasts_S4096x128x32_S4096x4096 = Cert.Spec.lay a b := by
  funext i
  have h0 : (i 0).val < 4096 := (i 0).isLt
  have h1 : (i 1).val < 4096 := (i 1).isLt
  rw [shapeCast_apply _ shapeCasts_S4096x128x32_S4096x4096 i (ix3 (i 0) (Cert.Spec.colS (i 1)) (Cert.Spec.colB (i 1))) (by
    rw [Shape.rowMajor_val_three, Shape.rowMajor_val_two]
    show ((i 0).val * 128 + (i 1).val / 32) * 32 + (i 1).val % 32 = (i 0).val * 4096 + (i 1).val
    omega)]
  rw [transpose_apply [1, 2, 0] _ transposes_S32x4096x128_S4096x128x32_1_2_0 _
    (ix3 (Cert.Spec.colB (i 1)) (i 0) (Cert.Spec.colS (i 1))) (fun c => match c with
      | ⟨0, _⟩ => rfl
      | ⟨1, _⟩ => rfl
      | ⟨2, _⟩ => rfl)]
  exact cat_apply a b _ _ _

/-- The operand indices of the 4096 x 4096 product at result index i and contraction index q: (i 0, q) and (q, i 1). -/
theorem dot4096_lhs0 (i : S4096x4096.Idx) (q : dot_S4096x4096_S4096x4096_S4096x4096_1_0_0_1_n_n.contr.Idx) :
    (dot_S4096x4096_S4096x4096_S4096x4096_1_0_0_1_n_n.lhsIdx i q 0).val = (i 0).val := by
  unfold DotDims.lhsIdx
  rw [dif_neg (show ¬(0 : Fin S4096x4096.rank) ∈ dot_S4096x4096_S4096x4096_S4096x4096_1_0_0_1_n_n.lhsBatch by decide),
    dif_pos (show (0 : Fin S4096x4096.rank) ∈ dot_S4096x4096_S4096x4096_S4096x4096_1_0_0_1_n_n.lhsNonContracting by decide)]
  rfl
theorem dot4096_lhs1 (i : S4096x4096.Idx) (q : dot_S4096x4096_S4096x4096_S4096x4096_1_0_0_1_n_n.contr.Idx) :
    (dot_S4096x4096_S4096x4096_S4096x4096_1_0_0_1_n_n.lhsIdx i q 1).val = (q ⟨0, by decide⟩).val :=
  dot_S4096x4096_S4096x4096_S4096x4096_1_0_0_1_n_n.lhsIdx_val_of_single rfl i q
theorem dot4096_rhs0 (i : S4096x4096.Idx) (q : dot_S4096x4096_S4096x4096_S4096x4096_1_0_0_1_n_n.contr.Idx) :
    (dot_S4096x4096_S4096x4096_S4096x4096_1_0_0_1_n_n.rhsIdx i q 0).val = (q ⟨0, by decide⟩).val :=
  dot_S4096x4096_S4096x4096_S4096x4096_1_0_0_1_n_n.rhsIdx_val_of_single rfl i q
theorem dot4096_rhs1 (i : S4096x4096.Idx) (q : dot_S4096x4096_S4096x4096_S4096x4096_1_0_0_1_n_n.contr.Idx) :
    (dot_S4096x4096_S4096x4096_S4096x4096_1_0_0_1_n_n.rhsIdx i q 1).val = (i 1).val := by
  unfold DotDims.rhsIdx
  rw [dif_neg (show ¬(1 : Fin S4096x4096.rank) ∈ dot_S4096x4096_S4096x4096_S4096x4096_1_0_0_1_n_n.rhsBatch by decide),
    dif_pos (show (1 : Fin S4096x4096.rank) ∈ dot_S4096x4096_S4096x4096_S4096x4096_1_0_0_1_n_n.rhsNonContracting by decide)]
  rfl

/-- The support's columns contracted with a matrix's rows: the matrix product. -/
theorem mm_eq (A X : Mat 4096 4096) :
    Host.dotGeneral (F := Ideal) (φ₁ := .f32) (φ₂ := .f32) dot_S4096x4096_S4096x4096_S4096x4096_1_0_0_1_n_n none A X = Cert.Spec.mm A X := by
  funext i
  simp only [Host.dotGeneral]
  rw [Ideal.dotGeneral_apply, ← Equiv.sum_comp (ValueIdx.contrEquiv1 dot_S4096x4096_S4096x4096_S4096x4096_1_0_0_1_n_n 4096 rfl rfl).symm]
  refine Finset.sum_congr rfl fun k _ => ?_
  have hk := ValueIdx.contrEquiv1_symm_val dot_S4096x4096_S4096x4096_S4096x4096_1_0_0_1_n_n 4096 rfl rfl k
  have el : dot_S4096x4096_S4096x4096_S4096x4096_1_0_0_1_n_n.lhsIdx i
      ((ValueIdx.contrEquiv1 dot_S4096x4096_S4096x4096_S4096x4096_1_0_0_1_n_n 4096 rfl rfl).symm k) = ix2 (i 0) k :=
    funext fun c => Fin.ext (by
      match c with
      | ⟨0, _⟩ => exact dot4096_lhs0 _ _
      | ⟨1, _⟩ => exact (dot4096_lhs1 _ _).trans hk)
  have er : dot_S4096x4096_S4096x4096_S4096x4096_1_0_0_1_n_n.rhsIdx i
      ((ValueIdx.contrEquiv1 dot_S4096x4096_S4096x4096_S4096x4096_1_0_0_1_n_n 4096 rfl rfl).symm k) = ix2 k (i 1) :=
    funext fun c => Fin.ext (by
      match c with
      | ⟨0, _⟩ => exact (dot4096_rhs0 _ _).trans hk
      | ⟨1, _⟩ => exact dot4096_rhs1 _ _)
  rw [el, er]
  rfl

/-- Twice a matrix less another, the literal 2 broadcast from a scalar. -/
theorem twice_sub_apply (Y C : Mat 4096 4096) (i : S4096x4096.Idx) :
    subf (F := Ideal) (mulf (broadcastInDim S4096x4096 ![] bcast_S_S4096x4096 (constant S_ .f32 0x40000000#32)) Y) C i
      = Cert.Spec.two * Y i - C i := rfl

/-- The second Chebyshev term of the diffusion. -/
theorem cheb_eq (A X C : Mat 4096 4096) :
    subf (F := Ideal) (mulf (broadcastInDim S4096x4096 ![] bcast_S_S4096x4096 (constant S_ .f32 0x40000000#32))
      (Host.dotGeneral (F := Ideal) (φ₁ := .f32) (φ₂ := .f32) dot_S4096x4096_S4096x4096_S4096x4096_1_0_0_1_n_n none A X)) C = Cert.Spec.cheb A X C := by
  rw [mm_eq]
  rfl

end Cert.ReferenceIdeal.RefValue

end
-- ==== Proof.LibStack3.lean ====
/-
  Three arrays stacked along a new leading axis, and read back.

  The host stacks three vectors of length n into a [3, n] matrix by viewing each as a [1, n] row and joining the rows
  along axis 0; a trailing unit axis then makes it [3, n, 1]. Three [n, o] matrices are stacked into [3, n, o] the same
  way. Going the other way, slab r of a [3, n, o] array, cut out as [1, n, o] and viewed as [n, o], is the array at
  leading coordinate r; and row (r, s) of a [3, 2, E] array, cut out in one step or in two, is the array at (r, s, ·).
  Each statement reads the composite at an index built from explicit coordinates.
-/
import Idealize.ShloMosaic.Lib.ValueIdx
import Idealize.ShloMosaic.Lib.ValueLayout
import Idealize.ShloMosaic.Lib.Pipeline.Value

noncomputable section

namespace Cert.Stack3

open Idealize.ShloMosaic Idealize.ShloMosaic.ValueIdx

variable {α : Type}

/-- The r-th of three. -/
def pick {β : Type} (a0 a1 a2 : β) : Fin 3 → β
  | ⟨0, _⟩ => a0
  | ⟨1, _⟩ => a1
  | ⟨2, _⟩ => a2

/-- A vector viewed as a one-row matrix, read at (0, i). -/
theorem row_apply {n : Nat} (v : (⟨1, ![n]⟩ : Shape).Idx → α)
    (h : (⟨1, ![n]⟩ : Shape).BroadcastsInDim ⟨2, ![1, n]⟩ ![1]) (z : Fin 1) (i : Fin n) :
    broadcastInDim ⟨2, ![1, n]⟩ ![1] h v (ix2 z i) = v (ix1 i) := by
  refine broadcastInDim_apply _ h v _ (ix1 i) fun a => ?_
  match a with
  | ⟨0, _⟩ =>
    show i.val = if n = 1 then 0 else i.val
    split
    · rename_i h1; subst h1; exact Nat.lt_one_iff.mp i.isLt
    · rfl

/-- A matrix viewed as a one-slab array, read at (0, i, j). -/
theorem slab_apply {n o : Nat} (x : (⟨2, ![n, o]⟩ : Shape).Idx → α)
    (h : (⟨2, ![n, o]⟩ : Shape).BroadcastsInDim ⟨3, ![1, n, o]⟩ ![1, 2]) (z : Fin 1) (i : Fin n) (j : Fin o) :
    broadcastInDim ⟨3, ![1, n, o]⟩ ![1, 2] h x (ix3 z i j) = x (ix2 i j) := by
  refine broadcastInDim_apply _ h x _ (ix2 i j) fun a => ?_
  match a with
  | ⟨0, _⟩ =>
    show i.val = if n = 1 then 0 else i.val
    split
    · rename_i h1; subst h1; exact Nat.lt_one_iff.mp i.isLt
    · rfl
  | ⟨1, _⟩ =>
    show j.val = if o = 1 then 0 else j.val
    split
    · rename_i h1; subst h1; exact Nat.lt_one_iff.mp j.isLt
    · rfl

/-- A [3, n] matrix given a trailing unit axis, read at (r, i, 0). -/
theorem keepdims_apply {n : Nat} (x : (⟨2, ![3, n]⟩ : Shape).Idx → α)
    (h : (⟨2, ![3, n]⟩ : Shape).BroadcastsInDim ⟨3, ![3, n, 1]⟩ ![0, 1]) (r : Fin 3) (i : Fin n) (z : Fin 1) :
    broadcastInDim ⟨3, ![3, n, 1]⟩ ![0, 1] h x (ix3 r i z) = x (ix2 r i) := by
  refine broadcastInDim_apply _ h x _ (ix2 r i) fun a => ?_
  match a with
  | ⟨0, _⟩ =>
    split
    · rename_i h1; exact absurd h1 (show ¬ (3 : Nat) = 1 by decide)
    · rfl
  | ⟨1, _⟩ =>
    show i.val = if n = 1 then 0 else i.val
    split
    · rename_i h1; subst h1; exact Nat.lt_one_iff.mp i.isLt
    · rfl

/-- Three vectors stacked into a [3, n] matrix, read at (r, i). -/
theorem stackVec_apply {n : Nat} (v0 v1 v2 : (⟨1, ![n]⟩ : Shape).Idx → α)
    (hb : (⟨1, ![n]⟩ : Shape).BroadcastsInDim ⟨2, ![1, n]⟩ ![1])
    (hc : Shape.Concatenates (([⟨⟨2, ![1, n]⟩, broadcastInDim ⟨2, ![1, n]⟩ ![1] hb v0⟩, ⟨⟨2, ![1, n]⟩, broadcastInDim ⟨2, ![1, n]⟩ ![1] hb v1⟩,
      ⟨⟨2, ![1, n]⟩, broadcastInDim ⟨2, ![1, n]⟩ ![1] hb v2⟩] : List ((s : Shape) × (s.Idx → α))).map (·.1)) ⟨2, ![3, n]⟩ 0)
    (r : Fin 3) (i : Fin n) :
    concatenate ⟨2, ![3, n]⟩ 0 [⟨⟨2, ![1, n]⟩, broadcastInDim ⟨2, ![1, n]⟩ ![1] hb v0⟩, ⟨⟨2, ![1, n]⟩, broadcastInDim ⟨2, ![1, n]⟩ ![1] hb v1⟩,
      ⟨⟨2, ![1, n]⟩, broadcastInDim ⟨2, ![1, n]⟩ ![1] hb v2⟩] hc (ix2 r i) = pick v0 v1 v2 r (ix1 i) := by
  have key : ∀ (k : Nat) (hk : k < 3) (x₁ : (⟨2, ![1, n]⟩ : Shape).Idx → α),
      ([⟨⟨2, ![1, n]⟩, broadcastInDim ⟨2, ![1, n]⟩ ![1] hb v0⟩, ⟨⟨2, ![1, n]⟩, broadcastInDim ⟨2, ![1, n]⟩ ![1] hb v1⟩,
        ⟨⟨2, ![1, n]⟩, broadcastInDim ⟨2, ![1, n]⟩ ![1] hb v2⟩] : List ((s : Shape) × (s.Idx → α)))[k]'(by simpa using hk) = ⟨⟨2, ![1, n]⟩, x₁⟩ →
      r.val = k →
      concatenate ⟨2, ![3, n]⟩ 0 [⟨⟨2, ![1, n]⟩, broadcastInDim ⟨2, ![1, n]⟩ ![1] hb v0⟩, ⟨⟨2, ![1, n]⟩, broadcastInDim ⟨2, ![1, n]⟩ ![1] hb v1⟩,
        ⟨⟨2, ![1, n]⟩, broadcastInDim ⟨2, ![1, n]⟩ ![1] hb v2⟩] hc (ix2 r i) = x₁ (ix2 (0 : Fin 1) i) := by
    intro k hk x₁ hx hr
    refine concatenate_apply_piece (0 : Fin 2) _ hc (ix2 r i) k (by simpa using hk) ⟨2, ![1, n]⟩ x₁ hx rfl k ?_ (ix2 (0 : Fin 1) i) ?_ ?_
    · match k, hk with
      | 0, _ => rfl
      | 1, _ => rfl
      | 2, _ => rfl
    · intro b hb'
      match b with
      | ⟨0, _⟩ => exact absurd rfl hb'
      | ⟨1, _⟩ => rfl
    · show k + 0 = r.val
      omega
  match r with
  | ⟨0, _⟩ => exact (key 0 (by decide) _ rfl rfl).trans (row_apply v0 hb 0 i)
  | ⟨1, _⟩ => exact (key 1 (by decide) _ rfl rfl).trans (row_apply v1 hb 0 i)
  | ⟨2, _⟩ => exact (key 2 (by decide) _ rfl rfl).trans (row_apply v2 hb 0 i)

/-- Three [n, o] matrices stacked into a [3, n, o] array, read at (r, i, j). -/
theorem stackMat_apply {n o : Nat} (a0 a1 a2 : (⟨2, ![n, o]⟩ : Shape).Idx → α)
    (hb : (⟨2, ![n, o]⟩ : Shape).BroadcastsInDim ⟨3, ![1, n, o]⟩ ![1, 2])
    (hc : Shape.Concatenates (([⟨⟨3, ![1, n, o]⟩, broadcastInDim ⟨3, ![1, n, o]⟩ ![1, 2] hb a0⟩, ⟨⟨3, ![1, n, o]⟩, broadcastInDim ⟨3, ![1, n, o]⟩ ![1, 2] hb a1⟩,
      ⟨⟨3, ![1, n, o]⟩, broadcastInDim ⟨3, ![1, n, o]⟩ ![1, 2] hb a2⟩] : List ((s : Shape) × (s.Idx → α))).map (·.1)) ⟨3, ![3, n, o]⟩ 0)
    (r : Fin 3) (i : Fin n) (j : Fin o) :
    concatenate ⟨3, ![3, n, o]⟩ 0 [⟨⟨3, ![1, n, o]⟩, broadcastInDim ⟨3, ![1, n, o]⟩ ![1, 2] hb a0⟩, ⟨⟨3, ![1, n, o]⟩, broadcastInDim ⟨3, ![1, n, o]⟩ ![1, 2] hb a1⟩,
      ⟨⟨3, ![1, n, o]⟩, broadcastInDim ⟨3, ![1, n, o]⟩ ![1, 2] hb a2⟩] hc (ix3 r i j) = pick a0 a1 a2 r (ix2 i j) := by
  have key : ∀ (k : Nat) (hk : k < 3) (x₁ : (⟨3, ![1, n, o]⟩ : Shape).Idx → α),
      ([⟨⟨3, ![1, n, o]⟩, broadcastInDim ⟨3, ![1, n, o]⟩ ![1, 2] hb a0⟩, ⟨⟨3, ![1, n, o]⟩, broadcastInDim ⟨3, ![1, n, o]⟩ ![1, 2] hb a1⟩,
        ⟨⟨3, ![1, n, o]⟩, broadcastInDim ⟨3, ![1, n, o]⟩ ![1, 2] hb a2⟩] : List ((s : Shape) × (s.Idx → α)))[k]'(by simpa using hk) = ⟨⟨3, ![1, n, o]⟩, x₁⟩ →
      r.val = k →
      concatenate ⟨3, ![3, n, o]⟩ 0 [⟨⟨3, ![1, n, o]⟩, broadcastInDim ⟨3, ![1, n, o]⟩ ![1, 2] hb a0⟩, ⟨⟨3, ![1, n, o]⟩, broadcastInDim ⟨3, ![1, n, o]⟩ ![1, 2] hb a1⟩,
        ⟨⟨3, ![1, n, o]⟩, broadcastInDim ⟨3, ![1, n, o]⟩ ![1, 2] hb a2⟩] hc (ix3 r i j) = x₁ (ix3 (0 : Fin 1) i j) := by
    intro k hk x₁ hx hr
    refine concatenate_apply_piece (0 : Fin 3) _ hc (ix3 r i j) k (by simpa using hk) ⟨3, ![1, n, o]⟩ x₁ hx rfl k ?_ (ix3 (0 : Fin 1) i j) ?_ ?_
    · match k, hk with
      | 0, _ => rfl
      | 1, _ => rfl
      | 2, _ => rfl
    · intro b hb'
      match b with
      | ⟨0, _⟩ => exact absurd rfl hb'
      | ⟨1, _⟩ => rfl
      | ⟨2, _⟩ => rfl
    · show k + 0 = r.val
      omega
  match r with
  | ⟨0, _⟩ => exact (key 0 (by decide) _ rfl rfl).trans (slab_apply a0 hb 0 i j)
  | ⟨1, _⟩ => exact (key 1 (by decide) _ rfl rfl).trans (slab_apply a1 hb 0 i j)
  | ⟨2, _⟩ => exact (key 2 (by decide) _ rfl rfl).trans (slab_apply a2 hb 0 i j)

/-- Slab r of a [3, n, o] array, cut out and viewed as [n, o], read at (i, j). -/
theorem slabOf_apply {n o : Nat} (M : (⟨3, ![3, n, o]⟩ : Shape).Idx → α) (r : Fin 3)
    (hs : (⟨3, ![3, n, o]⟩ : Shape).Slices ![r.val, 0, 0] ⟨3, ![1, n, o]⟩)
    (hc : (⟨3, ![1, n, o]⟩ : Shape).ShapeCasts ⟨2, ![n, o]⟩) (i : Fin n) (j : Fin o) :
    shapeCast ⟨2, ![n, o]⟩ (extractStridedSlice ⟨3, ![1, n, o]⟩ ![r.val, 0, 0] M hs) hc (ix2 i j) = M (ix3 r i j) := by
  rw [shapeCast_apply _ hc (ix2 i j) (ix3 (0 : Fin 1) i j) (by
    rw [Shape.rowMajor_val_three, Shape.rowMajor_val_two]
    show (0 * n + i.val) * o + j.val = i.val * o + j.val
    rw [Nat.zero_mul, Nat.zero_add])]
  refine extractStridedSlice_apply _ M hs _ (ix3 r i j) fun a => ?_
  match a with
  | ⟨0, _⟩ => show r.val = r.val + 0; omega
  | ⟨1, _⟩ => show i.val = 0 + i.val; omega
  | ⟨2, _⟩ => show j.val = 0 + j.val; omega

/-- Row (r, s) of a [3, 2, E] array cut out in one step and viewed as a vector, read at i. -/
theorem rowOf_apply {E : Nat} (e : (⟨3, ![3, 2, E]⟩ : Shape).Idx → α) (r : Fin 3) (s : Fin 2)
    (hs : (⟨3, ![3, 2, E]⟩ : Shape).Slices ![r.val, s.val, 0] ⟨3, ![1, 1, E]⟩)
    (hc : (⟨3, ![1, 1, E]⟩ : Shape).ShapeCasts ⟨1, ![E]⟩) (i : Fin E) :
    shapeCast ⟨1, ![E]⟩ (extractStridedSlice ⟨3, ![1, 1, E]⟩ ![r.val, s.val, 0] e hs) hc (ix1 i) = e (ix3 r s i) := by
  rw [shapeCast_apply _ hc (ix1 i) (ix3 (0 : Fin 1) (0 : Fin 1) i) (by
    rw [Shape.rowMajor_val_three, Shape.rowMajor_val_one]
    show (0 * 1 + 0) * E + i.val = i.val
    simp)]
  refine extractStridedSlice_apply _ e hs _ (ix3 r s i) fun a => ?_
  match a with
  | ⟨0, _⟩ => show r.val = r.val + 0; omega
  | ⟨1, _⟩ => show s.val = s.val + 0; omega
  | ⟨2, _⟩ => show i.val = 0 + i.val; omega

/-- Row (r, s) of a [3, 2, E] array cut out in two steps — column s of every relation first, viewed as [3, E]; then
    row r of that, viewed as a vector — read at i. -/
theorem rowOfTwice_apply {E : Nat} (e : (⟨3, ![3, 2, E]⟩ : Shape).Idx → α) (r : Fin 3) (s : Fin 2)
    (hs1 : (⟨3, ![3, 2, E]⟩ : Shape).Slices ![0, s.val, 0] ⟨3, ![3, 1, E]⟩)
    (hc1 : (⟨3, ![3, 1, E]⟩ : Shape).ShapeCasts ⟨2, ![3, E]⟩)
    (hs2 : (⟨2, ![3, E]⟩ : Shape).Slices ![r.val, 0] ⟨2, ![1, E]⟩)
    (hc2 : (⟨2, ![1, E]⟩ : Shape).ShapeCasts ⟨1, ![E]⟩) (i : Fin E) :
    shapeCast ⟨1, ![E]⟩ (extractStridedSlice ⟨2, ![1, E]⟩ ![r.val, 0]
      (shapeCast ⟨2, ![3, E]⟩ (extractStridedSlice ⟨3, ![3, 1, E]⟩ ![0, s.val, 0] e hs1) hc1) hs2) hc2 (ix1 i) = e (ix3 r s i) := by
  rw [shapeCast_apply _ hc2 (ix1 i) (ix2 (0 : Fin 1) i) (by
    rw [Shape.rowMajor_val_two, Shape.rowMajor_val_one]
    show 0 * E + i.val = i.val
    rw [Nat.zero_mul, Nat.zero_add])]
  rw [extractStridedSlice_apply _ _ hs2 (ix2 (0 : Fin 1) i) (ix2 r i) (fun a => by
    match a with
    | ⟨0, _⟩ => show r.val = r.val + 0; omega
    | ⟨1, _⟩ => show i.val = 0 + i.val; omega)]
  rw [shapeCast_apply _ hc1 (ix2 r i) (ix3 r (0 : Fin 1) i) (by
    rw [Shape.rowMajor_val_three, Shape.rowMajor_val_two]
    show (r.val * 1 + 0) * E + i.val = r.val * E + i.val
    rw [Nat.mul_one, Nat.add_zero])]
  refine extractStridedSlice_apply _ e hs1 _ (ix3 r s i) fun a => ?_
  match a with
  | ⟨0, _⟩ => show r.val = 0 + r.val; omega
  | ⟨1, _⟩ => show s.val = s.val + 0; omega
  | ⟨2, _⟩ => show i.val = 0 + i.val; omega

end Cert.Stack3

end
-- ==== Proof.Ref.Stack.lean ====
/-
  The three diffusion terms stacked into the projection's left operand.

  The three 4096 x 4096 matrices x_0, x_1, x_2 are stacked along a new leading axis, viewed as [3, 4096, 128, 32]
  (column s * 32 + b split into feature s and batch entry b), transposed to (batch entry, node, feature, term) and
  viewed as a [131072, 384] matrix: its row is b * 4096 + n and its column s * 3 + m, and it holds x_m at row n,
  column s * 32 + b.
-/
import proofs.«149401_j50302656971158_2_alg».proof.Proof.Gen.ReferenceIdeal
import proofs.«149401_j50302656971158_2_alg».proof.Proof.SpecCell
import proofs.«149401_j50302656971158_2_alg».proof.Proof.LibStack3
import Idealize.ShloMosaic.Lib.Pipeline.Value
import Idealize.ShloMosaic.Lib.ValueIdx
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx
open Cert.Spec (Mat Ten)

/-- Row b * 4096 + n of the projection's left operand, and its two coordinates back. -/
def rowBN (b : Fin 32) (n : Fin 4096) : Fin 131072 := ⟨b.val * 4096 + n.val, by omega⟩
def rowB (r : Fin 131072) : Fin 32 := ⟨r.val / 4096, by omega⟩
def rowN (r : Fin 131072) : Fin 4096 := ⟨r.val % 4096, Nat.mod_lt _ (by norm_num)⟩

/-- The feature and the diffusion term of a stacked column s * 3 + m. -/
def colS3 (j : Fin 384) : Fin 128 := ⟨j.val / 3, by omega⟩
def colM3 (j : Fin 384) : Fin 3 := ⟨j.val % 3, Nat.mod_lt _ (by norm_num)⟩

theorem rowB_rowBN (b : Fin 32) (n : Fin 4096) : rowB (rowBN b n) = b := Fin.ext (by show (b.val * 4096 + n.val) / 4096 = b.val; omega)
theorem rowN_rowBN (b : Fin 32) (n : Fin 4096) : rowN (rowBN b n) = n := Fin.ext (by show (b.val * 4096 + n.val) % 4096 = n.val; omega)
theorem colS3_wrow (s : Fin 128) (m : Fin 3) : colS3 (Cert.Spec.wrow s m) = s := Fin.ext (by show (s.val * 3 + m.val) / 3 = s.val; omega)
theorem colM3_wrow (s : Fin 128) (m : Fin 3) : colM3 (Cert.Spec.wrow s m) = m := Fin.ext (by show (s.val * 3 + m.val) % 3 = m.val; omega)

/-- The stacked left operand: at row b * 4096 + n and column s * 3 + m, term m at row n, column s * 32 + b. -/
def stk (x0 x1 x2 : Mat 4096 4096) : Mat 131072 384 := fun i =>
  Cert.Stack3.pick x0 x1 x2 (colM3 (i 1)) (ix2 (rowN (i 0)) (Cert.Spec.col (colS3 (i 1)) (rowB (i 0))))

/-- The stacked operand at explicit coordinates. -/
theorem stk_at (x0 x1 x2 : Mat 4096 4096) (b : Fin 32) (n : Fin 4096) (s : Fin 128) (m : Fin 3) :
    stk x0 x1 x2 (ix2 (rowBN b n) (Cert.Spec.wrow s m)) = Cert.Stack3.pick x0 x1 x2 m (ix2 n (Cert.Spec.col s b)) := by
  show Cert.Stack3.pick x0 x1 x2 (colM3 (Cert.Spec.wrow s m)) (ix2 (rowN (rowBN b n)) (Cert.Spec.col (colS3 (Cert.Spec.wrow s m)) (rowB (rowBN b n)))) = _
  rw [colM3_wrow, colS3_wrow, rowN_rowBN, rowB_rowBN]

/-- Stack, split the columns, transpose to (batch entry, node, feature, term), flatten: the stacked operand. -/
theorem stack_eq (x0 x1 x2 : Mat 4096 4096) :
    shapeCast S131072x384 (transpose S32x4096x128x3 [3, 1, 2, 0] (shapeCast S3x4096x128x32
      (concatenate S3x4096x4096 0 [⟨S1x4096x4096, broadcastInDim S1x4096x4096 ![1, 2] bcast_S4096x4096_S1x4096x4096_1_2 x0⟩,
        ⟨S1x4096x4096, broadcastInDim S1x4096x4096 ![1, 2] bcast_S4096x4096_S1x4096x4096_1_2 x1⟩,
        ⟨S1x4096x4096, broadcastInDim S1x4096x4096 ![1, 2] bcast_S4096x4096_S1x4096x4096_1_2 x2⟩]
        concatenates_S1x4096x4096_S1x4096x4096_S1x4096x4096_S3x4096x4096_d0)
      shapeCasts_S3x4096x4096_S3x4096x128x32) transposes_S3x4096x128x32_S32x4096x128x3_3_1_2_0)
      shapeCasts_S32x4096x128x3_S131072x384 = stk x0 x1 x2 := by
  funext i
  have h0 : (i 0).val < 131072 := (i 0).isLt
  have h1 : (i 1).val < 384 := (i 1).isLt
  -- the flat [131072, 384] index is (b, n, s, m)
  rw [shapeCast_apply _ shapeCasts_S32x4096x128x3_S131072x384 i (ix4 (rowB (i 0)) (rowN (i 0)) (colS3 (i 1)) (colM3 (i 1))) (by
    rw [Shape.rowMajor_val_four, Shape.rowMajor_val_two]
    show (((i 0).val / 4096 * 4096 + (i 0).val % 4096) * 128 + (i 1).val / 3) * 3 + (i 1).val % 3 = (i 0).val * 384 + (i 1).val
    omega)]
  -- the transpose reads (m, n, s, b)
  rw [transpose_apply [3, 1, 2, 0] _ transposes_S3x4096x128x32_S32x4096x128x3_3_1_2_0 _
    (ix4 (colM3 (i 1)) (rowN (i 0)) (colS3 (i 1)) (rowB (i 0))) (fun c => match c with
      | ⟨0, _⟩ => rfl
      | ⟨1, _⟩ => rfl
      | ⟨2, _⟩ => rfl
      | ⟨3, _⟩ => rfl)]
  -- the split columns are column s * 32 + b
  rw [shapeCast_apply _ shapeCasts_S3x4096x4096_S3x4096x128x32 _
    (ix3 (colM3 (i 1)) (rowN (i 0)) (Cert.Spec.col (colS3 (i 1)) (rowB (i 0)))) (by
    rw [Shape.rowMajor_val_three, Shape.rowMajor_val_four]
    show ((i 1).val % 3 * 4096 + (i 0).val % 4096) * 4096 + ((i 1).val / 3 * 32 + (i 0).val / 4096)
      = ((((i 1).val % 3) * 4096 + (i 0).val % 4096) * 128 + (i 1).val / 3) * 32 + (i 0).val / 4096
    omega)]
  exact Cert.Stack3.stackMat_apply x0 x1 x2 bcast_S4096x4096_S1x4096x4096_1_2
    concatenates_S1x4096x4096_S1x4096x4096_S1x4096x4096_S3x4096x4096_d0 _ _ _

end Cert.ReferenceIdeal.RefValue

end
-- ==== Proof.LibLogisticTanh.lean ====
/-
  The logistic function written with a hyperbolic tangent, on the extended reals.

  For a real z, (1/2)·(1 + tanh(z/2)) = 1/(1 + e^(-z)): with a = e^(z/2), tanh(z/2) = (a - 1/a)/(a + 1/a), so
  1 + tanh(z/2) = 2a/(a + 1/a) = 2/(1 + 1/a²), and 1/a² = e^(-z).  At +∞ both sides are 1 (tanh is 1 there and
  e^(-∞) = 0); at -∞ both are 0 (tanh is -1 there, and 1/(1 + ∞) = 0).  So the two spellings are one function
  on all of [-∞, +∞], and no finiteness is needed to pass from one to the other.
-/
import Idealize.ShloMosaic.PureOps.Ideal

noncomputable section

namespace Cert.LogisticTanh

open Idealize.ShloMosaic

/-- The single-precision pattern of 0.5 denotes the real 1/2. -/
theorem ofBits_half : Ideal.ofBits .f32 0x3F000000#32 = ((1 / 2 : ℝ) : EReal) := by
  simp [Ideal.ofBits, Ideal.ieee, -EReal.coe_mul]; norm_num

/-- The single-precision pattern of 1.0 denotes 1. -/
theorem ofBits_one : Ideal.ofBits .f32 0x3F800000#32 = 1 := by
  simp [Ideal.ofBits, Ideal.ieee, -EReal.coe_mul]; norm_num

/-- On the reals: half of one plus the tangent of half the argument is the logistic function. -/
theorem real_half_tanh (r : ℝ) : (1 / 2 : ℝ) * (1 + Real.tanh (1 / 2 * r)) = (1 + Real.exp (-r))⁻¹ := by
  have ha : 0 < Real.exp (1 / 2 * r) := Real.exp_pos _
  have hneg : Real.exp (-(1 / 2 * r)) = (Real.exp (1 / 2 * r))⁻¹ := Real.exp_neg _
  have hr : Real.exp (-r) = (Real.exp (1 / 2 * r))⁻¹ * (Real.exp (1 / 2 * r))⁻¹ := by
    rw [← hneg, ← Real.exp_add]; congr 1; ring
  rw [Real.tanh_eq_sinh_div_cosh, Real.sinh_eq, Real.cosh_eq, hneg, hr]
  generalize Real.exp (1 / 2 * r) = a at ha
  have h0 : a ≠ 0 := ha.ne'
  have h1 : a + a⁻¹ ≠ 0 := by positivity
  have h2 : 1 + a⁻¹ * a⁻¹ ≠ 0 := by positivity
  field_simp
  ring

/-- On the extended reals, infinities included. -/
theorem half_tanh_eq_logistic (z : EReal) :
    ((1 / 2 : ℝ) : EReal) * (1 + Ideal.tanh (((1 / 2 : ℝ) : EReal) * z)) = Ideal.logistic z := by
  induction z using EReal.rec with
  | bot =>
    rw [EReal.coe_mul_bot_of_pos (by norm_num), Ideal.tanh_bot, Ideal.logistic_bot]
    have h : (1 : EReal) + -1 = 0 := by
      rw [← EReal.coe_one, ← EReal.coe_neg, ← EReal.coe_add, add_neg_cancel, EReal.coe_zero]
    rw [h, mul_zero]
  | coe r =>
    rw [← EReal.coe_mul, Ideal.tanh_coe, Ideal.logistic_coe, ← EReal.coe_one, ← EReal.coe_add, ← EReal.coe_mul,
      real_half_tanh]
  | top =>
    rw [EReal.coe_mul_top_of_pos (by norm_num), Ideal.tanh_top, Ideal.logistic_top, ← EReal.coe_one, ← EReal.coe_add,
      ← EReal.coe_mul]
    norm_num

/-- The tangent spelling over the bit patterns a program writes the two constants with. -/
theorem half_tanh_bits (z : EReal) :
    Ideal.ofBits .f32 0x3F000000#32 * (Ideal.ofBits .f32 0x3F800000#32 + Ideal.tanh (Ideal.ofBits .f32 0x3F000000#32 * z))
      = Ideal.logistic z := by
  rw [ofBits_half, ofBits_one, half_tanh_eq_logistic]

/-- The quotient spelling `1 / (1 + e^(-z))` over the bit pattern a program writes the constant with. -/
theorem quotient_bits (z : EReal) :
    Ideal.div (Ideal.ofBits .f32 0x3F800000#32) (Ideal.ofBits .f32 0x3F800000#32 + Ideal.exp (-z)) = Ideal.logistic z := by
  rw [ofBits_one]
  rfl

end Cert.LogisticTanh

end
-- ==== Proof.Ref.Gate.lean ====
/-
  A gate of the cell: projection of the stacked diffusion terms, bias, activation.

  The projection multiplies the stacked [131072, 384] operand by the stacked weights and adds the bias.  Its sum over
  the 384 stacked columns s * 3 + m regroups into the three sums over the features s, one per diffusion term m, in the
  order ((term 0 + term 1) + term 2) + bias; a finite sum of extended reals regroups freely.  The reset-and-update
  gate applies the logistic function, spelt as one over one plus the exponential of the negation, which is the
  logistic function on all extended reals; the candidate applies the hyperbolic tangent.  Viewing the
  [131072, O] result as [32, 4096, O] reads row b * 4096 + n at (b, n).
-/
import proofs.«149401_j50302656971158_2_alg».proof.Proof.Gen.ReferenceIdeal
import proofs.«149401_j50302656971158_2_alg».proof.Proof.SpecCell
import proofs.«149401_j50302656971158_2_alg».proof.Proof.LibStack3
import proofs.«149401_j50302656971158_2_alg».proof.Proof.LibLogisticTanh
import proofs.«149401_j50302656971158_2_alg».proof.Proof.Bridge.Algebra
import proofs.«149401_j50302656971158_2_alg».proof.Proof.Ref.Stack
import Idealize.ShloMosaic.Lib.Pipeline.Value
import Idealize.ShloMosaic.Lib.ValueIdx
import Idealize.ShloMosaic.PureOps.Ideal.Laws
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx
open Cert.Spec (Mat Ten)

/-- The pre-activation of a gate at batch entry p, node n and unit o: the three terms' projections summed term by term,
    plus the bias. -/
def pre {O : Nat} (x0 x1 x2 : Mat 4096 4096) (W : Mat 384 O) (b : (⟨1, ![O]⟩ : Shape).Idx → EReal)
    (p : Fin 32) (n : Fin 4096) (o : Fin O) : EReal :=
  (((∑ s : Fin 128, x0 (ix2 n (Cert.Spec.col s p)) * Cert.Spec.wsl 0 W (ix2 s o))
    + ∑ s : Fin 128, x1 (ix2 n (Cert.Spec.col s p)) * Cert.Spec.wsl 1 W (ix2 s o))
    + ∑ s : Fin 128, x2 (ix2 n (Cert.Spec.col s p)) * Cert.Spec.wsl 2 W (ix2 s o))
    + Cert.Spec.brow b (ix2 0 o)

/-- A gate is its activation of the pre-activation. -/
theorem proj_apply (act : EReal → EReal) {O : Nat} (x0 x1 x2 : Mat 4096 4096) (W : Mat 384 O) (b : (⟨1, ![O]⟩ : Shape).Idx → EReal)
    (i : (⟨3, ![32, 4096, O]⟩ : Shape).Idx) :
    Cert.Spec.proj act x0 x1 x2 (Cert.Spec.wsl 0 W) (Cert.Spec.wsl 1 W) (Cert.Spec.wsl 2 W) (Cert.Spec.brow b) i
      = act (pre x0 x1 x2 W b (i 0) (i 1) (i 2)) := rfl

/-- The operand indices of the [131072, 384] x [384, 128] product at result index i and contraction index q:
    (i 0, q) and (q, i 1). -/
theorem dotW128_lhs0 (i : S131072x128.Idx) (q : dot_S131072x384_S384x128_S131072x128_1_0_0_1_n_n.contr.Idx) :
    (dot_S131072x384_S384x128_S131072x128_1_0_0_1_n_n.lhsIdx i q 0).val = (i 0).val := by
  unfold DotDims.lhsIdx
  rw [dif_neg (show ¬(0 : Fin S131072x384.rank) ∈ dot_S131072x384_S384x128_S131072x128_1_0_0_1_n_n.lhsBatch by decide),
    dif_pos (show (0 : Fin S131072x384.rank) ∈ dot_S131072x384_S384x128_S131072x128_1_0_0_1_n_n.lhsNonContracting by decide)]
  rfl
theorem dotW128_lhs1 (i : S131072x128.Idx) (q : dot_S131072x384_S384x128_S131072x128_1_0_0_1_n_n.contr.Idx) :
    (dot_S131072x384_S384x128_S131072x128_1_0_0_1_n_n.lhsIdx i q 1).val = (q ⟨0, by decide⟩).val :=
  dot_S131072x384_S384x128_S131072x128_1_0_0_1_n_n.lhsIdx_val_of_single rfl i q
theorem dotW128_rhs0 (i : S131072x128.Idx) (q : dot_S131072x384_S384x128_S131072x128_1_0_0_1_n_n.contr.Idx) :
    (dot_S131072x384_S384x128_S131072x128_1_0_0_1_n_n.rhsIdx i q 0).val = (q ⟨0, by decide⟩).val :=
  dot_S131072x384_S384x128_S131072x128_1_0_0_1_n_n.rhsIdx_val_of_single rfl i q
theorem dotW128_rhs1 (i : S131072x128.Idx) (q : dot_S131072x384_S384x128_S131072x128_1_0_0_1_n_n.contr.Idx) :
    (dot_S131072x384_S384x128_S131072x128_1_0_0_1_n_n.rhsIdx i q 1).val = (i 1).val := by
  unfold DotDims.rhsIdx
  rw [dif_neg (show ¬(1 : Fin S384x128.rank) ∈ dot_S131072x384_S384x128_S131072x128_1_0_0_1_n_n.rhsBatch by decide),
    dif_pos (show (1 : Fin S384x128.rank) ∈ dot_S131072x384_S384x128_S131072x128_1_0_0_1_n_n.rhsNonContracting by decide)]
  rfl

/-- The projection's product at row r and unit o: the sum over the 384 stacked columns. -/
theorem dotW128_apply (X : Mat 131072 384) (W : Mat 384 128) (r : Fin 131072) (o : Fin 128) :
    Host.dotGeneral (F := Ideal) (φ₁ := .f32) (φ₂ := .f32) dot_S131072x384_S384x128_S131072x128_1_0_0_1_n_n none X W (ix2 r o)
      = ∑ k : Fin 384, X (ix2 r k) * W (ix2 k o) := by
  simp only [Host.dotGeneral]
  rw [Ideal.dotGeneral_apply, ← Equiv.sum_comp (ValueIdx.contrEquiv1 dot_S131072x384_S384x128_S131072x128_1_0_0_1_n_n 384 rfl rfl).symm]
  refine Finset.sum_congr rfl fun k _ => ?_
  have hk := ValueIdx.contrEquiv1_symm_val dot_S131072x384_S384x128_S131072x128_1_0_0_1_n_n 384 rfl rfl k
  have el : dot_S131072x384_S384x128_S131072x128_1_0_0_1_n_n.lhsIdx (ix2 r o)
      ((ValueIdx.contrEquiv1 dot_S131072x384_S384x128_S131072x128_1_0_0_1_n_n 384 rfl rfl).symm k) = ix2 r k :=
    funext fun c => Fin.ext (by
      match c with
      | ⟨0, _⟩ => exact dotW128_lhs0 _ _
      | ⟨1, _⟩ => exact (dotW128_lhs1 _ _).trans hk)
  have er : dot_S131072x384_S384x128_S131072x128_1_0_0_1_n_n.rhsIdx (ix2 r o)
      ((ValueIdx.contrEquiv1 dot_S131072x384_S384x128_S131072x128_1_0_0_1_n_n 384 rfl rfl).symm k) = ix2 k o :=
    funext fun c => Fin.ext (by
      match c with
      | ⟨0, _⟩ => exact (dotW128_rhs0 _ _).trans hk
      | ⟨1, _⟩ => exact dotW128_rhs1 _ _)
  rw [el, er]

/-- The bias vector as a row, repeated down the 131072 rows, read at row r and unit o. -/
theorem bias128_apply (b : S128.Idx → EReal) (r : Fin 131072) (o : Fin 128) :
    broadcastInDim S131072x128 ![0, 1] bcast_S1x128_S131072x128_0_1 (broadcastInDim S1x128 ![1] bcast_S128_S1x128_1 b) (ix2 r o)
      = b (ix1 o) := by
  rw [broadcastInDim_apply ![0, 1] bcast_S1x128_S131072x128_0_1 _ (ix2 r o) (ix2 (0 : Fin 1) o) (fun a => match a with
    | ⟨0, _⟩ => rfl
    | ⟨1, _⟩ => rfl)]
  exact Cert.Stack3.row_apply b bcast_S128_S1x128_1 0 o

/-- The pre-activation of a gate with 128 units at batch entry p, node n and unit o: the product of the stacked operand
    with the stacked weights plus the bias is the three terms' projections summed term by term, plus the bias. -/
theorem pre128_apply (x0 x1 x2 : Mat 4096 4096) (W : Mat 384 128) (b : S128.Idx → EReal) (p : Fin 32) (n : Fin 4096) (o : Fin 128) :
    addf (F := Ideal) (Host.dotGeneral (F := Ideal) (φ₁ := .f32) (φ₂ := .f32) dot_S131072x384_S384x128_S131072x128_1_0_0_1_n_n none (stk x0 x1 x2) W)
      (broadcastInDim S131072x128 ![0, 1] bcast_S1x128_S131072x128_0_1 (broadcastInDim S1x128 ![1] bcast_S128_S1x128_1 b))
      (ix2 (rowBN p n) o) = pre x0 x1 x2 W b p n o := by
  show Host.dotGeneral (F := Ideal) (φ₁ := .f32) (φ₂ := .f32) dot_S131072x384_S384x128_S131072x128_1_0_0_1_n_n none (stk x0 x1 x2) W (ix2 (rowBN p n) o)
    + broadcastInDim S131072x128 ![0, 1] bcast_S1x128_S131072x128_0_1 (broadcastInDim S1x128 ![1] bcast_S128_S1x128_1 b) (ix2 (rowBN p n) o) = _
  rw [dotW128_apply, bias128_apply, Cert.Spec.sum_stacked]
  simp only [stk_at]
  rfl

/-- The operand indices of the [131072, 384] x [384, 64] product at result index i and contraction index q:
    (i 0, q) and (q, i 1). -/
theorem dotW64_lhs0 (i : S131072x64.Idx) (q : dot_S131072x384_S384x64_S131072x64_1_0_0_1_n_n.contr.Idx) :
    (dot_S131072x384_S384x64_S131072x64_1_0_0_1_n_n.lhsIdx i q 0).val = (i 0).val := by
  unfold DotDims.lhsIdx
  rw [dif_neg (show ¬(0 : Fin S131072x384.rank) ∈ dot_S131072x384_S384x64_S131072x64_1_0_0_1_n_n.lhsBatch by decide),
    dif_pos (show (0 : Fin S131072x384.rank) ∈ dot_S131072x384_S384x64_S131072x64_1_0_0_1_n_n.lhsNonContracting by decide)]
  rfl
theorem dotW64_lhs1 (i : S131072x64.Idx) (q : dot_S131072x384_S384x64_S131072x64_1_0_0_1_n_n.contr.Idx) :
    (dot_S131072x384_S384x64_S131072x64_1_0_0_1_n_n.lhsIdx i q 1).val = (q ⟨0, by decide⟩).val :=
  dot_S131072x384_S384x64_S131072x64_1_0_0_1_n_n.lhsIdx_val_of_single rfl i q
theorem dotW64_rhs0 (i : S131072x64.Idx) (q : dot_S131072x384_S384x64_S131072x64_1_0_0_1_n_n.contr.Idx) :
    (dot_S131072x384_S384x64_S131072x64_1_0_0_1_n_n.rhsIdx i q 0).val = (q ⟨0, by decide⟩).val :=
  dot_S131072x384_S384x64_S131072x64_1_0_0_1_n_n.rhsIdx_val_of_single rfl i q
theorem dotW64_rhs1 (i : S131072x64.Idx) (q : dot_S131072x384_S384x64_S131072x64_1_0_0_1_n_n.contr.Idx) :
    (dot_S131072x384_S384x64_S131072x64_1_0_0_1_n_n.rhsIdx i q 1).val = (i 1).val := by
  unfold DotDims.rhsIdx
  rw [dif_neg (show ¬(1 : Fin S384x64.rank) ∈ dot_S131072x384_S384x64_S131072x64_1_0_0_1_n_n.rhsBatch by decide),
    dif_pos (show (1 : Fin S384x64.rank) ∈ dot_S131072x384_S384x64_S131072x64_1_0_0_1_n_n.rhsNonContracting by decide)]
  rfl

/-- The projection's product at row r and unit o: the sum over the 384 stacked columns. -/
theorem dotW64_apply (X : Mat 131072 384) (W : Mat 384 64) (r : Fin 131072) (o : Fin 64) :
    Host.dotGeneral (F := Ideal) (φ₁ := .f32) (φ₂ := .f32) dot_S131072x384_S384x64_S131072x64_1_0_0_1_n_n none X W (ix2 r o)
      = ∑ k : Fin 384, X (ix2 r k) * W (ix2 k o) := by
  simp only [Host.dotGeneral]
  rw [Ideal.dotGeneral_apply, ← Equiv.sum_comp (ValueIdx.contrEquiv1 dot_S131072x384_S384x64_S131072x64_1_0_0_1_n_n 384 rfl rfl).symm]
  refine Finset.sum_congr rfl fun k _ => ?_
  have hk := ValueIdx.contrEquiv1_symm_val dot_S131072x384_S384x64_S131072x64_1_0_0_1_n_n 384 rfl rfl k
  have el : dot_S131072x384_S384x64_S131072x64_1_0_0_1_n_n.lhsIdx (ix2 r o)
      ((ValueIdx.contrEquiv1 dot_S131072x384_S384x64_S131072x64_1_0_0_1_n_n 384 rfl rfl).symm k) = ix2 r k :=
    funext fun c => Fin.ext (by
      match c with
      | ⟨0, _⟩ => exact dotW64_lhs0 _ _
      | ⟨1, _⟩ => exact (dotW64_lhs1 _ _).trans hk)
  have er : dot_S131072x384_S384x64_S131072x64_1_0_0_1_n_n.rhsIdx (ix2 r o)
      ((ValueIdx.contrEquiv1 dot_S131072x384_S384x64_S131072x64_1_0_0_1_n_n 384 rfl rfl).symm k) = ix2 k o :=
    funext fun c => Fin.ext (by
      match c with
      | ⟨0, _⟩ => exact (dotW64_rhs0 _ _).trans hk
      | ⟨1, _⟩ => exact dotW64_rhs1 _ _)
  rw [el, er]

/-- The bias vector as a row, repeated down the 131072 rows, read at row r and unit o. -/
theorem bias64_apply (b : S64.Idx → EReal) (r : Fin 131072) (o : Fin 64) :
    broadcastInDim S131072x64 ![0, 1] bcast_S1x64_S131072x64_0_1 (broadcastInDim S1x64 ![1] bcast_S64_S1x64_1 b) (ix2 r o)
      = b (ix1 o) := by
  rw [broadcastInDim_apply ![0, 1] bcast_S1x64_S131072x64_0_1 _ (ix2 r o) (ix2 (0 : Fin 1) o) (fun a => match a with
    | ⟨0, _⟩ => rfl
    | ⟨1, _⟩ => rfl)]
  exact Cert.Stack3.row_apply b bcast_S64_S1x64_1 0 o

/-- The pre-activation of a gate with 64 units at batch entry p, node n and unit o: the product of the stacked operand
    with the stacked weights plus the bias is the three terms' projections summed term by term, plus the bias. -/
theorem pre64_apply (x0 x1 x2 : Mat 4096 4096) (W : Mat 384 64) (b : S64.Idx → EReal) (p : Fin 32) (n : Fin 4096) (o : Fin 64) :
    addf (F := Ideal) (Host.dotGeneral (F := Ideal) (φ₁ := .f32) (φ₂ := .f32) dot_S131072x384_S384x64_S131072x64_1_0_0_1_n_n none (stk x0 x1 x2) W)
      (broadcastInDim S131072x64 ![0, 1] bcast_S1x64_S131072x64_0_1 (broadcastInDim S1x64 ![1] bcast_S64_S1x64_1 b))
      (ix2 (rowBN p n) o) = pre x0 x1 x2 W b p n o := by
  show Host.dotGeneral (F := Ideal) (φ₁ := .f32) (φ₂ := .f32) dot_S131072x384_S384x64_S131072x64_1_0_0_1_n_n none (stk x0 x1 x2) W (ix2 (rowBN p n) o)
    + broadcastInDim S131072x64 ![0, 1] bcast_S1x64_S131072x64_0_1 (broadcastInDim S1x64 ![1] bcast_S64_S1x64_1 b) (ix2 (rowBN p n) o) = _
  rw [dotW64_apply, bias64_apply, Cert.Spec.sum_stacked]
  simp only [stk_at]
  rfl

/-- One over one plus the exponential of the negation, the ones broadcast from a scalar: the logistic function. -/
theorem sigmoid_apply (Z : Mat 131072 128) (i : S131072x128.Idx) :
    Host.divf (F := Ideal) (broadcastInDim S131072x128 ![] bcast_S_S131072x128 (constant S_ .f32 0x3F800000#32))
      (addf (broadcastInDim S131072x128 ![] bcast_S_S131072x128 (constant S_ .f32 0x3F800000#32)) (Host.exp (Host.negf Z))) i
      = Ideal.logistic (Z i) :=
  Cert.LogisticTanh.quotient_bits (Z i)

/-- The hyperbolic tangent at an index. -/
theorem tanh_apply (Z : Mat 131072 64) (i : S131072x64.Idx) : Host.tanh (F := Ideal) (φ := .f32) Z i = Ideal.tanh (Z i) := rfl

/-- The reset-and-update gate: 128 units, logistic. -/
theorem gate128_eq (x0 x1 x2 : Mat 4096 4096) (W : Mat 384 128) (b : S128.Idx → EReal) :
    shapeCast S32x4096x128 (Host.divf (F := Ideal) (broadcastInDim S131072x128 ![] bcast_S_S131072x128 (constant S_ .f32 0x3F800000#32))
      (addf (broadcastInDim S131072x128 ![] bcast_S_S131072x128 (constant S_ .f32 0x3F800000#32)) (Host.exp (Host.negf
        (addf (F := Ideal) (Host.dotGeneral (F := Ideal) (φ₁ := .f32) (φ₂ := .f32) dot_S131072x384_S384x128_S131072x128_1_0_0_1_n_n none (stk x0 x1 x2) W)
          (broadcastInDim S131072x128 ![0, 1] bcast_S1x128_S131072x128_0_1 (broadcastInDim S1x128 ![1] bcast_S128_S1x128_1 b)))))))
      shapeCasts_S131072x128_S32x4096x128
      = Cert.Spec.proj Ideal.logistic x0 x1 x2 (Cert.Spec.wsl 0 W) (Cert.Spec.wsl 1 W) (Cert.Spec.wsl 2 W) (Cert.Spec.brow b) := by
  funext i
  have h0 : (i 0).val < 32 := (i 0).isLt
  have h1 : (i 1).val < 4096 := (i 1).isLt
  have h2 : (i 2).val < 128 := (i 2).isLt
  rw [shapeCast_apply _ shapeCasts_S131072x128_S32x4096x128 i (ix2 (rowBN (i 0) (i 1)) (i 2)) (by
    rw [Shape.rowMajor_val_two, Shape.rowMajor_val_three]
    show ((i 0).val * 4096 + (i 1).val) * 128 + (i 2).val = ((i 0).val * 4096 + (i 1).val) * 128 + (i 2).val
    rfl)]
  rw [sigmoid_apply]
  exact congrArg Ideal.logistic (pre128_apply x0 x1 x2 W b (i 0) (i 1) (i 2))

/-- The candidate: 64 units, hyperbolic tangent. -/
theorem gate64_eq (x0 x1 x2 : Mat 4096 4096) (W : Mat 384 64) (b : S64.Idx → EReal) :
    shapeCast S32x4096x64 (Host.tanh (F := Ideal) (φ := .f32)
        (addf (F := Ideal) (Host.dotGeneral (F := Ideal) (φ₁ := .f32) (φ₂ := .f32) dot_S131072x384_S384x64_S131072x64_1_0_0_1_n_n none (stk x0 x1 x2) W)
          (broadcastInDim S131072x64 ![0, 1] bcast_S1x64_S131072x64_0_1 (broadcastInDim S1x64 ![1] bcast_S64_S1x64_1 b))))
      shapeCasts_S131072x64_S32x4096x64
      = Cert.Spec.proj Ideal.tanh x0 x1 x2 (Cert.Spec.wsl 0 W) (Cert.Spec.wsl 1 W) (Cert.Spec.wsl 2 W) (Cert.Spec.brow b) := by
  funext i
  have h0 : (i 0).val < 32 := (i 0).isLt
  have h1 : (i 1).val < 4096 := (i 1).isLt
  have h2 : (i 2).val < 64 := (i 2).isLt
  rw [shapeCast_apply _ shapeCasts_S131072x64_S32x4096x64 i (ix2 (rowBN (i 0) (i 1)) (i 2)) (by
    rw [Shape.rowMajor_val_two, Shape.rowMajor_val_three]
    show ((i 0).val * 4096 + (i 1).val) * 64 + (i 2).val = ((i 0).val * 4096 + (i 1).val) * 64 + (i 2).val
    rfl)]
  rw [tanh_apply]
  exact congrArg Ideal.tanh (pre64_apply x0 x1 x2 W b (i 0) (i 1) (i 2))

end Cert.ReferenceIdeal.RefValue

end
-- ==== Proof.Ref.Term.lean ====
/-
  The reference's result as one function of its seven argument arrays, and that function is the cell.

  The reference's term is written once, its shared stages by name: the node-major layout of two feature blocks, the
  product with the support, the stacked operand of a projection (the layout, its diffusion, the second Chebyshev term),
  the reset-and-update gate and the candidate.  The gate's 128 units split into the reset gate (units below 64,
  multiplied into the state) and the update gate (units from 64 on); the new state is  u * h + (1 - u) * c  and is
  stored back as [32, 262144].  Stage by stage each of these is the cell's function of the same operands.
-/
import proofs.«149401_j50302656971158_2_alg».proof.Proof.Gen.ReferenceIdeal
import proofs.«149401_j50302656971158_2_alg».proof.Proof.SpecCell
import proofs.«149401_j50302656971158_2_alg».proof.Proof.Ref.Ops
import proofs.«149401_j50302656971158_2_alg».proof.Proof.Ref.Stack
import proofs.«149401_j50302656971158_2_alg».proof.Proof.Ref.Gate

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx
open Cert.Spec (Mat Ten)

/-- The reset gate's units, cut out and multiplied into the state. -/
theorem gateR_eq (ru : Ten 32 4096 128) (h : Ten 32 4096 64) :
    mulf (F := Ideal) (φ := .f32) (extractStridedSlice S32x4096x64 ![0, 0, 0] ru slices_S32x4096x128_S32x4096x64_0_0_0) h = Cert.Spec.gateR ru h := by
  funext i
  show extractStridedSlice S32x4096x64 ![0, 0, 0] ru slices_S32x4096x128_S32x4096x64_0_0_0 i * h i = _
  rw [extractStridedSlice_apply ![0, 0, 0] ru slices_S32x4096x128_S32x4096x64_0_0_0 i (ix3 (i 0) (i 1) (Cert.Spec.lo (i 2))) (fun a => match a with
    | ⟨0, _⟩ => by show (i 0).val = 0 + (i 0).val; omega
    | ⟨1, _⟩ => by show (i 1).val = 0 + (i 1).val; omega
    | ⟨2, _⟩ => by show (i 2).val = 0 + (i 2).val; omega)]
  rfl

/-- The update gate's units, cut out. -/
theorem gateU_eq (ru : Ten 32 4096 128) :
    extractStridedSlice S32x4096x64 ![0, 0, 64] ru slices_S32x4096x128_S32x4096x64_0_0_64 = Cert.Spec.gateU ru := by
  funext i
  exact extractStridedSlice_apply ![0, 0, 64] ru slices_S32x4096x128_S32x4096x64_0_0_64 i (ix3 (i 0) (i 1) (Cert.Spec.hi (i 2))) (fun a => match a with
    | ⟨0, _⟩ => by show (i 0).val = 0 + (i 0).val; omega
    | ⟨1, _⟩ => by show (i 1).val = 0 + (i 1).val; omega
    | ⟨2, _⟩ => by show 64 + (i 2).val = 64 + (i 2).val; rfl)

/-- The new state  u * h + (1 - u) * c, the literal 1 broadcast from a scalar. -/
theorem blend_eq (u h c : Ten 32 4096 64) :
    addf (F := Ideal) (φ := .f32) (mulf u h) (mulf (subf (broadcastInDim S32x4096x64 ![] bcast_S_S32x4096x64 (constant S_ .f32 0x3F800000#32)) u) c)
      = Cert.Spec.blend u h c := rfl

/-- [32, 4096, 64] viewed as [32, 262144]: column j holds node j / 64, feature j % 64. -/
theorem unrs3_eq (y : Ten 32 4096 64) :
    shapeCast S32x262144 y shapeCasts_S32x4096x64_S32x262144 = Cert.Spec.unrs3 y := by
  funext i
  have h0 : (i 0).val < 32 := (i 0).isLt
  have h1 : (i 1).val < 262144 := (i 1).isLt
  refine shapeCast_apply y shapeCasts_S32x4096x64_S32x262144 i (ix3 (i 0) (Cert.Spec.flatN (i 1)) (Cert.Spec.flatD (i 1))) ?_
  rw [Shape.rowMajor_val_three, Shape.rowMajor_val_two]
  show ((i 0).val * 4096 + (i 1).val / 64) * 64 + (i 1).val % 64 = (i 0).val * 262144 + (i 1).val
  omega

/-- The literal 2 broadcast over a matrix, times a product, less a matrix: the second Chebyshev term. -/
theorem cheb_mm (A X C : Mat 4096 4096) :
    subf (F := Ideal) (φ := .f32) (mulf (broadcastInDim S4096x4096 ![] bcast_S_S4096x4096 (constant S_ .f32 0x40000000#32)) (Cert.Spec.mm A X)) C
      = Cert.Spec.cheb A X C := rfl

/-- The reference's node-major layout of two feature blocks. -/
def rLay (a b : Ten 32 4096 64) : Mat 4096 4096 :=
  shapeCast S4096x4096 (transpose S4096x128x32 [1, 2, 0]
    (concatenate S32x4096x128 2 [⟨S32x4096x64, a⟩, ⟨S32x4096x64, b⟩] concatenates_S32x4096x64_S32x4096x64_S32x4096x128_d2)
    transposes_S32x4096x128_S4096x128x32_1_2_0) shapeCasts_S4096x128x32_S4096x4096

/-- The reference's product with the support. -/
def rMM (A X : Mat 4096 4096) : Mat 4096 4096 :=
  Host.dotGeneral (F := Ideal) (φ₁ := .f32) (φ₂ := .f32) dot_S4096x4096_S4096x4096_S4096x4096_1_0_0_1_n_n none A X

/-- The reference's stacked operand of a projection: the layout, its diffusion and the second Chebyshev term. -/
def rStk (A X : Mat 4096 4096) : Mat 131072 384 :=
  shapeCast S131072x384 (transpose S32x4096x128x3 [3, 1, 2, 0] (shapeCast S3x4096x128x32
    (concatenate S3x4096x4096 0 [⟨S1x4096x4096, broadcastInDim S1x4096x4096 ![1, 2] bcast_S4096x4096_S1x4096x4096_1_2 X⟩,
      ⟨S1x4096x4096, broadcastInDim S1x4096x4096 ![1, 2] bcast_S4096x4096_S1x4096x4096_1_2 (rMM A X)⟩,
      ⟨S1x4096x4096, broadcastInDim S1x4096x4096 ![1, 2] bcast_S4096x4096_S1x4096x4096_1_2
        (subf (F := Ideal) (φ := .f32) (mulf (broadcastInDim S4096x4096 ![] bcast_S_S4096x4096 (constant S_ .f32 0x40000000#32)) (rMM A (rMM A X))) X)⟩]
      concatenates_S1x4096x4096_S1x4096x4096_S1x4096x4096_S3x4096x4096_d0)
    shapeCasts_S3x4096x4096_S3x4096x128x32) transposes_S3x4096x128x32_S32x4096x128x3_3_1_2_0)
    shapeCasts_S32x4096x128x3_S131072x384

/-- The reference's reset-and-update gate. -/
def rRU (A X : Mat 4096 4096) (W : Mat 384 128) (b : S128.Idx → EReal) : Ten 32 4096 128 :=
  shapeCast S32x4096x128 (Host.divf (F := Ideal) (broadcastInDim S131072x128 ![] bcast_S_S131072x128 (constant S_ .f32 0x3F800000#32))
    (addf (broadcastInDim S131072x128 ![] bcast_S_S131072x128 (constant S_ .f32 0x3F800000#32)) (Host.exp (Host.negf
      (addf (F := Ideal) (Host.dotGeneral (F := Ideal) (φ₁ := .f32) (φ₂ := .f32) dot_S131072x384_S384x128_S131072x128_1_0_0_1_n_n none (rStk A X) W)
        (broadcastInDim S131072x128 ![0, 1] bcast_S1x128_S131072x128_0_1 (broadcastInDim S1x128 ![1] bcast_S128_S1x128_1 b)))))))
    shapeCasts_S131072x128_S32x4096x128

/-- The reference's candidate. -/
def rC (A X : Mat 4096 4096) (W : Mat 384 64) (b : S64.Idx → EReal) : Ten 32 4096 64 :=
  shapeCast S32x4096x64 (Host.tanh (F := Ideal) (φ := .f32)
    (addf (F := Ideal) (Host.dotGeneral (F := Ideal) (φ₁ := .f32) (φ₂ := .f32) dot_S131072x384_S384x64_S131072x64_1_0_0_1_n_n none (rStk A X) W)
      (broadcastInDim S131072x64 ![0, 1] bcast_S1x64_S131072x64_0_1 (broadcastInDim S1x64 ![1] bcast_S64_S1x64_1 b))))
    shapeCasts_S131072x64_S32x4096x64

/-- The reference's result as a function of its seven argument arrays, its shared stages by name. -/
def refTerm (a0 a1 : Mat 32 262144) (a2 : Mat 4096 4096) (a3 : Mat 384 128) (a4 : S128.Idx → EReal) (a5 : Mat 384 64) (a6 : S64.Idx → EReal) :
    Mat 32 262144 :=
  shapeCast S32x262144
    (addf (F := Ideal) (φ := .f32)
      (mulf (extractStridedSlice S32x4096x64 ![0, 0, 64]
          (rRU a2 (rLay (shapeCast S32x4096x64 a0 shapeCasts_S32x262144_S32x4096x64) (shapeCast S32x4096x64 a1 shapeCasts_S32x262144_S32x4096x64)) a3 a4)
          slices_S32x4096x128_S32x4096x64_0_0_64)
        (shapeCast S32x4096x64 a1 shapeCasts_S32x262144_S32x4096x64))
      (mulf (subf (broadcastInDim S32x4096x64 ![] bcast_S_S32x4096x64 (constant S_ .f32 0x3F800000#32))
          (extractStridedSlice S32x4096x64 ![0, 0, 64]
            (rRU a2 (rLay (shapeCast S32x4096x64 a0 shapeCasts_S32x262144_S32x4096x64) (shapeCast S32x4096x64 a1 shapeCasts_S32x262144_S32x4096x64)) a3 a4)
            slices_S32x4096x128_S32x4096x64_0_0_64))
        (rC a2 (rLay (shapeCast S32x4096x64 a0 shapeCasts_S32x262144_S32x4096x64)
          (mulf (F := Ideal) (φ := .f32) (extractStridedSlice S32x4096x64 ![0, 0, 0]
              (rRU a2 (rLay (shapeCast S32x4096x64 a0 shapeCasts_S32x262144_S32x4096x64) (shapeCast S32x4096x64 a1 shapeCasts_S32x262144_S32x4096x64)) a3 a4)
              slices_S32x4096x128_S32x4096x64_0_0_0)
            (shapeCast S32x4096x64 a1 shapeCasts_S32x262144_S32x4096x64))) a5 a6)))
    shapeCasts_S32x4096x64_S32x262144

theorem rLay_eq (a b : Ten 32 4096 64) : rLay a b = Cert.Spec.lay a b := lay_eq a b

theorem rMM_eq (A X : Mat 4096 4096) : rMM A X = Cert.Spec.mm A X := mm_eq A X

theorem rStk_eq (A X : Mat 4096 4096) :
    rStk A X = stk X (Cert.Spec.mm A X) (Cert.Spec.cheb A (Cert.Spec.mm A X) X) := by
  unfold rStk
  rw [rMM_eq A X, rMM_eq A (Cert.Spec.mm A X), cheb_mm]
  exact stack_eq _ _ _

theorem rRU_eq (A X : Mat 4096 4096) (W : Mat 384 128) (b : S128.Idx → EReal) :
    rRU A X W b = Cert.Spec.gate Ideal.logistic A X W b := by
  unfold rRU
  rw [rStk_eq]
  exact gate128_eq _ _ _ _ _

theorem rC_eq (A X : Mat 4096 4096) (W : Mat 384 64) (b : S64.Idx → EReal) :
    rC A X W b = Cert.Spec.gate Ideal.tanh A X W b := by
  unfold rC
  rw [rStk_eq]
  exact gate64_eq _ _ _ _ _

/-- The reference's result, as a function of its seven argument arrays, is the cell. -/
theorem refTerm_is_cell (a0 a1 : Mat 32 262144) (a2 : Mat 4096 4096) (a3 : Mat 384 128) (a4 : S128.Idx → EReal) (a5 : Mat 384 64)
    (a6 : S64.Idx → EReal) : refTerm a0 a1 a2 a3 a4 a5 a6 = Cert.Spec.cell a0 a1 a2 a3 a4 a5 a6 := by
  unfold refTerm
  rw [rs3_eq a0, rs3_eq a1, rLay_eq (Cert.Spec.rs3 a0) (Cert.Spec.rs3 a1), rRU_eq, gateU_eq, gateR_eq, rLay_eq, rC_eq, blend_eq]
  exact unrs3_eq _

end Cert.ReferenceIdeal.RefValue

end
-- ==== Proof.Ref.RunHand.lean ====
/-
  The reference program run, and its result as the cell.

  The reference is a straight line of 63 operations on arrays.  From any memory with zero counters every weakly fair
  execution of it terminates, and each buffer then holds what the line, folded over the launch contents, leaves in it.
  Two facts turn that fold into the statement used downstream.  A buffer that no operation of the line writes holds what
  it held at launch: the seven arguments are such buffers.  And the result buffer holds the cell of the seven arguments:
  walking the line once from the result back to the arguments composes the operations into one function of the
  arguments, which is the reference's term stage by stage and hence the cell.
-/
import proofs.«149401_j50302656971158_2_alg».proof.Proof.Gen.ReferenceIdeal
import Idealize.ShloMosaic.Lib.StableHlo.Run
import proofs.«149401_j50302656971158_2_alg».proof.Proof.LibLineEval
import proofs.«149401_j50302656971158_2_alg».proof.Proof.SpecCell
import proofs.«149401_j50302656971158_2_alg».proof.Proof.Ref.Term

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 63 operations, in order. -/
abbrev ops : List (HloOp τ sig (Elt F)) :=
  [ reshape main_arg0 main_v0 rfl shapeCasts_S32x262144_S32x4096x64,
    reshape main_arg1 main_v1 rfl shapeCasts_S32x262144_S32x4096x64,
    binary main_v0 main_v1 main_v2 ((fun a b => concatenate S32x4096x128 2 [⟨S32x4096x64, a⟩, ⟨S32x4096x64, b⟩] concatenates_S32x4096x64_S32x4096x64_S32x4096x128_d2) : (⟨S32x4096x64, .f32⟩ : BufTy).Contents (Elt F) → (⟨S32x4096x64, .f32⟩ : BufTy).Contents (Elt F) → (⟨S32x4096x128, .f32⟩ : BufTy).Contents (Elt F)),
    unary main_v2 main_v3 ((transpose S4096x128x32 [1, 2, 0] · transposes_S32x4096x128_S4096x128x32_1_2_0) : (⟨S32x4096x128, .f32⟩ : BufTy).Contents (Elt F) → (⟨S4096x128x32, .f32⟩ : BufTy).Contents (Elt F)),
    reshape main_v3 main_v4 rfl shapeCasts_S4096x128x32_S4096x4096,
    binary main_arg2 main_v4 main_v5 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_arg2 main_v5 main_v6 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst (constant S_ .f32 0x40000000#32),
    unary main_cst main_v7 (broadcastInDim S4096x4096 ![] bcast_S_S4096x4096 : (⟨S_, .f32⟩ : BufTy).Contents (Elt F) → (⟨S4096x4096, .f32⟩ : BufTy).Contents (Elt F)),
    binary main_v7 main_v6 main_v8 (mulf : (⟨S4096x4096, .f32⟩ : BufTy).Contents (Elt F) → (⟨S4096x4096, .f32⟩ : BufTy).Contents (Elt F) → (⟨S4096x4096, .f32⟩ : BufTy).Contents (Elt F)),
    binary main_v8 main_v4 main_v9 (subf : (⟨S4096x4096, .f32⟩ : BufTy).Contents (Elt F) → (⟨S4096x4096, .f32⟩ : BufTy).Contents (Elt F) → (⟨S4096x4096, .f32⟩ : BufTy).Contents (Elt F)),
    unary main_v4 main_v10 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v5 main_v11 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v9 main_v12 (broadcastInDim S1x4096x4096 ![1, 2] bcast_S4096x4096_S1x4096x4096_1_2 : (⟨S4096x4096, .f32⟩ : BufTy).Contents (Elt F) → (⟨S1x4096x4096, .f32⟩ : BufTy).Contents (Elt F)),
    nary ![main_v10, main_v11, main_v12] main_v13 (fun u => concatenate S3x4096x4096 0 [⟨S1x4096x4096, u 0⟩, ⟨S1x4096x4096, u 1⟩, ⟨S1x4096x4096, u 2⟩] concatenates_S1x4096x4096_S1x4096x4096_S1x4096x4096_S3x4096x4096_d0),
    reshape main_v13 main_v14 rfl shapeCasts_S3x4096x4096_S3x4096x128x32,
    unary main_v14 main_v15 ((transpose S32x4096x128x3 [3, 1, 2, 0] · transposes_S3x4096x128x32_S32x4096x128x3_3_1_2_0) : (⟨S3x4096x128x32, .f32⟩ : BufTy).Contents (Elt F) → (⟨S32x4096x128x3, .f32⟩ : BufTy).Contents (Elt F)),
    reshape main_v15 main_v16 rfl shapeCasts_S32x4096x128x3_S131072x384,
    binary main_v16 main_arg3 main_v17 ((fun l r => Host.dotGeneral dot_S131072x384_S384x128_S131072x128_1_0_0_1_n_n none l r) : (⟨S131072x384, .f32⟩ : BufTy).Contents (Elt F) → (⟨S384x128, .f32⟩ : BufTy).Contents (Elt F) → (⟨S131072x128, .f32⟩ : BufTy).Contents (Elt F)),
    unary main_arg4 main_v18 (broadcastInDim S1x128 ![1] bcast_S128_S1x128_1 : (⟨S128, .f32⟩ : BufTy).Contents (Elt F) → (⟨S1x128, .f32⟩ : BufTy).Contents (Elt F)),
    unary main_v18 main_v19 (broadcastInDim S131072x128 ![0, 1] bcast_S1x128_S131072x128_0_1 : (⟨S1x128, .f32⟩ : BufTy).Contents (Elt F) → (⟨S131072x128, .f32⟩ : BufTy).Contents (Elt F)),
    binary main_v17 main_v19 main_v20 (addf : (⟨S131072x128, .f32⟩ : BufTy).Contents (Elt F) → (⟨S131072x128, .f32⟩ : BufTy).Contents (Elt F) → (⟨S131072x128, .f32⟩ : BufTy).Contents (Elt F)),
    unary main_v20 main_v21 (Host.negf : (⟨S131072x128, .f32⟩ : BufTy).Contents (Elt F) → (⟨S131072x128, .f32⟩ : BufTy).Contents (Elt F)),
    unary main_v21 main_v22 (Host.exp : (⟨S131072x128, .f32⟩ : BufTy).Contents (Elt F) → (⟨S131072x128, .f32⟩ : BufTy).Contents (Elt F)),
    nullary main_cst_0 (constant S_ .f32 0x3F800000#32),
    unary main_cst_0 main_v23 (broadcastInDim S131072x128 ![] bcast_S_S131072x128 : (⟨S_, .f32⟩ : BufTy).Contents (Elt F) → (⟨S131072x128, .f32⟩ : BufTy).Contents (Elt F)),
    binary main_v23 main_v22 main_v24 (addf : (⟨S131072x128, .f32⟩ : BufTy).Contents (Elt F) → (⟨S131072x128, .f32⟩ : BufTy).Contents (Elt F) → (⟨S131072x128, .f32⟩ : BufTy).Contents (Elt F)),
    nullary main_cst_1 (constant S_ .f32 0x3F800000#32),
    unary main_cst_1 main_v25 (broadcastInDim S131072x128 ![] bcast_S_S131072x128 : (⟨S_, .f32⟩ : BufTy).Contents (Elt F) → (⟨S131072x128, .f32⟩ : BufTy).Contents (Elt F)),
    binary main_v25 main_v24 main_v26 (Host.divf : (⟨S131072x128, .f32⟩ : BufTy).Contents (Elt F) → (⟨S131072x128, .f32⟩ : BufTy).Contents (Elt F) → (⟨S131072x128, .f32⟩ : BufTy).Contents (Elt F)),
    reshape main_v26 main_v27 rfl shapeCasts_S131072x128_S32x4096x128,
    unary main_v27 main_v28 ((extractStridedSlice S32x4096x64 ![0, 0, 0] · slices_S32x4096x128_S32x4096x64_0_0_0) : (⟨S32x4096x128, .f32⟩ : BufTy).Contents (Elt F) → (⟨S32x4096x64, .f32⟩ : BufTy).Contents (Elt F)),
    unary main_v27 main_v29 ((extractStridedSlice S32x4096x64 ![0, 0, 64] · slices_S32x4096x128_S32x4096x64_0_0_64) : (⟨S32x4096x128, .f32⟩ : BufTy).Contents (Elt F) → (⟨S32x4096x64, .f32⟩ : BufTy).Contents (Elt F)),
    binary main_v28 main_v1 main_v30 (mulf : (⟨S32x4096x64, .f32⟩ : BufTy).Contents (Elt F) → (⟨S32x4096x64, .f32⟩ : BufTy).Contents (Elt F) → (⟨S32x4096x64, .f32⟩ : BufTy).Contents (Elt F)),
    binary main_v0 main_v30 main_v31 ((fun a b => concatenate S32x4096x128 2 [⟨S32x4096x64, a⟩, ⟨S32x4096x64, b⟩] concatenates_S32x4096x64_S32x4096x64_S32x4096x128_d2) : (⟨S32x4096x64, .f32⟩ : BufTy).Contents (Elt F) → (⟨S32x4096x64, .f32⟩ : BufTy).Contents (Elt F) → (⟨S32x4096x128, .f32⟩ : BufTy).Contents (Elt F)),
    unary main_v31 main_v32 ((transpose S4096x128x32 [1, 2, 0] · transposes_S32x4096x128_S4096x128x32_1_2_0) : (⟨S32x4096x128, .f32⟩ : BufTy).Contents (Elt F) → (⟨S4096x128x32, .f32⟩ : BufTy).Contents (Elt F)),
    reshape main_v32 main_v33 rfl shapeCasts_S4096x128x32_S4096x4096,
    binary main_arg2 main_v33 main_v34 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_arg2 main_v34 main_v35 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0x40000000#32),
    unary main_cst_2 main_v36 (broadcastInDim S4096x4096 ![] bcast_S_S4096x4096 : (⟨S_, .f32⟩ : BufTy).Contents (Elt F) → (⟨S4096x4096, .f32⟩ : BufTy).Contents (Elt F)),
    binary main_v36 main_v35 main_v37 (mulf : (⟨S4096x4096, .f32⟩ : BufTy).Contents (Elt F) → (⟨S4096x4096, .f32⟩ : BufTy).Contents (Elt F) → (⟨S4096x4096, .f32⟩ : BufTy).Contents (Elt F)),
    binary main_v37 main_v33 main_v38 (subf : (⟨S4096x4096, .f32⟩ : BufTy).Contents (Elt F) → (⟨S4096x4096, .f32⟩ : BufTy).Contents (Elt F) → (⟨S4096x4096, .f32⟩ : BufTy).Contents (Elt F)),
    unary main_v33 main_v39 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v34 main_v40 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v38 main_v41 (broadcastInDim S1x4096x4096 ![1, 2] bcast_S4096x4096_S1x4096x4096_1_2 : (⟨S4096x4096, .f32⟩ : BufTy).Contents (Elt F) → (⟨S1x4096x4096, .f32⟩ : BufTy).Contents (Elt F)),
    nary ![main_v39, main_v40, main_v41] main_v42 (fun u => concatenate S3x4096x4096 0 [⟨S1x4096x4096, u 0⟩, ⟨S1x4096x4096, u 1⟩, ⟨S1x4096x4096, u 2⟩] concatenates_S1x4096x4096_S1x4096x4096_S1x4096x4096_S3x4096x4096_d0),
    reshape main_v42 main_v43 rfl shapeCasts_S3x4096x4096_S3x4096x128x32,
    unary main_v43 main_v44 ((transpose S32x4096x128x3 [3, 1, 2, 0] · transposes_S3x4096x128x32_S32x4096x128x3_3_1_2_0) : (⟨S3x4096x128x32, .f32⟩ : BufTy).Contents (Elt F) → (⟨S32x4096x128x3, .f32⟩ : BufTy).Contents (Elt F)),
    reshape main_v44 main_v45 rfl shapeCasts_S32x4096x128x3_S131072x384,
    binary main_v45 main_arg5 main_v46 ((fun l r => Host.dotGeneral dot_S131072x384_S384x64_S131072x64_1_0_0_1_n_n none l r) : (⟨S131072x384, .f32⟩ : BufTy).Contents (Elt F) → (⟨S384x64, .f32⟩ : BufTy).Contents (Elt F) → (⟨S131072x64, .f32⟩ : BufTy).Contents (Elt F)),
    unary main_arg6 main_v47 (broadcastInDim S1x64 ![1] bcast_S64_S1x64_1 : (⟨S64, .f32⟩ : BufTy).Contents (Elt F) → (⟨S1x64, .f32⟩ : BufTy).Contents (Elt F)),
    unary main_v47 main_v48 (broadcastInDim S131072x64 ![0, 1] bcast_S1x64_S131072x64_0_1 : (⟨S1x64, .f32⟩ : BufTy).Contents (Elt F) → (⟨S131072x64, .f32⟩ : BufTy).Contents (Elt F)),
    binary main_v46 main_v48 main_v49 (addf : (⟨S131072x64, .f32⟩ : BufTy).Contents (Elt F) → (⟨S131072x64, .f32⟩ : BufTy).Contents (Elt F) → (⟨S131072x64, .f32⟩ : BufTy).Contents (Elt F)),
    unary main_v49 main_v50 (Host.tanh : (⟨S131072x64, .f32⟩ : BufTy).Contents (Elt F) → (⟨S131072x64, .f32⟩ : BufTy).Contents (Elt F)),
    reshape main_v50 main_v51 rfl shapeCasts_S131072x64_S32x4096x64,
    binary main_v29 main_v1 main_v52 (mulf : (⟨S32x4096x64, .f32⟩ : BufTy).Contents (Elt F) → (⟨S32x4096x64, .f32⟩ : BufTy).Contents (Elt F) → (⟨S32x4096x64, .f32⟩ : BufTy).Contents (Elt F)),
    nullary main_cst_3 (constant S_ .f32 0x3F800000#32),
    unary main_cst_3 main_v53 (broadcastInDim S32x4096x64 ![] bcast_S_S32x4096x64 : (⟨S_, .f32⟩ : BufTy).Contents (Elt F) → (⟨S32x4096x64, .f32⟩ : BufTy).Contents (Elt F)),
    binary main_v53 main_v29 main_v54 (subf : (⟨S32x4096x64, .f32⟩ : BufTy).Contents (Elt F) → (⟨S32x4096x64, .f32⟩ : BufTy).Contents (Elt F) → (⟨S32x4096x64, .f32⟩ : BufTy).Contents (Elt F)),
    binary main_v54 main_v51 main_v55 (mulf : (⟨S32x4096x64, .f32⟩ : BufTy).Contents (Elt F) → (⟨S32x4096x64, .f32⟩ : BufTy).Contents (Elt F) → (⟨S32x4096x64, .f32⟩ : BufTy).Contents (Elt F)),
    binary main_v52 main_v55 main_v56 (addf : (⟨S32x4096x64, .f32⟩ : BufTy).Contents (Elt F) → (⟨S32x4096x64, .f32⟩ : BufTy).Contents (Elt F) → (⟨S32x4096x64, .f32⟩ : BufTy).Contents (Elt F)),
    reshape main_v56 main_v57 rfl shapeCasts_S32x4096x64_S32x262144 ]

set_option maxRecDepth 8192 in
set_option maxHeartbeats 4000000 in
/-- The program is the line of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., unary_bufs_sub .., unary_bufs_sub .., binary_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., unary_bufs_sub .., reshape_bufs_sub .., binary_bufs_sub .., nullary_bufs_sub .., unary_bufs_sub .., binary_bufs_sub .., binary_bufs_sub .., binary_bufs_sub .., reshape_bufs_sub ..⟩

/-! ## What the line leaves alone -/

/-- The references the line's operations write. -/
abbrev ops_W : List (Ref sig .tc) := [main_v0, main_v1, main_v2, main_v3, main_v4, main_v5, main_v6, main_cst, main_v7, main_v8, main_v9, main_v10, main_v11, main_v12, main_v13, main_v14, main_v15, main_v16, main_v17, main_v18, main_v19, main_v20, main_v21, main_v22, main_cst_0, main_v23, main_v24, main_cst_1, main_v25, main_v26, main_v27, main_v28, main_v29, main_v30, main_v31, main_v32, main_v33, main_v34, main_v35, main_cst_2, main_v36, main_v37, main_v38, main_v39, main_v40, main_v41, main_v42, main_v43, main_v44, main_v45, main_v46, main_v47, main_v48, main_v49, main_v50, main_v51, main_v52, main_cst_3, main_v53, main_v54, main_v55, main_v56, main_v57]

set_option maxRecDepth 8192 in
/-- Each operation writes its own result reference only. -/
theorem ops_writes : (ops : List (HloOp τ sig (Elt F))).Forall fun op => op.writes ⊆ (ops_W.map (Proc.devRef (τ := τ) .tc)).toFinset := by
  simp only [List.Forall]
  repeat' apply And.intro
  all_goals
    simp only [nullary_writes, unary_writes, binary_writes, ternary_writes, quaternary_writes, reshape_writes, binaryIndexed_writes,
      unaryIndexed_writes, nary_writes, Finset.singleton_subset_iff, List.mem_toFinset]
    exact List.mem_map_of_mem (by decide)

/-- A reference no operation writes holds after the line what it held before. -/
theorem after_of_not_written (W : Valuation τ sig (Elt F)) (r : Ref sig .tc) (h : r ∉ ops_W) :
    after ops W (Proc.devRef .tc r) = W (Proc.devRef .tc r) :=
  after_of_writes_sub ops W ops_writes h

/-! ## Evaluating the line at the result -/

/-- Three vectors joined along an axis, as a function of the three vectors. -/
def joined3 {α : Type} (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

/-- The join of a three-element list of pieces is that function of the pieces. -/
theorem joined3_eq {α : Type} (t : Shape) (a : Fin t.rank) (s₁ s₂ s₃ : Shape) (h : Shape.Concatenates [s₁, s₂, s₃] t a)
    (x : s₁.Idx → α) (y : s₂.Idx → α) (z : s₃.Idx → α) :
    concatenate t a [⟨s₁, x⟩, ⟨s₂, y⟩, ⟨s₃, z⟩] h = joined3 t a s₁ s₂ s₃ h x y z := rfl

/-- The walk along the line as one pass; two-piece and three-piece joins are entered, and an operand named by its
    position in a literal family of references is read at that reference. -/
macro "eval_line3" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LineEval.joined_eq, joined3_eq, Matrix.cons_val]))

set_option maxRecDepth 8192 in
/-- What the result buffer holds after the line, from any contents: the cell of what the seven argument buffers held. -/
theorem after_is_cell (W : Valuation τ sig (Elt Ideal)) :
    (after (ops (F := Ideal)) W (Proc.devRef .tc main_v57) : Cert.Spec.Mat 32 262144)
      = Cert.Spec.cell (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  eval_line3
  exact RefValue.refTerm_is_cell _ _ _ _ _ _ _

/-! ## The run -/

set_option maxRecDepth 8192 in
/-- On every device, from any memory with zero counters: every weakly fair execution of the reference terminates with
    its result at the cell of the arguments' launch contents, and the arguments unchanged. -/
theorem run_cell (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = Cert.Spec.cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v57).trans (after_is_cell _),
      (h c main_arg0).trans (after_of_not_written _ main_arg0 (by decide)),
      (h c main_arg1).trans (after_of_not_written _ main_arg1 (by decide)),
      (h c main_arg2).trans (after_of_not_written _ main_arg2 (by decide)),
      (h c main_arg3).trans (after_of_not_written _ main_arg3 (by decide)),
      (h c main_arg4).trans (after_of_not_written _ main_arg4 (by decide)),
      (h c main_arg5).trans (after_of_not_written _ main_arg5 (by decide)),
      (h c main_arg6).trans (after_of_not_written _ main_arg6 (by decide))⟩)
    (run_seq scopedRefs_eq scopedSems_eq defs main (fun _ => ops) main_eq (fun _ => ops_sub) m ρ)

end Cert.ReferenceIdeal.RefRun

end
-- ==== Proof.lean ====
/-
  The certificate of a graph-convolutional gated recurrent cell: the kernel program (eight kernel regions among three
  stretches of host operations) against the plain reference.

  Frames.  Each kernel region is a segment of @main over the contents of the unscoped buffers between items; a region's
  body is run whole at a generic grid point, in each case of its branches, and what it leaves in its output blocks (and,
  for the four matrix products accumulated over two k-tiles, in the accumulator carried from the first k-tile's point to
  the second's) is named point by point.  The same text serves the word-level program and its idealization.  The
  reference is a straight line of host operations: no operation writes an argument, and its result is the fold of
  the operations evaluated in one pass; its frame is its run with the result dropped.

  Values, over the extended reals.  Both programs compute, for inputs x, state h, support A and stacked weights W:
      x0 = layout(x, s),  x1 = A x0,  x2 = 2 (A x1) - x0,
      gate(s, W, b, act) = act(x0 W0 + x1 W1 + x2 W2 + b),
      (r, u) = gate(h, W_ru, b_ru, logistic),  c = gate(r h, W_c, b_c, tanh),  h' = u h + (1 - u) c.
  The kernel accumulates each 4096-term contraction over two tiles of 2048 from zero, the reference contracts at once;
  the kernel projects term by term with the weights of each term cut out of the stacked weights, the reference stacks
  the three terms along the contraction axis (column s * 3 + m) and contracts once over 384; the reference spells the
  logistic as 1 / (1 + exp(-z)).  The first two are regroupings of finite sums of extended reals (addition is
  commutative and associative there, zero is neutral): no finiteness of the inputs is used.  The third is an identity
  on all extended reals, infinities included.  A change of float format is the identity on the extended reals.
-/
import proofs.«149401_j50302656971158_2_alg».proof.Defs
import proofs.«149401_j50302656971158_2_alg».proof.Proof.Gen.Kernel
import proofs.«149401_j50302656971158_2_alg».proof.Proof.Gen.KernelIdeal
import proofs.«149401_j50302656971158_2_alg».proof.Proof.Gen.ReferenceIdeal
import proofs.«149401_j50302656971158_2_alg».proof.Proof.Gen.Pre_finite_inputs
import proofs.«149401_j50302656971158_2_alg».proof.Proof.FrB.Assembly
import proofs.«149401_j50302656971158_2_alg».proof.Proof.Fr.Assembly
import proofs.«149401_j50302656971158_2_alg».proof.Proof.Val.Run
import proofs.«149401_j50302656971158_2_alg».proof.Proof.Ref.RunHand

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run_cell m ρ)

/-- The idealization rewrote nothing. -/
theorem preserves : Cert.preserves_Kernel_KernelIdeal := trivial

/-- Both idealized programs end with the cell of the arguments in their result. -/
theorem algebraic : Cert.algebraic_KernelIdeal_ReferenceIdeal := by
  intro m ρ m' ρ' _ hagree
  refine ⟨fun c => Cert.Spec.cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run (Cert.KernelIdeal.defs (F := Ideal)) _ _).mono
      (fun _ h c => ⟨(h c).1.trans (Cert.KernelIdeal.Val.result_is_cell m c), (h c).2⟩)
      (Cert.KernelIdeal.Fr.run_value (F := Ideal) m ρ)
  · refine (θ_run (Cert.ReferenceIdeal.defs (F := Ideal)) _ _).mono (fun _ h c => ⟨(h c).1.trans ?_, (h c).2⟩)
      (Cert.ReferenceIdeal.RefRun.run_cell m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
